-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x32x32 : Shape := ⟨4, ![128, 64, 32, 32]⟩
abbrev S64x3x3 : Shape := ⟨3, ![64, 3, 3]⟩
abbrev S64x64 : Shape := ⟨2, ![64, 64]⟩
abbrev S64 : Shape := ⟨1, ![64]⟩
abbrev S_ : Shape := ⟨0, ![]⟩

class Facts : Prop where
  bcast_S_S128x64x32x32 : S_.BroadcastsInDim S128x64x32x32 (![] : Fin 0 → Fin S128x64x32x32.rank)
  reducesTo_S128x64x32x32_S_d0_1_2_3 : S128x64x32x32.ReducesTo [0, 1, 2, 3] S_
  h_S_ : 0 < S_.numel
  bcast_S_S64x3x3 : S_.BroadcastsInDim S64x3x3 (![] : Fin 0 → Fin S64x3x3.rank)
  reducesTo_S64x3x3_S_d0_1_2 : S64x3x3.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S128x64x32x32 .f32) (main_arg1 : FVec F S64x3x3 .f32) (main_arg2 : FVec F S64x64 .f32) (main_arg3 : FVec F S64 .f32) (main_arg4 : FVec F S64 .f32) : IVec S_ 1 :=
  let main_v0 : FVec F S128x64x32x32 .f32 := Host.absf main_arg0
  let main_cst : FVec F S_ .f32 := constant S_ .f32 0x7F800000#32
  let main_v1 : FVec F S128x64x32x32 .f32 := broadcastInDim S128x64x32x32 ![] bcast_S_S128x64x32x32 main_cst
  let main_v2 : IVec S128x64x32x32 1 := cmpf .olt main_v0 main_v1
  let main_c : IVec S_ 1 := constantI S_ 1 1#1
  let main_v3 : IVec S_ 1 := (fun x v => Host.reduce IntOp.andi x v reducesTo_S128x64x32x32_S_d0_1_2_3 h_S_) main_v2 main_c
  let main_v4 : FVec F S64x3x3 .f32 := Host.absf main_arg1
  let main_cst_0 : FVec F S_ .f32 := constant S_ .f32 0x7F800000#32
  let main_v5 : FVec F S64x3x3 .f32 := broadcastInDim S64x3x3 ![] bcast_S_S64x3x3 main_cst_0
  let main_v6 : IVec S64x3x3 1 := cmpf .olt main_v4 main_v5
  let main_c_1 : IVec S_ 1 := constantI S_ 1 1#1
  let main_v7 : IVec S_ 1 := (fun x v => Host.reduce IntOp.andi x v reducesTo_S64x3x3_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S128x64x32x32 : Shape := ⟨4, ![128, 64, 32, 32]⟩
abbrev S64x3x3 : Shape := ⟨3, ![64, 3, 3]⟩
abbrev S64x64 : Shape := ⟨2, ![64, 64]⟩
abbrev S64 : Shape := ⟨1, ![64]⟩
abbrev S1x9 : Shape := ⟨2, ![1, 9]⟩
abbrev S4x1024 : Shape := ⟨2, ![4, 1024]⟩
abbrev S64x9 : Shape := ⟨2, ![64, 9]⟩
abbrev S_ : Shape := ⟨0, ![]⟩
abbrev S64x1 : Shape := ⟨2, ![64, 1]⟩
abbrev S1x64x1x9 : Shape := ⟨4, ![1, 64, 1, 9]⟩
abbrev S16x64x1x9 : Shape := ⟨4, ![16, 64, 1, 9]⟩
abbrev S1024x9 : Shape := ⟨2, ![1024, 9]⟩
abbrev S128x64x1024 : Shape := ⟨3, ![128, 64, 1024]⟩
abbrev S8192x1024 : Shape := ⟨2, ![8192, 1024]⟩
abbrev S8x64x64 : Shape := ⟨3, ![8, 64, 64]⟩
abbrev S8x64x1 : Shape := ⟨3, ![8, 64, 1]⟩
abbrev S16x64x1024 : Shape := ⟨3, ![16, 64, 1024]⟩
abbrev S1024x1024 : Shape := ⟨2, ![1024, 1024]⟩
abbrev S1x64x64 : Shape := ⟨3, ![1, 64, 64]⟩
abbrev S1x64x1 : Shape := ⟨3, ![1, 64, 1]⟩
abbrev S1x1024 : Shape := ⟨2, ![1, 1024]⟩
abbrev S1024x1 : Shape := ⟨2, ![1024, 1]⟩
abbrev S64x1024 : Shape := ⟨2, ![64, 1024]⟩
abbrev S2048x1024 : Shape := ⟨2, ![2048, 1024]⟩
abbrev S32x64x1024 : Shape := ⟨3, ![32, 64, 1024]⟩
abbrev S1x64x1024 : Shape := ⟨3, ![1, 64, 1024]⟩

abbrev nBuf : Space → Nat
  | .hbm => 60
  | .vmem => 16
  | .smem => 0
  | _ => 0

abbrev bufTy : (tb : Table) → Fin (tcTables nBuf tb) → BufTy
  | .hbm, ⟨0, _⟩ => ⟨S128x64x32x32, .f32⟩
  | .hbm, ⟨1, _⟩ => ⟨S64x3x3, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S1x9, .f32⟩
  | .hbm, ⟨6, _⟩ => ⟨S4x1024, .f32⟩
  | .hbm, ⟨7, _⟩ => ⟨S64x9, .f32⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x9, .f32⟩
  | .hbm, ⟨15, _⟩ => ⟨S64x9, .f32⟩
  | .hbm, ⟨16, _⟩ => ⟨S64x9, .f32⟩
  | .hbm, ⟨17, _⟩ => ⟨S64x9, .f32⟩
  | .hbm, ⟨18, _⟩ => ⟨S1x64x1x9, .f32⟩
  | .hbm, ⟨19, _⟩ => ⟨S16x64x1x9, .f32⟩
  | .hbm, ⟨20, _⟩ => ⟨S1024x9, .f32⟩
  | .hbm, ⟨21, _⟩ => ⟨S128x64x1024, .f32⟩
  | .hbm, ⟨22, _⟩ => ⟨S8192x1024, .bf16⟩
  | .hbm, ⟨23, _⟩ => ⟨S8x64x64, .f32⟩
  | .hbm, ⟨24, _⟩ => ⟨S8x64x1, .f32⟩
  | .hbm, ⟨25, _⟩ => ⟨S_, .f32⟩
  | .hbm, ⟨26, _⟩ => ⟨S64x64, .f32⟩
  | .hbm, ⟨27, _⟩ => ⟨S_, .f32⟩
  | .hbm, ⟨28, _⟩ => ⟨S64x1, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x1, .f32⟩
  | .hbm, ⟨33, _⟩ => ⟨S_, .f32⟩
  | .hbm, ⟨34, _⟩ => ⟨S64x1, .f32⟩
  | .hbm, ⟨35, _⟩ => ⟨S64x1, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64, .f32⟩
  | .hbm, ⟨40, _⟩ => ⟨S64x1, .f32⟩
  | .hbm, ⟨41, _⟩ => ⟨S_, .f32⟩
  | .hbm, ⟨42, _⟩ => ⟨S64x1, .f32⟩
  | .hbm, ⟨43, _⟩ => ⟨S64x1, .f32⟩
  | .hbm, ⟨44, _⟩ => ⟨S64x1, .f32⟩
  | .hbm, ⟨45, _⟩ => ⟨S64x1, .f32⟩
  | .hbm, ⟨46, _⟩ => ⟨S64x1, .f32⟩
  | .hbm, ⟨47, _⟩ => ⟨S_, .f32⟩
  | .hbm, ⟨48, _⟩ => ⟨S64x1, .f32⟩
  | .hbm, ⟨49, _⟩ => ⟨S64x1, .f32⟩
  | .hbm, ⟨50, _⟩ => ⟨S64x1, .f32⟩
  | .hbm, ⟨51, _⟩ => ⟨S64x1, .f32⟩
  | .hbm, ⟨52, _⟩ => ⟨S64x1, .f32⟩
  | .hbm, ⟨53, _⟩ => ⟨S64x1, .f32⟩
  | .hbm, ⟨54, _⟩ => ⟨S64x1, .f32⟩
  | .hbm, ⟨55, _⟩ => ⟨S64x64, .f32⟩
  | .hbm, ⟨56, _⟩ => ⟨S64x64, .f32⟩
  | .hbm, ⟨57, _⟩ => ⟨S64x64, .bf16⟩
  | .hbm, ⟨58, _⟩ => ⟨S128x64x1024, .f32⟩
  | .hbm, ⟨59, _⟩ => ⟨S128x64x32x32, .f32⟩
  | .local _ .vmem, ⟨0, _⟩ => ⟨S16x64x1024, .f32⟩
  | .local _ .vmem, ⟨1, _⟩ => ⟨S16x64x1024, .f32⟩
  | .local _ .vmem, ⟨2, _⟩ => ⟨S1024x9, .f32⟩
  | .local _ .vmem, ⟨3, _⟩ => ⟨S4x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x64x64, .f32⟩
  | .local _ .vmem, ⟨7, _⟩ => ⟨S1x64x64, .f32⟩
  | .local _ .vmem, ⟨8, _⟩ => ⟨S1x64x1, .f32⟩
  | .local _ .vmem, ⟨9, _⟩ => ⟨S1x64x1, .f32⟩
  | .local _ .vmem, ⟨10, _⟩ => ⟨S2048x1024, .bf16⟩
  | .local _ .vmem, ⟨11, _⟩ => ⟨S2048x1024, .bf16⟩
  | .local _ .vmem, ⟨12, _⟩ => ⟨S64x64, .bf16⟩
  | .local _ .vmem, ⟨13, _⟩ => ⟨S64x1, .f32⟩
  | .local _ .vmem, ⟨14, _⟩ => ⟨S32x64x1024, .f32⟩
  | .local _ .vmem, ⟨15, _⟩ => ⟨S32x64x1024, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x3x3_S64x9 : S64x3x3.ShapeCasts S64x9
  reducesTo_S64x9_S64_d1 : S64x9.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x9_0_1 : S64x1.BroadcastsInDim S64x9 (![0, 1] : Fin 2 → Fin S64x9.rank)
  bcast_S1x9_S64x9_0_1 : S1x9.BroadcastsInDim S64x9 (![0, 1] : Fin 2 → Fin S64x9.rank)
  shapeCasts_S64x9_S1x64x1x9 : S64x9.ShapeCasts S1x64x1x9
  bcast_S1x64x1x9_S16x64x1x9_0_1_2_3 : S1x64x1x9.BroadcastsInDim S16x64x1x9 (![0, 1, 2, 3] : Fin 4 → Fin S16x64x1x9.rank)
  shapeCasts_S16x64x1x9_S1024x9 : S16x64x1x9.ShapeCasts S1024x9
  shapeCasts_S128x64x32x32_S128x64x1024 : S128x64x32x32.ShapeCasts S128x64x1024
  inb_S16x64x1024_S16x64x1024_0_0_0 : ∀ a, (![0, 0, 0] : Fin 3 → Nat) a + S16x64x1024.size a ≤ S16x64x1024.size a
  h_S16x64x1024 : 0 < S16x64x1024.numel
  shapeCasts_S16x64x1024_S16x64x1024 : S16x64x1024.ShapeCasts S16x64x1024
  shapeCasts_S16x64x1024_S1024x1024 : S16x64x1024.ShapeCasts S1024x1024
  rotates_S1024x1024_d1 : S1024x1024.Rotates 1 none
  inb_S4x1024_S1x1024_0_0 : ∀ a, (![0, 0] : Fin 2 → Nat) a + S1x1024.size a ≤ S4x1024.size a
  h_S1x1024 : 0 < S1x1024.numel
  broadcasts_S1x1024_S1024x1024 : S1x1024.Broadcasts S1024x1024
  inb_S4x1024_S1x1024_1_0 : ∀ a, (![1, 0] : Fin 2 → Nat) a + S1x1024.size a ≤ S4x1024.size a
  inb_S1024x9_S1024x1_0_0 : ∀ a, (![0, 0] : Fin 2 → Nat) a + S1024x1.size a ≤ S1024x9.size a
  h_S1024x1 : 0 < S1024x1.numel
  shapeCasts_S1024x1_S1024x1 : S1024x1.ShapeCasts S1024x1
  broadcasts_S1024x1_S1024x1024 : S1024x1.Broadcasts S1024x1024
  inb_S1024x9_S1024x1_0_1 : ∀ a, (![0, 1] : Fin 2 → Nat) a + S1024x1.size a ≤ S1024x9.size a
  inb_S1024x9_S1024x1_0_2 : ∀ a, (![0, 2] : Fin 2 → Nat) a + S1024x1.size a ≤ S1024x9.size a
  inb_S1024x9_S1024x1_0_3 : ∀ a, (![0, 3] : Fin 2 → Nat) a + S1024x1.size a ≤ S1024x9.size a
  inb_S1024x9_S1024x1_0_4 : ∀ a, (![0, 4] : Fin 2 → Nat) a + S1024x1.size a ≤ S1024x9.size a
  inb_S1024x9_S1024x1_0_5 : ∀ a, (![0, 5] : Fin 2 → Nat) a + S1024x1.size a ≤ S1024x9.size a
  inb_S1024x9_S1024x1_0_6 : ∀ a, (![0, 6] : Fin 2 → Nat) a + S1024x1.size a ≤ S1024x9.size a
  inb_S1024x9_S1024x1_0_7 : ∀ a, (![0, 7] : Fin 2 → Nat) a + S1024x1.size a ≤ S1024x9.size a
  inb_S1024x9_S1024x1_0_8 : ∀ a, (![0, 8] : Fin 2 → Nat) a + S1024x1.size a ≤ S1024x9.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  slices_S1024x1024_o0_0_S64x1024 : S1024x1024.Slices ![0, 0] S64x1024
  slices_S1024x1024_o64_0_S64x1024 : S1024x1024.Slices ![64, 0] S64x1024
  slices_S1024x1024_o128_0_S64x1024 : S1024x1024.Slices ![128, 0] S64x1024
  slices_S1024x1024_o192_0_S64x1024 : S1024x1024.Slices ![192, 0] S64x1024
  slices_S1024x1024_o256_0_S64x1024 : S1024x1024.Slices ![256, 0] S64x1024
  slices_S1024x1024_o320_0_S64x1024 : S1024x1024.Slices ![320, 0] S64x1024
  slices_S1024x1024_o384_0_S64x1024 : S1024x1024.Slices ![384, 0] S64x1024
  slices_S1024x1024_o448_0_S64x1024 : S1024x1024.Slices ![448, 0] S64x1024
  slices_S1024x1024_o512_0_S64x1024 : S1024x1024.Slices ![512, 0] S64x1024
  slices_S1024x1024_o576_0_S64x1024 : S1024x1024.Slices ![576, 0] S64x1024
  slices_S1024x1024_o640_0_S64x1024 : S1024x1024.Slices ![640, 0] S64x1024
  slices_S1024x1024_o704_0_S64x1024 : S1024x1024.Slices ![704, 0] S64x1024
  slices_S1024x1024_o768_0_S64x1024 : S1024x1024.Slices ![768, 0] S64x1024
  slices_S1024x1024_o832_0_S64x1024 : S1024x1024.Slices ![832, 0] S64x1024
  slices_S1024x1024_o896_0_S64x1024 : S1024x1024.Slices ![896, 0] S64x1024
  slices_S1024x1024_o960_0_S64x1024 : S1024x1024.Slices ![960, 0] S64x1024
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  shapeCasts_S1024x1024_S16x64x1024 : S1024x1024.ShapeCasts S16x64x1024
  reduces_S16x64x1024_S64 : S16x64x1024.Reduces [0, 2] S64
  shapeCasts_S64_S64x1 : S64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S8x64x64_S64x64_d0 : S8x64x64.ReducesTo [0] S64x64
  reducesTo_S8x64x1_S64x1_d0 : S8x64x1.ReducesTo [0] S64x1
  bcast_S_S64x64 : S_.BroadcastsInDim S64x64 (![] : Fin 0 → Fin S64x64.rank)
  reducesTo_S64x64_S64_d1 : S64x64.ReducesTo [1] S64
  bcast_S64x1_S64x64_0_1 : S64x1.BroadcastsInDim S64x64 (![0, 1] : Fin 2 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S2048x1024_S64x1024_0_0 : ∀ a, (![0, 0] : Fin 2 → Nat) a + S64x1024.size a ≤ S2048x1024.size a
  h_S64x1024 : 0 < S64x1024.numel
  shapeCasts_S64x1024_S64x1024 : S64x1024.ShapeCasts S64x1024
  broadcasts_S64x1_S64x1024 : S64x1.Broadcasts S64x1024
  inb_S32x64x1024_S1x64x1024_0_0_0 : ∀ a, (![0, 0, 0] : Fin 3 → Nat) a + S1x64x1024.size a ≤ S32x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S2048x1024_S64x1024_64_0 : ∀ a, (![64, 0] : Fin 2 → Nat) a + S64x1024.size a ≤ S2048x1024.size a
  inb_S32x64x1024_S1x64x1024_1_0_0 : ∀ a, (![1, 0, 0] : Fin 3 → Nat) a + S1x64x1024.size a ≤ S32x64x1024.size a
  inb_S2048x1024_S64x1024_128_0 : ∀ a, (![128, 0] : Fin 2 → Nat) a + S64x1024.size a ≤ S2048x1024.size a
  inb_S32x64x1024_S1x64x1024_2_0_0 : ∀ a, (![2, 0, 0] : Fin 3 → Nat) a + S1x64x1024.size a ≤ S32x64x1024.size a
  inb_S2048x1024_S64x1024_192_0 : ∀ a, (![192, 0] : Fin 2 → Nat) a + S64x1024.size a ≤ S2048x1024.size a
  inb_S32x64x1024_S1x64x1024_3_0_0 : ∀ a, (![3, 0, 0] : Fin 3 → Nat) a + S1x64x1024.size a ≤ S32x64x1024.size a
  inb_S2048x1024_S64x1024_256_0 : ∀ a, (![256, 0] : Fin 2 → Nat) a + S64x1024.size a ≤ S2048x1024.size a
  inb_S32x64x1024_S1x64x1024_4_0_0 : ∀ a, (![4, 0, 0] : Fin 3 → Nat) a + S1x64x1024.size a ≤ S32x64x1024.size a
  inb_S2048x1024_S64x1024_320_0 : ∀ a, (![320, 0] : Fin 2 → Nat) a + S64x1024.size a ≤ S2048x1024.size a
  inb_S32x64x1024_S1x64x1024_5_0_0 : ∀ a, (![5, 0, 0] : Fin 3 → Nat) a + S1x64x1024.size a ≤ S32x64x1024.size a
  inb_S2048x1024_S64x1024_384_0 : ∀ a, (![384, 0] : Fin 2 → Nat) a + S64x1024.size a ≤ S2048x1024.size a
  inb_S32x64x1024_S1x64x1024_6_0_0 : ∀ a, (![6, 0, 0] : Fin 3 → Nat) a + S1x64x1024.size a ≤ S32x64x1024.size a
  inb_S2048x1024_S64x1024_448_0 : ∀ a, (![448, 0] : Fin 2 → Nat) a + S64x1024.size a ≤ S2048x1024.size a
  inb_S32x64x1024_S1x64x1024_7_0_0 : ∀ a, (![7, 0, 0] : Fin 3 → Nat) a + S1x64x1024.size a ≤ S32x64x1024.size a
  inb_S2048x1024_S64x1024_512_0 : ∀ a, (![512, 0] : Fin 2 → Nat) a + S64x1024.size a ≤ S2048x1024.size a
  inb_S32x64x1024_S1x64x1024_8_0_0 : ∀ a, (![8, 0, 0] : Fin 3 → Nat) a + S1x64x1024.size a ≤ S32x64x1024.size a
  inb_S2048x1024_S64x1024_576_0 : ∀ a, (![576, 0] : Fin 2 → Nat) a + S64x1024.size a ≤ S2048x1024.size a
  inb_S32x64x1024_S1x64x1024_9_0_0 : ∀ a, (![9, 0, 0] : Fin 3 → Nat) a + S1x64x1024.size a ≤ S32x64x1024.size a
  inb_S2048x1024_S64x1024_640_0 : ∀ a, (![640, 0] : Fin 2 → Nat) a + S64x1024.size a ≤ S2048x1024.size a
  inb_S32x64x1024_S1x64x1024_10_0_0 : ∀ a, (![10, 0, 0] : Fin 3 → Nat) a + S1x64x1024.size a ≤ S32x64x1024.size a
  inb_S2048x1024_S64x1024_704_0 : ∀ a, (![704, 0] : Fin 2 → Nat) a + S64x1024.size a ≤ S2048x1024.size a
  inb_S32x64x1024_S1x64x1024_11_0_0 : ∀ a, (![11, 0, 0] : Fin 3 → Nat) a + S1x64x1024.size a ≤ S32x64x1024.size a
  inb_S2048x1024_S64x1024_768_0 : ∀ a, (![768, 0] : Fin 2 → Nat) a + S64x1024.size a ≤ S2048x1024.size a
  inb_S32x64x1024_S1x64x1024_12_0_0 : ∀ a, (![12, 0, 0] : Fin 3 → Nat) a + S1x64x1024.size a ≤ S32x64x1024.size a
  inb_S2048x1024_S64x1024_832_0 : ∀ a, (![832, 0] : Fin 2 → Nat) a + S64x1024.size a ≤ S2048x1024.size a
  inb_S32x64x1024_S1x64x1024_13_0_0 : ∀ a, (![13, 0, 0] : Fin 3 → Nat) a + S1x64x1024.size a ≤ S32x64x1024.size a
  inb_S2048x1024_S64x1024_896_0 : ∀ a, (![896, 0] : Fin 2 → Nat) a + S64x1024.size a ≤ S2048x1024.size a
  inb_S32x64x1024_S1x64x1024_14_0_0 : ∀ a, (![14, 0, 0] : Fin 3 → Nat) a + S1x64x1024.size a ≤ S32x64x1024.size a
  inb_S2048x1024_S64x1024_960_0 : ∀ a, (![960, 0] : Fin 2 → Nat) a + S64x1024.size a ≤ S2048x1024.size a
  inb_S32x64x1024_S1x64x1024_15_0_0 : ∀ a, (![15, 0, 0] : Fin 3 → Nat) a + S1x64x1024.size a ≤ S32x64x1024.size a
  inb_S2048x1024_S64x1024_1024_0 : ∀ a, (![1024, 0] : Fin 2 → Nat) a + S64x1024.size a ≤ S2048x1024.size a
  inb_S32x64x1024_S1x64x1024_16_0_0 : ∀ a, (![16, 0, 0] : Fin 3 → Nat) a + S1x64x1024.size a ≤ S32x64x1024.size a
  inb_S2048x1024_S64x1024_1088_0 : ∀ a, (![1088, 0] : Fin 2 → Nat) a + S64x1024.size a ≤ S2048x1024.size a
  inb_S32x64x1024_S1x64x1024_17_0_0 : ∀ a, (![17, 0, 0] : Fin 3 → Nat) a + S1x64x1024.size a ≤ S32x64x1024.size a
  inb_S2048x1024_S64x1024_1152_0 : ∀ a, (![1152, 0] : Fin 2 → Nat) a + S64x1024.size a ≤ S2048x1024.size a
  inb_S32x64x1024_S1x64x1024_18_0_0 : ∀ a, (![18, 0, 0] : Fin 3 → Nat) a + S1x64x1024.size a ≤ S32x64x1024.size a
  inb_S2048x1024_S64x1024_1216_0 : ∀ a, (![1216, 0] : Fin 2 → Nat) a + S64x1024.size a ≤ S2048x1024.size a
  inb_S32x64x1024_S1x64x1024_19_0_0 : ∀ a, (![19, 0, 0] : Fin 3 → Nat) a + S1x64x1024.size a ≤ S32x64x1024.size a
  inb_S2048x1024_S64x1024_1280_0 : ∀ a, (![1280, 0] : Fin 2 → Nat) a + S64x1024.size a ≤ S2048x1024.size a
  inb_S32x64x1024_S1x64x1024_20_0_0 : ∀ a, (![20, 0, 0] : Fin 3 → Nat) a + S1x64x1024.size a ≤ S32x64x1024.size a
  inb_S2048x1024_S64x1024_1344_0 : ∀ a, (![1344, 0] : Fin 2 → Nat) a + S64x1024.size a ≤ S2048x1024.size a
  inb_S32x64x1024_S1x64x1024_21_0_0 : ∀ a, (![21, 0, 0] : Fin 3 → Nat) a + S1x64x1024.size a ≤ S32x64x1024.size a
  inb_S2048x1024_S64x1024_1408_0 : ∀ a, (![1408, 0] : Fin 2 → Nat) a + S64x1024.size a ≤ S2048x1024.size a
  inb_S32x64x1024_S1x64x1024_22_0_0 : ∀ a, (![22, 0, 0] : Fin 3 → Nat) a + S1x64x1024.size a ≤ S32x64x1024.size a
  inb_S2048x1024_S64x1024_1472_0 : ∀ a, (![1472, 0] : Fin 2 → Nat) a + S64x1024.size a ≤ S2048x1024.size a
  inb_S32x64x1024_S1x64x1024_23_0_0 : ∀ a, (![23, 0, 0] : Fin 3 → Nat) a + S1x64x1024.size a ≤ S32x64x1024.size a
  inb_S2048x1024_S64x1024_1536_0 : ∀ a, (![1536, 0] : Fin 2 → Nat) a + S64x1024.size a ≤ S2048x1024.size a
  inb_S32x64x1024_S1x64x1024_24_0_0 : ∀ a, (![24, 0, 0] : Fin 3 → Nat) a + S1x64x1024.size a ≤ S32x64x1024.size a
  inb_S2048x1024_S64x1024_1600_0 : ∀ a, (![1600, 0] : Fin 2 → Nat) a + S64x1024.size a ≤ S2048x1024.size a
  inb_S32x64x1024_S1x64x1024_25_0_0 : ∀ a, (![25, 0, 0] : Fin 3 → Nat) a + S1x64x1024.size a ≤ S32x64x1024.size a
  inb_S2048x1024_S64x1024_1664_0 : ∀ a, (![1664, 0] : Fin 2 → Nat) a + S64x1024.size a ≤ S2048x1024.size a
  inb_S32x64x1024_S1x64x1024_26_0_0 : ∀ a, (![26, 0, 0] : Fin 3 → Nat) a + S1x64x1024.size a ≤ S32x64x1024.size a
  inb_S2048x1024_S64x1024_1728_0 : ∀ a, (![1728, 0] : Fin 2 → Nat) a + S64x1024.size a ≤ S2048x1024.size a
  inb_S32x64x1024_S1x64x1024_27_0_0 : ∀ a, (![27, 0, 0] : Fin 3 → Nat) a + S1x64x1024.size a ≤ S32x64x1024.size a
  inb_S2048x1024_S64x1024_1792_0 : ∀ a, (![1792, 0] : Fin 2 → Nat) a + S64x1024.size a ≤ S2048x1024.size a
  inb_S32x64x1024_S1x64x1024_28_0_0 : ∀ a, (![28, 0, 0] : Fin 3 → Nat) a + S1x64x1024.size a ≤ S32x64x1024.size a
  inb_S2048x1024_S64x1024_1856_0 : ∀ a, (![1856, 0] : Fin 2 → Nat) a + S64x1024.size a ≤ S2048x1024.size a
  inb_S32x64x1024_S1x64x1024_29_0_0 : ∀ a, (![29, 0, 0] : Fin 3 → Nat) a + S1x64x1024.size a ≤ S32x64x1024.size a
  inb_S2048x1024_S64x1024_1920_0 : ∀ a, (![1920, 0] : Fin 2 → Nat) a + S64x1024.size a ≤ S2048x1024.size a
  inb_S32x64x1024_S1x64x1024_30_0_0 : ∀ a, (![30, 0, 0] : Fin 3 → Nat) a + S1x64x1024.size a ≤ S32x64x1024.size a
  inb_S2048x1024_S64x1024_1984_0 : ∀ a, (![1984, 0] : Fin 2 → Nat) a + S64x1024.size a ≤ S2048x1024.size a
  inb_S32x64x1024_S1x64x1024_31_0_0 : ∀ a, (![31, 0, 0] : Fin 3 → Nat) a + S1x64x1024.size a ≤ S32x64x1024.size a
  shapeCasts_S128x64x1024_S128x64x32x32 : S128x64x1024.ShapeCasts S128x64x32x32
  dot_S64x1024_S64x1024_S64x64_1_1_0_0_n_n_wf : DotDims.WF S64x1024 S64x1024 S64x64 [1] [1] [0] [0] [] []
  dot_S64x64_S64x1_S64x1_1_0_0_1_n_n_wf : DotDims.WF S64x64 S64x1 S64x1 [1] [0] [0] [1] [] []
  dot_S64x64_S64x64_S64x64_1_0_0_1_n_n_wf : DotDims.WF S64x64 S64x64 S64x64 [1] [0] [0] [1] [] []
  dot_S64x64_S64x1024_S64x1024_1_0_0_1_n_n_wf : DotDims.WF S64x64 S64x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1024.size a ≤ S128x64x1024.size a
  hwx0_0 : ∀ i : grid0.Coords, EltTy.bits .f32 = 32 ∨ (Rect.block (s := S128x64x1024) S16x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x9.size a ≤ S1024x9.size a
  hwx0_1 : ∀ i : grid0.Coords, EltTy.bits .f32 = 32 ∨ (Rect.block (s := S1024x9) S1024x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64.size a ≤ S8x64x64.size a
  hwx0_4 : ∀ i : grid0.Coords, EltTy.bits .f32 = 32 ∨ (Rect.block (s := S8x64x64) S1x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S8x64x1.size a
  hwx0_5 : ∀ i : grid0.Coords, EltTy.bits .f32 = 32 ∨ (Rect.block (s := S8x64x1) S1x64x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .bf16 = 32 ∨ (Rect.block (s := S8192x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x64x1024.size a ≤ S128x64x1024.size a
  hwx1_3 : ∀ i : grid1.Coords, EltTy.bits .f32 = 32 ∨ (Rect.block (s := S128x64x1024) S32x64x1024.size (cc1_transform_3 i) (hinb1_3 i)).WholeWords (EltTy.packing .f32)

variable [Facts₀]

def dot_S64x1024_S64x1024_S64x64_1_1_0_0_n_n : DotDims S64x1024 S64x1024 S64x64 where
  lhsContracting := [1]
  rhsContracting := [1]
  lhsNonContracting := [0]
  rhsNonContracting := [0]
  lhsBatch := []
  rhsBatch := []
  wf := dot_S64x1024_S64x1024_S64x64_1_1_0_0_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1024_S64x1024_1_0_0_1_n_n : DotDims S64x64 S64x1024 S64x1024 where
  lhsContracting := [1]
  rhsContracting := [0]
  lhsNonContracting := [0]
  rhsNonContracting := [1]
  lhsBatch := []
  rhsBatch := []
  wf := dot_S64x64_S64x1024_S64x1024_1_0_0_1_n_n_wf

abbrev win0_0 : Pipeline.Window sig grid0 :=
  Pipeline.Window.ofSpec (Memref.whole main_v12) S16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S1x64x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_2) S1x64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13_0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S32x64x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x64x32x32 : Shape := ⟨4, ![128, 64, 32, 32]⟩
abbrev S64x3x3 : Shape := ⟨3, ![64, 3, 3]⟩
abbrev S64x64 : Shape := ⟨2, ![64, 64]⟩
abbrev S64 : Shape := ⟨1, ![64]⟩
abbrev S128x64x1024 : Shape := ⟨3, ![128, 64, 1024]⟩
abbrev S64x9 : Shape := ⟨2, ![64, 9]⟩
abbrev S_ : Shape := ⟨0, ![]⟩
abbrev S64x1 : Shape := ⟨2, ![64, 1]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x1024 : Shape := ⟨2, ![1, 1024]⟩
abbrev S9x1024 : Shape := ⟨2, ![9, 1024]⟩
abbrev S1x64x1024 : Shape := ⟨3, ![1, 64, 1024]⟩
abbrev S64x1024 : Shape := ⟨2, ![64, 1024]⟩

abbrev nBuf : Space → Nat
  | .hbm => 308
  | .vmem => 18
  | .smem => 0
  | _ => 0

abbrev hbmTy0_0 (i : Nat) : BufTy := match i % 128 with
  | 0 => ⟨S128x64x32x32, .f32⟩
  | 1 => ⟨S64x3x3, .f32⟩
  | 2 => ⟨S64x64, .f32⟩
  | 3 => ⟨S64, .f32⟩
  | 4 => ⟨S64, .f32⟩
  | 5 => ⟨S128x64x1024, .f32⟩
  | 6 => ⟨S64x9, .f32⟩
  | 7 => ⟨S_, .f32⟩
  | 8 => ⟨S64, .f32⟩
  | 9 => ⟨S_, .f32⟩
  | 10 => ⟨S64, .f32⟩
  | 11 => ⟨S64, .f32⟩
  | 12 => ⟨S64x1, .f32⟩
  | 13 => ⟨S32, .i32⟩
  | 14 => ⟨S32x1, .i32⟩
  | 15 => ⟨S32, .i32⟩
  | 16 => ⟨S1x32, .i32⟩
  | 17 => ⟨S_, .i32⟩
  | 18 => ⟨S32x1, .i32⟩
  | 19 => ⟨S32x1, .i32⟩
  | 20 => ⟨S_, .i32⟩
  | 21 => ⟨S32x1, .i32⟩
  | 22 => ⟨S32x1, .i1⟩
  | 23 => ⟨S_, .i32⟩
  | 24 => ⟨S32x1, .i32⟩
  | 25 => ⟨S32x1, .i32⟩
  | 26 => ⟨S_, .i32⟩
  | 27 => ⟨S32x1, .i32⟩
  | 28 => ⟨S32x1, .i1⟩
  | 29 => ⟨S32x1, .i1⟩
  | 30 => ⟨S_, .i32⟩
  | 31 => ⟨S1x32, .i32⟩
  | 32 => ⟨S1x32, .i32⟩
  | 33 => ⟨S_, .i32⟩
  | 34 => ⟨S1x32, .i32⟩
  | 35 => ⟨S1x32, .i1⟩
  | 36 => ⟨S32x32, .i1⟩
  | 37 => ⟨S32x32, .i1⟩
  | 38 => ⟨S32x32, .i1⟩
  | 39 => ⟨S_, .i32⟩
  | 40 => ⟨S1x32, .i32⟩
  | 41 => ⟨S1x32, .i32⟩
  | 42 => ⟨S_, .i32⟩
  | 43 => ⟨S1x32, .i32⟩
  | 44 => ⟨S1x32, .i1⟩
  | 45 => ⟨S32x32, .i1⟩
  | 46 => ⟨S32x32, .i1⟩
  | 47 => ⟨S1x1024, .i1⟩
  | 48 => ⟨S_, .i32⟩
  | 49 => ⟨S32x1, .i32⟩
  | 50 => ⟨S32x1, .i32⟩
  | 51 => ⟨S_, .i32⟩
  | 52 => ⟨S32x1, .i32⟩
  | 53 => ⟨S32x1, .i1⟩
  | 54 => ⟨S_, .i32⟩
  | 55 => ⟨S32x1, .i32⟩
  | 56 => ⟨S32x1, .i32⟩
  | 57 => ⟨S_, .i32⟩
  | 58 => ⟨S32x1, .i32⟩
  | 59 => ⟨S32x1, .i1⟩
  | 60 => ⟨S32x1, .i1⟩
  | 61 => ⟨S_, .i32⟩
  | 62 => ⟨S1x32, .i32⟩
  | 63 => ⟨S1x32, .i32⟩
  | 64 => ⟨S_, .i32⟩
  | 65 => ⟨S1x32, .i32⟩
  | 66 => ⟨S1x32, .i1⟩
  | 67 => ⟨S32x32, .i1⟩
  | 68 => ⟨S32x32, .i1⟩
  | 69 => ⟨S32x32, .i1⟩
  | 70 => ⟨S_, .i32⟩
  | 71 => ⟨S1x32, .i32⟩
  | 72 => ⟨S1x32, .i32⟩
  | 73 => ⟨S_, .i32⟩
  | 74 => ⟨S1x32, .i32⟩
  | 75 => ⟨S1x32, .i1⟩
  | 76 => ⟨S32x32, .i1⟩
  | 77 => ⟨S32x32, .i1⟩
  | 78 => ⟨S1x1024, .i1⟩
  | 79 => ⟨S_, .i32⟩
  | 80 => ⟨S32x1, .i32⟩
  | 81 => ⟨S32x1, .i32⟩
  | 82 => ⟨S_, .i32⟩
  | 83 => ⟨S32x1, .i32⟩
  | 84 => ⟨S32x1, .i1⟩
  | 85 => ⟨S_, .i32⟩
  | 86 => ⟨S32x1, .i32⟩
  | 87 => ⟨S32x1, .i32⟩
  | 88 => ⟨S_, .i32⟩
  | 89 => ⟨S32x1, .i32⟩
  | 90 => ⟨S32x1, .i1⟩
  | 91 => ⟨S32x1, .i1⟩
  | 92 => ⟨S_, .i32⟩
  | 93 => ⟨S1x32, .i32⟩
  | 94 => ⟨S1x32, .i32⟩
  | 95 => ⟨S_, .i32⟩
  | 96 => ⟨S1x32, .i32⟩
  | 97 => ⟨S1x32, .i1⟩
  | 98 => ⟨S32x32, .i1⟩
  | 99 => ⟨S32x32, .i1⟩
  | 100 => ⟨S32x32, .i1⟩
  | 101 => ⟨S_, .i32⟩
  | 102 => ⟨S1x32, .i32⟩
  | 103 => ⟨S1x32, .i32⟩
  | 104 => ⟨S_, .i32⟩
  | 105 => ⟨S1x32, .i32⟩
  | 106 => ⟨S1x32, .i1⟩
  | 107 => ⟨S32x32, .i1⟩
  | 108 => ⟨S32x32, .i1⟩
  | 109 => ⟨S1x1024, .i1⟩
  | 110 => ⟨S_, .i32⟩
  | 111 => ⟨S32x1, .i32⟩
  | 112 => ⟨S32x1, .i32⟩
  | 113 => ⟨S_, .i32⟩
  | 114 => ⟨S32x1, .i32⟩
  | 115 => ⟨S32x1, .i1⟩
  | 116 => ⟨S_, .i32⟩
  | 117 => ⟨S32x1, .i32⟩
  | 118 => ⟨S32x1, .i32⟩
  | 119 => ⟨S_, .i32⟩
  | 120 => ⟨S32x1, .i32⟩
  | 121 => ⟨S32x1, .i1⟩
  | 122 => ⟨S32x1, .i1⟩
  | 123 => ⟨S_, .i32⟩
  | 124 => ⟨S1x32, .i32⟩
  | 125 => ⟨S1x32, .i32⟩
  | 126 => ⟨S_, .i32⟩
  | 127 => ⟨S1x32, .i32⟩
  | _ => ⟨S128x64x32x32, .f32⟩

abbrev hbmTy0_1 (i : Nat) : BufTy := match i % 128 with
  | 0 => ⟨S1x32, .i1⟩
  | 1 => ⟨S32x32, .i1⟩
  | 2 => ⟨S32x32, .i1⟩
  | 3 => ⟨S32x32, .i1⟩
  | 4 => ⟨S_, .i32⟩
  | 5 => ⟨S1x32, .i32⟩
  | 6 => ⟨S1x32, .i32⟩
  | 7 => ⟨S_, .i32⟩
  | 8 => ⟨S1x32, .i32⟩
  | 9 => ⟨S1x32, .i1⟩
  | 10 => ⟨S32x32, .i1⟩
  | 11 => ⟨S32x32, .i1⟩
  | 12 => ⟨S1x1024, .i1⟩
  | 13 => ⟨S_, .i32⟩
  | 14 => ⟨S32x1, .i32⟩
  | 15 => ⟨S32x1, .i32⟩
  | 16 => ⟨S_, .i32⟩
  | 17 => ⟨S32x1, .i32⟩
  | 18 => ⟨S32x1, .i1⟩
  | 19 => ⟨S_, .i32⟩
  | 20 => ⟨S32x1, .i32⟩
  | 21 => ⟨S32x1, .i32⟩
  | 22 => ⟨S_, .i32⟩
  | 23 => ⟨S32x1, .i32⟩
  | 24 => ⟨S32x1, .i1⟩
  | 25 => ⟨S32x1, .i1⟩
  | 26 => ⟨S_, .i32⟩
  | 27 => ⟨S1x32, .i32⟩
  | 28 => ⟨S1x32, .i32⟩
  | 29 => ⟨S_, .i32⟩
  | 30 => ⟨S1x32, .i32⟩
  | 31 => ⟨S1x32, .i1⟩
  | 32 => ⟨S32x32, .i1⟩
  | 33 => ⟨S32x32, .i1⟩
  | 34 => ⟨S32x32, .i1⟩
  | 35 => ⟨S_, .i32⟩
  | 36 => ⟨S1x32, .i32⟩
  | 37 => ⟨S1x32, .i32⟩
  | 38 => ⟨S_, .i32⟩
  | 39 => ⟨S1x32, .i32⟩
  | 40 => ⟨S1x32, .i1⟩
  | 41 => ⟨S32x32, .i1⟩
  | 42 => ⟨S32x32, .i1⟩
  | 43 => ⟨S1x1024, .i1⟩
  | 44 => ⟨S_, .i32⟩
  | 45 => ⟨S32x1, .i32⟩
  | 46 => ⟨S32x1, .i32⟩
  | 47 => ⟨S_, .i32⟩
  | 48 => ⟨S32x1, .i32⟩
  | 49 => ⟨S32x1, .i1⟩
  | 50 => ⟨S_, .i32⟩
  | 51 => ⟨S32x1, .i32⟩
  | 52 => ⟨S32x1, .i32⟩
  | 53 => ⟨S_, .i32⟩
  | 54 => ⟨S32x1, .i32⟩
  | 55 => ⟨S32x1, .i1⟩
  | 56 => ⟨S32x1, .i1⟩
  | 57 => ⟨S_, .i32⟩
  | 58 => ⟨S1x32, .i32⟩
  | 59 => ⟨S1x32, .i32⟩
  | 60 => ⟨S_, .i32⟩
  | 61 => ⟨S1x32, .i32⟩
  | 62 => ⟨S1x32, .i1⟩
  | 63 => ⟨S32x32, .i1⟩
  | 64 => ⟨S32x32, .i1⟩
  | 65 => ⟨S32x32, .i1⟩
  | 66 => ⟨S_, .i32⟩
  | 67 => ⟨S1x32, .i32⟩
  | 68 => ⟨S1x32, .i32⟩
  | 69 => ⟨S_, .i32⟩
  | 70 => ⟨S1x32, .i32⟩
  | 71 => ⟨S1x32, .i1⟩
  | 72 => ⟨S32x32, .i1⟩
  | 73 => ⟨S32x32, .i1⟩
  | 74 => ⟨S1x1024, .i1⟩
  | 75 => ⟨S_, .i32⟩
  | 76 => ⟨S32x1, .i32⟩
  | 77 => ⟨S32x1, .i32⟩
  | 78 => ⟨S_, .i32⟩
  | 79 => ⟨S32x1, .i32⟩
  | 80 => ⟨S32x1, .i1⟩
  | 81 => ⟨S_, .i32⟩
  | 82 => ⟨S32x1, .i32⟩
  | 83 => ⟨S32x1, .i32⟩
  | 84 => ⟨S_, .i32⟩
  | 85 => ⟨S32x1, .i32⟩
  | 86 => ⟨S32x1, .i1⟩
  | 87 => ⟨S32x1, .i1⟩
  | 88 => ⟨S_, .i32⟩
  | 89 => ⟨S1x32, .i32⟩
  | 90 => ⟨S1x32, .i32⟩
  | 91 => ⟨S_, .i32⟩
  | 92 => ⟨S1x32, .i32⟩
  | 93 => ⟨S1x32, .i1⟩
  | 94 => ⟨S32x32, .i1⟩
  | 95 => ⟨S32x32, .i1⟩
  | 96 => ⟨S32x32, .i1⟩
  | 97 => ⟨S_, .i32⟩
  | 98 => ⟨S1x32, .i32⟩
  | 99 => ⟨S1x32, .i32⟩
  | 100 => ⟨S_, .i32⟩
  | 101 => ⟨S1x32, .i32⟩
  | 102 => ⟨S1x32, .i1⟩
  | 103 => ⟨S32x32, .i1⟩
  | 104 => ⟨S32x32, .i1⟩
  | 105 => ⟨S1x1024, .i1⟩
  | 106 => ⟨S_, .i32⟩
  | 107 => ⟨S32x1, .i32⟩
  | 108 => ⟨S32x1, .i32⟩
  | 109 => ⟨S_, .i32⟩
  | 110 => ⟨S32x1, .i32⟩
  | 111 => ⟨S32x1, .i1⟩
  | 112 => ⟨S_, .i32⟩
  | 113 => ⟨S32x1, .i32⟩
  | 114 => ⟨S32x1, .i32⟩
  | 115 => ⟨S_, .i32⟩
  | 116 => ⟨S32x1, .i32⟩
  | 117 => ⟨S32x1, .i1⟩
  | 118 => ⟨S32x1, .i1⟩
  | 119 => ⟨S_, .i32⟩
  | 120 => ⟨S1x32, .i32⟩
  | 121 => ⟨S1x32, .i32⟩
  | 122 => ⟨S_, .i32⟩
  | 123 => ⟨S1x32, .i32⟩
  | 124 => ⟨S1x32, .i1⟩
  | 125 => ⟨S32x32, .i1⟩
  | 126 => ⟨S32x32, .i1⟩
  | 127 => ⟨S32x32, .i1⟩
  | _ => ⟨S128x64x32x32, .f32⟩

abbrev hbmTy0_2 (i : Nat) : BufTy := match i % 128 with
  | 0 => ⟨S_, .i32⟩
  | 1 => ⟨S1x32, .i32⟩
  | 2 => ⟨S1x32, .i32⟩
  | 3 => ⟨S_, .i32⟩
  | 4 => ⟨S1x32, .i32⟩
  | 5 => ⟨S1x32, .i1⟩
  | 6 => ⟨S32x32, .i1⟩
  | 7 => ⟨S32x32, .i1⟩
  | 8 => ⟨S1x1024, .i1⟩
  | 9 => ⟨S_, .i32⟩
  | 10 => ⟨S32x1, .i32⟩
  | 11 => ⟨S32x1, .i32⟩
  | 12 => ⟨S_, .i32⟩
  | 13 => ⟨S32x1, .i32⟩
  | 14 => ⟨S32x1, .i1⟩
  | 15 => ⟨S_, .i32⟩
  | 16 => ⟨S32x1, .i32⟩
  | 17 => ⟨S32x1, .i32⟩
  | 18 => ⟨S_, .i32⟩
  | 19 => ⟨S32x1, .i32⟩
  | 20 => ⟨S32x1, .i1⟩
  | 21 => ⟨S32x1, .i1⟩
  | 22 => ⟨S_, .i32⟩
  | 23 => ⟨S1x32, .i32⟩
  | 24 => ⟨S1x32, .i32⟩
  | 25 => ⟨S_, .i32⟩
  | 26 => ⟨S1x32, .i32⟩
  | 27 => ⟨S1x32, .i1⟩
  | 28 => ⟨S32x32, .i1⟩
  | 29 => ⟨S32x32, .i1⟩
  | 30 => ⟨S32x32, .i1⟩
  | 31 => ⟨S_, .i32⟩
  | 32 => ⟨S1x32, .i32⟩
  | 33 => ⟨S1x32, .i32⟩
  | 34 => ⟨S_, .i32⟩
  | 35 => ⟨S1x32, .i32⟩
  | 36 => ⟨S1x32, .i1⟩
  | 37 => ⟨S32x32, .i1⟩
  | 38 => ⟨S32x32, .i1⟩
  | 39 => ⟨S1x1024, .i1⟩
  | 40 => ⟨S9x1024, .i1⟩
  | 41 => ⟨S9x1024, .f32⟩
  | 42 => ⟨S_, .f32⟩
  | 43 => ⟨S64x64, .f32⟩
  | 44 => ⟨S64x64, .f32⟩
  | 45 => ⟨S64x1, .f32⟩
  | 46 => ⟨S64x1, .f32⟩
  | 47 => ⟨S128x64x1024, .f32⟩
  | 48 => ⟨S64x1, .f32⟩
  | 49 => ⟨S64x1, .f32⟩
  | 50 => ⟨S128x64x1024, .f32⟩
  | 51 => ⟨S128x64x32x32, .f32⟩
  | _ => ⟨S128x64x32x32, .f32⟩

abbrev hbmTy (i : Nat) : BufTy := match i / 128 with
  | 0 => hbmTy0_0 i
  | 1 => hbmTy0_1 i
  | 2 => hbmTy0_2 i
  | _ => ⟨S128x64x32x32, .f32⟩

abbrev bufTy : (tb : Table) → Fin (tcTables nBuf tb) → BufTy
  | .hbm, ⟨i, _⟩ => hbmTy i
  | .local _ .vmem, ⟨0, _⟩ => ⟨S1x64x1024, .f32⟩
  | .local _ .vmem, ⟨1, _⟩ => ⟨S1x64x1024, .f32⟩
  | .local _ .vmem, ⟨2, _⟩ => ⟨S64x9, .f32⟩
  | .local _ .vmem, ⟨3, _⟩ => ⟨S64x1, .f32⟩
  | .local _ .vmem, ⟨4, _⟩ => ⟨S9x1024, .f32⟩
  | .local _ .vmem, ⟨5, _⟩ => ⟨S64x64, .f32⟩
  | .local _ .vmem, ⟨6, _⟩ => ⟨S1x64x1024, .f32⟩
  | .local _ .vmem, ⟨7, _⟩ => ⟨S1x64x1024, .f32⟩
  | .local _ .vmem, ⟨8, _⟩ => ⟨S64x1, .f32⟩
  | .local _ .vmem, ⟨9, _⟩ => ⟨S64x1, .f32⟩
  | .local _ .vmem, ⟨10, _⟩ => ⟨S1x64x1024, .f32⟩
  | .local _ .vmem, ⟨11, _⟩ => ⟨S1x64x1024, .f32⟩
  | .local _ .vmem, ⟨12, _⟩ => ⟨S64x1, .f32⟩
  | .local _ .vmem, ⟨13, _⟩ => ⟨S64x1, .f32⟩
  | .local _ .vmem, ⟨14, _⟩ => ⟨S64x1, .f32⟩
  | .local _ .vmem, ⟨15, _⟩ => ⟨S64x1, .f32⟩
  | .local _ .vmem, ⟨16, _⟩ => ⟨S1x64x1024, .f32⟩
  | .local _ .vmem, ⟨17, _⟩ => ⟨S1x64x1024, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_c_10 : Ref sig .tc := ⟨.hbm, 54, rfl⟩
abbrev main_v37 : Ref sig .tc := ⟨.hbm, 55, rfl⟩
abbrev main_v38 : Ref sig .tc := ⟨.hbm, 56, rfl⟩
abbrev main_c_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_12 : Ref sig .tc := ⟨.hbm, 61, rfl⟩
abbrev main_v42 : Ref sig .tc := ⟨.hbm, 62, rfl⟩
abbrev main_v43 : Ref sig .tc := ⟨.hbm, 63, rfl⟩
abbrev main_c_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_14 : Ref sig .tc := ⟨.hbm, 70, rfl⟩
abbrev main_v49 : Ref sig .tc := ⟨.hbm, 71, rfl⟩
abbrev main_v50 : Ref sig .tc := ⟨.hbm, 72, rfl⟩
abbrev main_c_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_16 : Ref sig .tc := ⟨.hbm, 79, rfl⟩
abbrev main_v56 : Ref sig .tc := ⟨.hbm, 80, rfl⟩
abbrev main_v57 : Ref sig .tc := ⟨.hbm, 81, rfl⟩
abbrev main_c_17 : Ref sig .tc := ⟨.hbm, 82, rfl⟩
abbrev main_v58 : Ref sig .tc := ⟨.hbm, 83, rfl⟩
abbrev main_v59 : Ref sig .tc := ⟨.hbm, 84, rfl⟩
abbrev main_c_18 : Ref sig .tc := ⟨.hbm, 85, rfl⟩
abbrev main_v60 : Ref sig .tc := ⟨.hbm, 86, rfl⟩
abbrev main_v61 : Ref sig .tc := ⟨.hbm, 87, rfl⟩
abbrev main_c_19 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_20 : Ref sig .tc := ⟨.hbm, 92, rfl⟩
abbrev main_v65 : Ref sig .tc := ⟨.hbm, 93, rfl⟩
abbrev main_v66 : Ref sig .tc := ⟨.hbm, 94, rfl⟩
abbrev main_c_21 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_22 : Ref sig .tc := ⟨.hbm, 101, rfl⟩
abbrev main_v72 : Ref sig .tc := ⟨.hbm, 102, rfl⟩
abbrev main_v73 : Ref sig .tc := ⟨.hbm, 103, rfl⟩
abbrev main_c_23 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_24 : Ref sig .tc := ⟨.hbm, 110, rfl⟩
abbrev main_v79 : Ref sig .tc := ⟨.hbm, 111, rfl⟩
abbrev main_v80 : Ref sig .tc := ⟨.hbm, 112, rfl⟩
abbrev main_c_25 : Ref sig .tc := ⟨.hbm, 113, rfl⟩
abbrev main_v81 : Ref sig .tc := ⟨.hbm, 114, rfl⟩
abbrev main_v82 : Ref sig .tc := ⟨.hbm, 115, rfl⟩
abbrev main_c_26 : Ref sig .tc := ⟨.hbm, 116, rfl⟩
abbrev main_v83 : Ref sig .tc := ⟨.hbm, 117, rfl⟩
abbrev main_v84 : Ref sig .tc := ⟨.hbm, 118, rfl⟩
abbrev main_c_27 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_28 : Ref sig .tc := ⟨.hbm, 123, rfl⟩
abbrev main_v88 : Ref sig .tc := ⟨.hbm, 124, rfl⟩
abbrev main_v89 : Ref sig .tc := ⟨.hbm, 125, rfl⟩
abbrev main_c_29 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_30 : Ref sig .tc := ⟨.hbm, 132, rfl⟩
abbrev main_v95 : Ref sig .tc := ⟨.hbm, 133, rfl⟩
abbrev main_v96 : Ref sig .tc := ⟨.hbm, 134, rfl⟩
abbrev main_c_31 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_32 : Ref sig .tc := ⟨.hbm, 141, rfl⟩
abbrev main_v102 : Ref sig .tc := ⟨.hbm, 142, rfl⟩
abbrev main_v103 : Ref sig .tc := ⟨.hbm, 143, rfl⟩
abbrev main_c_33 : Ref sig .tc := ⟨.hbm, 144, rfl⟩
abbrev main_v104 : Ref sig .tc := ⟨.hbm, 145, rfl⟩
abbrev main_v105 : Ref sig .tc := ⟨.hbm, 146, rfl⟩
abbrev main_c_34 : Ref sig .tc := ⟨.hbm, 147, rfl⟩
abbrev main_v106 : Ref sig .tc := ⟨.hbm, 148, rfl⟩
abbrev main_v107 : Ref sig .tc := ⟨.hbm, 149, rfl⟩
abbrev main_c_35 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_c_36 : Ref sig .tc := ⟨.hbm, 154, rfl⟩
abbrev main_v111 : Ref sig .tc := ⟨.hbm, 155, rfl⟩
abbrev main_v112 : Ref sig .tc := ⟨.hbm, 156, rfl⟩
abbrev main_c_37 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_38 : Ref sig .tc := ⟨.hbm, 163, rfl⟩
abbrev main_v118 : Ref sig .tc := ⟨.hbm, 164, rfl⟩
abbrev main_v119 : Ref sig .tc := ⟨.hbm, 165, rfl⟩
abbrev main_c_39 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_40 : Ref sig .tc := ⟨.hbm, 172, rfl⟩
abbrev main_v125 : Ref sig .tc := ⟨.hbm, 173, rfl⟩
abbrev main_v126 : Ref sig .tc := ⟨.hbm, 174, rfl⟩
abbrev main_c_41 : Ref sig .tc := ⟨.hbm, 175, rfl⟩
abbrev main_v127 : Ref sig .tc := ⟨.hbm, 176, rfl⟩
abbrev main_v128 : Ref sig .tc := ⟨.hbm, 177, rfl⟩
abbrev main_c_42 : Ref sig .tc := ⟨.hbm, 178, rfl⟩
abbrev main_v129 : Ref sig .tc := ⟨.hbm, 179, rfl⟩
abbrev main_v130 : Ref sig .tc := ⟨.hbm, 180, rfl⟩
abbrev main_c_43 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_c_44 : Ref sig .tc := ⟨.hbm, 185, rfl⟩
abbrev main_v134 : Ref sig .tc := ⟨.hbm, 186, rfl⟩
abbrev main_v135 : Ref sig .tc := ⟨.hbm, 187, rfl⟩
abbrev main_c_45 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_c_46 : Ref sig .tc := ⟨.hbm, 194, rfl⟩
abbrev main_v141 : Ref sig .tc := ⟨.hbm, 195, rfl⟩
abbrev main_v142 : Ref sig .tc := ⟨.hbm, 196, rfl⟩
abbrev main_c_47 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_c_48 : Ref sig .tc := ⟨.hbm, 203, rfl⟩
abbrev main_v148 : Ref sig .tc := ⟨.hbm, 204, rfl⟩
abbrev main_v149 : Ref sig .tc := ⟨.hbm, 205, rfl⟩
abbrev main_c_49 : Ref sig .tc := ⟨.hbm, 206, rfl⟩
abbrev main_v150 : Ref sig .tc := ⟨.hbm, 207, rfl⟩
abbrev main_v151 : Ref sig .tc := ⟨.hbm, 208, rfl⟩
abbrev main_c_50 : Ref sig .tc := ⟨.hbm, 209, rfl⟩
abbrev main_v152 : Ref sig .tc := ⟨.hbm, 210, rfl⟩
abbrev main_v153 : Ref sig .tc := ⟨.hbm, 211, rfl⟩
abbrev main_c_51 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_c_52 : Ref sig .tc := ⟨.hbm, 216, rfl⟩
abbrev main_v157 : Ref sig .tc := ⟨.hbm, 217, rfl⟩
abbrev main_v158 : Ref sig .tc := ⟨.hbm, 218, rfl⟩
abbrev main_c_53 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_c_54 : Ref sig .tc := ⟨.hbm, 225, rfl⟩
abbrev main_v164 : Ref sig .tc := ⟨.hbm, 226, rfl⟩
abbrev main_v165 : Ref sig .tc := ⟨.hbm, 227, rfl⟩
abbrev main_c_55 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_c_56 : Ref sig .tc := ⟨.hbm, 234, rfl⟩
abbrev main_v171 : Ref sig .tc := ⟨.hbm, 235, rfl⟩
abbrev main_v172 : Ref sig .tc := ⟨.hbm, 236, rfl⟩
abbrev main_c_57 : Ref sig .tc := ⟨.hbm, 237, rfl⟩
abbrev main_v173 : Ref sig .tc := ⟨.hbm, 238, rfl⟩
abbrev main_v174 : Ref sig .tc := ⟨.hbm, 239, rfl⟩
abbrev main_c_58 : Ref sig .tc := ⟨.hbm, 240, rfl⟩
abbrev main_v175 : Ref sig .tc := ⟨.hbm, 241, rfl⟩
abbrev main_v176 : Ref sig .tc := ⟨.hbm, 242, rfl⟩
abbrev main_c_59 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_c_60 : Ref sig .tc := ⟨.hbm, 247, rfl⟩
abbrev main_v180 : Ref sig .tc := ⟨.hbm, 248, rfl⟩
abbrev main_v181 : Ref sig .tc := ⟨.hbm, 249, rfl⟩
abbrev main_c_61 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_c_62 : Ref sig .tc := ⟨.hbm, 256, rfl⟩
abbrev main_v187 : Ref sig .tc := ⟨.hbm, 257, rfl⟩
abbrev main_v188 : Ref sig .tc := ⟨.hbm, 258, rfl⟩
abbrev main_c_63 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_c_64 : Ref sig .tc := ⟨.hbm, 265, rfl⟩
abbrev main_v194 : Ref sig .tc := ⟨.hbm, 266, rfl⟩
abbrev main_v195 : Ref sig .tc := ⟨.hbm, 267, rfl⟩
abbrev main_c_65 : Ref sig .tc := ⟨.hbm, 268, rfl⟩
abbrev main_v196 : Ref sig .tc := ⟨.hbm, 269, rfl⟩
abbrev main_v197 : Ref sig .tc := ⟨.hbm, 270, rfl⟩
abbrev main_c_66 : Ref sig .tc := ⟨.hbm, 271, rfl⟩
abbrev main_v198 : Ref sig .tc := ⟨.hbm, 272, rfl⟩
abbrev main_v199 : Ref sig .tc := ⟨.hbm, 273, rfl⟩
abbrev main_c_67 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_c_68 : Ref sig .tc := ⟨.hbm, 278, rfl⟩
abbrev main_v203 : Ref sig .tc := ⟨.hbm, 279, rfl⟩
abbrev main_v204 : Ref sig .tc := ⟨.hbm, 280, rfl⟩
abbrev main_c_69 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_c_70 : Ref sig .tc := ⟨.hbm, 287, rfl⟩
abbrev main_v210 : Ref sig .tc := ⟨.hbm, 288, rfl⟩
abbrev main_v211 : Ref sig .tc := ⟨.hbm, 289, rfl⟩
abbrev main_c_71 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_cst_72 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223_0 : Ref sig .tc := ⟨.hbm, 303, rfl⟩
abbrev main_v223_1 : Ref sig .tc := ⟨.hbm, 304, rfl⟩
abbrev main_v223_2 : Ref sig .tc := ⟨.hbm, 305, rfl⟩
abbrev main_v224 : Ref sig .tc := ⟨.hbm, 306, rfl⟩
abbrev main_v225 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128x64x32x32_S128x64x1024 : S128x64x32x32.ShapeCasts S128x64x1024
  shapeCasts_S64x3x3_S64x9 : S64x3x3.ShapeCasts S64x9
  reducesTo_S64x3x3_S64_d1_2 : S64x3x3.ReducesTo [1, 2] S64
  h_S_ : 0 < S_.numel
  bcast_S_S64 : S_.BroadcastsInDim S64 (![] : Fin 0 → Fin S64.rank)
  shapeCasts_S64_S64x1 : S64.ShapeCasts S64x1
  shapeCasts_S32_S32x1 : S32.ShapeCasts S32x1
  shapeCasts_S32_S1x32 : S32.ShapeCasts S1x32
  bcast_S_S32x1 : S_.BroadcastsInDim S32x1 (![] : Fin 0 → Fin S32x1.rank)
  bcast_S_S1x32 : S_.BroadcastsInDim S1x32 (![] : Fin 0 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  shapeCasts_S32x32_S1x1024 : S32x32.ShapeCasts S1x1024
  concatenates_S1x1024_S1x1024_S1x1024_S1x1024_S1x1024_S1x1024_S1x1024_S1x1024_S1x1024_S9x1024_d0 : Shape.Concatenates [S1x1024, S1x1024, S1x1024, S1x1024, S1x1024, S1x1024, S1x1024, S1x1024, S1x1024] S9x1024 0
  bcast_S_S64x64 : S_.BroadcastsInDim S64x64 (![] : Fin 0 → Fin S64x64.rank)
  inb_S64x1_S64x1_0_0 : ∀ a, (![0, 0] : Fin 2 → Nat) a + S64x1.size a ≤ S64x1.size a
  h_S64x1 : 0 < S64x1.numel
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  rotates_S64x1024_d1 : S64x1024.Rotates 1 none
  inb_S9x1024_S1x1024_0_0 : ∀ a, (![0, 0] : Fin 2 → Nat) a + S1x1024.size a ≤ S9x1024.size a
  h_S1x1024 : 0 < S1x1024.numel
  shapeCasts_S1x1024_S1x1024 : S1x1024.ShapeCasts S1x1024
  broadcasts_S1x1024_S64x1024 : S1x1024.Broadcasts S64x1024
  inb_S64x9_S64x1_0_0 : ∀ a, (![0, 0] : Fin 2 → Nat) a + S64x1.size a ≤ S64x9.size a
  shapeCasts_S64x1_S64x1 : S64x1.ShapeCasts S64x1
  broadcasts_S64x1_S64x1024 : S64x1.Broadcasts S64x1024
  inb_S9x1024_S1x1024_1_0 : ∀ a, (![1, 0] : Fin 2 → Nat) a + S1x1024.size a ≤ S9x1024.size a
  inb_S64x9_S64x1_0_1 : ∀ a, (![0, 1] : Fin 2 → Nat) a + S64x1.size a ≤ S64x9.size a
  inb_S9x1024_S1x1024_2_0 : ∀ a, (![2, 0] : Fin 2 → Nat) a + S1x1024.size a ≤ S9x1024.size a
  inb_S64x9_S64x1_0_2 : ∀ a, (![0, 2] : Fin 2 → Nat) a + S64x1.size a ≤ S64x9.size a
  inb_S9x1024_S1x1024_3_0 : ∀ a, (![3, 0] : Fin 2 → Nat) a + S1x1024.size a ≤ S9x1024.size a
  inb_S64x9_S64x1_0_3 : ∀ a, (![0, 3] : Fin 2 → Nat) a + S64x1.size a ≤ S64x9.size a
  inb_S64x9_S64x1_0_4 : ∀ a, (![0, 4] : Fin 2 → Nat) a + S64x1.size a ≤ S64x9.size a
  inb_S9x1024_S1x1024_5_0 : ∀ a, (![5, 0] : Fin 2 → Nat) a + S1x1024.size a ≤ S9x1024.size a
  inb_S64x9_S64x1_0_5 : ∀ a, (![0, 5] : Fin 2 → Nat) a + S64x1.size a ≤ S64x9.size a
  inb_S9x1024_S1x1024_6_0 : ∀ a, (![6, 0] : Fin 2 → Nat) a + S1x1024.size a ≤ S9x1024.size a
  inb_S64x9_S64x1_0_6 : ∀ a, (![0, 6] : Fin 2 → Nat) a + S64x1.size a ≤ S64x9.size a
  inb_S9x1024_S1x1024_7_0 : ∀ a, (![7, 0] : Fin 2 → Nat) a + S1x1024.size a ≤ S9x1024.size a
  inb_S64x9_S64x1_0_7 : ∀ a, (![0, 7] : Fin 2 → Nat) a + S64x1.size a ≤ S64x9.size a
  inb_S9x1024_S1x1024_8_0 : ∀ a, (![8, 0] : Fin 2 → Nat) a + S1x1024.size a ≤ S9x1024.size a
  inb_S64x9_S64x1_0_8 : ∀ a, (![0, 8] : Fin 2 → Nat) a + S64x1.size a ≤ S64x9.size a
  inb_S64x64_S64x1_0_0 : ∀ a, (![0, 0] : Fin 2 → Nat) a + S64x1.size a ≤ S64x64.size a
  slices_S64x1024_o0_0_S1x1024 : S64x1024.Slices ![0, 0] S1x1024
  inb_S64x64_S64x1_0_1 : ∀ a, (![0, 1] : Fin 2 → Nat) a + S64x1.size a ≤ S64x64.size a
  slices_S64x1024_o1_0_S1x1024 : S64x1024.Slices ![1, 0] S1x1024
  inb_S64x64_S64x1_0_2 : ∀ a, (![0, 2] : Fin 2 → Nat) a + S64x1.size a ≤ S64x64.size a
  slices_S64x1024_o2_0_S1x1024 : S64x1024.Slices ![2, 0] S1x1024
  inb_S64x64_S64x1_0_3 : ∀ a, (![0, 3] : Fin 2 → Nat) a + S64x1.size a ≤ S64x64.size a
  slices_S64x1024_o3_0_S1x1024 : S64x1024.Slices ![3, 0] S1x1024
  inb_S64x64_S64x1_0_4 : ∀ a, (![0, 4] : Fin 2 → Nat) a + S64x1.size a ≤ S64x64.size a
  slices_S64x1024_o4_0_S1x1024 : S64x1024.Slices ![4, 0] S1x1024
  inb_S64x64_S64x1_0_5 : ∀ a, (![0, 5] : Fin 2 → Nat) a + S64x1.size a ≤ S64x64.size a
  slices_S64x1024_o5_0_S1x1024 : S64x1024.Slices ![5, 0] S1x1024
  inb_S64x64_S64x1_0_6 : ∀ a, (![0, 6] : Fin 2 → Nat) a + S64x1.size a ≤ S64x64.size a
  slices_S64x1024_o6_0_S1x1024 : S64x1024.Slices ![6, 0] S1x1024
  inb_S64x64_S64x1_0_7 : ∀ a, (![0, 7] : Fin 2 → Nat) a + S64x1.size a ≤ S64x64.size a
  slices_S64x1024_o7_0_S1x1024 : S64x1024.Slices ![7, 0] S1x1024
  inb_S64x64_S64x1_0_8 : ∀ a, (![0, 8] : Fin 2 → Nat) a + S64x1.size a ≤ S64x64.size a
  slices_S64x1024_o8_0_S1x1024 : S64x1024.Slices ![8, 0] S1x1024
  inb_S64x64_S64x1_0_9 : ∀ a, (![0, 9] : Fin 2 → Nat) a + S64x1.size a ≤ S64x64.size a
  slices_S64x1024_o9_0_S1x1024 : S64x1024.Slices ![9, 0] S1x1024
  inb_S64x64_S64x1_0_10 : ∀ a, (![0, 10] : Fin 2 → Nat) a + S64x1.size a ≤ S64x64.size a
  slices_S64x1024_o10_0_S1x1024 : S64x1024.Slices ![10, 0] S1x1024
  inb_S64x64_S64x1_0_11 : ∀ a, (![0, 11] : Fin 2 → Nat) a + S64x1.size a ≤ S64x64.size a
  slices_S64x1024_o11_0_S1x1024 : S64x1024.Slices ![11, 0] S1x1024
  inb_S64x64_S64x1_0_12 : ∀ a, (![0, 12] : Fin 2 → Nat) a + S64x1.size a ≤ S64x64.size a
  slices_S64x1024_o12_0_S1x1024 : S64x1024.Slices ![12, 0] S1x1024
  inb_S64x64_S64x1_0_13 : ∀ a, (![0, 13] : Fin 2 → Nat) a + S64x1.size a ≤ S64x64.size a
  slices_S64x1024_o13_0_S1x1024 : S64x1024.Slices ![13, 0] S1x1024
  inb_S64x64_S64x1_0_14 : ∀ a, (![0, 14] : Fin 2 → Nat) a + S64x1.size a ≤ S64x64.size a
  slices_S64x1024_o14_0_S1x1024 : S64x1024.Slices ![14, 0] S1x1024
  inb_S64x64_S64x1_0_15 : ∀ a, (![0, 15] : Fin 2 → Nat) a + S64x1.size a ≤ S64x64.size a
  slices_S64x1024_o15_0_S1x1024 : S64x1024.Slices ![15, 0] S1x1024
  inb_S64x64_S64x1_0_16 : ∀ a, (![0, 16] : Fin 2 → Nat) a + S64x1.size a ≤ S64x64.size a
  slices_S64x1024_o16_0_S1x1024 : S64x1024.Slices ![16, 0] S1x1024
  inb_S64x64_S64x1_0_17 : ∀ a, (![0, 17] : Fin 2 → Nat) a + S64x1.size a ≤ S64x64.size a
  slices_S64x1024_o17_0_S1x1024 : S64x1024.Slices ![17, 0] S1x1024
  inb_S64x64_S64x1_0_18 : ∀ a, (![0, 18] : Fin 2 → Nat) a + S64x1.size a ≤ S64x64.size a
  slices_S64x1024_o18_0_S1x1024 : S64x1024.Slices ![18, 0] S1x1024
  inb_S64x64_S64x1_0_19 : ∀ a, (![0, 19] : Fin 2 → Nat) a + S64x1.size a ≤ S64x64.size a
  slices_S64x1024_o19_0_S1x1024 : S64x1024.Slices ![19, 0] S1x1024
  inb_S64x64_S64x1_0_20 : ∀ a, (![0, 20] : Fin 2 → Nat) a + S64x1.size a ≤ S64x64.size a
  slices_S64x1024_o20_0_S1x1024 : S64x1024.Slices ![20, 0] S1x1024
  inb_S64x64_S64x1_0_21 : ∀ a, (![0, 21] : Fin 2 → Nat) a + S64x1.size a ≤ S64x64.size a
  slices_S64x1024_o21_0_S1x1024 : S64x1024.Slices ![21, 0] S1x1024
  inb_S64x64_S64x1_0_22 : ∀ a, (![0, 22] : Fin 2 → Nat) a + S64x1.size a ≤ S64x64.size a
  slices_S64x1024_o22_0_S1x1024 : S64x1024.Slices ![22, 0] S1x1024
  inb_S64x64_S64x1_0_23 : ∀ a, (![0, 23] : Fin 2 → Nat) a + S64x1.size a ≤ S64x64.size a
  slices_S64x1024_o23_0_S1x1024 : S64x1024.Slices ![23, 0] S1x1024
  inb_S64x64_S64x1_0_24 : ∀ a, (![0, 24] : Fin 2 → Nat) a + S64x1.size a ≤ S64x64.size a
  slices_S64x1024_o24_0_S1x1024 : S64x1024.Slices ![24, 0] S1x1024
  inb_S64x64_S64x1_0_25 : ∀ a, (![0, 25] : Fin 2 → Nat) a + S64x1.size a ≤ S64x64.size a
  slices_S64x1024_o25_0_S1x1024 : S64x1024.Slices ![25, 0] S1x1024
  inb_S64x64_S64x1_0_26 : ∀ a, (![0, 26] : Fin 2 → Nat) a + S64x1.size a ≤ S64x64.size a
  slices_S64x1024_o26_0_S1x1024 : S64x1024.Slices ![26, 0] S1x1024
  inb_S64x64_S64x1_0_27 : ∀ a, (![0, 27] : Fin 2 → Nat) a + S64x1.size a ≤ S64x64.size a
  slices_S64x1024_o27_0_S1x1024 : S64x1024.Slices ![27, 0] S1x1024
  inb_S64x64_S64x1_0_28 : ∀ a, (![0, 28] : Fin 2 → Nat) a + S64x1.size a ≤ S64x64.size a
  slices_S64x1024_o28_0_S1x1024 : S64x1024.Slices ![28, 0] S1x1024
  inb_S64x64_S64x1_0_29 : ∀ a, (![0, 29] : Fin 2 → Nat) a + S64x1.size a ≤ S64x64.size a
  slices_S64x1024_o29_0_S1x1024 : S64x1024.Slices ![29, 0] S1x1024
  inb_S64x64_S64x1_0_30 : ∀ a, (![0, 30] : Fin 2 → Nat) a + S64x1.size a ≤ S64x64.size a
  slices_S64x1024_o30_0_S1x1024 : S64x1024.Slices ![30, 0] S1x1024
  inb_S64x64_S64x1_0_31 : ∀ a, (![0, 31] : Fin 2 → Nat) a + S64x1.size a ≤ S64x64.size a
  slices_S64x1024_o31_0_S1x1024 : S64x1024.Slices ![31, 0] S1x1024
  inb_S64x64_S64x1_0_32 : ∀ a, (![0, 32] : Fin 2 → Nat) a + S64x1.size a ≤ S64x64.size a
  slices_S64x1024_o32_0_S1x1024 : S64x1024.Slices ![32, 0] S1x1024
  inb_S64x64_S64x1_0_33 : ∀ a, (![0, 33] : Fin 2 → Nat) a + S64x1.size a ≤ S64x64.size a
  slices_S64x1024_o33_0_S1x1024 : S64x1024.Slices ![33, 0] S1x1024
  inb_S64x64_S64x1_0_34 : ∀ a, (![0, 34] : Fin 2 → Nat) a + S64x1.size a ≤ S64x64.size a
  slices_S64x1024_o34_0_S1x1024 : S64x1024.Slices ![34, 0] S1x1024
  inb_S64x64_S64x1_0_35 : ∀ a, (![0, 35] : Fin 2 → Nat) a + S64x1.size a ≤ S64x64.size a
  slices_S64x1024_o35_0_S1x1024 : S64x1024.Slices ![35, 0] S1x1024
  inb_S64x64_S64x1_0_36 : ∀ a, (![0, 36] : Fin 2 → Nat) a + S64x1.size a ≤ S64x64.size a
  slices_S64x1024_o36_0_S1x1024 : S64x1024.Slices ![36, 0] S1x1024
  inb_S64x64_S64x1_0_37 : ∀ a, (![0, 37] : Fin 2 → Nat) a + S64x1.size a ≤ S64x64.size a
  slices_S64x1024_o37_0_S1x1024 : S64x1024.Slices ![37, 0] S1x1024
  inb_S64x64_S64x1_0_38 : ∀ a, (![0, 38] : Fin 2 → Nat) a + S64x1.size a ≤ S64x64.size a
  slices_S64x1024_o38_0_S1x1024 : S64x1024.Slices ![38, 0] S1x1024
  inb_S64x64_S64x1_0_39 : ∀ a, (![0, 39] : Fin 2 → Nat) a + S64x1.size a ≤ S64x64.size a
  slices_S64x1024_o39_0_S1x1024 : S64x1024.Slices ![39, 0] S1x1024
  inb_S64x64_S64x1_0_40 : ∀ a, (![0, 40] : Fin 2 → Nat) a + S64x1.size a ≤ S64x64.size a
  slices_S64x1024_o40_0_S1x1024 : S64x1024.Slices ![40, 0] S1x1024
  inb_S64x64_S64x1_0_41 : ∀ a, (![0, 41] : Fin 2 → Nat) a + S64x1.size a ≤ S64x64.size a
  slices_S64x1024_o41_0_S1x1024 : S64x1024.Slices ![41, 0] S1x1024
  inb_S64x64_S64x1_0_42 : ∀ a, (![0, 42] : Fin 2 → Nat) a + S64x1.size a ≤ S64x64.size a
  slices_S64x1024_o42_0_S1x1024 : S64x1024.Slices ![42, 0] S1x1024
  inb_S64x64_S64x1_0_43 : ∀ a, (![0, 43] : Fin 2 → Nat) a + S64x1.size a ≤ S64x64.size a
  slices_S64x1024_o43_0_S1x1024 : S64x1024.Slices ![43, 0] S1x1024
  inb_S64x64_S64x1_0_44 : ∀ a, (![0, 44] : Fin 2 → Nat) a + S64x1.size a ≤ S64x64.size a
  slices_S64x1024_o44_0_S1x1024 : S64x1024.Slices ![44, 0] S1x1024
  inb_S64x64_S64x1_0_45 : ∀ a, (![0, 45] : Fin 2 → Nat) a + S64x1.size a ≤ S64x64.size a
  slices_S64x1024_o45_0_S1x1024 : S64x1024.Slices ![45, 0] S1x1024
  inb_S64x64_S64x1_0_46 : ∀ a, (![0, 46] : Fin 2 → Nat) a + S64x1.size a ≤ S64x64.size a
  slices_S64x1024_o46_0_S1x1024 : S64x1024.Slices ![46, 0] S1x1024
  inb_S64x64_S64x1_0_47 : ∀ a, (![0, 47] : Fin 2 → Nat) a + S64x1.size a ≤ S64x64.size a
  slices_S64x1024_o47_0_S1x1024 : S64x1024.Slices ![47, 0] S1x1024
  inb_S64x64_S64x1_0_48 : ∀ a, (![0, 48] : Fin 2 → Nat) a + S64x1.size a ≤ S64x64.size a
  slices_S64x1024_o48_0_S1x1024 : S64x1024.Slices ![48, 0] S1x1024
  inb_S64x64_S64x1_0_49 : ∀ a, (![0, 49] : Fin 2 → Nat) a + S64x1.size a ≤ S64x64.size a
  slices_S64x1024_o49_0_S1x1024 : S64x1024.Slices ![49, 0] S1x1024
  inb_S64x64_S64x1_0_50 : ∀ a, (![0, 50] : Fin 2 → Nat) a + S64x1.size a ≤ S64x64.size a
  slices_S64x1024_o50_0_S1x1024 : S64x1024.Slices ![50, 0] S1x1024
  inb_S64x64_S64x1_0_51 : ∀ a, (![0, 51] : Fin 2 → Nat) a + S64x1.size a ≤ S64x64.size a
  slices_S64x1024_o51_0_S1x1024 : S64x1024.Slices ![51, 0] S1x1024
  inb_S64x64_S64x1_0_52 : ∀ a, (![0, 52] : Fin 2 → Nat) a + S64x1.size a ≤ S64x64.size a
  slices_S64x1024_o52_0_S1x1024 : S64x1024.Slices ![52, 0] S1x1024
  inb_S64x64_S64x1_0_53 : ∀ a, (![0, 53] : Fin 2 → Nat) a + S64x1.size a ≤ S64x64.size a
  slices_S64x1024_o53_0_S1x1024 : S64x1024.Slices ![53, 0] S1x1024
  inb_S64x64_S64x1_0_54 : ∀ a, (![0, 54] : Fin 2 → Nat) a + S64x1.size a ≤ S64x64.size a
  slices_S64x1024_o54_0_S1x1024 : S64x1024.Slices ![54, 0] S1x1024
  inb_S64x64_S64x1_0_55 : ∀ a, (![0, 55] : Fin 2 → Nat) a + S64x1.size a ≤ S64x64.size a
  slices_S64x1024_o55_0_S1x1024 : S64x1024.Slices ![55, 0] S1x1024
  inb_S64x64_S64x1_0_56 : ∀ a, (![0, 56] : Fin 2 → Nat) a + S64x1.size a ≤ S64x64.size a
  slices_S64x1024_o56_0_S1x1024 : S64x1024.Slices ![56, 0] S1x1024
  inb_S64x64_S64x1_0_57 : ∀ a, (![0, 57] : Fin 2 → Nat) a + S64x1.size a ≤ S64x64.size a
  slices_S64x1024_o57_0_S1x1024 : S64x1024.Slices ![57, 0] S1x1024
  inb_S64x64_S64x1_0_58 : ∀ a, (![0, 58] : Fin 2 → Nat) a + S64x1.size a ≤ S64x64.size a
  slices_S64x1024_o58_0_S1x1024 : S64x1024.Slices ![58, 0] S1x1024
  inb_S64x64_S64x1_0_59 : ∀ a, (![0, 59] : Fin 2 → Nat) a + S64x1.size a ≤ S64x64.size a
  slices_S64x1024_o59_0_S1x1024 : S64x1024.Slices ![59, 0] S1x1024
  inb_S64x64_S64x1_0_60 : ∀ a, (![0, 60] : Fin 2 → Nat) a + S64x1.size a ≤ S64x64.size a
  slices_S64x1024_o60_0_S1x1024 : S64x1024.Slices ![60, 0] S1x1024
  inb_S64x64_S64x1_0_61 : ∀ a, (![0, 61] : Fin 2 → Nat) a + S64x1.size a ≤ S64x64.size a
  slices_S64x1024_o61_0_S1x1024 : S64x1024.Slices ![61, 0] S1x1024
  inb_S64x64_S64x1_0_62 : ∀ a, (![0, 62] : Fin 2 → Nat) a + S64x1.size a ≤ S64x64.size a
  slices_S64x1024_o62_0_S1x1024 : S64x1024.Slices ![62, 0] S1x1024
  inb_S64x64_S64x1_0_63 : ∀ a, (![0, 63] : Fin 2 → Nat) a + S64x1.size a ≤ S64x64.size a
  slices_S64x1024_o63_0_S1x1024 : S64x1024.Slices ![63, 0] S1x1024
  shapeCasts_S64x1024_S1x64x1024 : S64x1024.ShapeCasts S1x64x1024
  reduces_S64x1024_S64 : S64x1024.Reduces [1] S64
  shapeCasts_S128x64x1024_S128x64x32x32 : S128x64x1024.ShapeCasts S128x64x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S128x64x1024.size a
  hwx0_0 : ∀ i : grid0.Coords, EltTy.bits .f32 = 32 ∨ (Rect.block (s := S128x64x1024) S1x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x9.size a ≤ S64x9.size a
  hwx0_1 : ∀ i : grid0.Coords, EltTy.bits .f32 = 32 ∨ (Rect.block (s := S64x9) S64x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x1024.size a ≤ S9x1024.size a
  hwx0_3 : ∀ i : grid0.Coords, EltTy.bits .f32 = 32 ∨ (Rect.block (s := S9x1024) S9x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S128x64x1024.size a
  hwx0_5 : ∀ i : grid0.Coords, EltTy.bits .f32 = 32 ∨ (Rect.block (s := S128x64x1024) S1x64x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S128x64x1024.size a
  hwx1_0 : ∀ i : grid1.Coords, EltTy.bits .f32 = 32 ∨ (Rect.block (s := S128x64x1024) S1x64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x1024.size a ≤ S128x64x1024.size a
  hwx1_5 : ∀ i : grid1.Coords, EltTy.bits .f32 = 32 ∨ (Rect.block (s := S128x64x1024) S1x64x1024.size (cc1_transform_5 i) (hinb1_5 i)).WholeWords (EltTy.packing .f32)

variable [Facts₀]

abbrev win0_0 : Pipeline.Window sig grid0 :=
  Pipeline.Window.ofSpec (Memref.whole main_v0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v218) S9x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v220) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v223_0) S1x64x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v223_1) S64x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v223_2) S64x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v223_0) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v223_1) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v223_2) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v221) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v222) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v224) S1x64x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.RefAccShared.lean ====
/-
  The convolution grid of the reference: what its two cases share. The body resets its two accumulator outputs
  exactly when the grid coordinate is zero; over the 128 points that is the first point only.
-/
import proofs.«162342_g2000606144476369_pallasbulk_1044_23_alg».proof.Proof.Gen.ReferenceIdeal.Launch
import proofs.«162342_g2000606144476369_pallasbulk_1044_23_alg».proof.Proof.Gen.ReferenceIdeal.Skeleton
import proofs.«162342_g2000606144476369_pallasbulk_1044_23_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's reset test on the grid coordinate: "the batch index is zero", as the printed scalar chain. -/
abbrev resetCond (i : grid0.Coords) : Prop :=
  (Scalar.cmpi .ne (Scalar.extui (Scalar.cmpi .eq (BitVec.ofNat 32 (i 0).val) 0#32)) 0#32) = 1#1

/-- Over the grid the reset test holds at the first point only. -/
theorem resetCond_iff : ∀ t : Fin cfg0.N, resetCond (grid0.coords t) ↔ t.val % 128 = 0 :=
  (by decide +kernel : ∀ t : Fin grid0.N, resetCond (grid0.coords t) ↔ t.val % 128 = 0)

end Cert.ReferenceIdeal.Hand

end
-- ==== Proof.RefAccRunFirst.lean ====
/-
  The convolution grid's body at the first point: the two accumulators are reset to zero before this batch
  element's sums are added, so neither is read before it is overwritten.
-/
import proofs.«162342_g2000606144476369_pallasbulk_1044_23_alg».proof.Proof.RefAccShared

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in its three output buffers at the resetting point, with the body's triple: the
    five inputs handed back as found, each output buffer holding its pieces over whatever it held. -/
noncomputable def accRunFirst (c : Dev nD) (i : grid0.Coords)
    (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : resetCond i)
    (x0 : Vec F S1x64x1024 .f32) (x1 : Vec F S64x9 .f32) (x2 : Vec F S64x1 .f32) (x3 : Vec F S9x1024 .f32) (x4 : Vec F S64x64 .f32) :
    { L : List (View.Piece (Elt F) S1x64x1024 .f32) × List (View.Piece (Elt F) S64x1 .f32) × List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2)) -∗ K ⟨⟩))
          ⊢ wp frame (wpE (defs₀ (F := F)) Variants.none c none) E (cc0__kernel_body i arg1 harg1 arg2 harg2 arg3 harg3 arg4 harg4 arg5 harg5 arg6 harg6 arg7 harg7 arg8 harg8) K } := by
  refine ⟨⟨?_, ?_, ?_⟩, fun E K => ?run⟩
  case run =>
    simp only [cc0__kernel_body_eq_skeleton]; unfold cc0__kernel_body_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    simp only [k0_part8_eq_skeleton]; unfold k0_part8_skel
    simp only [k0_part9_eq_skeleton]; unfold k0_part9_skel
    simp only [k0_part10_eq_skeleton]; unfold k0_part10_skel
    simp only [k0_part11_eq_skeleton]; unfold k0_part11_skel
    simp only [k0_part12_eq_skeleton]; unfold k0_part12_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0
    obtain rfl := harg2.eq_unread hf1
    obtain rfl := harg3.eq_unread hf2
    obtain rfl := harg4.eq_unread hf3
    obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

end Cert.ReferenceIdeal.Hand

end
-- ==== Proof.RefAccRunLater.lean ====
/-
  The convolution grid's body at every later point: the two accumulators are read as the point before left them
  and this batch element's sums are added.
-/
import proofs.«162342_g2000606144476369_pallasbulk_1044_23_alg».proof.Proof.RefAccRunFirst

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in its three output buffers at a non-resetting point, with the body's triple: the
    five inputs handed back as found, the two accumulators found at `s1`, `s2`, each output buffer holding its
    pieces afterwards. -/
noncomputable def accRunLater (c : Dev nD) (i : grid0.Coords)
    (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : ¬resetCond i)
    (x0 : Vec F S1x64x1024 .f32) (x1 : Vec F S64x9 .f32) (x2 : Vec F S64x1 .f32) (x3 : Vec F S9x1024 .f32) (x4 : Vec F S64x64 .f32) (s1 : Vec F S64x1 .f32) (s2 : Vec F S64x1 .f32) :
    { L : List (View.Piece (Elt F) S1x64x1024 .f32) × List (View.Piece (Elt F) S64x1 .f32) × List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare s1 ∗ owns (c : Thread nD τ) arg8 fullShare s2
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2)) -∗ K ⟨⟩))
          ⊢ wp frame (wpE (defs₀ (F := F)) Variants.none c none) E (cc0__kernel_body i arg1 harg1 arg2 harg2 arg3 harg3 arg4 harg4 arg5 harg5 arg6 harg6 arg7 harg7 arg8 harg8) K } := by
  refine ⟨⟨?_, ?_, ?_⟩, fun E K => ?run⟩
  case run =>
    simp only [cc0__kernel_body_eq_skeleton]; unfold cc0__kernel_body_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    simp only [k0_part8_eq_skeleton]; unfold k0_part8_skel
    simp only [k0_part9_eq_skeleton]; unfold k0_part9_skel
    simp only [k0_part10_eq_skeleton]; unfold k0_part10_skel
    simp only [k0_part11_eq_skeleton]; unfold k0_part11_skel
    simp only [k0_part12_eq_skeleton]; unfold k0_part12_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg7.eq_unread hf6
    obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

end Cert.ReferenceIdeal.Hand

end
-- ==== Proof.RefAccFrame.lean ====
/-
  The convolution grid of the reference as a pipeline. At each of its 128 points the five input buffers hold their
  blocks (one batch element of the activations; the depthwise weights, their θ-scaled sums, the nine tap masks and
  the pointwise weights whole). The body overwrites this batch element's block of pre-normalisation values and
  the two accumulators: at the first point both are reset before the element's sums are added, at every later
  point they are read as the point before left them. What the three output buffers hold after point n is therefore
  defined by recursion on n, the accumulators of point n feeding point n + 1; they are not written back before the
  last point.
-/
import proofs.«162342_g2000606144476369_pallasbulk_1044_23_alg».proof.Proof.RefAccRunLater

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the grid finds it. -/
def accBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's staging buffer holds its block at every point, whether the pipeline fetched it there or not. -/
theorem accBlkBefore_of_0 {c : Dev nD} (dat : Dat τ (Elt F) Unit ℕ (UR sig nD τ) ℕ cfg0 c) (hA : dat.A 0 = V c (Pipeline.arrRef spec0 0))
    (hafter : ∀ t, dat.after 0 t = accBlk V c 0 t) (t : Fin cfg0.N) (d) : dat.before 0 t d = accBlk V c 0 t :=
  (dat.before_in_eq_fetched 0 rfl (fun _ => rfl) (fun _ _ _ => rfl) (fun t => by rw [hafter]; unfold Dat.blockOf accBlk; rw [hA]; try rfl) t d).trans
    (by unfold Dat.fetched Dat.blockOf accBlk; rw [hA]; try rfl)
theorem accBlkBefore_of_1 {c : Dev nD} (dat : Dat τ (Elt F) Unit ℕ (UR sig nD τ) ℕ cfg0 c) (hA : dat.A 1 = V c (Pipeline.arrRef spec0 1))
    (hafter : ∀ t, dat.after 1 t = accBlk V c 1 t) (t : Fin cfg0.N) (d) : dat.before 1 t d = accBlk V c 1 t :=
  (dat.before_in_eq_fetched 1 rfl (fun _ => rfl) (fun _ _ _ => rfl) (fun t => by rw [hafter]; unfold Dat.blockOf accBlk; rw [hA]; try rfl) t d).trans
    (by unfold Dat.fetched Dat.blockOf accBlk; rw [hA]; try rfl)
theorem accBlkBefore_of_2 {c : Dev nD} (dat : Dat τ (Elt F) Unit ℕ (UR sig nD τ) ℕ cfg0 c) (hA : dat.A 2 = V c (Pipeline.arrRef spec0 2))
    (hafter : ∀ t, dat.after 2 t = accBlk V c 2 t) (t : Fin cfg0.N) (d) : dat.before 2 t d = accBlk V c 2 t :=
  (dat.before_in_eq_fetched 2 rfl (fun _ => rfl) (fun _ _ _ => rfl) (fun t => by rw [hafter]; unfold Dat.blockOf accBlk; rw [hA]; try rfl) t d).trans
    (by unfold Dat.fetched Dat.blockOf accBlk; rw [hA]; try rfl)
theorem accBlkBefore_of_3 {c : Dev nD} (dat : Dat τ (Elt F) Unit ℕ (UR sig nD τ) ℕ cfg0 c) (hA : dat.A 3 = V c (Pipeline.arrRef spec0 3))
    (hafter : ∀ t, dat.after 3 t = accBlk V c 3 t) (t : Fin cfg0.N) (d) : dat.before 3 t d = accBlk V c 3 t :=
  (dat.before_in_eq_fetched 3 rfl (fun _ => rfl) (fun _ _ _ => rfl) (fun t => by rw [hafter]; unfold Dat.blockOf accBlk; rw [hA]; try rfl) t d).trans
    (by unfold Dat.fetched Dat.blockOf accBlk; rw [hA]; try rfl)
theorem accBlkBefore_of_4 {c : Dev nD} (dat : Dat τ (Elt F) Unit ℕ (UR sig nD τ) ℕ cfg0 c) (hA : dat.A 4 = V c (Pipeline.arrRef spec0 4))
    (hafter : ∀ t, dat.after 4 t = accBlk V c 4 t) (t : Fin cfg0.N) (d) : dat.before 4 t d = accBlk V c 4 t :=
  (dat.before_in_eq_fetched 4 rfl (fun _ => rfl) (fun _ _ _ => rfl) (fun t => by rw [hafter]; unfold Dat.blockOf accBlk; rw [hA]; try rfl) t d).trans
    (by unfold Dat.fetched Dat.blockOf accBlk; rw [hA]; try rfl)

/-- One staging buffer of each output window, through which its contents are stated. -/
abbrev yView : View sig .tc .vmem S1x64x1024 .f32 := (Memref.whole cc0_stg5_0 : Memref sig .tc .vmem S1x64x1024 .f32).view
abbrev s1View : View sig .tc .vmem S64x1 .f32 := (Memref.whole cc0_stg6_0 : Memref sig .tc .vmem S64x1 .f32).view
abbrev s2View : View sig .tc .vmem S64x1 .f32 := (Memref.whole cc0_stg7_0 : Memref sig .tc .vmem S64x1 .f32).view
abbrev ms0_0 (t : Fin cfg0.N) : Memref sig .tc .vmem S1x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x9 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x1 .f32 := win0_7.stage (cfg0.slots t 7)
abbrev hs0_7 (t : Fin cfg0.N) : (ms0_7 t).IsWhole := hstage0_7 ((cfg0.slots t 7).cast nbuf0_7)

/-! The pieces each case leaves in each output tile that output's block, so they cover it. -/
theorem accCoverFirst_y (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : resetCond i) (x0 : Vec F S1x64x1024 .f32) (x1 : Vec F S64x9 .f32) (x2 : Vec F S64x1 .f32) (x3 : Vec F S9x1024 .f32) (x4 : Vec F S64x64 .f32) (y : S1x64x1024.Idx) :
    ∃ pc ∈ (accRunFirst c i arg1 harg1 arg2 harg2 arg3 harg3 arg4 harg4 arg5 harg5 arg6 harg6 arg7 harg7 arg8 harg8 hc x0 x1 x2 x3 x4).1.1, y ∈ pc.1.set :=
  View.cover_of_tiledL (accRunFirst c i arg1 harg1 arg2 harg2 arg3 harg3 arg4 harg4 arg5 harg5 arg6 harg6 arg7 harg7 arg8 harg8 hc x0 x1 x2 x3 x4).1.1 S1x64x1024.size (by sl_kernel_rfl) y
theorem accCoverFirst_s1 (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : resetCond i) (x0 : Vec F S1x64x1024 .f32) (x1 : Vec F S64x9 .f32) (x2 : Vec F S64x1 .f32) (x3 : Vec F S9x1024 .f32) (x4 : Vec F S64x64 .f32) (y : S64x1.Idx) :
    ∃ pc ∈ (accRunFirst c i arg1 harg1 arg2 harg2 arg3 harg3 arg4 harg4 arg5 harg5 arg6 harg6 arg7 harg7 arg8 harg8 hc x0 x1 x2 x3 x4).1.2.1, y ∈ pc.1.set :=
  View.cover_of_tiledL (accRunFirst c i arg1 harg1 arg2 harg2 arg3 harg3 arg4 harg4 arg5 harg5 arg6 harg6 arg7 harg7 arg8 harg8 hc x0 x1 x2 x3 x4).1.2.1 S64x1.size (by sl_kernel_rfl) y
theorem accCoverFirst_s2 (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : resetCond i) (x0 : Vec F S1x64x1024 .f32) (x1 : Vec F S64x9 .f32) (x2 : Vec F S64x1 .f32) (x3 : Vec F S9x1024 .f32) (x4 : Vec F S64x64 .f32) (y : S64x1.Idx) :
    ∃ pc ∈ (accRunFirst c i arg1 harg1 arg2 harg2 arg3 harg3 arg4 harg4 arg5 harg5 arg6 harg6 arg7 harg7 arg8 harg8 hc x0 x1 x2 x3 x4).1.2.2, y ∈ pc.1.set :=
  View.cover_of_tiledL (accRunFirst c i arg1 harg1 arg2 harg2 arg3 harg3 arg4 harg4 arg5 harg5 arg6 harg6 arg7 harg7 arg8 harg8 hc x0 x1 x2 x3 x4).1.2.2 S64x1.size (by sl_kernel_rfl) y
theorem accCoverLater_y (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : ¬resetCond i) (x0 : Vec F S1x64x1024 .f32) (x1 : Vec F S64x9 .f32) (x2 : Vec F S64x1 .f32) (x3 : Vec F S9x1024 .f32) (x4 : Vec F S64x64 .f32) (s1 : Vec F S64x1 .f32) (s2 : Vec F S64x1 .f32) (y : S1x64x1024.Idx) :
    ∃ pc ∈ (accRunLater c i arg1 harg1 arg2 harg2 arg3 harg3 arg4 harg4 arg5 harg5 arg6 harg6 arg7 harg7 arg8 harg8 hc x0 x1 x2 x3 x4 s1 s2).1.1, y ∈ pc.1.set :=
  View.cover_of_tiledL (accRunLater c i arg1 harg1 arg2 harg2 arg3 harg3 arg4 harg4 arg5 harg5 arg6 harg6 arg7 harg7 arg8 harg8 hc x0 x1 x2 x3 x4 s1 s2).1.1 S1x64x1024.size (by sl_kernel_rfl) y
theorem accCoverLater_s1 (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : ¬resetCond i) (x0 : Vec F S1x64x1024 .f32) (x1 : Vec F S64x9 .f32) (x2 : Vec F S64x1 .f32) (x3 : Vec F S9x1024 .f32) (x4 : Vec F S64x64 .f32) (s1 : Vec F S64x1 .f32) (s2 : Vec F S64x1 .f32) (y : S64x1.Idx) :
    ∃ pc ∈ (accRunLater c i arg1 harg1 arg2 harg2 arg3 harg3 arg4 harg4 arg5 harg5 arg6 harg6 arg7 harg7 arg8 harg8 hc x0 x1 x2 x3 x4 s1 s2).1.2.1, y ∈ pc.1.set :=
  View.cover_of_tiledL (accRunLater c i arg1 harg1 arg2 harg2 arg3 harg3 arg4 harg4 arg5 harg5 arg6 harg6 arg7 harg7 arg8 harg8 hc x0 x1 x2 x3 x4 s1 s2).1.2.1 S64x1.size (by sl_kernel_rfl) y
theorem accCoverLater_s2 (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : ¬resetCond i) (x0 : Vec F S1x64x1024 .f32) (x1 : Vec F S64x9 .f32) (x2 : Vec F S64x1 .f32) (x3 : Vec F S9x1024 .f32) (x4 : Vec F S64x64 .f32) (s1 : Vec F S64x1 .f32) (s2 : Vec F S64x1 .f32) (y : S64x1.Idx) :
    ∃ pc ∈ (accRunLater c i arg1 harg1 arg2 harg2 arg3 harg3 arg4 harg4 arg5 harg5 arg6 harg6 arg7 harg7 arg8 harg8 hc x0 x1 x2 x3 x4 s1 s2).1.2.2, y ∈ pc.1.set :=
  View.cover_of_tiledL (accRunLater c i arg1 harg1 arg2 harg2 arg3 harg3 arg4 harg4 arg5 harg5 arg6 harg6 arg7 harg7 arg8 harg8 hc x0 x1 x2 x3 x4 s1 s2).1.2.2 S64x1.size (by sl_kernel_rfl) y

/-- What the resetting point leaves in the three output buffers: the pieces read back. -/
def accOutFirst (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : resetCond i) (x0 : Vec F S1x64x1024 .f32) (x1 : Vec F S64x9 .f32) (x2 : Vec F S64x1 .f32) (x3 : Vec F S9x1024 .f32) (x4 : Vec F S64x64 .f32) : Vec F S1x64x1024 .f32 × Vec F S64x1 .f32 × Vec F S64x1 .f32 :=
  (yView.read (Elt F) (yView.writes (Elt F) yView.junk (accRunFirst c i arg1 harg1 arg2 harg2 arg3 harg3 arg4 harg4 arg5 harg5 arg6 harg6 arg7 harg7 arg8 harg8 hc x0 x1 x2 x3 x4).1.1),
   s1View.read (Elt F) (s1View.writes (Elt F) s1View.junk (accRunFirst c i arg1 harg1 arg2 harg2 arg3 harg3 arg4 harg4 arg5 harg5 arg6 harg6 arg7 harg7 arg8 harg8 hc x0 x1 x2 x3 x4).1.2.1),
   s2View.read (Elt F) (s2View.writes (Elt F) s2View.junk (accRunFirst c i arg1 harg1 arg2 harg2 arg3 harg3 arg4 harg4 arg5 harg5 arg6 harg6 arg7 harg7 arg8 harg8 hc x0 x1 x2 x3 x4).1.2.2))

/-- What a later point leaves in them, the accumulators found at `s1`, `s2`. -/
def accOutLater (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : ¬resetCond i) (x0 : Vec F S1x64x1024 .f32) (x1 : Vec F S64x9 .f32) (x2 : Vec F S64x1 .f32) (x3 : Vec F S9x1024 .f32) (x4 : Vec F S64x64 .f32) (s1 : Vec F S64x1 .f32) (s2 : Vec F S64x1 .f32) : Vec F S1x64x1024 .f32 × Vec F S64x1 .f32 × Vec F S64x1 .f32 :=
  (yView.read (Elt F) (yView.writes (Elt F) yView.junk (accRunLater c i arg1 harg1 arg2 harg2 arg3 harg3 arg4 harg4 arg5 harg5 arg6 harg6 arg7 harg7 arg8 harg8 hc x0 x1 x2 x3 x4 s1 s2).1.1),
   s1View.read (Elt F) (s1View.writes (Elt F) s1View.junk (accRunLater c i arg1 harg1 arg2 harg2 arg3 harg3 arg4 harg4 arg5 harg5 arg6 harg6 arg7 harg7 arg8 harg8 hc x0 x1 x2 x3 x4 s1 s2).1.2.1),
   s2View.read (Elt F) (s2View.writes (Elt F) s2View.junk (accRunLater c i arg1 harg1 arg2 harg2 arg3 harg3 arg4 harg4 arg5 harg5 arg6 harg6 arg7 harg7 arg8 harg8 hc x0 x1 x2 x3 x4 s1 s2).1.2.2))

/-- THE ACCUMULATION: the three output buffers after the body at position `n` — the first point's reset contents,
    then each point's contents over the accumulators the point before left. -/
def accAt (c : Dev nD) : (n : ℕ) → n < cfg0.N → Vec F S1x64x1024 .f32 × Vec F S64x1 .f32 × Vec F S64x1 .f32
  | 0, hn => accOutFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((resetCond_iff ⟨0, hn⟩).mpr (Nat.zero_mod _)) (accBlk V c 0 ⟨0, hn⟩) (accBlk V c 1 ⟨0, hn⟩) (accBlk V c 2 ⟨0, hn⟩) (accBlk V c 3 ⟨0, hn⟩) (accBlk V c 4 ⟨0, hn⟩)
  | n + 1, hn =>
    if h0 : (n + 1) % 128 = 0 then
      accOutFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((resetCond_iff ⟨n + 1, hn⟩).mpr h0) (accBlk V c 0 ⟨n + 1, hn⟩) (accBlk V c 1 ⟨n + 1, hn⟩) (accBlk V c 2 ⟨n + 1, hn⟩) (accBlk V c 3 ⟨n + 1, hn⟩) (accBlk V c 4 ⟨n + 1, hn⟩)
    else
      accOutLater c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((resetCond_iff ⟨n + 1, hn⟩).mp h)) (accBlk V c 0 ⟨n + 1, hn⟩) (accBlk V c 1 ⟨n + 1, hn⟩) (accBlk V c 2 ⟨n + 1, hn⟩) (accBlk V c 3 ⟨n + 1, hn⟩) (accBlk V c 4 ⟨n + 1, hn⟩) (accAt c n (Nat.lt_of_succ_lt hn)).2.1 (accAt c n (Nat.lt_of_succ_lt hn)).2.2

/-- `accAt` at a resetting point. -/
theorem accAt_first (c : Dev nD) (t : Fin cfg0.N) (h0 : t.val % 128 = 0) :
    accAt V c t.val t.isLt = accOutFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((resetCond_iff t).mpr h0) (accBlk V c 0 t) (accBlk V c 1 t) (accBlk V c 2 t) (accBlk V c 3 t) (accBlk V c 4 t) := by
  obtain ⟨n, hn⟩ := t
  cases n with
  | zero => exact rfl
  | succ n => exact (dif_pos h0).trans rfl

/-- `accAt` at a later point: over what the point before left. -/
theorem accAt_later (c : Dev nD) (t : Fin cfg0.N) (h0 : ¬t.val % 128 = 0) :
    accAt V c t.val t.isLt = accOutLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((resetCond_iff t).mp h)) (accBlk V c 0 t) (accBlk V c 1 t) (accBlk V c 2 t) (accBlk V c 3 t) (accBlk V c 4 t) (accAt V c (t.val - 1) (Nat.lt_of_le_of_lt (Nat.sub_le _ _) t.isLt)).2.1 (accAt V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The pipeline's proof data on core `c`: the arrays as the grid finds them; after the body each input's buffer at
    its block and the outputs' at `accAt`; the scoped rest and the generator register untouched; nothing owed. -/
def accDat (c : Dev nD) : Dat τ (Elt F) Unit ℕ (UR sig nD τ) ℕ cfg0 c where
  A w := V c (Pipeline.arrRef spec0 w)
  after w t := match w with
    | ⟨0, _⟩ => accBlk V c 0 t
    | ⟨1, _⟩ => accBlk V c 1 t
    | ⟨2, _⟩ => accBlk V c 2 t
    | ⟨3, _⟩ => accBlk V c 3 t
    | ⟨4, _⟩ => accBlk V c 4 t
    | ⟨5, _⟩ => (accAt V c t.val t.isLt).1
    | ⟨6, _⟩ => (accAt V c t.val t.isLt).2.1
    | ⟨7, _⟩ => (accAt V c t.val t.isLt).2.2
  Φ _ := Pipeline.ΦA spec0 c
  q _ := fullShare
  owed _ := 0

theorem accA_eq (c : Dev nD) (w : Fin cfg0.W) : (accDat V c).A w = V c (Pipeline.arrRef spec0 w) := by
  dsimp only [accDat]

theorem accAfter0 (c : Dev nD) (t : Fin cfg0.N) : (accDat V c).after 0 t = accBlk V c 0 t := by dsimp only [accDat]
theorem accAfter1 (c : Dev nD) (t : Fin cfg0.N) : (accDat V c).after 1 t = accBlk V c 1 t := by dsimp only [accDat]
theorem accAfter2 (c : Dev nD) (t : Fin cfg0.N) : (accDat V c).after 2 t = accBlk V c 2 t := by dsimp only [accDat]
theorem accAfter3 (c : Dev nD) (t : Fin cfg0.N) : (accDat V c).after 3 t = accBlk V c 3 t := by dsimp only [accDat]
theorem accAfter4 (c : Dev nD) (t : Fin cfg0.N) : (accDat V c).after 4 t = accBlk V c 4 t := by dsimp only [accDat]
theorem accAfter5 (c : Dev nD) (t : Fin cfg0.N) : (accDat V c).after 5 t = (accAt V c t.val t.isLt).1 := by dsimp only [accDat]
theorem accAfter6 (c : Dev nD) (t : Fin cfg0.N) : (accDat V c).after 6 t = (accAt V c t.val t.isLt).2.1 := by dsimp only [accDat]
theorem accAfter7 (c : Dev nD) (t : Fin cfg0.N) : (accDat V c).after 7 t = (accAt V c t.val t.isLt).2.2 := by dsimp only [accDat]

theorem accBefore0 (c : Dev nD) (t : Fin cfg0.N) (d) : (accDat V c).before 0 t d = accBlk V c 0 t :=
  accBlkBefore_of_0 V (accDat V c) (accA_eq V c 0) (accAfter0 V c) t d
theorem accBefore1 (c : Dev nD) (t : Fin cfg0.N) (d) : (accDat V c).before 1 t d = accBlk V c 1 t :=
  accBlkBefore_of_1 V (accDat V c) (accA_eq V c 1) (accAfter1 V c) t d
theorem accBefore2 (c : Dev nD) (t : Fin cfg0.N) (d) : (accDat V c).before 2 t d = accBlk V c 2 t :=
  accBlkBefore_of_2 V (accDat V c) (accA_eq V c 2) (accAfter2 V c) t d
theorem accBefore3 (c : Dev nD) (t : Fin cfg0.N) (d) : (accDat V c).before 3 t d = accBlk V c 3 t :=
  accBlkBefore_of_3 V (accDat V c) (accA_eq V c 3) (accAfter3 V c) t d
theorem accBefore4 (c : Dev nD) (t : Fin cfg0.N) (d) : (accDat V c).before 4 t d = accBlk V c 4 t :=
  accBlkBefore_of_4 V (accDat V c) (accA_eq V c 4) (accAfter4 V c) t d

/-- At a later point the first accumulator's buffer holds what the body left at the point before: the point is not
    the first and the buffer was not written back in between. -/
theorem accBefore6_later (c : Dev nD) (t : Fin cfg0.N) (h0 : ¬t.val % 128 = 0) (d) :
    (accDat V c).before 6 t d = (accAt V c (t.val - 1) (Nat.lt_of_le_of_lt (Nat.sub_le _ _) t.isLt)).2.1 := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [accDat]

/-- The same of the second accumulator. -/
theorem accBefore7_later (c : Dev nD) (t : Fin cfg0.N) (h0 : ¬t.val % 128 = 0) (d) :
    (accDat V c).before 7 t d = (accAt V c (t.val - 1) (Nat.lt_of_le_of_lt (Nat.sub_le _ _) t.isLt)).2.2 := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    (fun _ => rfl) (fun _ _ => rfl)]
  dsimp only [accDat]

/-- What the body is called with at point `t`, the windows one by one, -/
def accBodyPre (c : Dev nD) (t : Fin cfg0.N) : sProp 𝕄 :=
  iprop((accDat V c).Φ t.castSucc ∗ (accDat V c).owesAt () t.castSucc
    ∗ (∃ d, owns (c : Thread nD τ) (ms0_0 t) fullShare ((accDat V c).before 0 t d))
    ∗ (∃ d, owns (c : Thread nD τ) (ms0_1 t) fullShare ((accDat V c).before 1 t d))
    ∗ (∃ d, owns (c : Thread nD τ) (ms0_2 t) fullShare ((accDat V c).before 2 t d))
    ∗ (∃ d, owns (c : Thread nD τ) (ms0_3 t) fullShare ((accDat V c).before 3 t d))
    ∗ (∃ d, owns (c : Thread nD τ) (ms0_4 t) fullShare ((accDat V c).before 4 t d))
    ∗ (∃ d, owns (c : Thread nD τ) (ms0_5 t) fullShare ((accDat V c).before 5 t d))
    ∗ (∃ d, owns (c : Thread nD τ) (ms0_6 t) fullShare ((accDat V c).before 6 t d))
    ∗ (∃ d, owns (c : Thread nD τ) (ms0_7 t) fullShare ((accDat V c).before 7 t d)))

/-- and what it returns. -/
def accBodyPost (c : Dev nD) (t : Fin cfg0.N) : sProp 𝕄 :=
  iprop((accDat V c).Φ t.succ ∗ (accDat V c).owesAt () t.succ
    ∗ owns (c : Thread nD τ) (ms0_0 t) fullShare ((accDat V c).after 0 t)
    ∗ owns (c : Thread nD τ) (ms0_1 t) fullShare ((accDat V c).after 1 t)
    ∗ owns (c : Thread nD τ) (ms0_2 t) fullShare ((accDat V c).after 2 t)
    ∗ owns (c : Thread nD τ) (ms0_3 t) fullShare ((accDat V c).after 3 t)
    ∗ owns (c : Thread nD τ) (ms0_4 t) fullShare ((accDat V c).after 4 t)
    ∗ owns (c : Thread nD τ) (ms0_5 t) fullShare ((accDat V c).after 5 t)
    ∗ owns (c : Thread nD τ) (ms0_6 t) fullShare ((accDat V c).after 6 t)
    ∗ owns (c : Thread nD τ) (ms0_7 t) fullShare ((accDat V c).after 7 t))

set_option maxHeartbeats 4000000 in
/-- The body at any point: the inputs' buffers hold their blocks; the point is the first or a later one; at a later
    one each accumulator's buffer holds what the point before left; so that case's run applies. -/
theorem accSoundBody (c : Dev nD) (t : Fin cfg0.N) :
    accBodyPre V c t ⊢ wp frame (wpE (defs₀ (F := F)) Variants.none c none) Set.univ (bodyAt0 t) (fun _ => accBodyPost V c t) := by
  unfold accBodyPre accBodyPost bodyAt0
  simp only [accBefore0, accBefore1, accBefore2, accBefore3, accBefore4]
  rw [show (accDat V c).Φ t.succ = (accDat V c).Φ t.castSucc from rfl,
    show (accDat V c).owesAt () t.succ = (accDat V c).owesAt () t.castSucc from rfl,
    accAfter0, accAfter1, accAfter2, accAfter3, accAfter4, accAfter5, accAfter6, accAfter7]
  have hN : t.val < 128 := lt_of_lt_of_eq t.isLt (show cfg0.N = 128 from N_0)
  by_cases h0 : t.val % 128 = 0
  · rw [accAt_first V c t h0]
    unfold accOutFirst; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((accRunFirst c (grid0.coords t) _ _ _ _ _ _ _ _ _ _ _ _ _ _ _ _ ((resetCond_iff t).mpr h0) (accBlk V c 0 t) (accBlk V c 1 t) (accBlk V c 2 t) (accBlk V c 3 t) (accBlk V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (accCoverFirst_y c _ _ _ _ _ _ _ _ _ _ _ _ _ _ _ _ _ _ _ _ _ _ _)
    isplitl [H6]
    · unfold owns; iexists _; isplitr
      swap; · iexact H6
      ipureintro; exact View.read_writes_of_cover _ _ _ _ _ (accCoverFirst_s1 c _ _ _ _ _ _ _ _ _ _ _ _ _ _ _ _ _ _ _ _ _ _ _)
    unfold owns; iexists _; isplitr
    swap; · iexact H7
    ipureintro; exact View.read_writes_of_cover _ _ _ _ _ (accCoverFirst_s2 c _ _ _ _ _ _ _ _ _ _ _ _ _ _ _ _ _ _ _ _ _ _ _)
  · rw [accAt_later V c t h0]
    simp only [accBefore6_later V c t h0, accBefore7_later V c t h0]
    unfold accOutLater; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((accRunLater c (grid0.coords t) _ _ _ _ _ _ _ _ _ _ _ _ _ _ _ _ (fun h => h0 ((resetCond_iff t).mp h)) (accBlk V c 0 t) (accBlk V c 1 t) (accBlk V c 2 t) (accBlk V c 3 t) (accBlk V c 4 t) _ _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (accCoverLater_y c _ _ _ _ _ _ _ _ _ _ _ _ _ _ _ _ _ _ _ _ _ _ _ _ _)
    isplitl [H6]
    · unfold owns; iexists _; isplitr
      swap; · iexact H6
      ipureintro; exact View.read_writes_of_cover _ _ _ _ _ (accCoverLater_s1 c _ _ _ _ _ _ _ _ _ _ _ _ _ _ _ _ _ _ _ _ _ _ _ _ _)
    unfold owns; iexists _; isplitr
    swap; · iexact H7
    ipureintro; exact View.read_writes_of_cover _ _ _ _ _ (accCoverLater_s2 c _ _ _ _ _ _ _ _ _ _ _ _ _ _ _ _ _ _ _ _ _ _ _ _ _)

/-- The library's body obligation, at every point. -/
theorem accBodyObligation (c : Dev nD) : BodyObligation (accDat (F := F) V c) (defs₀ (F := F)) Variants.none () Set.univ := fun t => by
  rw [bigSep_W0, bigSep_W0]
  exact accSoundBody V c t

end Cert.ReferenceIdeal.Hand

end
-- ==== Proof.RefNormRun.lean ====
/-
  The normalising grid's body on whole staging buffers. It reads the two accumulated sums, the scale and shift
  parameters and one batch element's pre-normalisation block, and overwrites its output block once; what the
  output buffer holds afterwards is recorded as the list of pieces the stores leave.
-/
import proofs.«162342_g2000606144476369_pallasbulk_1044_23_alg».proof.Proof.Gen.ReferenceIdeal.Launch
import proofs.«162342_g2000606144476369_pallasbulk_1044_23_alg».proof.Proof.Gen.ReferenceIdeal.Skeleton
import proofs.«162342_g2000606144476369_pallasbulk_1044_23_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block's buffer, with the body's triple: the five inputs are
    handed back as found, the output buffer holds the pieces written over whatever it held. -/
noncomputable def normRun (c : Dev nD) (i : grid1.Coords)
    (arg1 : Memref sig .tc .vmem S1x64x1024 .f32) (harg1 : arg1.IsWhole) (arg2 : Memref sig .tc .vmem S64x1 .f32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole) (arg6 : Memref sig .tc .vmem S1x64x1024 .f32) (harg6 : arg6.IsWhole)
    (x0 : Vec F S1x64x1024 .f32) (x1 : Vec F S64x1 .f32) (x2 : Vec F S64x1 .f32) (x3 : Vec F S64x1 .f32) (x4 : Vec F S64x1 .f32) :
    { L5 : List (View.Piece (Elt F) S1x64x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)) -∗ K ⟨⟩))
          ⊢ wp frame (wpE (defs₀ (F := F)) Variants.none c none) E (cc1__kernel_body i arg1 harg1 arg2 harg2 arg3 harg3 arg4 harg4 arg5 harg5 arg6 harg6) K } := by
  refine ⟨?_, fun E K => ?run⟩
  case run =>
    simp only [cc1__kernel_body_eq_skeleton]; unfold cc1__kernel_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.ReferenceIdeal.Hand

end
-- ==== Proof.RefNormFrame.lean ====
/-
  The normalising grid of the reference as a pipeline: at each of its 128 points the five input buffers hold
  their blocks (the batch element's pre-normalisation block; the two sums, the scale and the shift parameters
  whole) and the body leaves in the output buffer the pieces its one store writes, read back as a block.
-/
import proofs.«162342_g2000606144476369_pallasbulk_1044_23_alg».proof.Proof.RefNormRun

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the grid finds it. -/
def normBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every point, whether the pipeline fetched it there or not. -/
theorem normBlkBefore_of_0 {c : Dev nD} (dat : Dat τ (Elt F) Unit ℕ (UR sig nD τ) ℕ cfg1 c) (hA : dat.A 0 = V c (Pipeline.arrRef spec1 0))
    (hafter : ∀ t, dat.after 0 t = normBlk V c 0 t) (t : Fin cfg1.N) (d) : dat.before 0 t d = normBlk V c 0 t :=
  (dat.before_in_eq_fetched 0 rfl (fun _ => rfl) (fun _ _ _ => rfl) (fun t => by rw [hafter]; unfold Dat.blockOf normBlk; rw [hA]; try rfl) t d).trans
    (by unfold Dat.fetched Dat.blockOf normBlk; rw [hA]; try rfl)
theorem normBlkBefore_of_1 {c : Dev nD} (dat : Dat τ (Elt F) Unit ℕ (UR sig nD τ) ℕ cfg1 c) (hA : dat.A 1 = V c (Pipeline.arrRef spec1 1))
    (hafter : ∀ t, dat.after 1 t = normBlk V c 1 t) (t : Fin cfg1.N) (d) : dat.before 1 t d = normBlk V c 1 t :=
  (dat.before_in_eq_fetched 1 rfl (fun _ => rfl) (fun _ _ _ => rfl) (fun t => by rw [hafter]; unfold Dat.blockOf normBlk; rw [hA]; try rfl) t d).trans
    (by unfold Dat.fetched Dat.blockOf normBlk; rw [hA]; try rfl)
theorem normBlkBefore_of_2 {c : Dev nD} (dat : Dat τ (Elt F) Unit ℕ (UR sig nD τ) ℕ cfg1 c) (hA : dat.A 2 = V c (Pipeline.arrRef spec1 2))
    (hafter : ∀ t, dat.after 2 t = normBlk V c 2 t) (t : Fin cfg1.N) (d) : dat.before 2 t d = normBlk V c 2 t :=
  (dat.before_in_eq_fetched 2 rfl (fun _ => rfl) (fun _ _ _ => rfl) (fun t => by rw [hafter]; unfold Dat.blockOf normBlk; rw [hA]; try rfl) t d).trans
    (by unfold Dat.fetched Dat.blockOf normBlk; rw [hA]; try rfl)
theorem normBlkBefore_of_3 {c : Dev nD} (dat : Dat τ (Elt F) Unit ℕ (UR sig nD τ) ℕ cfg1 c) (hA : dat.A 3 = V c (Pipeline.arrRef spec1 3))
    (hafter : ∀ t, dat.after 3 t = normBlk V c 3 t) (t : Fin cfg1.N) (d) : dat.before 3 t d = normBlk V c 3 t :=
  (dat.before_in_eq_fetched 3 rfl (fun _ => rfl) (fun _ _ _ => rfl) (fun t => by rw [hafter]; unfold Dat.blockOf normBlk; rw [hA]; try rfl) t d).trans
    (by unfold Dat.fetched Dat.blockOf normBlk; rw [hA]; try rfl)
theorem normBlkBefore_of_4 {c : Dev nD} (dat : Dat τ (Elt F) Unit ℕ (UR sig nD τ) ℕ cfg1 c) (hA : dat.A 4 = V c (Pipeline.arrRef spec1 4))
    (hafter : ∀ t, dat.after 4 t = normBlk V c 4 t) (t : Fin cfg1.N) (d) : dat.before 4 t d = normBlk V c 4 t :=
  (dat.before_in_eq_fetched 4 rfl (fun _ => rfl) (fun _ _ _ => rfl) (fun t => by rw [hafter]; unfold Dat.blockOf normBlk; rw [hA]; try rfl) t d).trans
    (by unfold Dat.fetched Dat.blockOf normBlk; rw [hA]; try rfl)

/-- One staging buffer of the output window, through which its contents are stated. -/
abbrev normOutView : View sig .tc .vmem S1x64x1024 .f32 := (Memref.whole cc1_stg5_0 : Memref sig .tc .vmem S1x64x1024 .f32).view
abbrev ms1_0 (t : Fin cfg1.N) : Memref sig .tc .vmem S1x64x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x1024 .f32 := win1_5.stage (cfg1.slots t 5)
abbrev hs1_5 (t : Fin cfg1.N) : (ms1_5 t).IsWhole := hstage1_5 ((cfg1.slots t 5).cast nbuf1_5)

/-- The body's pieces for the output tile its block, so they cover it. -/
theorem normCover (c : Dev nD) (i : grid1.Coords) (arg1 : Memref sig .tc .vmem S1x64x1024 .f32) (harg1 : arg1.IsWhole) (arg2 : Memref sig .tc .vmem S64x1 .f32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole) (arg6 : Memref sig .tc .vmem S1x64x1024 .f32) (harg6 : arg6.IsWhole)
    (x0 : Vec F S1x64x1024 .f32) (x1 : Vec F S64x1 .f32) (x2 : Vec F S64x1 .f32) (x3 : Vec F S64x1 .f32) (x4 : Vec F S64x1 .f32) (y : S1x64x1024.Idx) :
    ∃ pc ∈ (normRun c i arg1 harg1 arg2 harg2 arg3 harg3 arg4 harg4 arg5 harg5 arg6 harg6 x0 x1 x2 x3 x4).1, y ∈ pc.1.set :=
  View.cover_of_tiledL (normRun c i arg1 harg1 arg2 harg2 arg3 harg3 arg4 harg4 arg5 harg5 arg6 harg6 x0 x1 x2 x3 x4).1 S1x64x1024.size (by sl_kernel_rfl) y

/-- What the body leaves in the output's staging buffer: its pieces read back. -/
def normOut (c : Dev nD) (i : grid1.Coords) (arg1 : Memref sig .tc .vmem S1x64x1024 .f32) (harg1 : arg1.IsWhole) (arg2 : Memref sig .tc .vmem S64x1 .f32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole) (arg6 : Memref sig .tc .vmem S1x64x1024 .f32) (harg6 : arg6.IsWhole)
    (x0 : Vec F S1x64x1024 .f32) (x1 : Vec F S64x1 .f32) (x2 : Vec F S64x1 .f32) (x3 : Vec F S64x1 .f32) (x4 : Vec F S64x1 .f32) : Vec F S1x64x1024 .f32 :=
  normOutView.read (Elt F) (normOutView.writes (Elt F) normOutView.junk (normRun c i arg1 harg1 arg2 harg2 arg3 harg3 arg4 harg4 arg5 harg5 arg6 harg6 x0 x1 x2 x3 x4).1)

/-- The output block after the body at point `t`. -/
def normAt (c : Dev nD) (t : Fin cfg1.N) : Vec F S1x64x1024 .f32 :=
  normOut c (grid1.coords t) (ms1_0 t) (hs1_0 t) (ms1_1 t) (hs1_1 t) (ms1_2 t) (hs1_2 t) (ms1_3 t) (hs1_3 t) (ms1_4 t) (hs1_4 t) (ms1_5 t) (hs1_5 t) (normBlk V c 0 t) (normBlk V c 1 t) (normBlk V c 2 t) (normBlk V c 3 t) (normBlk V c 4 t)

/-- The pipeline's proof data on core `c`: the arrays as the grid finds them; after the body each input's buffer at
    its block and the output's at `normAt`; the scoped rest and the generator register untouched; nothing owed. -/
def normDat (c : Dev nD) : Dat τ (Elt F) Unit ℕ (UR sig nD τ) ℕ cfg1 c where
  A w := V c (Pipeline.arrRef spec1 w)
  after w t := match w with
    | ⟨0, _⟩ => normBlk V c 0 t
    | ⟨1, _⟩ => normBlk V c 1 t
    | ⟨2, _⟩ => normBlk V c 2 t
    | ⟨3, _⟩ => normBlk V c 3 t
    | ⟨4, _⟩ => normBlk V c 4 t
    | ⟨5, _⟩ => normAt V c t
  Φ _ := Pipeline.ΦA spec1 c
  q _ := fullShare
  owed _ := 0

theorem normA_eq (c : Dev nD) (w : Fin cfg1.W) : (normDat V c).A w = V c (Pipeline.arrRef spec1 w) := by
  dsimp only [normDat]

theorem normAfter0 (c : Dev nD) (t : Fin cfg1.N) : (normDat V c).after 0 t = normBlk V c 0 t := by dsimp only [normDat]
theorem normAfter1 (c : Dev nD) (t : Fin cfg1.N) : (normDat V c).after 1 t = normBlk V c 1 t := by dsimp only [normDat]
theorem normAfter2 (c : Dev nD) (t : Fin cfg1.N) : (normDat V c).after 2 t = normBlk V c 2 t := by dsimp only [normDat]
theorem normAfter3 (c : Dev nD) (t : Fin cfg1.N) : (normDat V c).after 3 t = normBlk V c 3 t := by dsimp only [normDat]
theorem normAfter4 (c : Dev nD) (t : Fin cfg1.N) : (normDat V c).after 4 t = normBlk V c 4 t := by dsimp only [normDat]
theorem normAfter5 (c : Dev nD) (t : Fin cfg1.N) : (normDat V c).after 5 t = normAt V c t := by dsimp only [normDat]

theorem normBefore0 (c : Dev nD) (t : Fin cfg1.N) (d) : (normDat V c).before 0 t d = normBlk V c 0 t :=
  normBlkBefore_of_0 V (normDat V c) (normA_eq V c 0) (normAfter0 V c) t d
theorem normBefore1 (c : Dev nD) (t : Fin cfg1.N) (d) : (normDat V c).before 1 t d = normBlk V c 1 t :=
  normBlkBefore_of_1 V (normDat V c) (normA_eq V c 1) (normAfter1 V c) t d
theorem normBefore2 (c : Dev nD) (t : Fin cfg1.N) (d) : (normDat V c).before 2 t d = normBlk V c 2 t :=
  normBlkBefore_of_2 V (normDat V c) (normA_eq V c 2) (normAfter2 V c) t d
theorem normBefore3 (c : Dev nD) (t : Fin cfg1.N) (d) : (normDat V c).before 3 t d = normBlk V c 3 t :=
  normBlkBefore_of_3 V (normDat V c) (normA_eq V c 3) (normAfter3 V c) t d
theorem normBefore4 (c : Dev nD) (t : Fin cfg1.N) (d) : (normDat V c).before 4 t d = normBlk V c 4 t :=
  normBlkBefore_of_4 V (normDat V c) (normA_eq V c 4) (normAfter4 V c) t d

/-- What the body is called with at point `t`, the windows one by one, -/
def normBodyPre (c : Dev nD) (t : Fin cfg1.N) : sProp 𝕄 :=
  iprop((normDat V c).Φ t.castSucc ∗ (normDat V c).owesAt () t.castSucc
    ∗ (∃ d, owns (c : Thread nD τ) (ms1_0 t) fullShare ((normDat V c).before 0 t d))
    ∗ (∃ d, owns (c : Thread nD τ) (ms1_1 t) fullShare ((normDat V c).before 1 t d))
    ∗ (∃ d, owns (c : Thread nD τ) (ms1_2 t) fullShare ((normDat V c).before 2 t d))
    ∗ (∃ d, owns (c : Thread nD τ) (ms1_3 t) fullShare ((normDat V c).before 3 t d))
    ∗ (∃ d, owns (c : Thread nD τ) (ms1_4 t) fullShare ((normDat V c).before 4 t d))
    ∗ (∃ d, owns (c : Thread nD τ) (ms1_5 t) fullShare ((normDat V c).before 5 t d)))

/-- and what it returns. -/
def normBodyPost (c : Dev nD) (t : Fin cfg1.N) : sProp 𝕄 :=
  iprop((normDat V c).Φ t.succ ∗ (normDat V c).owesAt () t.succ
    ∗ owns (c : Thread nD τ) (ms1_0 t) fullShare ((normDat V c).after 0 t)
    ∗ owns (c : Thread nD τ) (ms1_1 t) fullShare ((normDat V c).after 1 t)
    ∗ owns (c : Thread nD τ) (ms1_2 t) fullShare ((normDat V c).after 2 t)
    ∗ owns (c : Thread nD τ) (ms1_3 t) fullShare ((normDat V c).after 3 t)
    ∗ owns (c : Thread nD τ) (ms1_4 t) fullShare ((normDat V c).after 4 t)
    ∗ owns (c : Thread nD τ) (ms1_5 t) fullShare ((normDat V c).after 5 t))

set_option maxHeartbeats 1600000 in
/-- The body at any point: the inputs' buffers hold their blocks, so the run applies; the invariant and the core's
    debts pass through unread. -/
theorem normSoundBody (c : Dev nD) (t : Fin cfg1.N) :
    normBodyPre V c t ⊢ wp frame (wpE (defs₀ (F := F)) Variants.none c none) Set.univ (bodyAt1 t) (fun _ => normBodyPost V c t) := by
  unfold normBodyPre normBodyPost bodyAt1
  simp only [normBefore0, normBefore1, normBefore2, normBefore3, normBefore4]
  rw [show (normDat V c).Φ t.succ = (normDat V c).Φ t.castSucc from rfl,
    show (normDat V c).owesAt () t.succ = (normDat V c).owesAt () t.castSucc from rfl,
    normAfter0, normAfter1, normAfter2, normAfter3, normAfter4, normAfter5]
  unfold normAt normOut
  iintro ⟨HΦ, Ho, ⟨%d0, H0⟩, ⟨%d1, H1⟩, ⟨%d2, H2⟩, ⟨%d3, H3⟩, ⟨%d4, H4⟩, ⟨%d5, H5⟩⟩
  iapply ((normRun c (grid1.coords t) _ _ _ _ _ _ _ _ _ _ _ _ (normBlk V c 0 t) (normBlk V c 1 t) (normBlk V c 2 t) (normBlk V c 3 t) (normBlk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (normCover c _ _ _ _ _ _ _ _ _ _ _ _ _ _ _ _ _ _)

/-- The library's body obligation, at every point. -/
theorem normBodyObligation (c : Dev nD) : BodyObligation (normDat (F := F) V c) (defs₀ (F := F)) Variants.none () Set.univ := fun t => by
  rw [bigSep_W1, bigSep_W1]
  exact normSoundBody V c t

end Cert.ReferenceIdeal.Hand

end
-- ==== Proof.RefFrame.lean ====
/-
  The reference's @main as four segments — the host stretch that reshapes the arguments, folds θ into the weights
  and builds the nine tap masks; the convolution grid; the normalising grid; the final reshape — and its run from
  any memory: it terminates without a fault, every argument ends as launched, and the result buffer ends at the
  contents the fold through the four segments names.
-/
import proofs.«162342_g2000606144476369_pallasbulk_1044_23_alg».proof.Proof.RefAccFrame
import proofs.«162342_g2000606144476369_pallasbulk_1044_23_alg».proof.Proof.RefNormFrame
import Idealize.ShloMosaic.Lib.Pipeline.RegionsLoop
import Idealize.ShloMosaic.Lib.Pipeline.FrameSuffix

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch: what the convolution grid is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the convolution grid: its arrays at what its write-backs leave, every other buffer as entered. -/
def W2 (c : Dev nD) : Valuation τ sig (Elt F) :=
  Pipeline.withArrays spec0 c (W1 m ρ c) fun w => (accDat (V1 m ρ) c).arrAt w cfg0.N
theorem W2_arr (c : Dev nD) (w : Fin cfg0.W) :
    W2 m ρ c (Proc.devRef .tc (Pipeline.arrRef spec0 w)) = (accDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (accDat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the normalising grid (entered straight from the convolution grid's exit contents). -/
def W3 (c : Dev nD) : Valuation τ sig (Elt F) :=
  Pipeline.withArrays spec1 c (W2 m ρ c) fun w => (normDat (V2 m ρ) c).arrAt w cfg1.N
theorem W3_arr (c : Dev nD) (w : Fin cfg1.W) :
    W3 m ρ c (Proc.devRef .tc (Pipeline.arrRef spec1 w)) = (normDat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (normDat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the final reshape. -/
abbrev W4 : Dev nD → Valuation τ sig (Elt F) := fun c => StableHlo.after hostOps2 (W3 m ρ c)

/-! ## The arguments end as launched -/

set_option maxHeartbeats 4000000 in
/-- Argument 0 is written by no host operation and by neither grid, so it ends as launched. -/
theorem end_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg0) := rfl
set_option maxHeartbeats 4000000 in
/-- Argument 1 is written by no host operation and by neither grid, so it ends as launched. -/
theorem end_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg1) := rfl
set_option maxHeartbeats 4000000 in
/-- Argument 2 is written by no host operation and by neither grid, so it ends as launched. -/
theorem end_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg2) := rfl
set_option maxHeartbeats 4000000 in
/-- Argument 3 is written by no host operation and by neither grid, so it ends as launched. -/
theorem end_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg3) := rfl
set_option maxHeartbeats 4000000 in
/-- Argument 4 is written by no host operation and by neither grid, so it ends as launched. -/
theorem end_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.nary_writes, StableHlo.reshape_writes, Finset.mem_singleton]
          repeat' apply And.intro
          all_goals exact StableHlo.devRef_ne_of_ne (by decide)))
    _ = m ((c : Thread nD τ).loc main_arg4) := rfl

/-! ## The proof data family and the thread state -/

/-- Neither pipeline has a prefetched table. -/
abbrev adm : (p : Fin 2) → (pcfgs (F := F) p).Adm := fun p => (cfgs p).toPCfg_adm
/-- Each pipeline's proof data at its grid's entry contents. -/
def pdats : (p : Fin 2) → (c : Dev nD) → Dat τ (Elt F) Unit ℕ (UR sig nD τ) ℕ (Pipeline.pin (pcfgs (F := F)) adm p) c
  | ⟨0, _⟩ => fun c => accDat (V1 m ρ) c
  | ⟨1, _⟩ => fun c => normDat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the long host stretch allocates a buffer. -/
theorem hostOps0_fresh : (hostOps0 : List (HloOp τ sig (Elt F))).Forall fun op => op.fresh = ∅ := by
  simp only [List.Forall]; repeat' constructor
/-- Nor does the final reshape. -/
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W4 m ρ c) ∗ ∃ r, prngReg c r)

/-! ## The two grids as segments -/

set_option backward.isDefEq.respectTransparency.types false in
/-- THE CONVOLUTION GRID over the thread state: entered from every unscoped buffer at the entry contents, left at the exit
    contents. Its arrays are split out of the unscoped buffers at entry and put back at what the write-backs leave
    at exit; the generator register goes into the pipeline's invariant and comes back; nothing is owed and the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (accBodyObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE NORMALISING GRID over the thread state: entered from every unscoped buffer at the entry contents, left at the exit
    contents. Its arrays are split out of the unscoped buffers at entry and put back at what the write-backs leave
    at exit; the generator register goes into the pipeline's invariant and comes back; nothing is owed and the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (normBodyObligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

set_option maxHeartbeats 4000000 in
/-- @main is the run of its segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with the result buffer at the fold's final contents and the five arguments as launched. -/
theorem run : θ_run defs (onTc (τ := τ) (main (F := F))) ⟨m, fun _ => 0, ρ⟩ (fun r => ∀ c : Dev nD,
      r.2.mem ((c.tc : Thread nD τ).loc main_v225) = W4 m ρ c (Proc.devRef .tc main_v225)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v225 (by decide)),
       (h c _ (mem_uc main_arg0 (by decide))).trans (end_main_arg0 m ρ c),
       (h c _ (mem_uc main_arg1 (by decide))).trans (end_main_arg1 m ρ c),
       (h c _ (mem_uc main_arg2 (by decide))).trans (end_main_arg2 m ρ c),
       (h c _ (mem_uc main_arg3 (by decide))).trans (end_main_arg3 m ρ c),
       (h c _ (mem_uc main_arg4 (by decide))).trans (end_main_arg4 m ρ c)⟩)

/-- THE FRAME: the run with the result's contents forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.ReferenceIdeal.Hand

end
-- ==== Proof.KerRun.lean ====
/-
  The idealised kernel's run with its result named: from any memory the program terminates without a fault, the
  five arguments end as launched, and the result buffer ends at the contents the fold through @main's five segments
  (host stretch, first grid, host stretch, second grid, final reshape) gives it.
-/
import proofs.«162342_g2000606144476369_pallasbulk_1044_23_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the generated segments, the last thread state read at the result buffer as well as at the
    arguments. -/
theorem run : θ_run defs (onTc (τ := τ) (main (F := F))) ⟨m, fun _ => 0, ρ⟩ (fun r => ∀ c : Dev nD,
      r.2.mem ((c.tc : Thread nD τ).loc main_v41) = W5 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v41 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Hand

end
-- ==== Proof.RefValueLib.lean ====
/-
  Small facts shared by the value modules: zero offsets however spelt, a column broadcast over the lanes read at an
  index, and pointwise readings of the vector operations the payloads use.
-/
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost

noncomputable section

namespace Cert.ReferenceIdeal.Hand

open Idealize.ShloMosaic Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- An `[a, 1]` column broadcast to `[a, b]` reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Batch normalisation of one entry y of a channel whose sum over the batch is s1 and sum of squares s2, with the
    channel's γ and β: mean = s1·n⁻¹, variance = s2·n⁻¹ − mean², scale = rsqrt(variance + ε)·γ, shift = β − mean·scale,
    and the entry is y·scale + shift (n⁻¹ and ε as the program spells them). -/
def bnEntry (y s1 s2 ga be : EReal) : EReal :=
  y * (Ideal.rsqrt (s2 * Ideal.ofBits .f32 0x37000000#32
        - s1 * Ideal.ofBits .f32 0x37000000#32 * (s1 * Ideal.ofBits .f32 0x37000000#32)
        + Ideal.ofBits .f32 0x3727C5AC#32) * ga)
    + (be - s1 * Ideal.ofBits .f32 0x37000000#32
        * (Ideal.rsqrt (s2 * Ideal.ofBits .f32 0x37000000#32
            - s1 * Ideal.ofBits .f32 0x37000000#32 * (s1 * Ideal.ofBits .f32 0x37000000#32)
            + Ideal.ofBits .f32 0x3727C5AC#32) * ga))

/-- The reciprocal square root of a vector, entry by entry. -/
theorem rsqrt_apply {s : Shape} {φ : FTy} (a : FVec Ideal s φ) (i : s.Idx) : rsqrt a i = Ideal.rsqrt (a i) := rfl

end Cert.ReferenceIdeal.Hand

end
-- ==== Proof.RefValueNormPiece.lean ====
/-
  The normalising grid's body as a value: what its one store leaves in the output block is the payload of the five
  blocks it loads, and that payload entry by entry: the block's entry times the channel's scale plus its shift, the
  scale and shift computed from the two sums, γ and β as batch normalisation does.
-/
import proofs.«162342_g2000606144476369_pallasbulk_1044_23_alg».proof.Proof.RefNormFrame
import proofs.«162342_g2000606144476369_pallasbulk_1044_23_alg».proof.Proof.RefValueLib

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The output block after the body: the payload of the loaded blocks (the two sums, the scale and shift
    parameters, the batch element's pre-normalisation block). -/
theorem normOut_eq (c : Dev nD) (i : grid1.Coords) (arg1 : Memref sig .tc .vmem S1x64x1024 .f32) (harg1 : arg1.IsWhole) (arg2 : Memref sig .tc .vmem S64x1 .f32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole) (arg6 : Memref sig .tc .vmem S1x64x1024 .f32) (harg6 : arg6.IsWhole)
    (x0 : Vec F S1x64x1024 .f32) (x1 : Vec F S64x1 .f32) (x2 : Vec F S64x1 .f32) (x3 : Vec F S64x1 .f32) (x4 : Vec F S64x1 .f32) :
    normOut c i arg1 harg1 arg2 harg2 arg3 harg3 arg4 harg4 arg5 harg5 arg6 harg6 x0 x1 x2 x3 x4 = k1_pay1 x1 x2 x3 x4 x0 := by
  unfold normOut
  rw [View.read_writes_eq_canon _ _ _ (normCover c i arg1 harg1 arg2 harg2 arg3 harg3 arg4 harg4 arg5 harg5 arg6 harg6 x0 x1 x2 x3 x4)]
  unfold normRun
  dsimp only
  rw [View.canon_unit_zero hz3]
  simp only [View.readAt_eq_ld, harg1.read_unread, harg2.read_unread, harg3.read_unread, harg4.read_unread, harg5.read_unread,
    View.ld_unit_zero (S := S1x64x1024) hz3, View.ld_unit_zero (S := S64x1) hz2]

/-- The payload at channel `o`, lane `l`: with mean = s1·n⁻¹, variance = s2·n⁻¹ − mean², scale = rsqrt(variance + ε)·γ
    and shift = β − mean·scale, the entry is y·scale + shift. -/
theorem k1_pay1_apply (s1 s2 ga be : Vec Ideal S64x1 .f32) (y : Vec Ideal S1x64x1024 .f32) (o : Fin 64) (l : Fin 1024) :
    k1_pay1 (F := Ideal) s1 s2 ga be y (ix3 (0 : Fin 1) o l)
      = bnEntry (y (ix3 (0 : Fin 1) o l)) (s1 (ix2 o (0 : Fin 1))) (s2 (ix2 o (0 : Fin 1))) (ga (ix2 o (0 : Fin 1))) (be (ix2 o (0 : Fin 1))) := by
  unfold k1_pay1
  refine (shapeCast_ab_1ab_apply _ _ 0 o l).trans ?_
  rw [addf_apply, mulf_apply, shapeCast_1ab_ab_apply, broadcastTo_a1_ab_apply, broadcastTo_a1_ab_apply]
  simp only [shapeCast_self]
  rfl

end Cert.ReferenceIdeal.Hand

end
-- ==== Proof.RefValueNormArr.lean ====
/-
  From the normalising grid's blocks to its output array, and through the final reshape: entry (b, o, h, w) of the
  result is entry (0, o, 32 h + w) of the block the body leaves at point b.
-/
import proofs.«162342_g2000606144476369_pallasbulk_1044_23_alg».proof.Proof.RefFrame
import proofs.«162342_g2000606144476369_pallasbulk_1044_23_alg».proof.Proof.RefValueNormPiece
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The printed index maps of the normalising grid, decided over its 128 points: the batch element's block and the
    output's block sit at block index (t, 0, 0), the four per-channel columns at (0, 0). -/
theorem normIdx : ∀ t : Fin cfg1.N,
    win1_0.index t (0 : Fin 3) = t.val ∧ win1_0.index t (1 : Fin 3) = 0 ∧ win1_0.index t (2 : Fin 3) = 0
    ∧ win1_5.index t (0 : Fin 3) = t.val ∧ win1_5.index t (1 : Fin 3) = 0 ∧ win1_5.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem lt128 (t : Fin cfg1.N) : t.val < 128 := lt_of_lt_of_eq t.isLt N_1

variable (V : (c : Dev nD) → (b : Ref sig .tc) → Buf (Elt F) ((c : Thread nD τ).loc b))

/-- The batch element's block at point t is row t of the pre-normalisation array. -/
theorem normBlk0_apply (c : Dev nD) (t : Fin cfg1.N) (o : Fin 64) (l : Fin 1024) :
    (normBlk V c 0 t : Vec F S1x64x1024 .f32) (ix3 (0 : Fin 1) o l) = (V c main_v223_0 : S128x64x1024.Idx → F .f32) (ix3 (⟨t.val, lt128 t⟩ : Fin 128) o l) := by
  obtain ⟨e0, e1, e2, -⟩ := normIdx t
  unfold normBlk
  rw [View.read_apply]
  show V c main_v223_0 (((cfg1.win 0).blk t).view.emb (ix3 (0 : Fin 1) o l)) = _
  refine congrArg _ (funext fun a => Fin.ext ?_)
  match a with
  | ⟨0, _⟩ => show win1_0.index t (0 : Fin 3) * 1 + 1 * 0 = t.val; omega
  | ⟨1, _⟩ => show win1_0.index t (1 : Fin 3) * 64 + 1 * o.val = o.val; omega
  | ⟨2, _⟩ => show win1_0.index t (2 : Fin 3) * 1024 + 1 * l.val = l.val; omega

/-- Each per-channel column's block is the column itself. -/
theorem normBlk1_apply (c : Dev nD) (t : Fin cfg1.N) (o : Fin 64) :
    (normBlk V c 1 t : Vec F S64x1 .f32) (ix2 o (0 : Fin 1)) = (V c main_v223_1 : S64x1.Idx → F .f32) (ix2 o (0 : Fin 1)) := by
  obtain ⟨-, -, -, -, -, -, e0, e1, -⟩ := normIdx t
  unfold normBlk
  rw [View.read_apply]
  show V c main_v223_1 (((cfg1.win 1).blk t).view.emb (ix2 o (0 : Fin 1))) = _
  refine congrArg _ (funext fun a => Fin.ext ?_)
  match a with
  | ⟨0, _⟩ => show win1_1.index t (0 : Fin 2) * 64 + 1 * o.val = o.val; omega
  | ⟨1, _⟩ => show win1_1.index t (1 : Fin 2) * 1 + 1 * 0 = 0; omega
theorem normBlk2_apply (c : Dev nD) (t : Fin cfg1.N) (o : Fin 64) :
    (normBlk V c 2 t : Vec F S64x1 .f32) (ix2 o (0 : Fin 1)) = (V c main_v223_2 : S64x1.Idx → F .f32) (ix2 o (0 : Fin 1)) := by
  obtain ⟨-, -, -, -, -, -, -, -, e0, e1, -⟩ := normIdx t
  unfold normBlk
  rw [View.read_apply]
  show V c main_v223_2 (((cfg1.win 2).blk t).view.emb (ix2 o (0 : Fin 1))) = _
  refine congrArg _ (funext fun a => Fin.ext ?_)
  match a with
  | ⟨0, _⟩ => show win1_2.index t (0 : Fin 2) * 64 + 1 * o.val = o.val; omega
  | ⟨1, _⟩ => show win1_2.index t (1 : Fin 2) * 1 + 1 * 0 = 0; omega
theorem normBlk3_apply (c : Dev nD) (t : Fin cfg1.N) (o : Fin 64) :
    (normBlk V c 3 t : Vec F S64x1 .f32) (ix2 o (0 : Fin 1)) = (V c main_v221 : S64x1.Idx → F .f32) (ix2 o (0 : Fin 1)) := by
  obtain ⟨-, -, -, -, -, -, -, -, -, -, e0, e1, -⟩ := normIdx t
  unfold normBlk
  rw [View.read_apply]
  show V c main_v221 (((cfg1.win 3).blk t).view.emb (ix2 o (0 : Fin 1))) = _
  refine congrArg _ (funext fun a => Fin.ext ?_)
  match a with
  | ⟨0, _⟩ => show win1_3.index t (0 : Fin 2) * 64 + 1 * o.val = o.val; omega
  | ⟨1, _⟩ => show win1_3.index t (1 : Fin 2) * 1 + 1 * 0 = 0; omega
theorem normBlk4_apply (c : Dev nD) (t : Fin cfg1.N) (o : Fin 64) :
    (normBlk V c 4 t : Vec F S64x1 .f32) (ix2 o (0 : Fin 1)) = (V c main_v222 : S64x1.Idx → F .f32) (ix2 o (0 : Fin 1)) := by
  obtain ⟨-, -, -, -, -, -, -, -, -, -, -, -, e0, e1⟩ := normIdx t
  unfold normBlk
  rw [View.read_apply]
  show V c main_v222 (((cfg1.win 4).blk t).view.emb (ix2 o (0 : Fin 1))) = _
  refine congrArg _ (funext fun a => Fin.ext ?_)
  match a with
  | ⟨0, _⟩ => show win1_4.index t (0 : Fin 2) * 64 + 1 * o.val = o.val; omega
  | ⟨1, _⟩ => show win1_4.index t (1 : Fin 2) * 1 + 1 * 0 = 0; omega

section AtIdeal
variable (V : (c : Dev nD) → (b : Ref sig .tc) → Buf (Elt Ideal) ((c : Thread nD τ).loc b))

/-- The output block at point t, entry (0, o, l): batch normalisation of entry (t, o, l) of the pre-normalisation
    array with the channel's two sums, γ and β. -/
theorem normAt_apply (c : Dev nD) (t : Fin cfg1.N) (o : Fin 64) (l : Fin 1024) :
    normAt (F := Ideal) V c t (ix3 (0 : Fin 1) o l)
      = bnEntry ((V c main_v223_0 : S128x64x1024.Idx → EReal) (ix3 (⟨t.val, lt128 t⟩ : Fin 128) o l))
          ((V c main_v223_1 : S64x1.Idx → EReal) (ix2 o (0 : Fin 1))) ((V c main_v223_2 : S64x1.Idx → EReal) (ix2 o (0 : Fin 1)))
          ((V c main_v221 : S64x1.Idx → EReal) (ix2 o (0 : Fin 1))) ((V c main_v222 : S64x1.Idx → EReal) (ix2 o (0 : Fin 1))) := by
  unfold normAt
  rw [normOut_eq]
  refine (k1_pay1_apply (normBlk V c 1 t) (normBlk V c 2 t) (normBlk V c 3 t) (normBlk V c 4 t) (normBlk V c 0 t) o l).trans ?_
  rw [normBlk0_apply (F := Ideal) V c t o l, normBlk1_apply (F := Ideal) V c t o, normBlk2_apply (F := Ideal) V c t o,
    normBlk3_apply (F := Ideal) V c t o, normBlk4_apply (F := Ideal) V c t o]

/-- The normalised array as one function of the arrays the grid is entered from. -/
def normG (c : Dev nD) : S128x64x1024.Idx → EReal := fun i =>
  bnEntry ((V c main_v223_0 : S128x64x1024.Idx → EReal) i)
    ((V c main_v223_1 : S64x1.Idx → EReal) (ix2 (⟨(i 1).val, (i 1).isLt⟩ : Fin 64) (0 : Fin 1)))
    ((V c main_v223_2 : S64x1.Idx → EReal) (ix2 (⟨(i 1).val, (i 1).isLt⟩ : Fin 64) (0 : Fin 1)))
    ((V c main_v221 : S64x1.Idx → EReal) (ix2 (⟨(i 1).val, (i 1).isLt⟩ : Fin 64) (0 : Fin 1)))
    ((V c main_v222 : S64x1.Idx → EReal) (ix2 (⟨(i 1).val, (i 1).isLt⟩ : Fin 64) (0 : Fin 1)))

/-- What point t writes back is block t of that function. -/
theorem normFlushed_eq (c : Dev nD) (t : Fin cfg1.N) :
    (normDat V c).flushed 5 t = ((cfg1.win 5).blk t).view.read (Elt Ideal) (normG V c) := by
  show (cfg1.win 5).cut (grid1.coords t) ((normDat V c).after 5 t) = _
  rw [normAfter5]
  obtain ⟨-, -, -, e0, e1, e2, -⟩ := normIdx t
  funext y
  obtain ⟨u, o, l, rfl⟩ : ∃ (u : Fin 1) (o : Fin 64) (l : Fin 1024), y = ix3 u o l := ⟨y 0, y 1, y 2, eq_ix3 y⟩
  obtain rfl : u = 0 := Subsingleton.elim _ _
  rw [View.read_apply]
  show normAt V c t (ix3 (0 : Fin 1) o l) = normG V c (((cfg1.win 5).blk t).view.emb (ix3 (0 : Fin 1) o l))
  have hemb : ((cfg1.win 5).blk t).view.emb (ix3 (0 : Fin 1) o l) = (ix3 (⟨t.val, lt128 t⟩ : Fin 128) o l : S128x64x1024.Idx) := by
    refine funext fun a => Fin.ext ?_
    match a with
    | ⟨0, _⟩ => show win1_5.index t (0 : Fin 3) * 1 + 1 * 0 = t.val; omega
    | ⟨1, _⟩ => show win1_5.index t (1 : Fin 3) * 64 + 1 * o.val = o.val; omega
    | ⟨2, _⟩ => show win1_5.index t (2 : Fin 3) * 1024 + 1 * l.val = l.val; omega
  rw [hemb, normAt_apply]
  rfl

/-- An index of the output array is in point t's block iff each coordinate is in the block's range on its axis. -/
theorem normMemBlk (t : Fin cfg1.N) (i : S128x64x1024.Idx) :
    i ∈ ((cfg1.win 5).blk t).view.set ↔ ∀ a : Fin 3, win1_5.index t a * S1x64x1024.size a ≤ (i a).val ∧ (i a).val < win1_5.index t a * S1x64x1024.size a + S1x64x1024.size a := by
  show i ∈ ((View.whole main_v224).slice (win1_5.rect t)).set ↔ _
  rw [View.set_slice_whole, Rect.mem_set_unit]
  exact Iff.rfl

/-- So the output array ends holding that function: row b is covered by point b. -/
theorem normFinal (c : Dev nD) : (normDat V c).arrAt 5 cfg1.N = normG V c :=
  (normDat V c).arrAt_eq_of_cover 5 (normG V c) (fun t _ => normFlushed_eq V c t) fun i => by
    have h0 : (i 0).val < 128 := (i 0).isLt
    have h1 : (i 1).val < 64 := (i 1).isLt
    have h2 : (i 2).val < 1024 := (i 2).isLt
    refine ⟨⟨(i 0).val, lt_of_lt_of_eq h0 N_1.symm⟩, flush1_5 _, ?_⟩
    rw [normMemBlk]
    obtain ⟨-, -, -, e0, e1, e2, -⟩ := normIdx ⟨(i 0).val, lt_of_lt_of_eq h0 N_1.symm⟩
    intro a
    match a with
    | ⟨0, _⟩ => show win1_5.index _ (0 : Fin 3) * 1 ≤ (i 0).val ∧ (i 0).val < win1_5.index _ (0 : Fin 3) * 1 + 1; rw [e0]; dsimp only; omega
    | ⟨1, _⟩ => show win1_5.index _ (1 : Fin 3) * 64 ≤ (i 1).val ∧ (i 1).val < win1_5.index _ (1 : Fin 3) * 64 + 64; rw [e1]; omega
    | ⟨2, _⟩ => show win1_5.index _ (2 : Fin 3) * 1024 ≤ (i 2).val ∧ (i 2).val < win1_5.index _ (2 : Fin 3) * 1024 + 1024; rw [e2]; omega

end AtIdeal

section Result
variable (m : (ℓ : Loc nD τ sig) → Buf (Elt Ideal) ℓ) (ρ : Dev nD → PrngReg)

/-- The normalising grid's output array after the grid. -/
theorem W3_v224 (c : Dev nD) : (W3 m ρ c (Proc.devRef .tc main_v224) : S128x64x1024.Idx → EReal) = normG (V2 m ρ) c :=
  (W3_arr m ρ c 5).trans (normFinal (V2 m ρ) c)

/-- The result buffer is that array reshaped. -/
theorem W4_v225 (c : Dev nD) : (W4 m ρ c (Proc.devRef .tc main_v225) : S128x64x32x32.Idx → EReal)
    = shapeCast S128x64x32x32 (W3 m ρ c (Proc.devRef .tc main_v224) : S128x64x1024.Idx → EReal) shapeCasts_S128x64x1024_S128x64x32x32 := by
  show StableHlo.after hostOps2 (W3 m ρ c) (Proc.devRef .tc main_v225) = _
  after_results
  rfl

/-- Entry (b, o, h, w) of the result: batch normalisation of entry (b, o, 32 h + w) of the pre-normalisation array
    the convolution grid leaves, with the two sums it leaves and γ, β. -/
theorem W4_apply (c : Dev nD) (b : Fin 128) (o : Fin 64) (h w : Fin 32) :
    (W4 m ρ c (Proc.devRef .tc main_v225) : S128x64x32x32.Idx → EReal) (ix4 b o h w)
      = bnEntry ((V2 m ρ c main_v223_0 : S128x64x1024.Idx → EReal) (ix3 b o (⟨32 * h.val + w.val, by omega⟩ : Fin 1024)))
          ((V2 m ρ c main_v223_1 : S64x1.Idx → EReal) (ix2 o (0 : Fin 1))) ((V2 m ρ c main_v223_2 : S64x1.Idx → EReal) (ix2 o (0 : Fin 1)))
          ((V2 m ρ c main_v221 : S64x1.Idx → EReal) (ix2 o (0 : Fin 1))) ((V2 m ρ c main_v222 : S64x1.Idx → EReal) (ix2 o (0 : Fin 1))) := by
  rw [W4_v225, W3_v224]
  refine (shapeCast_apply _ _ (ix4 b o h w) (ix3 b o (⟨32 * h.val + w.val, by omega⟩ : Fin 1024)) ?_).trans rfl
  rw [Shape.rowMajor_val_three, Shape.rowMajor_val_four]
  show (b.val * 64 + o.val) * 1024 + (32 * h.val + w.val) = ((b.val * 64 + o.val) * 32 + h.val) * 32 + w.val
  omega

end Result

end Cert.ReferenceIdeal.Hand

end
-- ==== Proof.RefValueConvArr.lean ====
/-
  From the convolution grid's blocks to its arrays. Input blocks are read where the grid finds them: the batch
  element's block at point t is row t of the activations, the other four inputs are whole. The pre-normalisation
  array ends holding, in row b, the block the body leaves at point b; the two accumulators are written back once,
  after the last point, and end holding what the body leaves there.
-/
import proofs.«162342_g2000606144476369_pallasbulk_1044_23_alg».proof.Proof.RefFrame
import proofs.«162342_g2000606144476369_pallasbulk_1044_23_alg».proof.Proof.RefValueLib

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The printed index maps of the convolution grid, decided over its 128 points. -/
theorem convIdx : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem lt128c (t : Fin cfg0.N) : t.val < 128 := lt_of_lt_of_eq t.isLt N_0

variable (V : (c : Dev nD) → (b : Ref sig .tc) → Buf (Elt F) ((c : Thread nD τ).loc b))

theorem accBlk0_apply (c : Dev nD) (t : Fin cfg0.N) (ch : Fin 64) (l : Fin 1024) :
    (accBlk V c 0 t : Vec F S1x64x1024 .f32) (ix3 (0 : Fin 1) ch l) = (V c main_v0 : S128x64x1024.Idx → F .f32) (ix3 (⟨t.val, lt128c t⟩ : Fin 128) ch l) := by
  obtain ⟨e0, e1, e2, -⟩ := convIdx t
  unfold accBlk
  rw [View.read_apply]
  show V c main_v0 (((cfg0.win 0).blk t).view.emb (ix3 (0 : Fin 1) ch l)) = _
  refine congrArg _ (funext fun a => Fin.ext ?_)
  match a with
  | ⟨0, _⟩ => show win0_0.index t (0 : Fin 3) * 1 + 1 * 0 = t.val; omega
  | ⟨1, _⟩ => show win0_0.index t (1 : Fin 3) * 64 + 1 * ch.val = ch.val; omega
  | ⟨2, _⟩ => show win0_0.index t (2 : Fin 3) * 1024 + 1 * l.val = l.val; omega

theorem accBlk1_apply (c : Dev nD) (t : Fin cfg0.N) (ch : Fin 64) (k : Fin 9) :
    (accBlk V c 1 t : Vec F S64x9 .f32) (ix2 ch k) = (V c main_v1 : S64x9.Idx → F .f32) (ix2 ch k) := by
  obtain ⟨-, -, -, -, -, -, e0, e1, -⟩ := convIdx t
  unfold accBlk
  rw [View.read_apply]
  show V c main_v1 (((cfg0.win 1).blk t).view.emb (ix2 ch k)) = _
  refine congrArg _ (funext fun a => Fin.ext ?_)
  match a with
  | ⟨0, _⟩ => show win0_1.index t (0 : Fin 2) * 64 + 1 * ch.val = ch.val; omega
  | ⟨1, _⟩ => show win0_1.index t (1 : Fin 2) * 9 + 1 * k.val = k.val; omega

theorem accBlk2_apply (c : Dev nD) (t : Fin cfg0.N) (ch : Fin 64) :
    (accBlk V c 2 t : Vec F S64x1 .f32) (ix2 ch (0 : Fin 1)) = (V c main_v5 : S64x1.Idx → F .f32) (ix2 ch (0 : Fin 1)) := by
  obtain ⟨-, -, -, -, -, -, -, -, e0, e1, -⟩ := convIdx t
  unfold accBlk
  rw [View.read_apply]
  show V c main_v5 (((cfg0.win 2).blk t).view.emb (ix2 ch (0 : Fin 1))) = _
  refine congrArg _ (funext fun a => Fin.ext ?_)
  match a with
  | ⟨0, _⟩ => show win0_2.index t (0 : Fin 2) * 64 + 1 * ch.val = ch.val; omega
  | ⟨1, _⟩ => show win0_2.index t (1 : Fin 2) * 1 + 1 * 0 = 0; omega

theorem accBlk3_apply (c : Dev nD) (t : Fin cfg0.N) (k : Fin 9) (l : Fin 1024) :
    (accBlk V c 3 t : Vec F S9x1024 .f32) (ix2 k l) = (V c main_v218 : S9x1024.Idx → F .f32) (ix2 k l) := by
  obtain ⟨-, -, -, -, -, -, -, -, -, -, e0, e1, -⟩ := convIdx t
  unfold accBlk
  rw [View.read_apply]
  show V c main_v218 (((cfg0.win 3).blk t).view.emb (ix2 k l)) = _
  refine congrArg _ (funext fun a => Fin.ext ?_)
  match a with
  | ⟨0, _⟩ => show win0_3.index t (0 : Fin 2) * 9 + 1 * k.val = k.val; omega
  | ⟨1, _⟩ => show win0_3.index t (1 : Fin 2) * 1024 + 1 * l.val = l.val; omega

theorem accBlk4_apply (c : Dev nD) (t : Fin cfg0.N) (o ch : Fin 64) :
    (accBlk V c 4 t : Vec F S64x64 .f32) (ix2 o ch) = (V c main_v220 : S64x64.Idx → F .f32) (ix2 o ch) := by
  obtain ⟨-, -, -, -, -, -, -, -, -, -, -, -, e0, e1, -⟩ := convIdx t
  unfold accBlk
  rw [View.read_apply]
  show V c main_v220 (((cfg0.win 4).blk t).view.emb (ix2 o ch)) = _
  refine congrArg _ (funext fun a => Fin.ext ?_)
  match a with
  | ⟨0, _⟩ => show win0_4.index t (0 : Fin 2) * 64 + 1 * o.val = o.val; omega
  | ⟨1, _⟩ => show win0_4.index t (1 : Fin 2) * 64 + 1 * ch.val = ch.val; omega

theorem h127 : 127 < cfg0.N := by rw [show cfg0.N = 128 from N_0]; norm_num
/-- The last point of the grid. -/
def lastPt : Fin cfg0.N := ⟨127, h127⟩

theorem accAt_congr (c : Dev nD) (n n' : ℕ) (e : n = n') (h : n < cfg0.N) (h' : n' < cfg0.N) : accAt V c n h = accAt V c n' h' := by
  subst e; rfl

/-- The pre-normalisation array as one function: row b holds the block the body leaves at point b. -/
def convYG (c : Dev nD) : S128x64x1024.Idx → F .f32 := fun i =>
  (accAt V c (i 0).val (lt_of_lt_of_eq (i 0).isLt N_0.symm)).1 (ix3 (0 : Fin 1) (⟨(i 1).val, (i 1).isLt⟩ : Fin 64) (⟨(i 2).val, (i 2).isLt⟩ : Fin 1024))

/-- What point t writes back is block t of that function. -/
theorem convFlushed5 (c : Dev nD) (t : Fin cfg0.N) :
    (accDat V c).flushed 5 t = ((cfg0.win 5).blk t).view.read (Elt F) (convYG V c) := by
  show (cfg0.win 5).cut (grid0.coords t) ((accDat V c).after 5 t) = _
  rw [accAfter5]
  obtain ⟨-, -, -, e0, e1, e2, -⟩ := convIdx t
  funext y
  obtain ⟨u, o, l, rfl⟩ : ∃ (u : Fin 1) (o : Fin 64) (l : Fin 1024), y = ix3 u o l := ⟨y 0, y 1, y 2, eq_ix3 y⟩
  obtain rfl : u = 0 := Subsingleton.elim _ _
  rw [View.read_apply]
  show (accAt V c t.val t.isLt).1 (ix3 (0 : Fin 1) o l) = convYG V c (((cfg0.win 5).blk t).view.emb (ix3 (0 : Fin 1) o l))
  have hemb : ((cfg0.win 5).blk t).view.emb (ix3 (0 : Fin 1) o l) = (ix3 (⟨t.val, lt128c t⟩ : Fin 128) o l : S128x64x1024.Idx) := by
    refine funext fun a => Fin.ext ?_
    match a with
    | ⟨0, _⟩ => show win0_5.index t (0 : Fin 3) * 1 + 1 * 0 = t.val; omega
    | ⟨1, _⟩ => show win0_5.index t (1 : Fin 3) * 64 + 1 * o.val = o.val; omega
    | ⟨2, _⟩ => show win0_5.index t (2 : Fin 3) * 1024 + 1 * l.val = l.val; omega
  rw [hemb]
  rfl

theorem convMemBlk5 (t : Fin cfg0.N) (i : S128x64x1024.Idx) :
    i ∈ ((cfg0.win 5).blk t).view.set ↔ ∀ a : Fin 3, win0_5.index t a * S1x64x1024.size a ≤ (i a).val ∧ (i a).val < win0_5.index t a * S1x64x1024.size a + S1x64x1024.size a := by
  show i ∈ ((View.whole main_v223_0).slice (win0_5.rect t)).set ↔ _
  rw [View.set_slice_whole, Rect.mem_set_unit]
  exact Iff.rfl

/-- So the pre-normalisation array ends holding that function: row b is covered by point b. -/
theorem convYFinal (c : Dev nD) : (accDat V c).arrAt 5 cfg0.N = convYG V c :=
  (accDat V c).arrAt_eq_of_cover 5 (convYG V c) (fun t _ => convFlushed5 V c t) fun i => by
    have h0 : (i 0).val < 128 := (i 0).isLt
    have h1 : (i 1).val < 64 := (i 1).isLt
    have h2 : (i 2).val < 1024 := (i 2).isLt
    refine ⟨⟨(i 0).val, lt_of_lt_of_eq h0 N_0.symm⟩, flush0_5 _, ?_⟩
    rw [convMemBlk5]
    obtain ⟨-, -, -, e0, e1, e2, -⟩ := convIdx ⟨(i 0).val, lt_of_lt_of_eq h0 N_0.symm⟩
    intro a
    match a with
    | ⟨0, _⟩ => show win0_5.index _ (0 : Fin 3) * 1 ≤ (i 0).val ∧ (i 0).val < win0_5.index _ (0 : Fin 3) * 1 + 1; rw [e0]; dsimp only; omega
    | ⟨1, _⟩ => show win0_5.index _ (1 : Fin 3) * 64 ≤ (i 1).val ∧ (i 1).val < win0_5.index _ (1 : Fin 3) * 64 + 64; rw [e1]; omega
    | ⟨2, _⟩ => show win0_5.index _ (2 : Fin 3) * 1024 ≤ (i 2).val ∧ (i 2).val < win0_5.index _ (2 : Fin 3) * 1024 + 1024; rw [e2]; omega

/-- What the last point writes back of accumulator window 6 is the whole column the body leaves there. -/
theorem convFlushed6 (c : Dev nD) (t : Fin cfg0.N) (hf : (cfg0.win 6).flush t = true) :
    (accDat V c).flushed 6 t = ((cfg0.win 6).blk t).view.read (Elt F) ((accAt V c 127 h127).2.1 : S64x1.Idx → F .f32) := by
  have h : t.val = 127 := by have := (flush0_6 t).mp hf; have := lt128c t; omega
  show (cfg0.win 6).cut (grid0.coords t) ((accDat V c).after 6 t) = _
  rw [accAfter6, accAt_congr V c t.val 127 h t.isLt h127]
  obtain ⟨-, -, -, -, -, -, -, -, -, -, -, -, -, -, e0, e1, -⟩ := convIdx t
  funext y
  obtain ⟨o, u, rfl⟩ : ∃ (o : Fin 64) (u : Fin 1), y = ix2 o u := ⟨y 0, y 1, eq_ix2 y⟩
  obtain rfl : u = 0 := Subsingleton.elim _ _
  rw [View.read_apply]
  show (accAt V c 127 h127).2.1 (ix2 o (0 : Fin 1)) = (accAt V c 127 h127).2.1 (((cfg0.win 6).blk t).view.emb (ix2 o (0 : Fin 1)))
  refine congrArg _ (funext fun a => Fin.ext ?_).symm
  match a with
  | ⟨0, _⟩ => show win0_6.index t (0 : Fin 2) * 64 + 1 * o.val = o.val; omega
  | ⟨1, _⟩ => show win0_6.index t (1 : Fin 2) * 1 + 1 * 0 = 0; omega

theorem convMemBlk6 (t : Fin cfg0.N) (i : S64x1.Idx) :
    i ∈ ((cfg0.win 6).blk t).view.set ↔ ∀ a : Fin 2, win0_6.index t a * S64x1.size a ≤ (i a).val ∧ (i a).val < win0_6.index t a * S64x1.size a + S64x1.size a := by
  show i ∈ ((View.whole main_v223_1).slice (win0_6.rect t)).set ↔ _
  rw [View.set_slice_whole, Rect.mem_set_unit]
  exact Iff.rfl

/-- So accumulator array 6 ends holding what the body leaves at the last point. -/
theorem convS1Final (c : Dev nD) : (accDat V c).arrAt 6 cfg0.N = ((accAt V c 127 h127).2.1 : S64x1.Idx → F .f32) :=
  (accDat V c).arrAt_eq_of_cover 6 _ (fun t hf => convFlushed6 V c t hf) fun i => by
    have h0 : (i 0).val < 64 := (i 0).isLt
    have h1 : (i 1).val < 1 := (i 1).isLt
    refine ⟨lastPt, (flush0_6 lastPt).mpr rfl, ?_⟩
    rw [convMemBlk6]
    obtain ⟨-, -, -, -, -, -, -, -, -, -, -, -, -, -, e0, e1, -⟩ := convIdx lastPt
    intro a
    match a with
    | ⟨0, _⟩ => show win0_6.index lastPt (0 : Fin 2) * 64 ≤ (i 0).val ∧ (i 0).val < win0_6.index lastPt (0 : Fin 2) * 64 + 64; rw [e0]; omega
    | ⟨1, _⟩ => show win0_6.index lastPt (1 : Fin 2) * 1 ≤ (i 1).val ∧ (i 1).val < win0_6.index lastPt (1 : Fin 2) * 1 + 1; rw [e1]; omega

/-- What the last point writes back of accumulator window 7 is the whole column the body leaves there. -/
theorem convFlushed7 (c : Dev nD) (t : Fin cfg0.N) (hf : (cfg0.win 7).flush t = true) :
    (accDat V c).flushed 7 t = ((cfg0.win 7).blk t).view.read (Elt F) ((accAt V c 127 h127).2.2 : S64x1.Idx → F .f32) := by
  have h : t.val = 127 := by have := (flush0_7 t).mp hf; have := lt128c t; omega
  show (cfg0.win 7).cut (grid0.coords t) ((accDat V c).after 7 t) = _
  rw [accAfter7, accAt_congr V c t.val 127 h t.isLt h127]
  obtain ⟨-, -, -, -, -, -, -, -, -, -, -, -, -, -, -, -, e0, e1⟩ := convIdx t
  funext y
  obtain ⟨o, u, rfl⟩ : ∃ (o : Fin 64) (u : Fin 1), y = ix2 o u := ⟨y 0, y 1, eq_ix2 y⟩
  obtain rfl : u = 0 := Subsingleton.elim _ _
  rw [View.read_apply]
  show (accAt V c 127 h127).2.2 (ix2 o (0 : Fin 1)) = (accAt V c 127 h127).2.2 (((cfg0.win 7).blk t).view.emb (ix2 o (0 : Fin 1)))
  refine congrArg _ (funext fun a => Fin.ext ?_).symm
  match a with
  | ⟨0, _⟩ => show win0_7.index t (0 : Fin 2) * 64 + 1 * o.val = o.val; omega
  | ⟨1, _⟩ => show win0_7.index t (1 : Fin 2) * 1 + 1 * 0 = 0; omega

theorem convMemBlk7 (t : Fin cfg0.N) (i : S64x1.Idx) :
    i ∈ ((cfg0.win 7).blk t).view.set ↔ ∀ a : Fin 2, win0_7.index t a * S64x1.size a ≤ (i a).val ∧ (i a).val < win0_7.index t a * S64x1.size a + S64x1.size a := by
  show i ∈ ((View.whole main_v223_2).slice (win0_7.rect t)).set ↔ _
  rw [View.set_slice_whole, Rect.mem_set_unit]
  exact Iff.rfl

/-- So accumulator array 7 ends holding what the body leaves at the last point. -/
theorem convS2Final (c : Dev nD) : (accDat V c).arrAt 7 cfg0.N = ((accAt V c 127 h127).2.2 : S64x1.Idx → F .f32) :=
  (accDat V c).arrAt_eq_of_cover 7 _ (fun t hf => convFlushed7 V c t hf) fun i => by
    have h0 : (i 0).val < 64 := (i 0).isLt
    have h1 : (i 1).val < 1 := (i 1).isLt
    refine ⟨lastPt, (flush0_7 lastPt).mpr rfl, ?_⟩
    rw [convMemBlk7]
    obtain ⟨-, -, -, -, -, -, -, -, -, -, -, -, -, -, -, -, e0, e1⟩ := convIdx lastPt
    intro a
    match a with
    | ⟨0, _⟩ => show win0_7.index lastPt (0 : Fin 2) * 64 ≤ (i 0).val ∧ (i 0).val < win0_7.index lastPt (0 : Fin 2) * 64 + 64; rw [e0]; omega
    | ⟨1, _⟩ => show win0_7.index lastPt (1 : Fin 2) * 1 ≤ (i 1).val ∧ (i 1).val < win0_7.index lastPt (1 : Fin 2) * 1 + 1; rw [e1]; omega

end Cert.ReferenceIdeal.Hand

end
-- ==== Proof.RefValueConvPiece.lean ====
/-
  The convolution grid's body as values. The body's arithmetic is a composition of the printed payloads over sub-block
  loads of its five input blocks: the depthwise central-difference block (nine taps of the rectified activation, less
  the θ-scaled term), then the pointwise convolution as 64 rank-one updates of an accumulator, column k of the
  pointwise weights times row k of the depthwise block. What the three output buffers hold after the body is the
  pre-normalisation block and the two accumulators advanced by its lane sums.
-/
import proofs.«162342_g2000606144476369_pallasbulk_1044_23_alg».proof.Proof.RefAccFrame
import proofs.«162342_g2000606144476369_pallasbulk_1044_23_alg».proof.Proof.RefValueLib

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

section Compose
variable (x0 : Vec F S1x64x1024 .f32) (x1 : Vec F S64x9 .f32) (x2 : Vec F S64x1 .f32) (x3 : Vec F S9x1024 .f32) (x4 : Vec F S64x64 .f32)

/-- The depthwise central-difference block: the payloads of the nine taps composed over the loaded mask rows and
    weight columns. -/
def convCdc : FVec F S64x1024 .f32 :=
  k0_pay14
  (k0_pay7 x0)
  (k0_pay11
    (k0_pay7 x0)
    (k0_pay8 x0 (View.ld x3 (Rect.unit (s := S9x1024) ![0, 0] S1x1024.size inb_S9x1024_S1x1024_0_0))
        (View.ld x1 (Rect.unit (s := S64x9) ![0, 0] S64x1.size inb_S64x9_S64x1_0_0)) (View.ld x3 (Rect.unit (s := S9x1024) ![1, 0] S1x1024.size inb_S9x1024_S1x1024_1_0))
        (View.ld x1 (Rect.unit (s := S64x9) ![0, 1] S64x1.size inb_S64x9_S64x1_0_1)))
    (k0_pay9 x0 (View.ld x3 (Rect.unit (s := S9x1024) ![2, 0] S1x1024.size inb_S9x1024_S1x1024_2_0)))
    (k0_pay10 (View.ld x1 (Rect.unit (s := S64x9) ![0, 2] S64x1.size inb_S64x9_S64x1_0_2)))
        (View.ld x3 (Rect.unit (s := S9x1024) ![3, 0] S1x1024.size inb_S9x1024_S1x1024_3_0)) (View.ld x1 (Rect.unit (s := S64x9) ![0, 3] S64x1.size inb_S64x9_S64x1_0_3))
        (View.ld x1 (Rect.unit (s := S64x9) ![0, 4] S64x1.size inb_S64x9_S64x1_0_4)) (View.ld x3 (Rect.unit (s := S9x1024) ![5, 0] S1x1024.size inb_S9x1024_S1x1024_5_0))
        (View.ld x1 (Rect.unit (s := S64x9) ![0, 5] S64x1.size inb_S64x9_S64x1_0_5)) (View.ld x3 (Rect.unit (s := S9x1024) ![6, 0] S1x1024.size inb_S9x1024_S1x1024_6_0))
        (View.ld x1 (Rect.unit (s := S64x9) ![0, 6] S64x1.size inb_S64x9_S64x1_0_6)))
  (k0_pay12
    (k0_pay7 x0))
  (k0_pay13 (View.ld x3 (Rect.unit (s := S9x1024) ![7, 0] S1x1024.size inb_S9x1024_S1x1024_7_0)))
        (View.ld x1 (Rect.unit (s := S64x9) ![0, 7] S64x1.size inb_S64x9_S64x1_0_7)) (View.ld x3 (Rect.unit (s := S9x1024) ![8, 0] S1x1024.size inb_S9x1024_S1x1024_8_0))
        (View.ld x1 (Rect.unit (s := S64x9) ![0, 8] S64x1.size inb_S64x9_S64x1_0_8)) x2

/-- The pointwise accumulator after input channels 0, 1, 2. -/
def convAcc0 : FVec F S64x1024 .f32 :=
  k0_pay15
  (k0_pay7 x0)
  (k0_pay11
    (k0_pay7 x0)
    (k0_pay8 x0 (View.ld x3 (Rect.unit (s := S9x1024) ![0, 0] S1x1024.size inb_S9x1024_S1x1024_0_0))
        (View.ld x1 (Rect.unit (s := S64x9) ![0, 0] S64x1.size inb_S64x9_S64x1_0_0)) (View.ld x3 (Rect.unit (s := S9x1024) ![1, 0] S1x1024.size inb_S9x1024_S1x1024_1_0))
        (View.ld x1 (Rect.unit (s := S64x9) ![0, 1] S64x1.size inb_S64x9_S64x1_0_1)))
    (k0_pay9 x0 (View.ld x3 (Rect.unit (s := S9x1024) ![2, 0] S1x1024.size inb_S9x1024_S1x1024_2_0)))
    (k0_pay10 (View.ld x1 (Rect.unit (s := S64x9) ![0, 2] S64x1.size inb_S64x9_S64x1_0_2)))
        (View.ld x3 (Rect.unit (s := S9x1024) ![3, 0] S1x1024.size inb_S9x1024_S1x1024_3_0)) (View.ld x1 (Rect.unit (s := S64x9) ![0, 3] S64x1.size inb_S64x9_S64x1_0_3))
        (View.ld x1 (Rect.unit (s := S64x9) ![0, 4] S64x1.size inb_S64x9_S64x1_0_4)) (View.ld x3 (Rect.unit (s := S9x1024) ![5, 0] S1x1024.size inb_S9x1024_S1x1024_5_0))
        (View.ld x1 (Rect.unit (s := S64x9) ![0, 5] S64x1.size inb_S64x9_S64x1_0_5)) (View.ld x3 (Rect.unit (s := S9x1024) ![6, 0] S1x1024.size inb_S9x1024_S1x1024_6_0))
        (View.ld x1 (Rect.unit (s := S64x9) ![0, 6] S64x1.size inb_S64x9_S64x1_0_6)))
  (k0_pay12
    (k0_pay7 x0))
  (k0_pay13 (View.ld x3 (Rect.unit (s := S9x1024) ![7, 0] S1x1024.size inb_S9x1024_S1x1024_7_0)))
        (View.ld x1 (Rect.unit (s := S64x9) ![0, 7] S64x1.size inb_S64x9_S64x1_0_7)) (View.ld x3 (Rect.unit (s := S9x1024) ![8, 0] S1x1024.size inb_S9x1024_S1x1024_8_0))
        (View.ld x1 (Rect.unit (s := S64x9) ![0, 8] S64x1.size inb_S64x9_S64x1_0_8)) x2 (View.ld x4 (Rect.unit (s := S64x64) ![0, 0] S64x1.size inb_S64x64_S64x1_0_0))
        (View.ld x4 (Rect.unit (s := S64x64) ![0, 1] S64x1.size inb_S64x64_S64x1_0_1)) (View.ld x4 (Rect.unit (s := S64x64) ![0, 2] S64x1.size inb_S64x64_S64x1_0_2))

/-- The pointwise accumulator after input channels 3 … 62, from the depthwise block `cdc` and the accumulator `acc0`
    after channels 0, 1, 2: the printed parts in order, each adding its five to seven rank-one updates. -/
def convAcc (cdc acc0 : FVec F S64x1024 .f32) (x4 : Vec F S64x64 .f32) : FVec F S64x1024 .f32 :=
  k0_pay30 cdc
  (k0_pay29 cdc
    (k0_pay26 cdc
      (k0_pay25 cdc
        (k0_pay24 cdc
          (k0_pay21 cdc
            (k0_pay20 cdc
              (k0_pay19 cdc
                (k0_pay16 cdc acc0 (View.ld x4 (Rect.unit (s := S64x64) ![0, 3] S64x1.size inb_S64x64_S64x1_0_3))
        (View.ld x4 (Rect.unit (s := S64x64) ![0, 4] S64x1.size inb_S64x64_S64x1_0_4)) (View.ld x4 (Rect.unit (s := S64x64) ![0, 5] S64x1.size inb_S64x64_S64x1_0_5))
        (View.ld x4 (Rect.unit (s := S64x64) ![0, 6] S64x1.size inb_S64x64_S64x1_0_6)) (View.ld x4 (Rect.unit (s := S64x64) ![0, 7] S64x1.size inb_S64x64_S64x1_0_7))
        (View.ld x4 (Rect.unit (s := S64x64) ![0, 8] S64x1.size inb_S64x64_S64x1_0_8)))
                (k0_pay17 cdc)
                (k0_pay18 (View.ld x4 (Rect.unit (s := S64x64) ![0, 9] S64x1.size inb_S64x64_S64x1_0_9)))
        (View.ld x4 (Rect.unit (s := S64x64) ![0, 10] S64x1.size inb_S64x64_S64x1_0_10)) (View.ld x4 (Rect.unit (s := S64x64) ![0, 11] S64x1.size inb_S64x64_S64x1_0_11))
        (View.ld x4 (Rect.unit (s := S64x64) ![0, 12] S64x1.size inb_S64x64_S64x1_0_12)) (View.ld x4 (Rect.unit (s := S64x64) ![0, 13] S64x1.size inb_S64x64_S64x1_0_13))
        (View.ld x4 (Rect.unit (s := S64x64) ![0, 14] S64x1.size inb_S64x64_S64x1_0_14)) (View.ld x4 (Rect.unit (s := S64x64) ![0, 15] S64x1.size inb_S64x64_S64x1_0_15)))
        (View.ld x4 (Rect.unit (s := S64x64) ![0, 16] S64x1.size inb_S64x64_S64x1_0_16)) (View.ld x4 (Rect.unit (s := S64x64) ![0, 17] S64x1.size inb_S64x64_S64x1_0_17))
        (View.ld x4 (Rect.unit (s := S64x64) ![0, 18] S64x1.size inb_S64x64_S64x1_0_18)) (View.ld x4 (Rect.unit (s := S64x64) ![0, 19] S64x1.size inb_S64x64_S64x1_0_19))
        (View.ld x4 (Rect.unit (s := S64x64) ![0, 20] S64x1.size inb_S64x64_S64x1_0_20)) (View.ld x4 (Rect.unit (s := S64x64) ![0, 21] S64x1.size inb_S64x64_S64x1_0_21))
        (View.ld x4 (Rect.unit (s := S64x64) ![0, 22] S64x1.size inb_S64x64_S64x1_0_22))) (View.ld x4 (Rect.unit (s := S64x64) ![0, 23] S64x1.size inb_S64x64_S64x1_0_23))
        (View.ld x4 (Rect.unit (s := S64x64) ![0, 24] S64x1.size inb_S64x64_S64x1_0_24)) (View.ld x4 (Rect.unit (s := S64x64) ![0, 25] S64x1.size inb_S64x64_S64x1_0_25))
        (View.ld x4 (Rect.unit (s := S64x64) ![0, 26] S64x1.size inb_S64x64_S64x1_0_26)) (View.ld x4 (Rect.unit (s := S64x64) ![0, 27] S64x1.size inb_S64x64_S64x1_0_27))
        (View.ld x4 (Rect.unit (s := S64x64) ![0, 28] S64x1.size inb_S64x64_S64x1_0_28)))
          (k0_pay22 cdc)
          (k0_pay23 (View.ld x4 (Rect.unit (s := S64x64) ![0, 29] S64x1.size inb_S64x64_S64x1_0_29)))
        (View.ld x4 (Rect.unit (s := S64x64) ![0, 30] S64x1.size inb_S64x64_S64x1_0_30)) (View.ld x4 (Rect.unit (s := S64x64) ![0, 31] S64x1.size inb_S64x64_S64x1_0_31))
        (View.ld x4 (Rect.unit (s := S64x64) ![0, 32] S64x1.size inb_S64x64_S64x1_0_32)) (View.ld x4 (Rect.unit (s := S64x64) ![0, 33] S64x1.size inb_S64x64_S64x1_0_33))
        (View.ld x4 (Rect.unit (s := S64x64) ![0, 34] S64x1.size inb_S64x64_S64x1_0_34)) (View.ld x4 (Rect.unit (s := S64x64) ![0, 35] S64x1.size inb_S64x64_S64x1_0_35)))
        (View.ld x4 (Rect.unit (s := S64x64) ![0, 36] S64x1.size inb_S64x64_S64x1_0_36)) (View.ld x4 (Rect.unit (s := S64x64) ![0, 37] S64x1.size inb_S64x64_S64x1_0_37))
        (View.ld x4 (Rect.unit (s := S64x64) ![0, 38] S64x1.size inb_S64x64_S64x1_0_38)) (View.ld x4 (Rect.unit (s := S64x64) ![0, 39] S64x1.size inb_S64x64_S64x1_0_39))
        (View.ld x4 (Rect.unit (s := S64x64) ![0, 40] S64x1.size inb_S64x64_S64x1_0_40)) (View.ld x4 (Rect.unit (s := S64x64) ![0, 41] S64x1.size inb_S64x64_S64x1_0_41))
        (View.ld x4 (Rect.unit (s := S64x64) ![0, 42] S64x1.size inb_S64x64_S64x1_0_42))) (View.ld x4 (Rect.unit (s := S64x64) ![0, 43] S64x1.size inb_S64x64_S64x1_0_43))
        (View.ld x4 (Rect.unit (s := S64x64) ![0, 44] S64x1.size inb_S64x64_S64x1_0_44)) (View.ld x4 (Rect.unit (s := S64x64) ![0, 45] S64x1.size inb_S64x64_S64x1_0_45))
        (View.ld x4 (Rect.unit (s := S64x64) ![0, 46] S64x1.size inb_S64x64_S64x1_0_46)) (View.ld x4 (Rect.unit (s := S64x64) ![0, 47] S64x1.size inb_S64x64_S64x1_0_47))
        (View.ld x4 (Rect.unit (s := S64x64) ![0, 48] S64x1.size inb_S64x64_S64x1_0_48)))
    (k0_pay27 cdc)
    (k0_pay28 (View.ld x4 (Rect.unit (s := S64x64) ![0, 49] S64x1.size inb_S64x64_S64x1_0_49)))
        (View.ld x4 (Rect.unit (s := S64x64) ![0, 50] S64x1.size inb_S64x64_S64x1_0_50)) (View.ld x4 (Rect.unit (s := S64x64) ![0, 51] S64x1.size inb_S64x64_S64x1_0_51))
        (View.ld x4 (Rect.unit (s := S64x64) ![0, 52] S64x1.size inb_S64x64_S64x1_0_52)) (View.ld x4 (Rect.unit (s := S64x64) ![0, 53] S64x1.size inb_S64x64_S64x1_0_53))
        (View.ld x4 (Rect.unit (s := S64x64) ![0, 54] S64x1.size inb_S64x64_S64x1_0_54)) (View.ld x4 (Rect.unit (s := S64x64) ![0, 55] S64x1.size inb_S64x64_S64x1_0_55)))
        (View.ld x4 (Rect.unit (s := S64x64) ![0, 56] S64x1.size inb_S64x64_S64x1_0_56)) (View.ld x4 (Rect.unit (s := S64x64) ![0, 57] S64x1.size inb_S64x64_S64x1_0_57))
        (View.ld x4 (Rect.unit (s := S64x64) ![0, 58] S64x1.size inb_S64x64_S64x1_0_58)) (View.ld x4 (Rect.unit (s := S64x64) ![0, 59] S64x1.size inb_S64x64_S64x1_0_59))
        (View.ld x4 (Rect.unit (s := S64x64) ![0, 60] S64x1.size inb_S64x64_S64x1_0_60)) (View.ld x4 (Rect.unit (s := S64x64) ![0, 61] S64x1.size inb_S64x64_S64x1_0_61))
        (View.ld x4 (Rect.unit (s := S64x64) ![0, 62] S64x1.size inb_S64x64_S64x1_0_62))

/-- The last column of the pointwise weights. -/
abbrev wpLast (x4 : Vec F S64x64 .f32) : Vec F S64x1 .f32 := View.ld x4 (Rect.unit (s := S64x64) ![0, 63] S64x1.size inb_S64x64_S64x1_0_63)

end Compose

/-- What a later point leaves: the pre-normalisation block, and each accumulator advanced. -/
theorem accOutLater_eq (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : ¬resetCond i) (x0 : Vec F S1x64x1024 .f32) (x1 : Vec F S64x9 .f32) (x2 : Vec F S64x1 .f32) (x3 : Vec F S9x1024 .f32) (x4 : Vec F S64x64 .f32) (s1 s2 : Vec F S64x1 .f32) :
    accOutLater c i arg1 harg1 arg2 harg2 arg3 harg3 arg4 harg4 arg5 harg5 arg6 harg6 arg7 harg7 arg8 harg8 hc x0 x1 x2 x3 x4 s1 s2
      = (k0_pay2 (convCdc x0 x1 x2 x3) (convAcc (convCdc x0 x1 x2 x3) (convAcc0 x0 x1 x2 x3 x4) x4) (wpLast x4),
         k0_pay3 (convCdc x0 x1 x2 x3) (convAcc (convCdc x0 x1 x2 x3) (convAcc0 x0 x1 x2 x3 x4) x4) (wpLast x4) s1,
         k0_pay4 (convCdc x0 x1 x2 x3) (convAcc (convCdc x0 x1 x2 x3) (convAcc0 x0 x1 x2 x3 x4) x4) (wpLast x4) s2) := by
  unfold accOutLater
  refine Prod.ext ?_ (Prod.ext ?_ ?_)
  · dsimp only
    rw [View.read_writes_eq_canon _ _ _ (accCoverLater_y c i arg1 harg1 arg2 harg2 arg3 harg3 arg4 harg4 arg5 harg5 arg6 harg6 arg7 harg7 arg8 harg8 hc x0 x1 x2 x3 x4 s1 s2)]
    unfold accRunLater
    dsimp only
    rw [View.canon_unit_zero hz3]
    simp only [View.readAt_eq_ld, harg1.read_unread, harg2.read_unread, harg3.read_unread, harg4.read_unread, harg5.read_unread, harg7.read_unread, harg8.read_unread,
      View.ld_unit_zero (S := S1x64x1024) hz3, View.ld_unit_zero (S := S64x1) hz2]
    rfl
  · dsimp only
    rw [View.read_writes_eq_canon _ _ _ (accCoverLater_s1 c i arg1 harg1 arg2 harg2 arg3 harg3 arg4 harg4 arg5 harg5 arg6 harg6 arg7 harg7 arg8 harg8 hc x0 x1 x2 x3 x4 s1 s2)]
    unfold accRunLater
    dsimp only
    rw [View.canon_unit_zero hz2]
    simp only [View.readAt_eq_ld, harg1.read_unread, harg2.read_unread, harg3.read_unread, harg4.read_unread, harg5.read_unread, harg7.read_unread, harg8.read_unread,
      View.ld_unit_zero (S := S1x64x1024) hz3, View.ld_unit_zero (S := S64x1) hz2]
    rfl
  · dsimp only
    rw [View.read_writes_eq_canon _ _ _ (accCoverLater_s2 c i arg1 harg1 arg2 harg2 arg3 harg3 arg4 harg4 arg5 harg5 arg6 harg6 arg7 harg7 arg8 harg8 hc x0 x1 x2 x3 x4 s1 s2)]
    unfold accRunLater
    dsimp only
    rw [View.canon_unit_zero hz2]
    simp only [View.readAt_eq_ld, harg1.read_unread, harg2.read_unread, harg3.read_unread, harg4.read_unread, harg5.read_unread, harg7.read_unread, harg8.read_unread,
      View.ld_unit_zero (S := S1x64x1024) hz3, View.ld_unit_zero (S := S64x1) hz2]
    rfl

/-- What the first point leaves: the same block, and each accumulator advanced from the zero column its reset stores. -/
theorem accOutFirst_eq (c : Dev nD) (i : grid0.Coords) (arg1 : Memref sig .tc .vmem S1x64x1024 .f32) (harg1 : arg1.IsWhole) (arg2 : Memref sig .tc .vmem S64x9 .f32) (harg2 : arg2.IsWhole)
    (arg3 : Memref sig .tc .vmem S64x1 .f32) (harg3 : arg3.IsWhole) (arg4 : Memref sig .tc .vmem S9x1024 .f32) (harg4 : arg4.IsWhole)
    (arg5 : Memref sig .tc .vmem S64x64 .f32) (harg5 : arg5.IsWhole) (arg6 : Memref sig .tc .vmem S1x64x1024 .f32) (harg6 : arg6.IsWhole)
    (arg7 : Memref sig .tc .vmem S64x1 .f32) (harg7 : arg7.IsWhole) (arg8 : Memref sig .tc .vmem S64x1 .f32) (harg8 : arg8.IsWhole) (hc : resetCond i) (x0 : Vec F S1x64x1024 .f32) (x1 : Vec F S64x9 .f32) (x2 : Vec F S64x1 .f32) (x3 : Vec F S9x1024 .f32) (x4 : Vec F S64x64 .f32) :
    accOutFirst c i arg1 harg1 arg2 harg2 arg3 harg3 arg4 harg4 arg5 harg5 arg6 harg6 arg7 harg7 arg8 harg8 hc x0 x1 x2 x3 x4
      = (k0_pay2 (convCdc x0 x1 x2 x3) (convAcc (convCdc x0 x1 x2 x3) (convAcc0 x0 x1 x2 x3 x4) x4) (wpLast x4),
         k0_pay3 (convCdc x0 x1 x2 x3) (convAcc (convCdc x0 x1 x2 x3) (convAcc0 x0 x1 x2 x3 x4) x4) (wpLast x4) k0_pay5,
         k0_pay4 (convCdc x0 x1 x2 x3) (convAcc (convCdc x0 x1 x2 x3) (convAcc0 x0 x1 x2 x3 x4) x4) (wpLast x4) k0_pay6) := by
  unfold accOutFirst
  refine Prod.ext ?_ (Prod.ext ?_ ?_)
  · dsimp only
    rw [View.read_writes_eq_canon _ _ _ (accCoverFirst_y c i arg1 harg1 arg2 harg2 arg3 harg3 arg4 harg4 arg5 harg5 arg6 harg6 arg7 harg7 arg8 harg8 hc x0 x1 x2 x3 x4)]
    unfold accRunFirst
    dsimp only
    sl_unfold_words
    rw [View.canon_unit_zero hz3]
    simp only [View.readAt_eq_ld, harg1.read_unread, harg2.read_unread, harg3.read_unread, harg4.read_unread, harg5.read_unread,
      View.ld_unit_zero (S := S1x64x1024) hz3, View.ld_unit_zero (S := S64x1) hz2]
    rfl
  · dsimp only
    rw [View.read_writes_eq_canon _ _ _ (accCoverFirst_s1 c i arg1 harg1 arg2 harg2 arg3 harg3 arg4 harg4 arg5 harg5 arg6 harg6 arg7 harg7 arg8 harg8 hc x0 x1 x2 x3 x4)]
    unfold accRunFirst
    dsimp only
    sl_unfold_words
    rw [View.canon_cons_unit_zero (S := S64x1) hz2, View.readCov_unit_zero (S := S64x1) _ hz2]
    simp only [View.readAt_eq_ld, harg1.read_unread, harg2.read_unread, harg3.read_unread, harg4.read_unread, harg5.read_unread,
      View.ld_unit_zero (S := S1x64x1024) hz3, View.ld_unit_zero (S := S64x1) hz2]
    rfl
  · dsimp only
    rw [View.read_writes_eq_canon _ _ _ (accCoverFirst_s2 c i arg1 harg1 arg2 harg2 arg3 harg3 arg4 harg4 arg5 harg5 arg6 harg6 arg7 harg7 arg8 harg8 hc x0 x1 x2 x3 x4)]
    unfold accRunFirst
    dsimp only
    sl_unfold_words
    rw [View.canon_cons_unit_zero (S := S64x1) hz2, View.readCov_unit_zero (S := S64x1) _ hz2]
    simp only [View.readAt_eq_ld, harg1.read_unread, harg2.read_unread, harg3.read_unread, harg4.read_unread, harg5.read_unread,
      View.ld_unit_zero (S := S1x64x1024) hz3, View.ld_unit_zero (S := S64x1) hz2]
    rfl

end Cert.ReferenceIdeal.Hand

end
-- ==== Proof.Spec.lean ====
/-
  The two programs' results as index-level formulas over the extended reals, in terms of the arrays each program's
  first grid is entered from. Nothing here mentions a program: arrays are curried functions on `Fin` indices
  (batch element b < 128, channel c, o < 64, flattened pixel l < 1024 = 32 rows of 32), the five float constants of
  the programs are parameters, and every sum is a finite sum (addition of extended reals is associative and
  commutative, so the order in which a program adds does not matter).

  A cyclic rotation of the 1024 pixels by s places reads pixel (l − s) mod 1024; `shl l k` is the pixel
  (l + k) mod 1024, so a rotation by s reads `shl l (1024 − s)`. Tap t = 3 kh + kw of the dilated 3×3 window sits
  at row offset 2 (kh − 1) and column offset 2 (kw − 1), pixel offset 64 (kh − 1) + 2 (kw − 1).
-/
import Idealize.ShloMosaic.PureOps.Ideal

noncomputable section

namespace Cert.Spec

open Idealize.ShloMosaic

/-- The float constants of the two programs: θ (0.7), 1 − θ (0.3), the variance's ε, the element count n = 131072
    the kernel divides by, and its reciprocal 2⁻¹⁷ the reference multiplies by. -/
structure Consts where
  θ : EReal
  κ : EReal
  ε : EReal
  n : EReal
  ninv : EReal

/-- The constants as the two programs spell them: the same five words of f32 on both sides. -/
def consts : Consts where
  θ := Ideal.ofBits .f32 0x3F333333#32
  κ := Ideal.ofBits .f32 0x3E99999A#32
  ε := Ideal.ofBits .f32 0x3727C5AC#32
  n := Ideal.ofBits .f32 0x48000000#32
  ninv := Ideal.ofBits .f32 0x37000000#32

/-- Pixel (l + k) mod 1024. -/
def shl (l : Fin 1024) (k : ℕ) : Fin 1024 := ⟨(l.val + k) % 1024, Nat.mod_lt _ (by norm_num)⟩

/-- The pixel offset of tap t, as a forward cyclic shift: (64 (kh − 1) + 2 (kw − 1)) mod 1024. -/
def tapShift (t : Fin 9) : ℕ := ((t.val / 3) * 64 + (t.val % 3) * 2 + 1024 - 66) % 1024

/-! ## The reference -/

section Reference
variable (K : Consts)
variable (X : Fin 128 → Fin 64 → Fin 1024 → EReal) (WD : Fin 64 → Fin 9 → EReal) (KD : Fin 64 → EReal)
  (MK : Fin 9 → Fin 1024 → EReal) (WP : Fin 64 → Fin 64 → EReal) (GA BE : Fin 64 → EReal)

/-- The rectified activation. -/
def relu (b : Fin 128) (c : Fin 64) (l : Fin 1024) : EReal := max (X b c l) 0
/-- Tap t of the depthwise window: the centre tap is the activation itself, every other tap the rotated
    activation times that tap's border mask. -/
def refTap (b : Fin 128) (c : Fin 64) (t : Fin 9) (l : Fin 1024) : EReal :=
  if t.val = 4 then relu X b c l else relu X b c (shl l (tapShift t)) * MK t l
/-- The depthwise central-difference result: the weighted taps less θ·(Σ weights)·activation (`KD`). -/
def refCdc (b : Fin 128) (c : Fin 64) (l : Fin 1024) : EReal :=
  (∑ t : Fin 9, refTap X MK b c t l * WD c t) - KD c * relu X b c l
/-- The pointwise convolution, before normalisation. -/
def refY (b : Fin 128) (o : Fin 64) (l : Fin 1024) : EReal := ∑ c : Fin 64, WP o c * refCdc X WD KD MK b c l
def refS1 (o : Fin 64) : EReal := ∑ b : Fin 128, ∑ l : Fin 1024, refY X WD KD MK WP b o l
def refS2 (o : Fin 64) : EReal := ∑ b : Fin 128, ∑ l : Fin 1024, refY X WD KD MK WP b o l * refY X WD KD MK WP b o l
def refMean (o : Fin 64) : EReal := refS1 X WD KD MK WP o * K.ninv
def refVar (o : Fin 64) : EReal := refS2 X WD KD MK WP o * K.ninv - refMean K X WD KD MK WP o * refMean K X WD KD MK WP o
def refScale (o : Fin 64) : EReal := Ideal.rsqrt (refVar K X WD KD MK WP o + K.ε) * GA o
def refShift (o : Fin 64) : EReal := BE o - refMean K X WD KD MK WP o * refScale K X WD KD MK WP GA o
/-- THE REFERENCE'S RESULT. -/
def refOut (b : Fin 128) (o : Fin 64) (l : Fin 1024) : EReal :=
  refY X WD KD MK WP b o l * refScale K X WD KD MK WP GA o + refShift K X WD KD MK WP GA BE o

end Reference

/-! ## The kernel -/

section Kernel
variable (K : Consts)
variable (X : Fin 128 → Fin 64 → Fin 1024 → EReal) (WR : Fin 1024 → Fin 9 → EReal) (MS : Fin 4 → Fin 1024 → EReal)
  (WPA : Fin 64 → Fin 64 → EReal) (GAA BEA : Fin 64 → EReal)

/-- The weight row of batch element b and channel c in the 16-fold tiled weight table: (b mod 16)·64 + c. -/
def wrow (b : Fin 128) (c : Fin 64) : Fin 1024 := ⟨(b.val % 16) * 64 + c.val, by have := c.isLt; have := Nat.mod_lt b.val (show 0 < 16 by norm_num); omega⟩
/-- The activation two columns to the left, masked; and two columns to the right, masked. -/
def kerTm (b : Fin 128) (c : Fin 64) (l : Fin 1024) : EReal := relu X b c (shl l 1022) * MS 0 l
def kerTp (b : Fin 128) (c : Fin 64) (l : Fin 1024) : EReal := relu X b c (shl l 2) * MS 1 l
/-- The weighted row of three taps at window row kh. -/
def kerRow (kh : Fin 3) (b : Fin 128) (c : Fin 64) (l : Fin 1024) : EReal :=
  kerTm X MS b c l * WR (wrow b c) ⟨3 * kh.val, by have := kh.isLt; omega⟩
    + relu X b c l * WR (wrow b c) ⟨3 * kh.val + 1, by have := kh.isLt; omega⟩
    + kerTp X MS b c l * WR (wrow b c) ⟨3 * kh.val + 2, by have := kh.isLt; omega⟩
/-- The depthwise central-difference result, separably: the middle row, the row two above (rotated down two rows,
    masked) and the row two below (rotated up two rows, masked). -/
def kerCdc (b : Fin 128) (c : Fin 64) (l : Fin 1024) : EReal :=
  kerRow X WR MS 1 b c l + kerRow X WR MS 0 b c (shl l 960) * MS 2 l + kerRow X WR MS 2 b c (shl l 64) * MS 3 l
/-- The Gram matrix and the channel sums of the depthwise result over all batch elements and pixels. -/
def kerG (c c' : Fin 64) : EReal := ∑ b : Fin 128, ∑ l : Fin 1024, kerCdc X WR MS b c l * kerCdc X WR MS b c' l
def kerV (c : Fin 64) : EReal := ∑ b : Fin 128, ∑ l : Fin 1024, kerCdc X WR MS b c l
def wpf (o c : Fin 64) : EReal := K.κ * WPA o c
def kerMean (o : Fin 64) : EReal := Ideal.div (∑ c : Fin 64, wpf K WPA o c * kerV X WR MS c) K.n
def kerE2 (o : Fin 64) : EReal :=
  Ideal.div (∑ c' : Fin 64, (∑ c : Fin 64, wpf K WPA o c * kerG X WR MS c c') * wpf K WPA o c') K.n
def kerVar (o : Fin 64) : EReal := kerE2 K X WR MS WPA o - kerMean K X WR MS WPA o * kerMean K X WR MS WPA o
def kerScale (o : Fin 64) : EReal := GAA o * Ideal.rsqrt (kerVar K X WR MS WPA o + K.ε)
def kerShift (o : Fin 64) : EReal := BEA o - kerMean K X WR MS WPA o * kerScale K X WR MS WPA GAA o
/-- THE KERNEL'S RESULT. -/
def kerOut (b : Fin 128) (o : Fin 64) (l : Fin 1024) : EReal :=
  (∑ c : Fin 64, (kerScale K X WR MS WPA GAA o * wpf K WPA o c) * kerCdc X WR MS b c l) + kerShift K X WR MS WPA GAA BEA o

end Kernel

/-! ## What the host stretches hand the first grids, as functions of the five arguments -/

/-- The reference's tap mask: 1 where the tap's source pixel lies inside the 32×32 image, else 0. -/
def refMask (t : Fin 9) (l : Fin 1024) : EReal :=
  if 2 ≤ l.val / 32 + 2 * (t.val / 3) ∧ l.val / 32 + 2 * (t.val / 3) < 34 ∧ 2 ≤ l.val % 32 + 2 * (t.val % 3) ∧ l.val % 32 + 2 * (t.val % 3) < 34 then 1 else 0
/-- The kernel's four border masks: column ≥ 2, column < 30, row ≥ 2, row < 30. -/
def kerMask (k : Fin 4) (l : Fin 1024) : EReal :=
  if (k.val = 0 ∧ 2 ≤ l.val % 32) ∨ (k.val = 1 ∧ l.val % 32 < 30) ∨ (k.val = 2 ∧ 2 ≤ l.val / 32) ∨ (k.val = 3 ∧ l.val / 32 < 30) then 1 else 0
/-- The kernel's folded depthwise weights: the centre tap carries −θ·Σ weights. -/
def kerWeights (K : Consts) (wd : Fin 64 → Fin 9 → EReal) (ρ : Fin 1024) (t : Fin 9) : EReal :=
  wd ⟨ρ.val % 64, Nat.mod_lt _ (by norm_num)⟩ t - (K.θ * ∑ t' : Fin 9, wd ⟨ρ.val % 64, Nat.mod_lt _ (by norm_num)⟩ t') * (if t.val = 4 then 1 else 0)
/-- The reference's θ-scaled weight sums. -/
def refKdiff (K : Consts) (wd : Fin 64 → Fin 9 → EReal) (c : Fin 64) : EReal := K.θ * ∑ t : Fin 9, wd c t

end Cert.Spec

end
-- ==== Proof.RefValueConvPay.lean ====
/-
  The pointwise convolution's payloads read at an entry: each printed part adds to its accumulator, at channel o and
  lane l, the products of entry o of a column of the pointwise weights with lane l of the matching row of the
  depthwise block. A sub-block load of a matrix's column k or row k reads the matrix there.
-/
import proofs.«162342_g2000606144476369_pallasbulk_1044_23_alg».proof.Proof.Gen.ReferenceIdeal.Skeleton
import proofs.«162342_g2000606144476369_pallasbulk_1044_23_alg».proof.Proof.RefValueLib
import proofs.«162342_g2000606144476369_pallasbulk_1044_23_alg».proof.Proof.Spec

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- Column k of a matrix, loaded as an [a, 1] block, at row o. -/
theorem ld_col_apply {Val : EltTy → Type} {e : EltTy} {a b : ℕ} (X : (⟨2, ![a, b]⟩ : Shape).Idx → Val e) (k : ℕ)
    (inb : ∀ ax, (![0, k] : Fin 2 → ℕ) ax + (![a, 1] : Fin 2 → ℕ) ax ≤ (⟨2, ![a, b]⟩ : Shape).size ax) (o : Fin a) :
    View.ld X (Rect.unit (s := ⟨2, ![a, b]⟩) ![0, k] ![a, 1] inb) (ix2 o (0 : Fin 1))
      = X (ix2 o (⟨k, by have := inb 1; simpa using this⟩ : Fin b)) := by
  show X ((Rect.unit (s := ⟨2, ![a, b]⟩) ![0, k] ![a, 1] inb).emb (ix2 o (0 : Fin 1))) = _
  refine congrArg X (funext fun ax => Fin.ext ?_)
  match ax with
  | ⟨0, _⟩ => show 0 + 1 * o.val = o.val; omega
  | ⟨1, _⟩ => show k + 1 * 0 = k; omega

/-- Row k of a matrix, loaded as a [1, b] block, at lane l. -/
theorem ld_row_apply {Val : EltTy → Type} {e : EltTy} {a b : ℕ} (X : (⟨2, ![a, b]⟩ : Shape).Idx → Val e) (k : ℕ)
    (inb : ∀ ax, (![k, 0] : Fin 2 → ℕ) ax + (![1, b] : Fin 2 → ℕ) ax ≤ (⟨2, ![a, b]⟩ : Shape).size ax) (l : Fin b) :
    View.ld X (Rect.unit (s := ⟨2, ![a, b]⟩) ![k, 0] ![1, b] inb) (ix2 (0 : Fin 1) l)
      = X (ix2 (⟨k, by have := inb 0; simpa using this⟩ : Fin a) l) := by
  show X ((Rect.unit (s := ⟨2, ![a, b]⟩) ![k, 0] ![1, b] inb).emb (ix2 (0 : Fin 1) l)) = _
  refine congrArg X (funext fun ax => Fin.ext ?_)
  match ax with
  | ⟨0, _⟩ => show k + 1 * 0 = k; omega
  | ⟨1, _⟩ => show 0 + 1 * l.val = l.val; omega

theorem pay15_apply (v6 : FVec Ideal S64x1024 .f32) (v72 : FVec Ideal S64x1024 .f32) (v73 : FVec Ideal S64x1024 .f32) (v75 : FVec Ideal S1x1024 .f32) (v78 : Vec Ideal S64x1 .f32) (v84 : Vec Ideal S1x1024 .f32) (v88 : Vec Ideal S64x1 .f32) (v93 : Vec Ideal S64x1 .f32) (v99 : Vec Ideal S64x1 .f32) (v106 : Vec Ideal S64x1 .f32) (v113 : Vec Ideal S64x1 .f32) (o : Fin 64) (l : Fin 1024) :
    k0_pay15 (F := Ideal) v6 v72 v73 v75 v78 v84 v88 v93 v99 v106 v113 (ix2 o l)
      = Ideal.ofBits .f32 0x00000000#32
        + v99 (ix2 o (0 : Fin 1)) * (k0_pay14 v6 v72 v73 v75 v78 v84 v88 v93) (ix2 (⟨0, by norm_num⟩ : Fin 64) l)
        + v106 (ix2 o (0 : Fin 1)) * (k0_pay14 v6 v72 v73 v75 v78 v84 v88 v93) (ix2 (⟨1, by norm_num⟩ : Fin 64) l)
        + v113 (ix2 o (0 : Fin 1)) * (k0_pay14 v6 v72 v73 v75 v78 v84 v88 v93) (ix2 (⟨2, by norm_num⟩ : Fin 64) l) := by
  unfold k0_pay15
  simp only [addf_apply, mulf_apply, broadcastTo_a1_ab_apply, broadcastTo_1b_ab_apply, shapeCast_self, slice2_axis0_eq, broadcast_apply]
  rfl

theorem pay16_apply (v97 : FVec Ideal S64x1024 .f32) (v119 : FVec Ideal S64x1024 .f32) (v120 : Vec Ideal S64x1 .f32) (v127 : Vec Ideal S64x1 .f32) (v134 : Vec Ideal S64x1 .f32) (v141 : Vec Ideal S64x1 .f32) (v148 : Vec Ideal S64x1 .f32) (v155 : Vec Ideal S64x1 .f32) (o : Fin 64) (l : Fin 1024) :
    k0_pay16 (F := Ideal) v97 v119 v120 v127 v134 v141 v148 v155 (ix2 o l)
      = v119 (ix2 o l)
        + v120 (ix2 o (0 : Fin 1)) * v97 (ix2 (⟨3, by norm_num⟩ : Fin 64) l)
        + v127 (ix2 o (0 : Fin 1)) * v97 (ix2 (⟨4, by norm_num⟩ : Fin 64) l)
        + v134 (ix2 o (0 : Fin 1)) * v97 (ix2 (⟨5, by norm_num⟩ : Fin 64) l)
        + v141 (ix2 o (0 : Fin 1)) * v97 (ix2 (⟨6, by norm_num⟩ : Fin 64) l)
        + v148 (ix2 o (0 : Fin 1)) * v97 (ix2 (⟨7, by norm_num⟩ : Fin 64) l)
        + v155 (ix2 o (0 : Fin 1)) * v97 (ix2 (⟨8, by norm_num⟩ : Fin 64) l) := by
  unfold k0_pay16
  simp only [addf_apply, mulf_apply, broadcastTo_a1_ab_apply, broadcastTo_1b_ab_apply, shapeCast_self, slice2_axis0_eq, broadcast_apply]
  rfl

theorem pay19_apply (v97 : FVec Ideal S64x1024 .f32) (v161 : FVec Ideal S64x1024 .f32) (v164 : FVec Ideal S1x1024 .f32) (v165 : FVec Ideal S64x1024 .f32) (v169 : Vec Ideal S64x1 .f32) (v176 : Vec Ideal S64x1 .f32) (v183 : Vec Ideal S64x1 .f32) (v190 : Vec Ideal S64x1 .f32) (v197 : Vec Ideal S64x1 .f32) (v204 : Vec Ideal S64x1 .f32) (o : Fin 64) (l : Fin 1024) :
    k0_pay19 (F := Ideal) v97 v161 v164 v165 v169 v176 v183 v190 v197 v204 (ix2 o l)
      = v161 (ix2 o l)
        + v165 (ix2 o l) * v164 (ix2 (0 : Fin 1) l)
        + v169 (ix2 o (0 : Fin 1)) * v97 (ix2 (⟨10, by norm_num⟩ : Fin 64) l)
        + v176 (ix2 o (0 : Fin 1)) * v97 (ix2 (⟨11, by norm_num⟩ : Fin 64) l)
        + v183 (ix2 o (0 : Fin 1)) * v97 (ix2 (⟨12, by norm_num⟩ : Fin 64) l)
        + v190 (ix2 o (0 : Fin 1)) * v97 (ix2 (⟨13, by norm_num⟩ : Fin 64) l)
        + v197 (ix2 o (0 : Fin 1)) * v97 (ix2 (⟨14, by norm_num⟩ : Fin 64) l)
        + v204 (ix2 o (0 : Fin 1)) * v97 (ix2 (⟨15, by norm_num⟩ : Fin 64) l) := by
  unfold k0_pay19
  simp only [addf_apply, mulf_apply, broadcastTo_a1_ab_apply, broadcastTo_1b_ab_apply, shapeCast_self, slice2_axis0_eq, broadcast_apply]
  rfl

theorem pay20_apply (v97 : FVec Ideal S64x1024 .f32) (v210 : FVec Ideal S64x1024 .f32) (v211 : Vec Ideal S64x1 .f32) (v218 : Vec Ideal S64x1 .f32) (v225 : Vec Ideal S64x1 .f32) (v232 : Vec Ideal S64x1 .f32) (v239 : Vec Ideal S64x1 .f32) (v246 : Vec Ideal S64x1 .f32) (v253 : Vec Ideal S64x1 .f32) (o : Fin 64) (l : Fin 1024) :
    k0_pay20 (F := Ideal) v97 v210 v211 v218 v225 v232 v239 v246 v253 (ix2 o l)
      = v210 (ix2 o l)
        + v211 (ix2 o (0 : Fin 1)) * v97 (ix2 (⟨16, by norm_num⟩ : Fin 64) l)
        + v218 (ix2 o (0 : Fin 1)) * v97 (ix2 (⟨17, by norm_num⟩ : Fin 64) l)
        + v225 (ix2 o (0 : Fin 1)) * v97 (ix2 (⟨18, by norm_num⟩ : Fin 64) l)
        + v232 (ix2 o (0 : Fin 1)) * v97 (ix2 (⟨19, by norm_num⟩ : Fin 64) l)
        + v239 (ix2 o (0 : Fin 1)) * v97 (ix2 (⟨20, by norm_num⟩ : Fin 64) l)
        + v246 (ix2 o (0 : Fin 1)) * v97 (ix2 (⟨21, by norm_num⟩ : Fin 64) l)
        + v253 (ix2 o (0 : Fin 1)) * v97 (ix2 (⟨22, by norm_num⟩ : Fin 64) l) := by
  unfold k0_pay20
  simp only [addf_apply, mulf_apply, broadcastTo_a1_ab_apply, broadcastTo_1b_ab_apply, shapeCast_self, slice2_axis0_eq, broadcast_apply]
  rfl

theorem pay21_apply (v97 : FVec Ideal S64x1024 .f32) (v259 : FVec Ideal S64x1024 .f32) (v260 : Vec Ideal S64x1 .f32) (v267 : Vec Ideal S64x1 .f32) (v274 : Vec Ideal S64x1 .f32) (v281 : Vec Ideal S64x1 .f32) (v288 : Vec Ideal S64x1 .f32) (v295 : Vec Ideal S64x1 .f32) (o : Fin 64) (l : Fin 1024) :
    k0_pay21 (F := Ideal) v97 v259 v260 v267 v274 v281 v288 v295 (ix2 o l)
      = v259 (ix2 o l)
        + v260 (ix2 o (0 : Fin 1)) * v97 (ix2 (⟨23, by norm_num⟩ : Fin 64) l)
        + v267 (ix2 o (0 : Fin 1)) * v97 (ix2 (⟨24, by norm_num⟩ : Fin 64) l)
        + v274 (ix2 o (0 : Fin 1)) * v97 (ix2 (⟨25, by norm_num⟩ : Fin 64) l)
        + v281 (ix2 o (0 : Fin 1)) * v97 (ix2 (⟨26, by norm_num⟩ : Fin 64) l)
        + v288 (ix2 o (0 : Fin 1)) * v97 (ix2 (⟨27, by norm_num⟩ : Fin 64) l)
        + v295 (ix2 o (0 : Fin 1)) * v97 (ix2 (⟨28, by norm_num⟩ : Fin 64) l) := by
  unfold k0_pay21
  simp only [addf_apply, mulf_apply, broadcastTo_a1_ab_apply, broadcastTo_1b_ab_apply, shapeCast_self, slice2_axis0_eq, broadcast_apply]
  rfl

theorem pay24_apply (v97 : FVec Ideal S64x1024 .f32) (v301 : FVec Ideal S64x1024 .f32) (v304 : FVec Ideal S1x1024 .f32) (v305 : FVec Ideal S64x1024 .f32) (v309 : Vec Ideal S64x1 .f32) (v316 : Vec Ideal S64x1 .f32) (v323 : Vec Ideal S64x1 .f32) (v330 : Vec Ideal S64x1 .f32) (v337 : Vec Ideal S64x1 .f32) (v344 : Vec Ideal S64x1 .f32) (o : Fin 64) (l : Fin 1024) :
    k0_pay24 (F := Ideal) v97 v301 v304 v305 v309 v316 v323 v330 v337 v344 (ix2 o l)
      = v301 (ix2 o l)
        + v305 (ix2 o l) * v304 (ix2 (0 : Fin 1) l)
        + v309 (ix2 o (0 : Fin 1)) * v97 (ix2 (⟨30, by norm_num⟩ : Fin 64) l)
        + v316 (ix2 o (0 : Fin 1)) * v97 (ix2 (⟨31, by norm_num⟩ : Fin 64) l)
        + v323 (ix2 o (0 : Fin 1)) * v97 (ix2 (⟨32, by norm_num⟩ : Fin 64) l)
        + v330 (ix2 o (0 : Fin 1)) * v97 (ix2 (⟨33, by norm_num⟩ : Fin 64) l)
        + v337 (ix2 o (0 : Fin 1)) * v97 (ix2 (⟨34, by norm_num⟩ : Fin 64) l)
        + v344 (ix2 o (0 : Fin 1)) * v97 (ix2 (⟨35, by norm_num⟩ : Fin 64) l) := by
  unfold k0_pay24
  simp only [addf_apply, mulf_apply, broadcastTo_a1_ab_apply, broadcastTo_1b_ab_apply, shapeCast_self, slice2_axis0_eq, broadcast_apply]
  rfl

theorem pay25_apply (v97 : FVec Ideal S64x1024 .f32) (v350 : FVec Ideal S64x1024 .f32) (v351 : Vec Ideal S64x1 .f32) (v358 : Vec Ideal S64x1 .f32) (v365 : Vec Ideal S64x1 .f32) (v372 : Vec Ideal S64x1 .f32) (v379 : Vec Ideal S64x1 .f32) (v386 : Vec Ideal S64x1 .f32) (v393 : Vec Ideal S64x1 .f32) (o : Fin 64) (l : Fin 1024) :
    k0_pay25 (F := Ideal) v97 v350 v351 v358 v365 v372 v379 v386 v393 (ix2 o l)
      = v350 (ix2 o l)
        + v351 (ix2 o (0 : Fin 1)) * v97 (ix2 (⟨36, by norm_num⟩ : Fin 64) l)
        + v358 (ix2 o (0 : Fin 1)) * v97 (ix2 (⟨37, by norm_num⟩ : Fin 64) l)
        + v365 (ix2 o (0 : Fin 1)) * v97 (ix2 (⟨38, by norm_num⟩ : Fin 64) l)
        + v372 (ix2 o (0 : Fin 1)) * v97 (ix2 (⟨39, by norm_num⟩ : Fin 64) l)
        + v379 (ix2 o (0 : Fin 1)) * v97 (ix2 (⟨40, by norm_num⟩ : Fin 64) l)
        + v386 (ix2 o (0 : Fin 1)) * v97 (ix2 (⟨41, by norm_num⟩ : Fin 64) l)
        + v393 (ix2 o (0 : Fin 1)) * v97 (ix2 (⟨42, by norm_num⟩ : Fin 64) l) := by
  unfold k0_pay25
  simp only [addf_apply, mulf_apply, broadcastTo_a1_ab_apply, broadcastTo_1b_ab_apply, shapeCast_self, slice2_axis0_eq, broadcast_apply]
  rfl

theorem pay26_apply (v97 : FVec Ideal S64x1024 .f32) (v399 : FVec Ideal S64x1024 .f32) (v400 : Vec Ideal S64x1 .f32) (v407 : Vec Ideal S64x1 .f32) (v414 : Vec Ideal S64x1 .f32) (v421 : Vec Ideal S64x1 .f32) (v428 : Vec Ideal S64x1 .f32) (v435 : Vec Ideal S64x1 .f32) (o : Fin 64) (l : Fin 1024) :
    k0_pay26 (F := Ideal) v97 v399 v400 v407 v414 v421 v428 v435 (ix2 o l)
      = v399 (ix2 o l)
        + v400 (ix2 o (0 : Fin 1)) * v97 (ix2 (⟨43, by norm_num⟩ : Fin 64) l)
        + v407 (ix2 o (0 : Fin 1)) * v97 (ix2 (⟨44, by norm_num⟩ : Fin 64) l)
        + v414 (ix2 o (0 : Fin 1)) * v97 (ix2 (⟨45, by norm_num⟩ : Fin 64) l)
        + v421 (ix2 o (0 : Fin 1)) * v97 (ix2 (⟨46, by norm_num⟩ : Fin 64) l)
        + v428 (ix2 o (0 : Fin 1)) * v97 (ix2 (⟨47, by norm_num⟩ : Fin 64) l)
        + v435 (ix2 o (0 : Fin 1)) * v97 (ix2 (⟨48, by norm_num⟩ : Fin 64) l) := by
  unfold k0_pay26
  simp only [addf_apply, mulf_apply, broadcastTo_a1_ab_apply, broadcastTo_1b_ab_apply, shapeCast_self, slice2_axis0_eq, broadcast_apply]
  rfl

theorem pay29_apply (v97 : FVec Ideal S64x1024 .f32) (v441 : FVec Ideal S64x1024 .f32) (v444 : FVec Ideal S1x1024 .f32) (v445 : FVec Ideal S64x1024 .f32) (v449 : Vec Ideal S64x1 .f32) (v456 : Vec Ideal S64x1 .f32) (v463 : Vec Ideal S64x1 .f32) (v470 : Vec Ideal S64x1 .f32) (v477 : Vec Ideal S64x1 .f32) (v484 : Vec Ideal S64x1 .f32) (o : Fin 64) (l : Fin 1024) :
    k0_pay29 (F := Ideal) v97 v441 v444 v445 v449 v456 v463 v470 v477 v484 (ix2 o l)
      = v441 (ix2 o l)
        + v445 (ix2 o l) * v444 (ix2 (0 : Fin 1) l)
        + v449 (ix2 o (0 : Fin 1)) * v97 (ix2 (⟨50, by norm_num⟩ : Fin 64) l)
        + v456 (ix2 o (0 : Fin 1)) * v97 (ix2 (⟨51, by norm_num⟩ : Fin 64) l)
        + v463 (ix2 o (0 : Fin 1)) * v97 (ix2 (⟨52, by norm_num⟩ : Fin 64) l)
        + v470 (ix2 o (0 : Fin 1)) * v97 (ix2 (⟨53, by norm_num⟩ : Fin 64) l)
        + v477 (ix2 o (0 : Fin 1)) * v97 (ix2 (⟨54, by norm_num⟩ : Fin 64) l)
        + v484 (ix2 o (0 : Fin 1)) * v97 (ix2 (⟨55, by norm_num⟩ : Fin 64) l) := by
  unfold k0_pay29
  simp only [addf_apply, mulf_apply, broadcastTo_a1_ab_apply, broadcastTo_1b_ab_apply, shapeCast_self, slice2_axis0_eq, broadcast_apply]
  rfl

theorem pay30_apply (v97 : FVec Ideal S64x1024 .f32) (v490 : FVec Ideal S64x1024 .f32) (v491 : Vec Ideal S64x1 .f32) (v498 : Vec Ideal S64x1 .f32) (v505 : Vec Ideal S64x1 .f32) (v512 : Vec Ideal S64x1 .f32) (v519 : Vec Ideal S64x1 .f32) (v526 : Vec Ideal S64x1 .f32) (v533 : Vec Ideal S64x1 .f32) (o : Fin 64) (l : Fin 1024) :
    k0_pay30 (F := Ideal) v97 v490 v491 v498 v505 v512 v519 v526 v533 (ix2 o l)
      = v490 (ix2 o l)
        + v491 (ix2 o (0 : Fin 1)) * v97 (ix2 (⟨56, by norm_num⟩ : Fin 64) l)
        + v498 (ix2 o (0 : Fin 1)) * v97 (ix2 (⟨57, by norm_num⟩ : Fin 64) l)
        + v505 (ix2 o (0 : Fin 1)) * v97 (ix2 (⟨58, by norm_num⟩ : Fin 64) l)
        + v512 (ix2 o (0 : Fin 1)) * v97 (ix2 (⟨59, by norm_num⟩ : Fin 64) l)
        + v519 (ix2 o (0 : Fin 1)) * v97 (ix2 (⟨60, by norm_num⟩ : Fin 64) l)
        + v526 (ix2 o (0 : Fin 1)) * v97 (ix2 (⟨61, by norm_num⟩ : Fin 64) l)
        + v533 (ix2 o (0 : Fin 1)) * v97 (ix2 (⟨62, by norm_num⟩ : Fin 64) l) := by
  unfold k0_pay30
  simp only [addf_apply, mulf_apply, broadcastTo_a1_ab_apply, broadcastTo_1b_ab_apply, shapeCast_self, slice2_axis0_eq, broadcast_apply]
  rfl

theorem pay1_apply (v97 : FVec Ideal S64x1024 .f32) (v539 : FVec Ideal S64x1024 .f32) (v540 : Vec Ideal S64x1 .f32) (o : Fin 64) (l : Fin 1024) :
    k0_pay1 (F := Ideal) v97 v539 v540 (ix2 o l)
      = v539 (ix2 o l)
        + v540 (ix2 o (0 : Fin 1)) * v97 (ix2 (⟨63, by norm_num⟩ : Fin 64) l) := by
  unfold k0_pay1
  simp only [addf_apply, mulf_apply, broadcastTo_a1_ab_apply, broadcastTo_1b_ab_apply, shapeCast_self, slice2_axis0_eq, broadcast_apply]
  rfl

theorem pay17_apply (v97 : FVec Ideal S64x1024 .f32) (l : Fin 1024) :
    k0_pay17 (F := Ideal) v97 (ix2 (0 : Fin 1) l) = v97 (ix2 (⟨9, by norm_num⟩ : Fin 64) l) := by
  unfold k0_pay17
  simp only [slice2_axis0_eq]
  rfl

theorem pay22_apply (v97 : FVec Ideal S64x1024 .f32) (l : Fin 1024) :
    k0_pay22 (F := Ideal) v97 (ix2 (0 : Fin 1) l) = v97 (ix2 (⟨29, by norm_num⟩ : Fin 64) l) := by
  unfold k0_pay22
  simp only [slice2_axis0_eq]
  rfl

theorem pay27_apply (v97 : FVec Ideal S64x1024 .f32) (l : Fin 1024) :
    k0_pay27 (F := Ideal) v97 (ix2 (0 : Fin 1) l) = v97 (ix2 (⟨49, by norm_num⟩ : Fin 64) l) := by
  unfold k0_pay27
  simp only [slice2_axis0_eq]
  rfl

theorem pay18_apply (v : Vec Ideal S64x1 .f32) (o : Fin 64) (l : Fin 1024) :
    k0_pay18 (F := Ideal) v (ix2 o l) = v (ix2 o (0 : Fin 1)) := by
  unfold k0_pay18
  simp only [broadcastTo_a1_ab_apply, shapeCast_self]

theorem pay23_apply (v : Vec Ideal S64x1 .f32) (o : Fin 64) (l : Fin 1024) :
    k0_pay23 (F := Ideal) v (ix2 o l) = v (ix2 o (0 : Fin 1)) := by
  unfold k0_pay23
  simp only [broadcastTo_a1_ab_apply, shapeCast_self]

theorem pay28_apply (v : Vec Ideal S64x1 .f32) (o : Fin 64) (l : Fin 1024) :
    k0_pay28 (F := Ideal) v (ix2 o l) = v (ix2 o (0 : Fin 1)) := by
  unfold k0_pay28
  simp only [broadcastTo_a1_ab_apply, shapeCast_self]

/-- The rectified activation. -/
theorem pay7_apply (v3 : Vec Ideal S1x64x1024 .f32) (c : Fin 64) (l : Fin 1024) :
    k0_pay7 (F := Ideal) v3 (ix2 c l) = max (v3 (ix3 (0 : Fin 1) c l)) (Ideal.ofBits .f32 0x00000000#32) := by
  unfold k0_pay7
  simp only [maximumf_apply, shapeCast_1ab_ab_apply, broadcast_apply]
  rfl

/-- A rotation of the lanes by s places reads lane (l + k) mod 1024 when s + k = 1024. -/
theorem rot_apply {α : Type} (s k : ℕ) (hsk : s + k = 1024) (hk : k < 1024) (r : (⟨2, ![64, 1024]⟩ : Shape).Idx → α)
    (h : (⟨2, ![64, 1024]⟩ : Shape).Rotates (1 : Fin 2) none) (c : Fin 64) (l : Fin 1024) :
    dynamicRotate (1 : Fin 2) (BitVec.ofNat 32 s) none r h (ix2 c l) = r (ix2 c (Cert.Spec.shl l k)) := by
  refine dynamicRotate_apply _ _ _ _ _ _ fun b => ?_
  have h32 : s % 2 ^ 32 = s := Nat.mod_eq_of_lt (lt_of_le_of_lt (show s ≤ 1024 by omega) (by norm_num))
  have hl : l.val < 1024 := l.isLt
  match b with
  | ⟨0, _⟩ => rfl
  | ⟨1, h1⟩ =>
    show (l.val + k) % 1024 = if ((⟨1, h1⟩ : Fin 2) = (1 : Fin 2)) then (l.val + 1024 - (BitVec.ofNat 32 s).toNat % 1024) % 1024 else l.val
    rw [if_pos (show ((⟨1, h1⟩ : Fin 2) = (1 : Fin 2)) from rfl), BitVec.toNat_ofNat, h32]
    omega

/-- The stored block is the accumulator with a leading unit axis. -/
theorem pay2_apply (v97 v539 : FVec Ideal S64x1024 .f32) (v540 : Vec Ideal S64x1 .f32) (o : Fin 64) (l : Fin 1024) :
    k0_pay2 (F := Ideal) v97 v539 v540 (ix3 (0 : Fin 1) o l) = k0_pay1 v97 v539 v540 (ix2 o l) := by
  unfold k0_pay2
  exact shapeCast_ab_1ab_apply _ _ 0 o l

/-- A row's lane sum. -/
theorem rowSum_apply (src : FVec Ideal S64x1024 .f32) (h : S64x1024.Reduces [(1 : Fin 2)] S64) (hφ : FKind.Formats .f32)
    (hacc : (0x00000000#32 : BitVec 32) = FKind.add.neutral .f32 hφ) (hc : S64.ShapeCasts S64x1) (o : Fin 64) :
    shapeCast S64x1 (multiReduction .add [(1 : Fin 2)] S64 src 0x00000000#32 h hφ hacc) hc (ix2 o (0 : Fin 1))
      = ∑ l : Fin 1024, src (ix2 o l) := by
  refine (shapeCast_apply _ _ (ix2 o (0 : Fin 1)) (ix1 o) ?_).trans ?_
  · rw [Shape.rowMajor_val_one, Shape.rowMajor_val_two]
    show o.val = o.val * 1 + 0
    omega
  refine (Ideal.multiReduction_add_single src 0x00000000#32 h hφ hacc (ix1 o)).trans ?_
  refine Finset.sum_congr rfl fun k _ => congrArg src ?_
  funext c
  apply Fin.ext
  match c with
  | ⟨0, _⟩ => rfl
  | ⟨1, _⟩ => rfl

/-- The first accumulator advances by the block's lane sums, -/
theorem pay3_apply (v97 v539 : FVec Ideal S64x1024 .f32) (v540 v550 : Vec Ideal S64x1 .f32) (o : Fin 64) :
    k0_pay3 (F := Ideal) v97 v539 v540 v550 (ix2 o (0 : Fin 1))
      = v550 (ix2 o (0 : Fin 1)) + ∑ l : Fin 1024, k0_pay1 v97 v539 v540 (ix2 o l) := by
  unfold k0_pay3
  show shapeCast S64x1 v550 _ (ix2 o (0 : Fin 1)) + shapeCast S64x1 _ _ (ix2 o (0 : Fin 1)) = _
  rw [shapeCast_self]
  exact congrArg (v550 (ix2 o (0 : Fin 1)) + ·) (rowSum_apply _ _ _ _ _ o)

/-- the second by the lane sums of its squares. -/
theorem pay4_apply (v97 v539 : FVec Ideal S64x1024 .f32) (v540 v556 : Vec Ideal S64x1 .f32) (o : Fin 64) :
    k0_pay4 (F := Ideal) v97 v539 v540 v556 (ix2 o (0 : Fin 1))
      = v556 (ix2 o (0 : Fin 1)) + ∑ l : Fin 1024, k0_pay1 v97 v539 v540 (ix2 o l) * k0_pay1 v97 v539 v540 (ix2 o l) := by
  unfold k0_pay4
  show shapeCast S64x1 v556 _ (ix2 o (0 : Fin 1)) + shapeCast S64x1 _ _ (ix2 o (0 : Fin 1)) = _
  rw [shapeCast_self]
  exact congrArg (v556 (ix2 o (0 : Fin 1)) + ·) (rowSum_apply _ _ _ _ _ o)

/-- The reset stores zero columns. -/
theorem pay5_apply (o : Fin 64) : k0_pay5 (F := Ideal) (ix2 o (0 : Fin 1)) = 0 := by
  unfold k0_pay5
  exact Ideal.ofBits_zero_f32
theorem pay6_apply (o : Fin 64) : k0_pay6 (F := Ideal) (ix2 o (0 : Fin 1)) = 0 := by
  unfold k0_pay6
  exact Ideal.ofBits_zero_f32

end Cert.ReferenceIdeal.Hand

end
-- ==== Proof.RefValueConvVal.lean ====
/-
  The convolution grid's body, entry by entry. The depthwise block is the central-difference formula of the
  specification over the loaded blocks; the pointwise accumulator after its 64 rank-one updates is the sum over input
  channels; the accumulators advance by lane sums.
-/
import proofs.«162342_g2000606144476369_pallasbulk_1044_23_alg».proof.Proof.RefValueConvPiece
import proofs.«162342_g2000606144476369_pallasbulk_1044_23_alg».proof.Proof.RefValueConvPay

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.Spec in
/-- The specification's depthwise formula with its nine-term sum written out, tap by tap. -/
theorem refCdc_expand (X : Fin 128 → Fin 64 → Fin 1024 → EReal) (WD : Fin 64 → Fin 9 → EReal) (KD : Fin 64 → EReal)
    (MK : Fin 9 → Fin 1024 → EReal) (b : Fin 128) (c : Fin 64) (l : Fin 1024) :
    refCdc X WD KD MK b c l
      = (0 + relu X b c (shl l 958) * MK 0 l * WD c 0 + relu X b c (shl l 960) * MK 1 l * WD c 1
          + relu X b c (shl l 962) * MK 2 l * WD c 2 + relu X b c (shl l 1022) * MK 3 l * WD c 3
          + relu X b c l * WD c 4 + relu X b c (shl l 2) * MK 5 l * WD c 5 + relu X b c (shl l 62) * MK 6 l * WD c 6
          + relu X b c (shl l 64) * MK 7 l * WD c 7 + relu X b c (shl l 66) * MK 8 l * WD c 8)
        - KD c * relu X b c l := by
  unfold refCdc
  simp only [Fin.sum_univ_castSucc, Fin.sum_univ_zero]
  rfl

/-- The depthwise block at channel c, lane l. -/
theorem convCdc_apply (x0 : Vec Ideal S1x64x1024 .f32) (x1 : Vec Ideal S64x9 .f32) (x2 : Vec Ideal S64x1 .f32) (x3 : Vec Ideal S9x1024 .f32) (b : Fin 128) (c : Fin 64) (l : Fin 1024) :
    convCdc (F := Ideal) x0 x1 x2 x3 (ix2 c l)
      = Cert.Spec.refCdc (fun _ ch l => x0 (ix3 (0 : Fin 1) ch l)) (fun ch t => x1 (ix2 ch t)) (fun ch => x2 (ix2 ch (0 : Fin 1)))
          (fun t l => x3 (ix2 t l)) b c l := by
  rw [refCdc_expand]
  unfold convCdc k0_pay14 k0_pay11 k0_pay8 k0_pay9 k0_pay10 k0_pay12 k0_pay13
  simp only [subf_apply, addf_apply, mulf_apply, broadcastTo_a1_ab_apply, broadcastTo_1b_ab_apply, shapeCast_self, broadcast_apply,
    rot_apply 66 958 (by norm_num) (by norm_num), rot_apply 64 960 (by norm_num) (by norm_num), rot_apply 62 962 (by norm_num) (by norm_num), rot_apply 2 1022 (by norm_num) (by norm_num), rot_apply 1022 2 (by norm_num) (by norm_num), rot_apply 962 62 (by norm_num) (by norm_num), rot_apply 960 64 (by norm_num) (by norm_num), rot_apply 958 66 (by norm_num) (by norm_num),
    pay7_apply, ld_row_apply x3 0 inb_S9x1024_S1x1024_0_0, ld_row_apply x3 1 inb_S9x1024_S1x1024_1_0, ld_row_apply x3 2 inb_S9x1024_S1x1024_2_0, ld_row_apply x3 3 inb_S9x1024_S1x1024_3_0, ld_row_apply x3 5 inb_S9x1024_S1x1024_5_0, ld_row_apply x3 6 inb_S9x1024_S1x1024_6_0, ld_row_apply x3 7 inb_S9x1024_S1x1024_7_0, ld_row_apply x3 8 inb_S9x1024_S1x1024_8_0,
    ld_col_apply x1 0 inb_S64x9_S64x1_0_0, ld_col_apply x1 1 inb_S64x9_S64x1_0_1, ld_col_apply x1 2 inb_S64x9_S64x1_0_2, ld_col_apply x1 3 inb_S64x9_S64x1_0_3, ld_col_apply x1 4 inb_S64x9_S64x1_0_4, ld_col_apply x1 5 inb_S64x9_S64x1_0_5, ld_col_apply x1 6 inb_S64x9_S64x1_0_6, ld_col_apply x1 7 inb_S64x9_S64x1_0_7, ld_col_apply x1 8 inb_S64x9_S64x1_0_8, Ideal.ofBits_def, Ideal.ofBits_zero_f32]
  rfl

/-- The pointwise accumulator after input channels 0, 1, 2. -/
theorem convAcc0_apply (x0 : Vec Ideal S1x64x1024 .f32) (x1 : Vec Ideal S64x9 .f32) (x2 : Vec Ideal S64x1 .f32) (x3 : Vec Ideal S9x1024 .f32) (x4 : Vec Ideal S64x64 .f32) (o : Fin 64) (l : Fin 1024) :
    convAcc0 (F := Ideal) x0 x1 x2 x3 x4 (ix2 o l)
      = Ideal.ofBits .f32 0x00000000#32
        + x4 (ix2 o (⟨0, by norm_num⟩ : Fin 64)) * convCdc x0 x1 x2 x3 (ix2 (⟨0, by norm_num⟩ : Fin 64) l)
        + x4 (ix2 o (⟨1, by norm_num⟩ : Fin 64)) * convCdc x0 x1 x2 x3 (ix2 (⟨1, by norm_num⟩ : Fin 64) l)
        + x4 (ix2 o (⟨2, by norm_num⟩ : Fin 64)) * convCdc x0 x1 x2 x3 (ix2 (⟨2, by norm_num⟩ : Fin 64) l) := by
  unfold convAcc0
  refine (pay15_apply _ _ _ _ _ _ _ _ _ _ _ o l).trans ?_
  simp only [ld_col_apply x4 0 inb_S64x64_S64x1_0_0, ld_col_apply x4 1 inb_S64x64_S64x1_0_1, ld_col_apply x4 2 inb_S64x64_S64x1_0_2]
  rfl

/-- The pre-normalisation block at output channel o, lane l: the sum over input channels of the pointwise weight
    times the depthwise block. -/
theorem convY_apply (x0 : Vec Ideal S1x64x1024 .f32) (x1 : Vec Ideal S64x9 .f32) (x2 : Vec Ideal S64x1 .f32) (x3 : Vec Ideal S9x1024 .f32) (x4 : Vec Ideal S64x64 .f32) (o : Fin 64) (l : Fin 1024) :
    k0_pay1 (F := Ideal) (convCdc x0 x1 x2 x3) (convAcc (convCdc x0 x1 x2 x3) (convAcc0 x0 x1 x2 x3 x4) x4) (wpLast x4) (ix2 o l)
      = ∑ k : Fin 64, x4 (ix2 o k) * convCdc x0 x1 x2 x3 (ix2 k l) := by
  rw [pay1_apply]
  unfold convAcc wpLast
  simp only [pay30_apply, pay29_apply, pay28_apply, pay27_apply, pay26_apply, pay25_apply, pay24_apply, pay23_apply, pay22_apply, pay21_apply, pay20_apply, pay19_apply, pay18_apply, pay17_apply, pay16_apply, convAcc0_apply,
    ld_col_apply x4 3 inb_S64x64_S64x1_0_3,
    ld_col_apply x4 4 inb_S64x64_S64x1_0_4, ld_col_apply x4 5 inb_S64x64_S64x1_0_5, ld_col_apply x4 6 inb_S64x64_S64x1_0_6, ld_col_apply x4 7 inb_S64x64_S64x1_0_7,
    ld_col_apply x4 8 inb_S64x64_S64x1_0_8, ld_col_apply x4 9 inb_S64x64_S64x1_0_9, ld_col_apply x4 10 inb_S64x64_S64x1_0_10, ld_col_apply x4 11 inb_S64x64_S64x1_0_11,
    ld_col_apply x4 12 inb_S64x64_S64x1_0_12, ld_col_apply x4 13 inb_S64x64_S64x1_0_13, ld_col_apply x4 14 inb_S64x64_S64x1_0_14, ld_col_apply x4 15 inb_S64x64_S64x1_0_15,
    ld_col_apply x4 16 inb_S64x64_S64x1_0_16, ld_col_apply x4 17 inb_S64x64_S64x1_0_17, ld_col_apply x4 18 inb_S64x64_S64x1_0_18, ld_col_apply x4 19 inb_S64x64_S64x1_0_19,
    ld_col_apply x4 20 inb_S64x64_S64x1_0_20, ld_col_apply x4 21 inb_S64x64_S64x1_0_21, ld_col_apply x4 22 inb_S64x64_S64x1_0_22, ld_col_apply x4 23 inb_S64x64_S64x1_0_23,
    ld_col_apply x4 24 inb_S64x64_S64x1_0_24, ld_col_apply x4 25 inb_S64x64_S64x1_0_25, ld_col_apply x4 26 inb_S64x64_S64x1_0_26, ld_col_apply x4 27 inb_S64x64_S64x1_0_27,
    ld_col_apply x4 28 inb_S64x64_S64x1_0_28, ld_col_apply x4 29 inb_S64x64_S64x1_0_29, ld_col_apply x4 30 inb_S64x64_S64x1_0_30, ld_col_apply x4 31 inb_S64x64_S64x1_0_31,
    ld_col_apply x4 32 inb_S64x64_S64x1_0_32, ld_col_apply x4 33 inb_S64x64_S64x1_0_33, ld_col_apply x4 34 inb_S64x64_S64x1_0_34, ld_col_apply x4 35 inb_S64x64_S64x1_0_35,
    ld_col_apply x4 36 inb_S64x64_S64x1_0_36, ld_col_apply x4 37 inb_S64x64_S64x1_0_37, ld_col_apply x4 38 inb_S64x64_S64x1_0_38, ld_col_apply x4 39 inb_S64x64_S64x1_0_39,
    ld_col_apply x4 40 inb_S64x64_S64x1_0_40, ld_col_apply x4 41 inb_S64x64_S64x1_0_41, ld_col_apply x4 42 inb_S64x64_S64x1_0_42, ld_col_apply x4 43 inb_S64x64_S64x1_0_43,
    ld_col_apply x4 44 inb_S64x64_S64x1_0_44, ld_col_apply x4 45 inb_S64x64_S64x1_0_45, ld_col_apply x4 46 inb_S64x64_S64x1_0_46, ld_col_apply x4 47 inb_S64x64_S64x1_0_47,
    ld_col_apply x4 48 inb_S64x64_S64x1_0_48, ld_col_apply x4 49 inb_S64x64_S64x1_0_49, ld_col_apply x4 50 inb_S64x64_S64x1_0_50, ld_col_apply x4 51 inb_S64x64_S64x1_0_51,
    ld_col_apply x4 52 inb_S64x64_S64x1_0_52, ld_col_apply x4 53 inb_S64x64_S64x1_0_53, ld_col_apply x4 54 inb_S64x64_S64x1_0_54, ld_col_apply x4 55 inb_S64x64_S64x1_0_55,
    ld_col_apply x4 56 inb_S64x64_S64x1_0_56, ld_col_apply x4 57 inb_S64x64_S64x1_0_57, ld_col_apply x4 58 inb_S64x64_S64x1_0_58, ld_col_apply x4 59 inb_S64x64_S64x1_0_59,
    ld_col_apply x4 60 inb_S64x64_S64x1_0_60, ld_col_apply x4 61 inb_S64x64_S64x1_0_61, ld_col_apply x4 62 inb_S64x64_S64x1_0_62, ld_col_apply x4 63 inb_S64x64_S64x1_0_63, Ideal.ofBits_zero_f32]
  generalize convCdc x0 x1 x2 x3 = cdc
  simp only [Fin.sum_univ_castSucc, Fin.sum_univ_zero]
  rfl

end Cert.ReferenceIdeal.Hand

end
-- ==== Proof.RefValueAcc.lean ====
/-
  The accumulation over the convolution grid's 128 points. At every point the body leaves the batch element's
  pre-normalisation block, which is the specification's pointwise convolution of that batch element; the first
  accumulator after point n holds, per output channel, the sum over batch elements up to n of the block's lane sums,
  the second the same of the squares: at the first point they start from the reset zero, at a later point from what
  the point before left. Addition of extended reals is associative and 0 + x = x, so no finiteness is used.
-/
import proofs.«162342_g2000606144476369_pallasbulk_1044_23_alg».proof.Proof.RefValueConvArr
import proofs.«162342_g2000606144476369_pallasbulk_1044_23_alg».proof.Proof.RefValueConvVal

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The arrays the convolution grid is entered from, curried. -/
def arrX (c : Dev nD) (b : Fin 128) (ch : Fin 64) (l : Fin 1024) : EReal := (V c main_v0 : S128x64x1024.Idx → EReal) (ix3 b ch l)
def arrWD (c : Dev nD) (ch : Fin 64) (t : Fin 9) : EReal := (V c main_v1 : S64x9.Idx → EReal) (ix2 ch t)
def arrKD (c : Dev nD) (ch : Fin 64) : EReal := (V c main_v5 : S64x1.Idx → EReal) (ix2 ch (0 : Fin 1))
def arrMK (c : Dev nD) (t : Fin 9) (l : Fin 1024) : EReal := (V c main_v218 : S9x1024.Idx → EReal) (ix2 t l)
def arrWP (c : Dev nD) (o ch : Fin 64) : EReal := (V c main_v220 : S64x64.Idx → EReal) (ix2 o ch)

/-- The pre-normalisation block the body computes at point t. -/
def yAt (c : Dev nD) (t : Fin cfg0.N) : FVec Ideal S64x1024 .f32 :=
  k0_pay1 (convCdc (accBlk V c 0 t) (accBlk V c 1 t) (accBlk V c 2 t) (accBlk V c 3 t))
    (convAcc (convCdc (accBlk V c 0 t) (accBlk V c 1 t) (accBlk V c 2 t) (accBlk V c 3 t)) (convAcc0 (accBlk V c 0 t) (accBlk V c 1 t) (accBlk V c 2 t) (accBlk V c 3 t) (accBlk V c 4 t)) (accBlk V c 4 t))
    (wpLast (accBlk V c 4 t))

/-- It is the specification's pointwise convolution of batch element t. -/
theorem yAt_eq (c : Dev nD) (t : Fin cfg0.N) (o : Fin 64) (l : Fin 1024) :
    yAt V c t (ix2 o l) = Cert.Spec.refY (arrX V c) (arrWD V c) (arrKD V c) (arrMK V c) (arrWP V c) (⟨t.val, lt128c t⟩ : Fin 128) o l := by
  unfold yAt
  refine (convY_apply (accBlk V c 0 t) (accBlk V c 1 t) (accBlk V c 2 t) (accBlk V c 3 t) (accBlk V c 4 t) o l).trans ?_
  unfold Cert.Spec.refY
  refine Finset.sum_congr rfl fun k _ => ?_
  rw [convCdc_apply (accBlk V c 0 t) (accBlk V c 1 t) (accBlk V c 2 t) (accBlk V c 3 t) (⟨t.val, lt128c t⟩ : Fin 128) k l, accBlk4_apply (F := Ideal) V c t o k]
  simp only [accBlk0_apply (F := Ideal) V c t, accBlk1_apply (F := Ideal) V c t, accBlk2_apply (F := Ideal) V c t, accBlk3_apply (F := Ideal) V c t]
  rfl

/-- The block the body leaves at point t, at either kind of point. -/
theorem accAt_fst (c : Dev nD) (t : Fin cfg0.N) (o : Fin 64) (l : Fin 1024) :
    (accAt V c t.val t.isLt).1 (ix3 (0 : Fin 1) o l) = yAt V c t (ix2 o l) := by
  by_cases h0 : t.val % 128 = 0
  · rw [accAt_first V c t h0, accOutFirst_eq]
    exact pay2_apply _ _ _ o l
  · rw [accAt_later V c t h0, accOutLater_eq]
    exact pay2_apply _ _ _ o l

/-- The lane sum, and the lane sum of squares, of the block at point n (zero past the grid). -/
def laneSum (c : Dev nD) (o : Fin 64) (n : ℕ) : EReal :=
  if h : n < 128 then ∑ l : Fin 1024, yAt V c ⟨n, lt_of_lt_of_eq h N_0.symm⟩ (ix2 o l) else 0
def laneSq (c : Dev nD) (o : Fin 64) (n : ℕ) : EReal :=
  if h : n < 128 then ∑ l : Fin 1024, yAt V c ⟨n, lt_of_lt_of_eq h N_0.symm⟩ (ix2 o l) * yAt V c ⟨n, lt_of_lt_of_eq h N_0.symm⟩ (ix2 o l) else 0

/-- The accumulators at the first point: the reset zero plus the block's sums. -/
theorem accAt_snd_first (c : Dev nD) (t : Fin cfg0.N) (h0 : t.val % 128 = 0) (o : Fin 64) :
    (accAt V c t.val t.isLt).2.1 (ix2 o (0 : Fin 1)) = 0 + ∑ l : Fin 1024, yAt V c t (ix2 o l)
    ∧ (accAt V c t.val t.isLt).2.2 (ix2 o (0 : Fin 1)) = 0 + ∑ l : Fin 1024, yAt V c t (ix2 o l) * yAt V c t (ix2 o l) := by
  rw [accAt_first V c t h0, accOutFirst_eq]
  refine ⟨?_, ?_⟩
  · refine (pay3_apply _ _ _ _ o).trans ?_
    rw [pay5_apply]; rfl
  · refine (pay4_apply _ _ _ _ o).trans ?_
    rw [pay6_apply]; rfl

/-- The accumulators at a later point: what the point before left plus the block's sums. -/
theorem accAt_snd_later (c : Dev nD) (t : Fin cfg0.N) (h0 : ¬t.val % 128 = 0) (o : Fin 64) :
    (accAt V c t.val t.isLt).2.1 (ix2 o (0 : Fin 1))
        = (accAt V c (t.val - 1) (Nat.lt_of_le_of_lt (Nat.sub_le _ _) t.isLt)).2.1 (ix2 o (0 : Fin 1)) + ∑ l : Fin 1024, yAt V c t (ix2 o l)
    ∧ (accAt V c t.val t.isLt).2.2 (ix2 o (0 : Fin 1))
        = (accAt V c (t.val - 1) (Nat.lt_of_le_of_lt (Nat.sub_le _ _) t.isLt)).2.2 (ix2 o (0 : Fin 1)) + ∑ l : Fin 1024, yAt V c t (ix2 o l) * yAt V c t (ix2 o l) := by
  rw [accAt_later V c t h0, accOutLater_eq]
  exact ⟨pay3_apply _ _ _ _ o, pay4_apply _ _ _ _ o⟩

/-- THE RUNNING SUMS: after point n the accumulators hold the sums over the points up to n. -/
theorem accAt_snd (c : Dev nD) (o : Fin 64) : ∀ (n : ℕ) (hn : n < cfg0.N),
    (accAt V c n hn).2.1 (ix2 o (0 : Fin 1)) = ∑ b ∈ Finset.range (n + 1), laneSum V c o b
    ∧ (accAt V c n hn).2.2 (ix2 o (0 : Fin 1)) = ∑ b ∈ Finset.range (n + 1), laneSq V c o b
  | 0, hn => by
    have hN : cfg0.N = 128 := N_0
    obtain ⟨e1, e2⟩ := accAt_snd_first V c ⟨0, hn⟩ rfl o
    rw [Finset.sum_range_one, Finset.sum_range_one]
    unfold laneSum laneSq
    rw [dif_pos (by omega), dif_pos (by omega)]
    exact ⟨e1.trans (zero_add _), e2.trans (zero_add _)⟩
  | n + 1, hn => by
    have hN : cfg0.N = 128 := N_0
    have h0 : ¬(n + 1) % 128 = 0 := by omega
    obtain ⟨e1, e2⟩ := accAt_snd_later V c ⟨n + 1, hn⟩ h0 o
    obtain ⟨i1, i2⟩ := accAt_snd c o n (Nat.lt_of_succ_lt hn)
    rw [Finset.sum_range_succ _ (n + 1), Finset.sum_range_succ _ (n + 1), ← i1, ← i2]
    unfold laneSum laneSq
    rw [dif_pos (by omega), dif_pos (by omega)]
    exact ⟨e1, e2⟩

/-- After the last point: the sums over all 128 batch elements. -/
theorem accAt_last (c : Dev nD) (o : Fin 64) :
    (accAt V c 127 h127).2.1 (ix2 o (0 : Fin 1))
        = ∑ b : Fin 128, ∑ l : Fin 1024, yAt V c ⟨b.val, lt_of_lt_of_eq b.isLt N_0.symm⟩ (ix2 o l)
    ∧ (accAt V c 127 h127).2.2 (ix2 o (0 : Fin 1))
        = ∑ b : Fin 128, ∑ l : Fin 1024, yAt V c ⟨b.val, lt_of_lt_of_eq b.isLt N_0.symm⟩ (ix2 o l) * yAt V c ⟨b.val, lt_of_lt_of_eq b.isLt N_0.symm⟩ (ix2 o l) := by
  obtain ⟨e1, e2⟩ := accAt_snd V c o 127 h127
  rw [Finset.sum_fin_eq_sum_range, Finset.sum_fin_eq_sum_range]
  exact ⟨e1, e2⟩

end Cert.ReferenceIdeal.Hand

end
-- ==== Proof.RefValue.lean ====
/-
  THE REFERENCE'S VALUE. Entry (b, o, h, w) of the reference's result is the specification's formula of the arrays the
  convolution grid is entered from: the result is the normalising grid's array reshaped; that array is batch
  normalisation of the pre-normalisation array with the two accumulated sums; the pre-normalisation array's row b is
  the pointwise convolution of batch element b, and the sums are its lane sums, and those of its squares, over all
  batch elements.
-/
import proofs.«162342_g2000606144476369_pallasbulk_1044_23_alg».proof.Proof.RefValueNormArr
import proofs.«162342_g2000606144476369_pallasbulk_1044_23_alg».proof.Proof.RefValueAcc

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The arrays the convolution grid is entered from (what the host stretch leaves), curried: the activations
    f32[128,64,1024], the depthwise weights [64,9], their θ-scaled sums [64,1], the tap masks [9,1024], the pointwise
    weights [64,64], γ and β [64,1]. -/
def entX (c : Dev nD) (b : Fin 128) (ch : Fin 64) (l : Fin 1024) : EReal := (V1 (F := Ideal) m ρ c main_v0 : S128x64x1024.Idx → EReal) (ix3 b ch l)
def entWD (c : Dev nD) (ch : Fin 64) (t : Fin 9) : EReal := (V1 (F := Ideal) m ρ c main_v1 : S64x9.Idx → EReal) (ix2 ch t)
def entKD (c : Dev nD) (ch : Fin 64) : EReal := (V1 (F := Ideal) m ρ c main_v5 : S64x1.Idx → EReal) (ix2 ch (0 : Fin 1))
def entMK (c : Dev nD) (t : Fin 9) (l : Fin 1024) : EReal := (V1 (F := Ideal) m ρ c main_v218 : S9x1024.Idx → EReal) (ix2 t l)
def entWP (c : Dev nD) (o ch : Fin 64) : EReal := (V1 (F := Ideal) m ρ c main_v220 : S64x64.Idx → EReal) (ix2 o ch)
def entGA (c : Dev nD) (o : Fin 64) : EReal := (V1 (F := Ideal) m ρ c main_v221 : S64x1.Idx → EReal) (ix2 o (0 : Fin 1))
def entBE (c : Dev nD) (o : Fin 64) : EReal := (V1 (F := Ideal) m ρ c main_v222 : S64x1.Idx → EReal) (ix2 o (0 : Fin 1))

theorem entX_eq (c : Dev nD) : entX m ρ c = arrX (V1 m ρ) c := rfl
theorem entWD_eq (c : Dev nD) : entWD m ρ c = arrWD (V1 m ρ) c := rfl
theorem entKD_eq (c : Dev nD) : entKD m ρ c = arrKD (V1 m ρ) c := rfl
theorem entMK_eq (c : Dev nD) : entMK m ρ c = arrMK (V1 m ρ) c := rfl
theorem entWP_eq (c : Dev nD) : entWP m ρ c = arrWP (V1 m ρ) c := rfl

/-- Row b of the pre-normalisation array after the convolution grid. -/
theorem V2_y (c : Dev nD) (b : Fin 128) (o : Fin 64) (l : Fin 1024) :
    (V2 m ρ c main_v223_0 : S128x64x1024.Idx → EReal) (ix3 b o l)
      = Cert.Spec.refY (entX m ρ c) (entWD m ρ c) (entKD m ρ c) (entMK m ρ c) (entWP m ρ c) b o l := by
  rw [entX_eq, entWD_eq, entKD_eq, entMK_eq, entWP_eq]
  rw [show (V2 m ρ c main_v223_0 : S128x64x1024.Idx → EReal) = convYG (V1 m ρ) c from (W2_arr m ρ c 5).trans (convYFinal (V1 m ρ) c)]
  show (accAt (V1 m ρ) c b.val (lt_of_lt_of_eq b.isLt N_0.symm)).1 (ix3 (0 : Fin 1) o l) = _
  exact (accAt_fst (V1 m ρ) c ⟨b.val, lt_of_lt_of_eq b.isLt N_0.symm⟩ o l).trans (yAt_eq (V1 m ρ) c ⟨b.val, lt_of_lt_of_eq b.isLt N_0.symm⟩ o l)

/-- The two accumulated sums after the convolution grid. -/
theorem V2_s1 (c : Dev nD) (o : Fin 64) :
    (V2 m ρ c main_v223_1 : S64x1.Idx → EReal) (ix2 o (0 : Fin 1)) = Cert.Spec.refS1 (entX m ρ c) (entWD m ρ c) (entKD m ρ c) (entMK m ρ c) (entWP m ρ c) o := by
  rw [entX_eq, entWD_eq, entKD_eq, entMK_eq, entWP_eq]
  rw [show (V2 m ρ c main_v223_1 : S64x1.Idx → EReal) = (accAt (V1 m ρ) c 127 h127).2.1 from (W2_arr m ρ c 6).trans (convS1Final (V1 m ρ) c)]
  rw [(accAt_last (V1 m ρ) c o).1]
  unfold Cert.Spec.refS1
  show @Eq EReal _ _
  exact Finset.sum_congr rfl fun b _ => Finset.sum_congr rfl fun l _ => yAt_eq (V1 m ρ) c ⟨b.val, lt_of_lt_of_eq b.isLt N_0.symm⟩ o l
theorem V2_s2 (c : Dev nD) (o : Fin 64) :
    (V2 m ρ c main_v223_2 : S64x1.Idx → EReal) (ix2 o (0 : Fin 1)) = Cert.Spec.refS2 (entX m ρ c) (entWD m ρ c) (entKD m ρ c) (entMK m ρ c) (entWP m ρ c) o := by
  rw [entX_eq, entWD_eq, entKD_eq, entMK_eq, entWP_eq]
  rw [show (V2 m ρ c main_v223_2 : S64x1.Idx → EReal) = (accAt (V1 m ρ) c 127 h127).2.2 from (W2_arr m ρ c 7).trans (convS2Final (V1 m ρ) c)]
  rw [(accAt_last (V1 m ρ) c o).2]
  unfold Cert.Spec.refS2
  show @Eq EReal _ _
  refine Finset.sum_congr rfl fun b _ => Finset.sum_congr rfl fun l _ => ?_
  rw [yAt_eq (V1 m ρ) c ⟨b.val, lt_of_lt_of_eq b.isLt N_0.symm⟩ o l]

/-- γ and β pass through the convolution grid untouched. -/
theorem V2_ga (c : Dev nD) (o : Fin 64) : (V2 m ρ c main_v221 : S64x1.Idx → EReal) (ix2 o (0 : Fin 1)) = entGA m ρ c o := by
  rw [show (V2 m ρ c main_v221 : S64x1.Idx → EReal) = V1 m ρ c main_v221 from W2_of_ne m ρ c main_v221 (by decide)]
  rfl
theorem V2_be (c : Dev nD) (o : Fin 64) : (V2 m ρ c main_v222 : S64x1.Idx → EReal) (ix2 o (0 : Fin 1)) = entBE m ρ c o := by
  rw [show (V2 m ρ c main_v222 : S64x1.Idx → EReal) = V1 m ρ c main_v222 from W2_of_ne m ρ c main_v222 (by decide)]
  rfl

/-- THE REFERENCE'S RESULT, entry by entry. -/
theorem ref_value (c : Dev nD) (b : Fin 128) (o : Fin 64) (h w : Fin 32) :
    (W4 (F := Ideal) m ρ c (Proc.devRef .tc main_v225) : S128x64x32x32.Idx → EReal) (ix4 b o h w)
      = Cert.Spec.refOut Cert.Spec.consts (entX m ρ c) (entWD m ρ c) (entKD m ρ c) (entMK m ρ c) (entWP m ρ c) (entGA m ρ c) (entBE m ρ c) b o (⟨32 * h.val + w.val, by omega⟩ : Fin 1024) := by
  rw [W4_apply, V2_y, V2_s1, V2_s2, V2_ga, V2_be]
  rfl

end Cert.ReferenceIdeal.Hand

end
-- ==== Proof.KerValueMat.lean ====
/-
  Contractions read at an index, over the extended reals: a matrix product into a zero accumulator, and the host's
  dot_general, are the finite sum over the one contracted axis of the products of the operands' entries. Stated for
  the four contraction patterns of this program: [64,64]·[64,1024], [64,1024]·[64,1024]ᵀ, [64,64]·[64,1], [64,64]·[64,64].
-/
import proofs.«162342_g2000606144476369_pallasbulk_1044_23_alg».proof.Proof.Gen.KernelIdeal
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic
open Idealize.ShloMosaic.ValueIdx
open scoped BigOperators

/-- A sum over a one-axis contraction index is the sum over that axis's coordinate. -/
theorem contr_sum {sl sr so : Shape} (D : DotDims sl sr so) (n : ℕ) (hr : D.contr.rank = 1)
    (hs : D.contr.size ⟨0, by omega⟩ = n) (lhs : sl.Idx → EReal) (rhs : sr.Idx → EReal) (j : so.Idx)
    (L R : Fin n → EReal)
    (hl : ∀ k : Fin n, lhs (D.lhsIdx j ((contrEquiv1 D n hr hs).symm k)) = L k)
    (hrr : ∀ k : Fin n, rhs (D.rhsIdx j ((contrEquiv1 D n hr hs).symm k)) = R k) :
    ∑ q : D.contr.Idx, lhs (D.lhsIdx j q) * rhs (D.rhsIdx j q) = ∑ k : Fin n, L k * R k := by
  rw [← Equiv.sum_comp (contrEquiv1 D n hr hs).symm]
  exact Finset.sum_congr rfl fun k _ => by rw [hl k, hrr k]

theorem dot_S64x64_S64x1024_S64x1024_1_0_0_1_n_n_l0 (i : S64x1024.Idx) (q : dot_S64x64_S64x1024_S64x1024_1_0_0_1_n_n.contr.Idx) : (dot_S64x64_S64x1024_S64x1024_1_0_0_1_n_n.lhsIdx i q 0).val = (i 0).val := by
  unfold DotDims.lhsIdx
  rw [dif_neg (show ¬(0 : Fin S64x64.rank) ∈ dot_S64x64_S64x1024_S64x1024_1_0_0_1_n_n.lhsBatch by decide), dif_pos (show (0 : Fin S64x64.rank) ∈ dot_S64x64_S64x1024_S64x1024_1_0_0_1_n_n.lhsNonContracting by decide)]
  rfl
theorem dot_S64x64_S64x1024_S64x1024_1_0_0_1_n_n_l1 (i : S64x1024.Idx) (q : dot_S64x64_S64x1024_S64x1024_1_0_0_1_n_n.contr.Idx) : (dot_S64x64_S64x1024_S64x1024_1_0_0_1_n_n.lhsIdx i q 1).val = (q ⟨0, by decide⟩).val :=
  dot_S64x64_S64x1024_S64x1024_1_0_0_1_n_n.lhsIdx_val_of_single rfl i q
theorem dot_S64x64_S64x1024_S64x1024_1_0_0_1_n_n_r0 (i : S64x1024.Idx) (q : dot_S64x64_S64x1024_S64x1024_1_0_0_1_n_n.contr.Idx) : (dot_S64x64_S64x1024_S64x1024_1_0_0_1_n_n.rhsIdx i q 0).val = (q ⟨0, by decide⟩).val :=
  dot_S64x64_S64x1024_S64x1024_1_0_0_1_n_n.rhsIdx_val_of_single rfl i q
theorem dot_S64x64_S64x1024_S64x1024_1_0_0_1_n_n_r1 (i : S64x1024.Idx) (q : dot_S64x64_S64x1024_S64x1024_1_0_0_1_n_n.contr.Idx) : (dot_S64x64_S64x1024_S64x1024_1_0_0_1_n_n.rhsIdx i q 1).val = (i 1).val := by
  unfold DotDims.rhsIdx
  rw [dif_neg (show ¬(1 : Fin S64x1024.rank) ∈ dot_S64x64_S64x1024_S64x1024_1_0_0_1_n_n.rhsBatch by decide), dif_pos (show (1 : Fin S64x1024.rank) ∈ dot_S64x64_S64x1024_S64x1024_1_0_0_1_n_n.rhsNonContracting by decide)]
  rfl

/-- [64,64]·[64,1024] at (o, l): the sum over the 64 channels. -/
theorem matmul_wx_apply (w : FVec Ideal S64x64 .bf16) (x : FVec Ideal S64x1024 .bf16) (o : Fin 64) (l : Fin 1024) :
    matmul dot_S64x64_S64x1024_S64x1024_1_0_0_1_n_n none w x (constant S64x1024 .f32 0x00000000#32) (ix2 o l)
      = ∑ ch : Fin 64, w (ix2 o ch) * x (ix2 ch l) := by
  refine (Ideal.matmul_constant_zero_apply dot_S64x64_S64x1024_S64x1024_1_0_0_1_n_n none w x (ix2 o l)).trans ?_
  refine contr_sum dot_S64x64_S64x1024_S64x1024_1_0_0_1_n_n 64 rfl rfl w x (ix2 o l) _ _ (fun k => ?_) (fun k => ?_)
  · have hk := contrEquiv1_symm_val dot_S64x64_S64x1024_S64x1024_1_0_0_1_n_n 64 rfl rfl k
    refine congrArg w (funext fun a => Fin.ext ?_)
    match a with
    | ⟨0, _⟩ => exact dot_S64x64_S64x1024_S64x1024_1_0_0_1_n_n_l0 _ _
    | ⟨1, _⟩ => exact (dot_S64x64_S64x1024_S64x1024_1_0_0_1_n_n_l1 _ _).trans hk
  · have hk := contrEquiv1_symm_val dot_S64x64_S64x1024_S64x1024_1_0_0_1_n_n 64 rfl rfl k
    refine congrArg x (funext fun a => Fin.ext ?_)
    match a with
    | ⟨0, _⟩ => exact (dot_S64x64_S64x1024_S64x1024_1_0_0_1_n_n_r0 _ _).trans hk
    | ⟨1, _⟩ => exact dot_S64x64_S64x1024_S64x1024_1_0_0_1_n_n_r1 _ _

theorem dot_S64x1024_S64x1024_S64x64_1_1_0_0_n_n_l0 (i : S64x64.Idx) (q : dot_S64x1024_S64x1024_S64x64_1_1_0_0_n_n.contr.Idx) : (dot_S64x1024_S64x1024_S64x64_1_1_0_0_n_n.lhsIdx i q 0).val = (i 0).val := by
  unfold DotDims.lhsIdx
  rw [dif_neg (show ¬(0 : Fin S64x1024.rank) ∈ dot_S64x1024_S64x1024_S64x64_1_1_0_0_n_n.lhsBatch by decide), dif_pos (show (0 : Fin S64x1024.rank) ∈ dot_S64x1024_S64x1024_S64x64_1_1_0_0_n_n.lhsNonContracting by decide)]
  rfl
theorem dot_S64x1024_S64x1024_S64x64_1_1_0_0_n_n_l1 (i : S64x64.Idx) (q : dot_S64x1024_S64x1024_S64x64_1_1_0_0_n_n.contr.Idx) : (dot_S64x1024_S64x1024_S64x64_1_1_0_0_n_n.lhsIdx i q 1).val = (q ⟨0, by decide⟩).val :=
  dot_S64x1024_S64x1024_S64x64_1_1_0_0_n_n.lhsIdx_val_of_single rfl i q
theorem dot_S64x1024_S64x1024_S64x64_1_1_0_0_n_n_r1 (i : S64x64.Idx) (q : dot_S64x1024_S64x1024_S64x64_1_1_0_0_n_n.contr.Idx) : (dot_S64x1024_S64x1024_S64x64_1_1_0_0_n_n.rhsIdx i q 1).val = (q ⟨0, by decide⟩).val :=
  dot_S64x1024_S64x1024_S64x64_1_1_0_0_n_n.rhsIdx_val_of_single rfl i q
theorem dot_S64x1024_S64x1024_S64x64_1_1_0_0_n_n_r0 (i : S64x64.Idx) (q : dot_S64x1024_S64x1024_S64x64_1_1_0_0_n_n.contr.Idx) : (dot_S64x1024_S64x1024_S64x64_1_1_0_0_n_n.rhsIdx i q 0).val = (i 1).val := by
  unfold DotDims.rhsIdx
  rw [dif_neg (show ¬(0 : Fin S64x1024.rank) ∈ dot_S64x1024_S64x1024_S64x64_1_1_0_0_n_n.rhsBatch by decide), dif_pos (show (0 : Fin S64x1024.rank) ∈ dot_S64x1024_S64x1024_S64x64_1_1_0_0_n_n.rhsNonContracting by decide)]
  rfl

/-- [64,1024]·[64,1024]ᵀ at (p, q): the sum over the 1024 pixels. -/
theorem matmul_gram_apply (a b : FVec Ideal S64x1024 .bf16) (p q : Fin 64) :
    matmul dot_S64x1024_S64x1024_S64x64_1_1_0_0_n_n none a b (constant S64x64 .f32 0x00000000#32) (ix2 p q)
      = ∑ l : Fin 1024, a (ix2 p l) * b (ix2 q l) := by
  refine (Ideal.matmul_constant_zero_apply dot_S64x1024_S64x1024_S64x64_1_1_0_0_n_n none a b (ix2 p q)).trans ?_
  refine contr_sum dot_S64x1024_S64x1024_S64x64_1_1_0_0_n_n 1024 rfl rfl a b (ix2 p q) _ _ (fun k => ?_) (fun k => ?_)
  · have hk := contrEquiv1_symm_val dot_S64x1024_S64x1024_S64x64_1_1_0_0_n_n 1024 rfl rfl k
    refine congrArg a (funext fun d => Fin.ext ?_)
    match d with
    | ⟨0, _⟩ => exact dot_S64x1024_S64x1024_S64x64_1_1_0_0_n_n_l0 _ _
    | ⟨1, _⟩ => exact (dot_S64x1024_S64x1024_S64x64_1_1_0_0_n_n_l1 _ _).trans hk
  · have hk := contrEquiv1_symm_val dot_S64x1024_S64x1024_S64x64_1_1_0_0_n_n 1024 rfl rfl k
    refine congrArg b (funext fun d => Fin.ext ?_)
    match d with
    | ⟨0, _⟩ => exact dot_S64x1024_S64x1024_S64x64_1_1_0_0_n_n_r0 _ _
    | ⟨1, _⟩ => exact (dot_S64x1024_S64x1024_S64x64_1_1_0_0_n_n_r1 _ _).trans hk

theorem dot_S64x64_S64x1_S64x1_1_0_0_1_n_n_l0 (i : S64x1.Idx) (q : dot_S64x64_S64x1_S64x1_1_0_0_1_n_n.contr.Idx) : (dot_S64x64_S64x1_S64x1_1_0_0_1_n_n.lhsIdx i q 0).val = (i 0).val := by
  unfold DotDims.lhsIdx
  rw [dif_neg (show ¬(0 : Fin S64x64.rank) ∈ dot_S64x64_S64x1_S64x1_1_0_0_1_n_n.lhsBatch by decide), dif_pos (show (0 : Fin S64x64.rank) ∈ dot_S64x64_S64x1_S64x1_1_0_0_1_n_n.lhsNonContracting by decide)]
  rfl
theorem dot_S64x64_S64x1_S64x1_1_0_0_1_n_n_l1 (i : S64x1.Idx) (q : dot_S64x64_S64x1_S64x1_1_0_0_1_n_n.contr.Idx) : (dot_S64x64_S64x1_S64x1_1_0_0_1_n_n.lhsIdx i q 1).val = (q ⟨0, by decide⟩).val :=
  dot_S64x64_S64x1_S64x1_1_0_0_1_n_n.lhsIdx_val_of_single rfl i q
theorem dot_S64x64_S64x1_S64x1_1_0_0_1_n_n_r0 (i : S64x1.Idx) (q : dot_S64x64_S64x1_S64x1_1_0_0_1_n_n.contr.Idx) : (dot_S64x64_S64x1_S64x1_1_0_0_1_n_n.rhsIdx i q 0).val = (q ⟨0, by decide⟩).val :=
  dot_S64x64_S64x1_S64x1_1_0_0_1_n_n.rhsIdx_val_of_single rfl i q
theorem dot_S64x64_S64x1_S64x1_1_0_0_1_n_n_r1 (i : S64x1.Idx) (q : dot_S64x64_S64x1_S64x1_1_0_0_1_n_n.contr.Idx) : (dot_S64x64_S64x1_S64x1_1_0_0_1_n_n.rhsIdx i q 1).val = (i 1).val := by
  unfold DotDims.rhsIdx
  rw [dif_neg (show ¬(1 : Fin S64x1.rank) ∈ dot_S64x64_S64x1_S64x1_1_0_0_1_n_n.rhsBatch by decide), dif_pos (show (1 : Fin S64x1.rank) ∈ dot_S64x64_S64x1_S64x1_1_0_0_1_n_n.rhsNonContracting by decide)]
  rfl

/-- The host's [64,64]·[64,1] at (o, 0): the sum over the 64 channels. -/
theorem dot_wv_apply (w : FVec Ideal S64x64 .f32) (v : FVec Ideal S64x1 .f32) (o : Fin 64) (z : Fin 1) :
    Host.dotGeneral dot_S64x64_S64x1_S64x1_1_0_0_1_n_n none w v (ix2 o z) = ∑ ch : Fin 64, w (ix2 o ch) * v (ix2 ch z) := by
  refine (Ideal.dotGeneral_apply dot_S64x64_S64x1_S64x1_1_0_0_1_n_n none .single w v (ix2 o z)).trans ?_
  refine contr_sum dot_S64x64_S64x1_S64x1_1_0_0_1_n_n 64 rfl rfl w v (ix2 o z) _ _ (fun k => ?_) (fun k => ?_)
  · have hk := contrEquiv1_symm_val dot_S64x64_S64x1_S64x1_1_0_0_1_n_n 64 rfl rfl k
    refine congrArg w (funext fun d => Fin.ext ?_)
    match d with
    | ⟨0, _⟩ => exact dot_S64x64_S64x1_S64x1_1_0_0_1_n_n_l0 _ _
    | ⟨1, _⟩ => exact (dot_S64x64_S64x1_S64x1_1_0_0_1_n_n_l1 _ _).trans hk
  · have hk := contrEquiv1_symm_val dot_S64x64_S64x1_S64x1_1_0_0_1_n_n 64 rfl rfl k
    refine congrArg v (funext fun d => Fin.ext ?_)
    match d with
    | ⟨0, _⟩ => exact (dot_S64x64_S64x1_S64x1_1_0_0_1_n_n_r0 _ _).trans hk
    | ⟨1, _⟩ => exact dot_S64x64_S64x1_S64x1_1_0_0_1_n_n_r1 _ _

theorem dot_S64x64_S64x64_S64x64_1_0_0_1_n_n_l0 (i : S64x64.Idx) (q : dot_S64x64_S64x64_S64x64_1_0_0_1_n_n.contr.Idx) : (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
theorem dot_S64x64_S64x64_S64x64_1_0_0_1_n_n_l1 (i : S64x64.Idx) (q : dot_S64x64_S64x64_S64x64_1_0_0_1_n_n.contr.Idx) : (dot_S64x64_S64x64_S64x64_1_0_0_1_n_n.lhsIdx i q 1).val = (q ⟨0, by decide⟩).val :=
  dot_S64x64_S64x64_S64x64_1_0_0_1_n_n.lhsIdx_val_of_single rfl i q
theorem dot_S64x64_S64x64_S64x64_1_0_0_1_n_n_r0 (i : S64x64.Idx) (q : dot_S64x64_S64x64_S64x64_1_0_0_1_n_n.contr.Idx) : (dot_S64x64_S64x64_S64x64_1_0_0_1_n_n.rhsIdx i q 0).val = (q ⟨0, by decide⟩).val :=
  dot_S64x64_S64x64_S64x64_1_0_0_1_n_n.rhsIdx_val_of_single rfl i q
theorem dot_S64x64_S64x64_S64x64_1_0_0_1_n_n_r1 (i : S64x64.Idx) (q : dot_S64x64_S64x64_S64x64_1_0_0_1_n_n.contr.Idx) : (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

/-- The host's [64,64]·[64,64] at (o, c'): the sum over the 64 channels. -/
theorem dot_wg_apply (w g : FVec Ideal S64x64 .f32) (o c' : Fin 64) :
    Host.dotGeneral dot_S64x64_S64x64_S64x64_1_0_0_1_n_n none w g (ix2 o c') = ∑ ch : Fin 64, w (ix2 o ch) * g (ix2 ch c') := by
  refine (Ideal.dotGeneral_apply dot_S64x64_S64x64_S64x64_1_0_0_1_n_n none .single w g (ix2 o c')).trans ?_
  refine contr_sum dot_S64x64_S64x64_S64x64_1_0_0_1_n_n 64 rfl rfl w g (ix2 o c') _ _ (fun k => ?_) (fun k => ?_)
  · have hk := contrEquiv1_symm_val dot_S64x64_S64x64_S64x64_1_0_0_1_n_n 64 rfl rfl k
    refine congrArg w (funext fun d => Fin.ext ?_)
    match d with
    | ⟨0, _⟩ => exact dot_S64x64_S64x64_S64x64_1_0_0_1_n_n_l0 _ _
    | ⟨1, _⟩ => exact (dot_S64x64_S64x64_S64x64_1_0_0_1_n_n_l1 _ _).trans hk
  · have hk := contrEquiv1_symm_val dot_S64x64_S64x64_S64x64_1_0_0_1_n_n 64 rfl rfl k
    refine congrArg g (funext fun d => Fin.ext ?_)
    match d with
    | ⟨0, _⟩ => exact (dot_S64x64_S64x64_S64x64_1_0_0_1_n_n_r0 _ _).trans hk
    | ⟨1, _⟩ => exact dot_S64x64_S64x64_S64x64_1_0_0_1_n_n_r1 _ _

end Cert.KernelIdeal.Hand

end
-- ==== Proof.KerValueHostOps.lean ====
/-
  The host operations of the middle stretch read at an index, over the extended reals: broadcasts of a scalar, of a
  vector to a column and of a column along the rows; a vector reshaped to a column; and the sums over the eight
  partial results of the first grid and over the columns of a [64,64] matrix.
-/
import proofs.«162342_g2000606144476369_pallasbulk_1044_23_alg».proof.Proof.Gen.KernelIdeal
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic
open Idealize.ShloMosaic.ValueIdx
open scoped BigOperators

/-- A scalar broadcast to [64,64] reads the scalar. -/
theorem bcast_s_64x64 (x : S_.Idx → EReal) (o ch : Fin 64) :
    broadcastInDim S64x64 ![] bcast_S_S64x64 x (ix2 o ch) = x ix0 :=
  broadcastInDim_apply _ _ x (ix2 o ch) ix0 fun a => a.elim0

/-- A scalar broadcast to [64,1] reads the scalar. -/
theorem bcast_s_64x1 (x : S_.Idx → EReal) (o : Fin 64) (z : Fin 1) :
    broadcastInDim S64x1 ![] bcast_S_S64x1 x (ix2 o z) = x ix0 :=
  broadcastInDim_apply _ _ x (ix2 o z) ix0 fun a => a.elim0

/-- A vector broadcast to a column reads its entry. -/
theorem bcast_64_64x1 (x : S64.Idx → EReal) (o : Fin 64) (z : Fin 1) :
    broadcastInDim S64x1 ![0] bcast_S64_S64x1_0 x (ix2 o z) = x (ix1 o) :=
  broadcastInDim_apply _ _ x (ix2 o z) (ix1 o) fun a => by
    match a with
    | ⟨0, _⟩ => rfl

/-- A column broadcast along the rows reads the row's entry. -/
theorem bcast_64x1_64x64 (x : S64x1.Idx → EReal) (o ch : Fin 64) :
    broadcastInDim S64x64 ![0, 1] bcast_S64x1_S64x64_0_1 x (ix2 o ch) = x (ix2 o (0 : Fin 1)) :=
  broadcastInDim_apply _ _ x (ix2 o ch) (ix2 o (0 : Fin 1)) fun a => by
    match a with
    | ⟨0, _⟩ => rfl
    | ⟨1, _⟩ => rfl

/-- A vector reshaped to a column reads its entry. -/
theorem reshape_64_64x1 (x : S64.Idx → EReal) (o : Fin 64) (z : Fin 1) :
    shapeCast S64x1 x shapeCasts_S64_S64x1 (ix2 o z) = x (ix1 o) :=
  shapeCast_apply x _ (ix2 o z) (ix1 o) (by
    rw [Shape.rowMajor_val_one, Shape.rowMajor_val_two]
    show o.val = o.val * 1 + z.val
    have := z.isLt; omega)

theorem reduces_S8x64x64 : S8x64x64.Reduces [0] S64x64 := by decide
theorem reduces_S8x64x1 : S8x64x1.Reduces [0] S64x1 := by decide
theorem reduces_S64x64_1 : S64x64.Reduces [1] S64 := by decide

/-- The eight partial Gram matrices summed from zero. -/
theorem reduce8_gram (g : FVec Ideal S8x64x64 .f32) (p q : Fin 64) :
    Host.reduceAdd (F := Ideal) g (constant S_ .f32 0x00000000#32) reducesTo_S8x64x64_S64x64_d0 h_S_ (ix2 p q)
      = Ideal.ofBits .f32 0x00000000#32 + ∑ k : Fin 8, g (ix3 k p q) := by
  refine (Ideal.hostReduceAdd_single reducesTo_S8x64x64_S64x64_d0 reduces_S8x64x64 g _ (ix2 p q)).trans ?_
  refine congrArg (Ideal.ofBits .f32 0x00000000#32 + ·) (Finset.sum_congr rfl fun k _ => congrArg g (funext fun a => Fin.ext ?_))
  match a with
  | ⟨0, _⟩ => rfl
  | ⟨1, _⟩ => rfl
  | ⟨2, _⟩ => rfl

/-- The eight partial channel sums summed from zero. -/
theorem reduce8_sums (v : FVec Ideal S8x64x1 .f32) (p : Fin 64) (z : Fin 1) :
    Host.reduceAdd (F := Ideal) v (constant S_ .f32 0x00000000#32) reducesTo_S8x64x1_S64x1_d0 h_S_ (ix2 p z)
      = Ideal.ofBits .f32 0x00000000#32 + ∑ k : Fin 8, v (ix3 k p z) := by
  refine (Ideal.hostReduceAdd_single reducesTo_S8x64x1_S64x1_d0 reduces_S8x64x1 v _ (ix2 p z)).trans ?_
  refine congrArg (Ideal.ofBits .f32 0x00000000#32 + ·) (Finset.sum_congr rfl fun k _ => congrArg v (funext fun a => Fin.ext ?_))
  match a with
  | ⟨0, _⟩ => rfl
  | ⟨1, _⟩ => rfl
  | ⟨2, _⟩ => rfl

/-- The columns of a [64,64] matrix summed from zero. -/
theorem reduce_cols (y : FVec Ideal S64x64 .f32) (o : Fin 64) :
    Host.reduceAdd (F := Ideal) y (constant S_ .f32 0x00000000#32) reducesTo_S64x64_S64_d1 h_S_ (ix1 o)
      = Ideal.ofBits .f32 0x00000000#32 + ∑ c' : Fin 64, y (ix2 o c') := by
  refine (Ideal.hostReduceAdd_single reducesTo_S64x64_S64_d1 reduces_S64x64_1 y _ (ix1 o)).trans ?_
  refine congrArg (Ideal.ofBits .f32 0x00000000#32 + ·) (Finset.sum_congr rfl fun k _ => congrArg y (funext fun a => Fin.ext ?_))
  match a with
  | ⟨0, _⟩ => rfl
  | ⟨1, _⟩ => rfl

end Cert.KernelIdeal.Hand

end
-- ==== Proof.KerValueOut.lean ====
/-
  The second grid and the final reshape, read at an index. Each of the second grid's four points takes 32 batch
  elements: its body multiplies the [64,64] weight block into each [64,1024] slice of the depthwise block and adds the
  shift column, one slab per batch element. Here: one slab at an index (a 64-term sum plus the shift), the 32 stores
  as one function of the block's index, the four blocks as one function of the array's index, and the program's
  result buffer as that function read through the last reshape (pixel l = 32·h + w).
-/
import proofs.«162342_g2000606144476369_pallasbulk_1044_23_alg».proof.Proof.KerRun
import proofs.«162342_g2000606144476369_pallasbulk_1044_23_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost
import Idealize.ShloMosaic.Lib.StableHlo.Run
import proofs.«162342_g2000606144476369_pallasbulk_1044_23_alg».proof.Proof.KerValueMat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## One slab of the second grid's block: a [64,64]·[64,1024] product plus a broadcast column -/

/-- The value every one of the body's 32 stores writes: the weight block times a [64,1024] slice of the depthwise
    block, plus the shift column broadcast along the pixels, as a [1,64,1024] slab. -/
def slabVal (w : FVec Ideal S64x64 .bf16) (s : FVec Ideal S64x1 .f32) (x : FVec Ideal S64x1024 .bf16) : FVec Ideal S1x64x1024 .f32 :=
  shapeCast S1x64x1024 (addf (matmul dot_S64x64_S64x1024_S64x1024_1_0_0_1_n_n none w (shapeCast S64x1024 x shapeCasts_S64x1024_S64x1024) (constant S64x1024 .f32 0x00000000#32)) (broadcastTo S64x1024 s broadcasts_S64x1_S64x1024)) shapeCasts_S64x1024_S1x64x1024

/-- The slab at (0, o, l): Σ over the 64 channels of weight(o, ch) · slice(ch, l), plus shift(o). -/
theorem slabVal_apply (w : FVec Ideal S64x64 .bf16) (s : FVec Ideal S64x1 .f32) (x : FVec Ideal S64x1024 .bf16)
    (z : Fin 1) (o : Fin 64) (l : Fin 1024) :
    slabVal w s x (ix3 z o l) = (∑ ch : Fin 64, w (ix2 o ch) * x (ix2 ch l)) + s (ix2 o (0 : Fin 1)) := by
  unfold slabVal
  refine (shapeCast_apply _ _ (ix3 z o l) (ix2 o l) ?_).trans ?_
  · rw [Shape.rowMajor_val_two, Shape.rowMajor_val_three]
    show o.val * 1024 + l.val = (z.val * 64 + o.val) * 1024 + l.val
    have := z.isLt; omega
  refine congrArg₂ (· + ·) ?_ ?_
  · rw [shapeCast_self]; exact matmul_wx_apply w x o l
  · refine broadcastTo_apply s _ (ix2 o l) (ix2 o (0 : Fin 1)) fun a => ?_
    match a with
    | ⟨0, _⟩ => rfl
    | ⟨1, _⟩ => rfl

/-! ## The block of 32 batch elements the body leaves, as one function of its three input blocks -/

/-- Entry (bb, o, l) of the result block: batch element bb of the block reads rows 64·bb … 64·bb + 63 of the
    depthwise block. -/
def blockVal (x0 : Vec Ideal S2048x1024 .bf16) (x1 : Vec Ideal S64x64 .bf16) (x2 : Vec Ideal S64x1 .f32)
    (bb : Fin 32) (o : Fin 64) (l : Fin 1024) : EReal :=
  (∑ ch : Fin 64, x1 (ix2 o ch) * x0 (ix2 (⟨64 * bb.val + ch.val, by omega⟩ : Fin 2048) l)) + x2 (ix2 o (0 : Fin 1))

/-- The same over the block's index. -/
def blockFn (x0 : Vec Ideal S2048x1024 .bf16) (x1 : Vec Ideal S64x64 .bf16) (x2 : Vec Ideal S64x1 .f32) :
    Vec Ideal S32x64x1024 .f32 := fun i => blockVal x0 x1 x2 (i 0) (i 1) (i 2)

/-- The slab stored at batch offset ko, computed from the rows at offset ki = 64·ko, is the block function on its
    rectangle. -/
theorem slab_piece (x0 : Vec Ideal S2048x1024 .bf16) (x1 : Vec Ideal S64x64 .bf16) (x2 : Vec Ideal S64x1 .f32)
    (ko ki : ℕ) (hki : ki = 64 * ko) (hko : ko < 32)
    (inbO : ∀ a, (![ko, 0, 0] : Fin 3 → Nat) a + S1x64x1024.size a ≤ S32x64x1024.size a)
    (inbI : ∀ a, (![ki, 0] : Fin 2 → Nat) a + S64x1024.size a ≤ S2048x1024.size a) (y : S1x64x1024.Idx) :
    slabVal (k1_pay2 (View.ld x1 r1_0)) (k1_pay3 (View.ld x2 r1_1))
        (View.ld x0 (Rect.unit (s := S2048x1024) ![ki, 0] S64x1024.size inbI)) y
      = blockFn x0 x1 x2 ((Rect.unit (s := S32x64x1024) ![ko, 0, 0] S1x64x1024.size inbO).emb y) := by
  obtain ⟨z, o, l, rfl⟩ : ∃ (z : Fin 1) (o : Fin 64) (l : Fin 1024), y = ix3 z o l := ⟨y 0, y 1, y 2, eq_ix3 y⟩
  rw [slabVal_apply]
  have e1 : k1_pay2 (View.ld x1 r1_0) = x1 := by
    unfold k1_pay2; rw [shapeCast_self]; exact View.ld_unit_zero (S := S64x64) hz2 _ x1
  have e2 : k1_pay3 (View.ld x2 r1_1) = x2 := by
    unfold k1_pay3; rw [shapeCast_self]; exact View.ld_unit_zero (S := S64x1) hz2 _ x2
  rw [e1, e2]
  have hz : z.val = 0 := by have := z.isLt; omega
  unfold blockFn blockVal
  refine congrArg₂ (· + ·) (Finset.sum_congr rfl fun ch _ => ?_) ?_
  · refine congrArg₂ (· * ·) (congrArg x1 (funext fun a => Fin.ext ?_)) (congrArg x0 (funext fun a => Fin.ext ?_))
    · match a with
      | ⟨0, _⟩ => show o.val = 0 + 1 * o.val; omega
      | ⟨1, _⟩ => rfl
    · match a with
      | ⟨0, _⟩ => show ki + 1 * ch.val = 64 * (ko + 1 * z.val) + ch.val; omega
      | ⟨1, _⟩ => show 0 + 1 * l.val = 0 + 1 * l.val; rfl
  · refine congrArg x2 (funext fun a => Fin.ext ?_)
    match a with
    | ⟨0, _⟩ => show o.val = 0 + 1 * o.val; omega
    | ⟨1, _⟩ => rfl

/-- The 32 stores, each a slab of the block function on its rectangle, leave the block function. -/
theorem out1_3_eq (x0 : Vec Ideal S2048x1024 .bf16) (x1 : Vec Ideal S64x64 .bf16) (x2 : Vec Ideal S64x1 .f32) :
    out1_3 x0 x1 x2 = blockFn x0 x1 x2 := by
  funext y
  unfold out1_3
  refine View.canon_apply_of_pieces (Val := Elt Ideal) (blockFn x0 x1 x2) _ ?_ y (cover1_3 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro x
  all_goals exact slab_piece x0 x1 x2 _ _ (by decide) (by decide) (by decide) (by decide) x

/-! ## From the blocks to the array: the second grid's result as one function of its three entry arrays -/

/-- Entry (b, o, l) of the result array from the depthwise array CD (rows = batch element × channel), the folded
    weights WS and the shift column SH. -/
def outVal (CD : Vec Ideal S8192x1024 .bf16) (WS : Vec Ideal S64x64 .bf16) (SH : Vec Ideal S64x1 .f32)
    (b : Fin 128) (o : Fin 64) (l : Fin 1024) : EReal :=
  (∑ ch : Fin 64, WS (ix2 o ch) * CD (ix2 (⟨64 * b.val + ch.val, by omega⟩ : Fin 8192) l)) + SH (ix2 o (0 : Fin 1))

/-- The same over the array's index. -/
def outFn (CD : Vec Ideal S8192x1024 .bf16) (WS : Vec Ideal S64x64 .bf16) (SH : Vec Ideal S64x1 .f32) :
    Vec Ideal S128x64x1024 .f32 := fun i => outVal CD WS SH (i 0) (i 1) (i 2)

/-- A block function over blocks that are the arrays read at point tv (rows 2048·tv … of CD; WS and SH whole) is the
    array function at batch elements 32·tv …. -/
theorem blockVal_read (CD : Vec Ideal S8192x1024 .bf16) (WS : Vec Ideal S64x64 .bf16) (SH : Vec Ideal S64x1 .f32)
    (tv : ℕ) (htv : tv < 4) (x0 : Vec Ideal S2048x1024 .bf16) (x1 : Vec Ideal S64x64 .bf16) (x2 : Vec Ideal S64x1 .f32)
    (h0 : ∀ (r : Fin 2048) (l : Fin 1024), x0 (ix2 r l) = CD (ix2 (⟨2048 * tv + r.val, by omega⟩ : Fin 8192) l))
    (h1 : ∀ (o ch : Fin 64), x1 (ix2 o ch) = WS (ix2 o ch))
    (h2 : ∀ o : Fin 64, x2 (ix2 o (0 : Fin 1)) = SH (ix2 o (0 : Fin 1)))
    (bb : Fin 32) (o : Fin 64) (l : Fin 1024) :
    blockVal x0 x1 x2 bb o l = outVal CD WS SH (⟨32 * tv + bb.val, by omega⟩ : Fin 128) o l := by
  unfold blockVal outVal
  rw [h2]
  refine congrArg (· + SH (ix2 o (0 : Fin 1))) (Finset.sum_congr rfl fun ch _ => ?_)
  rw [h1, h0]
  refine congrArg (fun r => WS (ix2 o ch) * CD (ix2 r l)) (Fin.ext ?_)
  show 2048 * tv + (64 * bb.val + ch.val) = 64 * (32 * tv + bb.val) + ch.val
  omega

section Region1
variable (V : (c : Dev nD) → (b : Ref sig .tc) → Buf (Elt Ideal) ((c : Thread nD τ).loc b))

/-- The printed index maps of the second grid, decided over its four points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The depthwise window's block at point t is rows 2048·t … of its array. -/
theorem iblk1_0_apply (c : Dev nD) (t : Fin cfg1.N) (r : Fin 2048) (l : Fin 1024) (k : S8192x1024.Idx)
    (hk0 : (k 0).val = 2048 * t.val + r.val) (hk1 : (k 1).val = l.val) :
    (iblk1 V c 0 t : Vec Ideal S2048x1024 .bf16) (ix2 r l) = (V c main_v13_0 : Vec Ideal S8192x1024 .bf16) k := by
  obtain ⟨e0, e1, -⟩ := idx1 t
  unfold iblk1
  rw [View.read_apply]
  show V c main_v13_0 _ = V c main_v13_0 _
  refine congrArg (V c main_v13_0) (funext fun a => Fin.ext ?_)
  match a with
  | ⟨0, _⟩ => show win1_0.index t (0 : Fin 2) * 2048 + 1 * r.val = (k 0).val; rw [e0, hk0]; omega
  | ⟨1, _⟩ => show win1_0.index t (1 : Fin 2) * 1024 + 1 * l.val = (k 1).val; rw [e1, hk1]; omega

/-- The weight window's block is its whole array. -/
theorem iblk1_1_apply (c : Dev nD) (t : Fin cfg1.N) (o ch : Fin 64) :
    (iblk1 V c 1 t : Vec Ideal S64x64 .bf16) (ix2 o ch) = (V c main_v39 : Vec Ideal S64x64 .bf16) (ix2 o ch) := by
  obtain ⟨-, -, e0, e1, -⟩ := idx1 t
  unfold iblk1
  rw [View.read_apply]
  show V c main_v39 _ = V c main_v39 _
  refine congrArg (V c main_v39) (funext fun a => Fin.ext ?_)
  match a with
  | ⟨0, _⟩ => show win1_1.index t (0 : Fin 2) * 64 + 1 * o.val = o.val; rw [e0]; omega
  | ⟨1, _⟩ => show win1_1.index t (1 : Fin 2) * 64 + 1 * ch.val = ch.val; rw [e1]; omega

/-- The shift window's block is its whole array. -/
theorem iblk1_2_apply (c : Dev nD) (t : Fin cfg1.N) (o : Fin 64) (z : Fin 1) :
    (iblk1 V c 2 t : Vec Ideal S64x1 .f32) (ix2 o z) = (V c main_v36 : Vec Ideal S64x1 .f32) (ix2 o z) := by
  obtain ⟨-, -, -, -, e0, e1, -⟩ := idx1 t
  unfold iblk1
  rw [View.read_apply]
  show V c main_v36 _ = V c main_v36 _
  refine congrArg (V c main_v36) (funext fun a => Fin.ext ?_)
  match a with
  | ⟨0, _⟩ => show win1_2.index t (0 : Fin 2) * 64 + 1 * o.val = o.val; rw [e0]; omega
  | ⟨1, _⟩ => show win1_2.index t (1 : Fin 2) * 1 + 1 * z.val = z.val; rw [e1]; omega
end Region1

section Region1b
variable (V : (c : Dev nD) → (b : Ref sig .tc) → Buf (Elt Ideal) ((c : Thread nD τ).loc b))

/-- What point t writes back is block t of the array function of the entry arrays. -/
theorem flushed1_eq (c : Dev nD) (t : Fin cfg1.N) :
    (dat1 V c).flushed 3 t
      = ((cfg1.win 3).blk t).view.read (Elt Ideal) (outFn (V c main_v13_0) (V c main_v39) (V c main_v36)) := by
  show (cfg1.win 3).cut (grid1.coords t) ((dat1 V c).after 3 t) = _
  rw [after1_3, out1_3_eq]
  have hN : cfg1.N = 4 := N_1
  have ht : t.val < 4 := by have := t.isLt; omega
  obtain ⟨-, -, -, -, -, -, e0, e1, e2⟩ := idx1 t
  funext y
  rw [View.read_apply]
  show blockVal (iblk1 V c 0 t) (iblk1 V c 1 t) (iblk1 V c 2 t) (y 0) (y 1) (y 2) = outVal (V c main_v13_0) (V c main_v39) (V c main_v36) _ _ _
  refine (blockVal_read (V c main_v13_0) (V c main_v39) (V c main_v36) t.val ht (iblk1 V c 0 t) (iblk1 V c 1 t) (iblk1 V c 2 t)
    (fun r l => iblk1_0_apply V c t r l _ rfl rfl) (fun o ch => iblk1_1_apply V c t o ch) (fun o => iblk1_2_apply V c t o 0) (y 0) (y 1) (y 2)).trans ?_
  have hy0 : (y 0).val < 32 := (y 0).isLt
  have hy1 : (y 1).val < 64 := (y 1).isLt
  have hy2 : (y 2).val < 1024 := (y 2).isLt
  have a0 : ((((cfg1.win 3).blk t).view.emb y) 0).val = 32 * t.val + (y 0).val := by
    show win1_3.index t (0 : Fin 3) * 32 + 1 * (y 0).val = _; rw [e0]; omega
  have a1 : ((((cfg1.win 3).blk t).view.emb y) 1).val = (y 1).val := by
    show win1_3.index t (1 : Fin 3) * 64 + 1 * (y 1).val = _; rw [e1]; omega
  have a2 : ((((cfg1.win 3).blk t).view.emb y) 2).val = (y 2).val := by
    show win1_3.index t (2 : Fin 3) * 1024 + 1 * (y 2).val = _; rw [e2]; omega
  exact congr (congr (congrArg (outVal (V c main_v13_0) (V c main_v39) (V c main_v36)) (Fin.ext a0.symm)) (Fin.ext a1.symm)) (Fin.ext a2.symm)

/-- An index of the array is in point t's block iff each coordinate is in the block's range on its axis. -/
theorem mem_blk1_3 (t : Fin cfg1.N) (i : S128x64x1024.Idx) :
    i ∈ ((cfg1.win 3).blk t).view.set ↔ ∀ a : Fin 3, win1_3.index t a * S32x64x1024.size a ≤ (i a).val ∧ (i a).val < win1_3.index t a * S32x64x1024.size a + S32x64x1024.size a := by
  show i ∈ ((View.whole main_v40).slice (win1_3.rect t)).set ↔ _
  rw [View.set_slice_whole, Rect.mem_set_unit]
  exact Iff.rfl

/-- The four blocks of 32 batch elements cover the array. -/
theorem cover1 (i : S128x64x1024.Idx) :
    ∃ t : Fin cfg1.N, (cfg1.win 3).flush t = true ∧ i ∈ ((cfg1.win 3).blk t).view.set := by
  have hN : cfg1.N = 4 := N_1
  have hi0 : (i 0).val < 128 := (i 0).isLt
  have hi1 : (i 1).val < 64 := (i 1).isLt
  have hi2 : (i 2).val < 1024 := (i 2).isLt
  refine ⟨⟨(i 0).val / 32, by omega⟩, flush1_3 _, ?_⟩
  rw [mem_blk1_3]
  obtain ⟨-, -, -, -, -, -, e0, e1, e2⟩ := idx1 ⟨(i 0).val / 32, by omega⟩
  intro a
  match a with
  | ⟨0, _⟩ =>
    show win1_3.index _ (0 : Fin 3) * 32 ≤ (i 0).val ∧ (i 0).val < win1_3.index _ (0 : Fin 3) * 32 + 32
    rw [e0]; show (i 0).val / 32 * 32 ≤ (i 0).val ∧ (i 0).val < (i 0).val / 32 * 32 + 32; omega
  | ⟨1, _⟩ =>
    show win1_3.index _ (1 : Fin 3) * 64 ≤ (i 1).val ∧ (i 1).val < win1_3.index _ (1 : Fin 3) * 64 + 64
    rw [e1]; omega
  | ⟨2, _⟩ =>
    show win1_3.index _ (2 : Fin 3) * 1024 ≤ (i 2).val ∧ (i 2).val < win1_3.index _ (2 : Fin 3) * 1024 + 1024
    rw [e2]; omega

/-- The result array after the second grid: the array function of the grid's three entry arrays. -/
theorem final1 (c : Dev nD) :
    (dat1 V c).arrAt 3 cfg1.N = outFn (V c main_v13_0) (V c main_v39) (V c main_v36) :=
  (dat1 V c).arrAt_eq_of_cover 3 (outFn (V c main_v13_0) (V c main_v39) (V c main_v36)) (fun t _ => flushed1_eq V c t) cover1
end Region1b

/-! ## The run's result buffer -/

/-- The program's result at (b, o, h, w): the final reshape of the second grid's result array, which is the array
    function of the arrays the second grid is entered from. -/
theorem ker_out (c : Dev nD) (b : Fin 128) (o : Fin 64) (h w : Fin 32) :
    (Gen.W5 (F := Ideal) m ρ c (Proc.devRef .tc main_v41) : S128x64x32x32.Idx → EReal) (ix4 b o h w)
      = outVal (Gen.V3 (F := Ideal) m ρ c main_v13_0) (Gen.V3 (F := Ideal) m ρ c main_v39) (Gen.V3 (F := Ideal) m ρ c main_v36)
          b o (⟨32 * h.val + w.val, by omega⟩ : Fin 1024) := by
  show StableHlo.after Gen.hostOps2 _ (Proc.devRef .tc main_v41) _ = _
  after_results
  show shapeCast S128x64x32x32 (Gen.W4 m ρ c (Proc.devRef .tc main_v40)) shapeCasts_S128x64x1024_S128x64x32x32 (ix4 b o h w) = _
  refine (shapeCast_apply _ _ (ix4 b o h w) (ix3 b o (⟨32 * h.val + w.val, by omega⟩ : Fin 1024)) ?_).trans ?_
  · rw [Shape.rowMajor_val_three, Shape.rowMajor_val_four]
    show (b.val * 64 + o.val) * 1024 + (32 * h.val + w.val) = ((b.val * 64 + o.val) * 32 + h.val) * 32 + w.val
    omega
  exact congrFun ((Gen.W4_arr (F := Ideal) m ρ c 3).trans (final1 (Gen.V3 (F := Ideal) m ρ) c)) _

end Cert.KernelIdeal.Hand

end
-- ==== Proof.KerValueHost.lean ====
/-
  The middle host stretch, read at an index. It sums the first grid's eight partial Gram matrices and eight partial
  channel sums, scales the pointwise weights by κ, forms mean = (W·v)/n and E[y²] = diag(W·G·Wᵀ)/n, the variance, the
  scale γ·rsqrt(var + ε) and the shift β − mean·scale, and folds the scale into the weights. Here: the stretch's two
  results as functions of the five arrays it reads, those functions at an index in the specification's vocabulary, the
  buffers the stretch leaves alone, and the program's result in terms of the first grid's three result arrays.
-/
import proofs.«162342_g2000606144476369_pallasbulk_1044_23_alg».proof.Proof.KerRun
import proofs.«162342_g2000606144476369_pallasbulk_1044_23_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost
import Idealize.ShloMosaic.Lib.StableHlo.Run
import proofs.«162342_g2000606144476369_pallasbulk_1044_23_alg».proof.Proof.KerValueMat
import proofs.«162342_g2000606144476369_pallasbulk_1044_23_alg».proof.Proof.KerValueHostOps
import proofs.«162342_g2000606144476369_pallasbulk_1044_23_alg».proof.Proof.KerValueOut

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg)

/-! ## The middle host stretch as functions of the five arrays it reads -/

abbrev zeroW : EReal := Ideal.ofBits .f32 0x00000000#32

/-- The κ-scaled pointwise weights. -/
def hw17 (WP : FVec Ideal S64x64 .f32) : FVec Ideal S64x64 .f32 :=
  mulf (broadcastInDim S64x64 ![] bcast_S_S64x64 (constant (F := Ideal) S_ .f32 0x3E99999A#32)) WP
/-- The mean column: the scaled weights times the summed channel sums, over n. -/
def hv20 (WP : FVec Ideal S64x64 .f32) (V8 : FVec Ideal S8x64x1 .f32) : FVec Ideal S64x1 .f32 :=
  Host.divf (Host.dotGeneral dot_S64x64_S64x1_S64x1_1_0_0_1_n_n none (hw17 WP)
      (Host.reduceAdd (F := Ideal) V8 (constant S_ .f32 0x00000000#32) reducesTo_S8x64x1_S64x1_d0 h_S_))
    (broadcastInDim S64x1 ![] bcast_S_S64x1 (constant (F := Ideal) S_ .f32 0x48000000#32))
/-- The second-moment column: the diagonal of W·G·Wᵀ, over n. -/
def hv26 (WP : FVec Ideal S64x64 .f32) (G8 : FVec Ideal S8x64x64 .f32) : FVec Ideal S64x1 .f32 :=
  Host.divf (broadcastInDim S64x1 ![0] bcast_S64_S64x1_0
      (Host.reduceAdd (F := Ideal) (mulf (Host.dotGeneral dot_S64x64_S64x64_S64x64_1_0_0_1_n_n none (hw17 WP)
          (Host.reduceAdd (F := Ideal) G8 (constant S_ .f32 0x00000000#32) reducesTo_S8x64x64_S64x64_d0 h_S_)) (hw17 WP))
        (constant S_ .f32 0x00000000#32) reducesTo_S64x64_S64_d1 h_S_))
    (broadcastInDim S64x1 ![] bcast_S_S64x1 (constant (F := Ideal) S_ .f32 0x48000000#32))
/-- The scale column: γ · rsqrt(var + ε). -/
def hv33 (WP : FVec Ideal S64x64 .f32) (G8 : FVec Ideal S8x64x64 .f32) (V8 : FVec Ideal S8x64x1 .f32)
    (GA : FVec Ideal S64 .f32) : FVec Ideal S64x1 .f32 :=
  mulf (shapeCast S64x1 GA shapeCasts_S64_S64x1)
    (Host.rsqrt (addf (subf (hv26 WP G8) (mulf (hv20 WP V8) (hv20 WP V8)))
      (broadcastInDim S64x1 ![] bcast_S_S64x1 (constant (F := Ideal) S_ .f32 0x3727C5AC#32))))
/-- The shift column: β − mean · scale. -/
def hv36 (WP : FVec Ideal S64x64 .f32) (G8 : FVec Ideal S8x64x64 .f32) (V8 : FVec Ideal S8x64x1 .f32)
    (GA BE : FVec Ideal S64 .f32) : FVec Ideal S64x1 .f32 :=
  subf (shapeCast S64x1 BE shapeCasts_S64_S64x1) (mulf (hv20 WP V8) (hv33 WP G8 V8 GA))
/-- The scale-folded weights. -/
def hv39 (WP : FVec Ideal S64x64 .f32) (G8 : FVec Ideal S8x64x64 .f32) (V8 : FVec Ideal S8x64x1 .f32)
    (GA : FVec Ideal S64 .f32) : FVec Ideal S64x64 .bf16 :=
  truncf .bf16 (mulf (broadcastInDim S64x64 ![0, 1] bcast_S64x1_S64x64_0_1 (hv33 WP G8 V8 GA)) (hw17 WP)) bitsLt_bf16_f32

/-- What the second grid is entered with at the weights' and the shift's buffers. -/
theorem V3_v39 (c : Dev nD) :
    Gen.V3 (F := Ideal) m ρ c main_v39
      = hv39 (Gen.W2 (F := Ideal) m ρ c (Proc.devRef .tc main_arg2)) (Gen.W2 (F := Ideal) m ρ c (Proc.devRef .tc main_v13_1))
          (Gen.W2 (F := Ideal) m ρ c (Proc.devRef .tc main_v13_2)) (Gen.W2 (F := Ideal) m ρ c (Proc.devRef .tc main_arg3)) := by
  dsimp only [Gen.V3, Gen.W3]
  after_results_simp
  rfl
theorem V3_v36 (c : Dev nD) :
    Gen.V3 (F := Ideal) m ρ c main_v36
      = hv36 (Gen.W2 (F := Ideal) m ρ c (Proc.devRef .tc main_arg2)) (Gen.W2 (F := Ideal) m ρ c (Proc.devRef .tc main_v13_1))
          (Gen.W2 (F := Ideal) m ρ c (Proc.devRef .tc main_v13_2)) (Gen.W2 (F := Ideal) m ρ c (Proc.devRef .tc main_arg3))
          (Gen.W2 (F := Ideal) m ρ c (Proc.devRef .tc main_arg4)) := by
  dsimp only [Gen.V3, Gen.W3]
  after_results_simp
  rfl

/-! ## The host functions at an index -/

/-- The batch-norm statistics and the folded scale and shift, from the Gram matrix Gm and the channel sums Vm. -/
def hMean (K : Spec.Consts) (WPA : Fin 64 → Fin 64 → EReal) (Vm : Fin 64 → EReal) (o : Fin 64) : EReal :=
  Ideal.div (∑ c : Fin 64, Spec.wpf K WPA o c * Vm c) K.n
def hE2 (K : Spec.Consts) (WPA : Fin 64 → Fin 64 → EReal) (Gm : Fin 64 → Fin 64 → EReal) (o : Fin 64) : EReal :=
  Ideal.div (zeroW + ∑ c' : Fin 64, (∑ c : Fin 64, Spec.wpf K WPA o c * Gm c c') * Spec.wpf K WPA o c') K.n
def hScale (K : Spec.Consts) (WPA : Fin 64 → Fin 64 → EReal) (GAA : Fin 64 → EReal) (Gm : Fin 64 → Fin 64 → EReal)
    (Vm : Fin 64 → EReal) (o : Fin 64) : EReal :=
  GAA o * Ideal.rsqrt (hE2 K WPA Gm o - hMean K WPA Vm o * hMean K WPA Vm o + K.ε)
def hShift (K : Spec.Consts) (WPA : Fin 64 → Fin 64 → EReal) (GAA BEA : Fin 64 → EReal) (Gm : Fin 64 → Fin 64 → EReal)
    (Vm : Fin 64 → EReal) (o : Fin 64) : EReal :=
  BEA o - hMean K WPA Vm o * hScale K WPA GAA Gm Vm o

section HostAt
variable (WP : FVec Ideal S64x64 .f32) (G8 : FVec Ideal S8x64x64 .f32) (V8 : FVec Ideal S8x64x1 .f32) (GA BE : FVec Ideal S64 .f32)

/-- The arrays curried, and the eight partial results summed. -/
abbrev cWP : Fin 64 → Fin 64 → EReal := fun o ch => WP (ix2 o ch)
abbrev cV1 : Fin 64 → EReal := fun x => GA (ix1 x)
abbrev sumG : Fin 64 → Fin 64 → EReal := fun p q => zeroW + ∑ k : Fin 8, G8 (ix3 k p q)
abbrev sumV : Fin 64 → EReal := fun p => zeroW + ∑ k : Fin 8, V8 (ix3 k p (0 : Fin 1))

theorem hw17_apply (o ch : Fin 64) : hw17 WP (ix2 o ch) = Spec.wpf Spec.consts (cWP WP) o ch := by
  unfold hw17
  show _ * _ = _
  rw [bcast_s_64x64]
  rfl

theorem hv20_apply (o : Fin 64) : hv20 WP V8 (ix2 o (0 : Fin 1)) = hMean Spec.consts (cWP WP) (sumV V8) o := by
  unfold hv20
  show Ideal.div _ _ = _
  rw [dot_wv_apply, bcast_s_64x1]
  unfold hMean
  refine congrArg₂ Ideal.div (Finset.sum_congr rfl fun ch _ => ?_) rfl
  rw [hw17_apply, reduce8_sums]

theorem hv26_apply (o : Fin 64) : hv26 WP G8 (ix2 o (0 : Fin 1)) = hE2 Spec.consts (cWP WP) (sumG G8) o := by
  unfold hv26
  show Ideal.div _ _ = _
  rw [bcast_64_64x1, bcast_s_64x1, reduce_cols]
  unfold hE2
  refine congrArg₂ Ideal.div (congrArg (zeroW + ·) (Finset.sum_congr rfl fun c' _ => ?_)) rfl
  show _ * _ = _
  rw [dot_wg_apply, hw17_apply]
  refine congrArg₂ (· * ·) (Finset.sum_congr rfl fun ch _ => ?_) rfl
  rw [hw17_apply, reduce8_gram]

theorem hv33_apply (o : Fin 64) :
    hv33 WP G8 V8 GA (ix2 o (0 : Fin 1)) = hScale Spec.consts (cWP WP) (cV1 GA) (sumG G8) (sumV V8) o := by
  unfold hv33
  show _ * Ideal.rsqrt (_ - _ * _ + _) = _
  rw [reshape_64_64x1, hv26_apply, hv20_apply, bcast_s_64x1]
  rfl

theorem hv36_apply (o : Fin 64) :
    hv36 WP G8 V8 GA BE (ix2 o (0 : Fin 1)) = hShift Spec.consts (cWP WP) (cV1 GA) (cV1 BE) (sumG G8) (sumV V8) o := by
  unfold hv36
  show _ - _ * _ = _
  rw [reshape_64_64x1, hv20_apply, hv33_apply]
  rfl

theorem hv39_apply (o ch : Fin 64) :
    hv39 WP G8 V8 GA (ix2 o ch)
      = hScale Spec.consts (cWP WP) (cV1 GA) (sumG G8) (sumV V8) o * Spec.wpf Spec.consts (cWP WP) o ch := by
  unfold hv39
  rw [truncf_apply, mulf_apply, bcast_64x1_64x64, hv33_apply, hw17_apply]
end HostAt

/-! ## The buffers the middle stretch does not write -/

theorem W2_main_arg2 (c : Dev nD) : Gen.W2 (F := Ideal) m ρ c (Proc.devRef .tc main_arg2) = m ((c : Thread nD τ).loc main_arg2) :=
  calc Gen.W2 (F := Ideal) m ρ c (Proc.devRef .tc main_arg2)
    _ = Gen.W1 m ρ c (Proc.devRef .tc main_arg2) := Gen.W2_of_ne m ρ c main_arg2 (by decide)
    _ = Gen.W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W2_main_arg3 (c : Dev nD) : Gen.W2 (F := Ideal) m ρ c (Proc.devRef .tc main_arg3) = m ((c : Thread nD τ).loc main_arg3) :=
  calc Gen.W2 (F := Ideal) m ρ c (Proc.devRef .tc main_arg3)
    _ = Gen.W1 m ρ c (Proc.devRef .tc main_arg3) := Gen.W2_of_ne m ρ c main_arg3 (by decide)
    _ = Gen.W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W2_main_arg4 (c : Dev nD) : Gen.W2 (F := Ideal) m ρ c (Proc.devRef .tc main_arg4) = m ((c : Thread nD τ).loc main_arg4) :=
  calc Gen.W2 (F := Ideal) m ρ c (Proc.devRef .tc main_arg4)
    _ = Gen.W1 m ρ c (Proc.devRef .tc main_arg4) := Gen.W2_of_ne m ρ c main_arg4 (by decide)
    _ = Gen.W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The depthwise array reaches the second grid as the first grid left it. -/
theorem V3_v13_0 (c : Dev nD) : Gen.V3 (F := Ideal) m ρ c main_v13_0 = Gen.W2 (F := Ideal) m ρ c (Proc.devRef .tc main_v13_0) :=
  StableHlo.after_of_forall_not_mem (b := Proc.devRef .tc main_v13_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The program's result from the first grid's three result arrays and the three arguments the host reads -/

/-- The three arguments the middle stretch reads, curried. -/
def argWP (c : Dev nD) (o ch : Fin 64) : EReal := (m ((c : Thread nD τ).loc main_arg2) : S64x64.Idx → EReal) (ix2 o ch)
def argGA (c : Dev nD) (o : Fin 64) : EReal := (m ((c : Thread nD τ).loc main_arg3) : S64.Idx → EReal) (ix1 o)
def argBE (c : Dev nD) (o : Fin 64) : EReal := (m ((c : Thread nD τ).loc main_arg4) : S64.Idx → EReal) (ix1 o)

/-- The first grid's three result arrays as the run leaves them, curried: the depthwise array by batch element, channel
    and pixel; the eight partial Gram matrices and the eight partial channel sums, summed from zero. -/
def cdcAt (c : Dev nD) (b : Fin 128) (ch : Fin 64) (l : Fin 1024) : EReal :=
  (Gen.W2 (F := Ideal) m ρ c (Proc.devRef .tc main_v13_0) : S8192x1024.Idx → EReal) (ix2 (⟨64 * b.val + ch.val, by omega⟩ : Fin 8192) l)
def gramAt (c : Dev nD) : Fin 64 → Fin 64 → EReal := sumG (Gen.W2 (F := Ideal) m ρ c (Proc.devRef .tc main_v13_1))
def sumsAt (c : Dev nD) : Fin 64 → EReal := sumV (Gen.W2 (F := Ideal) m ρ c (Proc.devRef .tc main_v13_2))

/-- The program's result: the folded weights times the depthwise array, plus the folded shift. -/
theorem ker_mid (c : Dev nD) (b : Fin 128) (o : Fin 64) (h w : Fin 32) :
    (Gen.W5 (F := Ideal) m ρ c (Proc.devRef .tc main_v41) : S128x64x32x32.Idx → EReal) (ix4 b o h w)
      = (∑ ch : Fin 64, (hScale Spec.consts (argWP m c) (argGA m c) (gramAt m ρ c) (sumsAt m ρ c) o * Spec.wpf Spec.consts (argWP m c) o ch)
            * cdcAt m ρ c b ch (⟨32 * h.val + w.val, by omega⟩ : Fin 1024))
          + hShift Spec.consts (argWP m c) (argGA m c) (argBE m c) (gramAt m ρ c) (sumsAt m ρ c) o := by
  rw [ker_out]
  unfold outVal
  rw [V3_v36, hv36_apply, V3_v13_0]
  refine congrArg₂ (· + ·) (Finset.sum_congr rfl fun ch _ => ?_) ?_
  · rw [V3_v39, hv39_apply]
    rw [W2_main_arg2, W2_main_arg3]
    rfl
  · rw [W2_main_arg2, W2_main_arg3, W2_main_arg4]
    rfl

end Cert.KernelIdeal.Hand

end
-- ==== Proof.KerValueCdcPay.lean ====
/-
  The first grid's body, read at an index. The body works on a [1024,1024] block whose row ρ = 64·(batch element) +
  channel is one plane of 1024 pixels: it rectifies, forms the two column-shifted masked copies, the three weighted
  row groups, and adds the middle group to the two row-shifted masked outer groups; it stores that block, the Gram
  matrix of its sixteen row groups, and its sums over batch elements and pixels. Here: each payload at an index, in
  terms of the values it is computed from; a rotation by s reads pixel (l + 1024 − s) mod 1024.
-/
import proofs.«162342_g2000606144476369_pallasbulk_1044_23_alg».proof.Proof.Gen.KernelIdeal.Skeleton
import proofs.«162342_g2000606144476369_pallasbulk_1044_23_alg».proof.Proof.Spec
import proofs.«162342_g2000606144476369_pallasbulk_1044_23_alg».proof.Proof.KerValueMat
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost

set_option maxRecDepth 16384

noncomputable section

namespace Cert.KernelIdeal.Hand

open Cert.KernelIdeal Cert.KernelIdeal.Gen
open Idealize.ShloMosaic
open Idealize.ShloMosaic.ValueIdx
open scoped BigOperators

/-! ## The row-wise depthwise result as a function of rectified rows, weight rows and mask rows -/

/-- Row ρ of the [1024,1024] working block is one (batch element, channel) plane of 1024 pixels. With R the rectified
    rows, W the nine tap weights of each row and M the four border masks, the separable central-difference result. -/
def rTm (R : Fin 1024 → Fin 1024 → EReal) (M : Fin 4 → Fin 1024 → EReal) (ρ l : Fin 1024) : EReal :=
  R ρ (Spec.shl l 1022) * M 0 l
def rTp (R : Fin 1024 → Fin 1024 → EReal) (M : Fin 4 → Fin 1024 → EReal) (ρ l : Fin 1024) : EReal :=
  R ρ (Spec.shl l 2) * M 1 l
def rRow (R : Fin 1024 → Fin 1024 → EReal) (W : Fin 1024 → Fin 9 → EReal) (M : Fin 4 → Fin 1024 → EReal)
    (kh : Fin 3) (ρ l : Fin 1024) : EReal :=
  rTm R M ρ l * W ρ ⟨3 * kh.val, by have := kh.isLt; omega⟩
    + R ρ l * W ρ ⟨3 * kh.val + 1, by have := kh.isLt; omega⟩
    + rTp R M ρ l * W ρ ⟨3 * kh.val + 2, by have := kh.isLt; omega⟩
def rCdc (R : Fin 1024 → Fin 1024 → EReal) (W : Fin 1024 → Fin 9 → EReal) (M : Fin 4 → Fin 1024 → EReal)
    (ρ l : Fin 1024) : EReal :=
  rRow R W M 1 ρ l + rRow R W M 0 ρ (Spec.shl l 960) * M 2 l + rRow R W M 2 ρ (Spec.shl l 64) * M 3 l

/-! ## The body's payloads at an index -/

/-- The rectified block: row ρ = 64·(batch element) + channel. -/
theorem pay2_apply (v0 : Vec Ideal S16x64x1024 .f32) (ρ l : Fin 1024) :
    k0_pay2 v0 (ix2 ρ l)
      = max (v0 (ix3 (⟨ρ.val / 64, by omega⟩ : Fin 16) (⟨ρ.val % 64, Nat.mod_lt _ (by norm_num)⟩ : Fin 64) l)) 0 := by
  unfold k0_pay2
  show max (shapeCast S1024x1024 (shapeCast S16x64x1024 v0 shapeCasts_S16x64x1024_S16x64x1024) shapeCasts_S16x64x1024_S1024x1024 (ix2 ρ l))
    (Ideal.ofBits .f32 0x00000000#32) = _
  rw [shapeCast_self, Ideal.ofBits_zero_f32]
  refine congrArg (max · 0) (shapeCast_apply v0 _ (ix2 ρ l) _ ?_)
  rw [Shape.rowMajor_val_three, Shape.rowMajor_val_two]
  show (ρ.val / 64 * 64 + ρ.val % 64) * 1024 + l.val = ρ.val * 1024 + l.val
  omega

/-- A rotation of the 1024 pixels by s places reads pixel (l + (1024 − s)) mod 1024. -/
theorem rot_apply (x : FVec Ideal S1024x1024 .f32) (sb : BitVec 32) (k : ℕ) (hs : 0 < sb.toNat ∧ sb.toNat < 1024)
    (hk : k = 1024 - sb.toNat) (ρ l : Fin 1024) :
    dynamicRotate 1 sb none x rotates_S1024x1024_d1 (ix2 ρ l) = x (ix2 ρ (Spec.shl l k)) := by
  refine dynamicRotate_apply 1 sb x _ (ix2 ρ l) (ix2 ρ (Spec.shl l k)) fun b => ?_
  match b with
  | ⟨0, _⟩ => rfl
  | ⟨1, _⟩ =>
    show (l.val + k) % 1024 = (l.val + 1024 - sb.toNat % 1024) % 1024
    rw [Nat.mod_eq_of_lt hs.2, hk]
    have := l.isLt
    congr 1; omega

/-- A mask row broadcast down the rows. -/
theorem bcast_row_apply (v : Vec Ideal S1x1024 .f32) (ρ l : Fin 1024) :
    broadcastTo S1024x1024 v broadcasts_S1x1024_S1024x1024 (ix2 ρ l) = v (ix2 (0 : Fin 1) l) :=
  broadcastTo_apply v _ (ix2 ρ l) (ix2 (0 : Fin 1) l) fun a => by
    match a with
    | ⟨0, _⟩ => rfl
    | ⟨1, _⟩ => rfl

/-- A weight column broadcast along the pixels. -/
theorem bcast_col_apply (v : Vec Ideal S1024x1 .f32) (ρ l : Fin 1024) :
    broadcastTo S1024x1024 (shapeCast S1024x1 v shapeCasts_S1024x1_S1024x1) broadcasts_S1024x1_S1024x1024 (ix2 ρ l) = v (ix2 ρ (0 : Fin 1)) := by
  rw [shapeCast_self]
  exact broadcastTo_apply v _ (ix2 ρ l) (ix2 ρ (0 : Fin 1)) fun a => by
    match a with
    | ⟨0, _⟩ => rfl
    | ⟨1, _⟩ => rfl

theorem pay3_apply (v0 : Vec Ideal S16x64x1024 .f32) (v6 : Vec Ideal S1x1024 .f32) (ρ l : Fin 1024) :
    k0_pay3 v0 v6 (ix2 ρ l) = k0_pay2 v0 (ix2 ρ (Spec.shl l 1022)) * v6 (ix2 (0 : Fin 1) l) := by
  unfold k0_pay3
  show dynamicRotate 1 2#32 none (k0_pay2 v0) rotates_S1024x1024_d1 (ix2 ρ l) * broadcastTo S1024x1024 v6 broadcasts_S1x1024_S1024x1024 (ix2 ρ l) = _
  rw [rot_apply (k0_pay2 v0) 2#32 1022 (by decide) (by decide), bcast_row_apply]

theorem pay4_apply (v0 : Vec Ideal S16x64x1024 .f32) (v10 : Vec Ideal S1x1024 .f32) (ρ l : Fin 1024) :
    k0_pay4 v0 v10 (ix2 ρ l) = k0_pay2 v0 (ix2 ρ (Spec.shl l 2)) * v10 (ix2 (0 : Fin 1) l) := by
  unfold k0_pay4
  show dynamicRotate 1 1022#32 none (k0_pay2 v0) rotates_S1024x1024_d1 (ix2 ρ l) * broadcastTo S1024x1024 v10 broadcasts_S1x1024_S1024x1024 (ix2 ρ l) = _
  rw [rot_apply (k0_pay2 v0) 1022#32 2 (by decide) (by decide), bcast_row_apply]

theorem pay5_apply (v0 : Vec Ideal S16x64x1024 .f32) (v6 v10 : Vec Ideal S1x1024 .f32) (v13 v17 v22 : Vec Ideal S1024x1 .f32)
    (ρ l : Fin 1024) :
    k0_pay5 v0 v6 v10 v13 v17 v22 (ix2 ρ l)
      = k0_pay3 v0 v6 (ix2 ρ l) * v13 (ix2 ρ (0 : Fin 1)) + k0_pay2 v0 (ix2 ρ l) * v17 (ix2 ρ (0 : Fin 1))
        + k0_pay4 v0 v10 (ix2 ρ l) * v22 (ix2 ρ (0 : Fin 1)) := by
  unfold k0_pay5
  show k0_pay3 v0 v6 (ix2 ρ l) * broadcastTo S1024x1024 (shapeCast S1024x1 v13 shapeCasts_S1024x1_S1024x1) broadcasts_S1024x1_S1024x1024 (ix2 ρ l)
      + k0_pay2 v0 (ix2 ρ l) * broadcastTo S1024x1024 (shapeCast S1024x1 v17 shapeCasts_S1024x1_S1024x1) broadcasts_S1024x1_S1024x1024 (ix2 ρ l)
      + k0_pay4 v0 v10 (ix2 ρ l) * broadcastTo S1024x1024 (shapeCast S1024x1 v22 shapeCasts_S1024x1_S1024x1) broadcasts_S1024x1_S1024x1024 (ix2 ρ l) = _
  rw [bcast_col_apply, bcast_col_apply, bcast_col_apply]

theorem pay6_apply (v0 : Vec Ideal S16x64x1024 .f32) (v6 : Vec Ideal S1x1024 .f32) (v27 v31 : Vec Ideal S1024x1 .f32)
    (ρ l : Fin 1024) :
    k0_pay6 v0 v6 v27 v31 (ix2 ρ l)
      = k0_pay3 v0 v6 (ix2 ρ l) * v27 (ix2 ρ (0 : Fin 1)) + k0_pay2 v0 (ix2 ρ l) * v31 (ix2 ρ (0 : Fin 1)) := by
  unfold k0_pay6
  show k0_pay3 v0 v6 (ix2 ρ l) * broadcastTo S1024x1024 (shapeCast S1024x1 v27 shapeCasts_S1024x1_S1024x1) broadcasts_S1024x1_S1024x1024 (ix2 ρ l)
      + k0_pay2 v0 (ix2 ρ l) * broadcastTo S1024x1024 (shapeCast S1024x1 v31 shapeCasts_S1024x1_S1024x1) broadcasts_S1024x1_S1024x1024 (ix2 ρ l) = _
  rw [bcast_col_apply, bcast_col_apply]

/-- The working block's final value: the middle row group, plus the upper group rotated down two image rows and masked,
    plus the lower group rotated up two image rows and masked. -/
theorem pay7_apply (v4 v8 v12 v26 v35 : FVec Ideal S1024x1024 .f32) (v36 v41 v45 v50 : Vec Ideal S1024x1 .f32)
    (v56 v61 : Vec Ideal S1x1024 .f32) (ρ l : Fin 1024) :
    k0_pay7 v4 v8 v12 v26 v35 v36 v41 v45 v50 v56 v61 (ix2 ρ l)
      = (v35 (ix2 ρ l) + v12 (ix2 ρ l) * v36 (ix2 ρ (0 : Fin 1)))
        + v26 (ix2 ρ (Spec.shl l 960)) * v56 (ix2 (0 : Fin 1) l)
        + ((v8 (ix2 ρ (Spec.shl l 64)) * v41 (ix2 ρ (0 : Fin 1)) + v4 (ix2 ρ (Spec.shl l 64)) * v45 (ix2 ρ (0 : Fin 1)))
            + v12 (ix2 ρ (Spec.shl l 64)) * v50 (ix2 ρ (0 : Fin 1))) * v61 (ix2 (0 : Fin 1) l) := by
  unfold k0_pay7
  show (v35 (ix2 ρ l) + v12 (ix2 ρ l) * broadcastTo S1024x1024 (shapeCast S1024x1 v36 shapeCasts_S1024x1_S1024x1) broadcasts_S1024x1_S1024x1024 (ix2 ρ l))
      + dynamicRotate 1 64#32 none v26 rotates_S1024x1024_d1 (ix2 ρ l) * broadcastTo S1024x1024 v56 broadcasts_S1x1024_S1024x1024 (ix2 ρ l)
      + dynamicRotate 1 960#32 none
          (addf (addf (mulf v8 (broadcastTo S1024x1024 (shapeCast S1024x1 v41 shapeCasts_S1024x1_S1024x1) broadcasts_S1024x1_S1024x1024))
            (mulf v4 (broadcastTo S1024x1024 (shapeCast S1024x1 v45 shapeCasts_S1024x1_S1024x1) broadcasts_S1024x1_S1024x1024)))
            (mulf v12 (broadcastTo S1024x1024 (shapeCast S1024x1 v50 shapeCasts_S1024x1_S1024x1) broadcasts_S1024x1_S1024x1024)))
          rotates_S1024x1024_d1 (ix2 ρ l) * broadcastTo S1024x1024 v61 broadcasts_S1x1024_S1024x1024 (ix2 ρ l) = _
  rw [rot_apply v26 64#32 960 (by decide) (by decide), rot_apply _ 960#32 64 (by decide) (by decide), bcast_row_apply, bcast_row_apply,
    bcast_col_apply]
  show _ + _ + ((v8 (ix2 ρ (Spec.shl l 64)) * broadcastTo S1024x1024 (shapeCast S1024x1 v41 shapeCasts_S1024x1_S1024x1) broadcasts_S1024x1_S1024x1024 (ix2 ρ (Spec.shl l 64))
      + v4 (ix2 ρ (Spec.shl l 64)) * broadcastTo S1024x1024 (shapeCast S1024x1 v45 shapeCasts_S1024x1_S1024x1) broadcasts_S1024x1_S1024x1024 (ix2 ρ (Spec.shl l 64)))
      + v12 (ix2 ρ (Spec.shl l 64)) * broadcastTo S1024x1024 (shapeCast S1024x1 v50 shapeCasts_S1024x1_S1024x1) broadcasts_S1024x1_S1024x1024 (ix2 ρ (Spec.shl l 64))) * _ = _
  rw [bcast_col_apply, bcast_col_apply, bcast_col_apply]

/-! ## The partial Gram matrix: sixteen [64,1024]·[64,1024]ᵀ products of the rounded block's row groups -/

/-- The product of the rows off … off + 63 of the block with themselves. -/
def sliceMM (C : FVec Ideal S1024x1024 .bf16) (off : ℕ) (h : S1024x1024.Slices ![off, 0] S64x1024) : FVec Ideal S64x64 .f32 :=
  matmul dot_S64x1024_S64x1024_S64x64_1_1_0_0_n_n none (extractStridedSlice S64x1024 ![off, 0] C h) (extractStridedSlice S64x1024 ![off, 0] C h)
    (constant S64x64 .f32 0x00000000#32)

/-- One batch element's term of the Gram matrix: Σ over the pixels of row (64 j + p) times row (64 j + q). -/
def gramTerm (C : FVec Ideal S1024x1024 .bf16) (p q : Fin 64) (j : Fin 16) : EReal :=
  ∑ l : Fin 1024, C (ix2 (⟨64 * j.val + p.val, by omega⟩ : Fin 1024) l) * C (ix2 (⟨64 * j.val + q.val, by omega⟩ : Fin 1024) l)

theorem sliceMM_apply (C : FVec Ideal S1024x1024 .bf16) (j : Fin 16) (off : ℕ) (hoff : off = 64 * j.val)
    (h : S1024x1024.Slices ![off, 0] S64x1024) (p q : Fin 64) :
    sliceMM C off h (ix2 p q) = gramTerm C p q j := by
  unfold sliceMM gramTerm
  rw [matmul_gram_apply]
  refine Finset.sum_congr rfl fun l _ => congrArg₂ (· * ·) ?_ ?_
  · refine extractStridedSlice_apply _ C h (ix2 p l) _ fun a => ?_
    match a with
    | ⟨0, _⟩ => show 64 * j.val + p.val = off + p.val; omega
    | ⟨1, _⟩ => show l.val = 0 + l.val; omega
  · refine extractStridedSlice_apply _ C h (ix2 q l) _ fun a => ?_
    match a with
    | ⟨0, _⟩ => show 64 * j.val + q.val = off + q.val; omega
    | ⟨1, _⟩ => show l.val = 0 + l.val; omega

/-- A sum over sixteen terms, spelt left to right from zero. -/
theorem sum16 (f : Fin 16 → EReal) :
    ∑ j : Fin 16, f j = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

section GramPay
variable (v4 v8 v12 v26 v35 : FVec Ideal S1024x1024 .f32) (v36 v41 v45 v50 : Vec Ideal S1024x1 .f32) (v56 v61 : Vec Ideal S1x1024 .f32)

/-- The stored partial Gram matrix at (0, p, q): the sixteen batch elements' terms of the rounded block. -/
theorem pay11_apply (z : Fin 1) (p q : Fin 64) :
    k0_pay11 (k0_pay8 v4 v8 v12 v26 v35 v36 v41 v45 v50 v56 v61) (k0_pay9 v4 v8 v12 v26 v35 v36 v41 v45 v50 v56 v61)
        (k0_pay10 v4 v8 v12 v26 v35 v36 v41 v45 v50 v56 v61) (ix3 z p q)
      = ∑ j : Fin 16, gramTerm (k0_pay8 v4 v8 v12 v26 v35 v36 v41 v45 v50 v56 v61) p q j := by
  unfold k0_pay11
  refine (shapeCast_apply _ _ (ix3 z p q) (ix2 p q) ?_).trans ?_
  · rw [Shape.rowMajor_val_two, Shape.rowMajor_val_three]
    show p.val * 64 + q.val = (z.val * 64 + p.val) * 64 + q.val
    have := z.isLt; omega
  unfold k0_pay9 k0_pay10
  show (((((((((((((((Ideal.ofBits .f32 0x00000000#32 + sliceMM (k0_pay8 v4 v8 v12 v26 v35 v36 v41 v45 v50 v56 v61) 0 slices_S1024x1024_o0_0_S64x1024 (ix2 p q))
      + sliceMM (k0_pay8 v4 v8 v12 v26 v35 v36 v41 v45 v50 v56 v61) 64 slices_S1024x1024_o64_0_S64x1024 (ix2 p q))
      + sliceMM (k0_pay8 v4 v8 v12 v26 v35 v36 v41 v45 v50 v56 v61) 128 slices_S1024x1024_o128_0_S64x1024 (ix2 p q))
      + sliceMM (k0_pay8 v4 v8 v12 v26 v35 v36 v41 v45 v50 v56 v61) 192 slices_S1024x1024_o192_0_S64x1024 (ix2 p q))
      + sliceMM (k0_pay8 v4 v8 v12 v26 v35 v36 v41 v45 v50 v56 v61) 256 slices_S1024x1024_o256_0_S64x1024 (ix2 p q))
      + sliceMM (k0_pay8 v4 v8 v12 v26 v35 v36 v41 v45 v50 v56 v61) 320 slices_S1024x1024_o320_0_S64x1024 (ix2 p q))
      + sliceMM (k0_pay8 v4 v8 v12 v26 v35 v36 v41 v45 v50 v56 v61) 384 slices_S1024x1024_o384_0_S64x1024 (ix2 p q))
      + sliceMM (k0_pay8 v4 v8 v12 v26 v35 v36 v41 v45 v50 v56 v61) 448 slices_S1024x1024_o448_0_S64x1024 (ix2 p q))
      + sliceMM (k0_pay8 v4 v8 v12 v26 v35 v36 v41 v45 v50 v56 v61) 512 slices_S1024x1024_o512_0_S64x1024 (ix2 p q))
      + sliceMM (k0_pay8 v4 v8 v12 v26 v35 v36 v41 v45 v50 v56 v61) 576 slices_S1024x1024_o576_0_S64x1024 (ix2 p q))
      + sliceMM (k0_pay8 v4 v8 v12 v26 v35 v36 v41 v45 v50 v56 v61) 640 slices_S1024x1024_o640_0_S64x1024 (ix2 p q))
      + sliceMM (k0_pay8 v4 v8 v12 v26 v35 v36 v41 v45 v50 v56 v61) 704 slices_S1024x1024_o704_0_S64x1024 (ix2 p q))
      + sliceMM (k0_pay8 v4 v8 v12 v26 v35 v36 v41 v45 v50 v56 v61) 768 slices_S1024x1024_o768_0_S64x1024 (ix2 p q))
      + sliceMM (k0_pay8 v4 v8 v12 v26 v35 v36 v41 v45 v50 v56 v61) 832 slices_S1024x1024_o832_0_S64x1024 (ix2 p q))
      + sliceMM (k0_pay8 v4 v8 v12 v26 v35 v36 v41 v45 v50 v56 v61) 896 slices_S1024x1024_o896_0_S64x1024 (ix2 p q))
      + sliceMM (k0_pay8 v4 v8 v12 v26 v35 v36 v41 v45 v50 v56 v61) 960 slices_S1024x1024_o960_0_S64x1024 (ix2 p q) = _
  rw [Ideal.ofBits_zero_f32, sum16]
  rw [sliceMM_apply _ 0 0 (by decide), sliceMM_apply _ 1 64 (by decide), sliceMM_apply _ 2 128 (by decide), sliceMM_apply _ 3 192 (by decide), sliceMM_apply _ 4 256 (by decide), sliceMM_apply _ 5 320 (by decide), sliceMM_apply _ 6 384 (by decide), sliceMM_apply _ 7 448 (by decide), sliceMM_apply _ 8 512 (by decide), sliceMM_apply _ 9 576 (by decide), sliceMM_apply _ 10 640 (by decide), sliceMM_apply _ 11 704 (by decide), sliceMM_apply _ 12 768 (by decide), sliceMM_apply _ 13 832 (by decide), sliceMM_apply _ 14 896 (by decide), sliceMM_apply _ 15 960 (by decide)]
end GramPay

/-! ## The partial channel sums: the block summed over its batch elements and pixels -/

/-- A sum over the first and last axes of a [16,64,1024] array, at channel p: the double sum. -/
theorem reduce02_apply (h : S16x64x1024.Reduces [0, 2] S64) (x : S16x64x1024.Idx → EReal) (p : Fin 64) :
    Ideal.reduceAdd h x (ix1 p) = ∑ bb : Fin 16, ∑ l : Fin 1024, x (ix3 bb p l) := by
  unfold Ideal.reduceAdd
  rw [← Finset.sum_product']
  refine Finset.sum_nbij' (fun i => ((i 0 : Fin 16), (i 2 : Fin 1024))) (fun bl => ix3 bl.1 p bl.2) ?_ ?_ ?_ ?_ ?_
  · intro i _; exact Finset.mem_product.2 ⟨Finset.mem_univ _, Finset.mem_univ _⟩
  · intro bl _
    refine Finset.mem_filter.2 ⟨Finset.mem_univ _, funext fun b => ?_⟩
    match b with
    | ⟨0, _⟩ => rfl
  · intro i hi
    have hj : h.drop i = ix1 p := (Finset.mem_filter.1 hi).2
    have h1 : i 1 = p := by
      have := congrFun hj ⟨0, by decide⟩
      exact this
    funext a
    match a with
    | ⟨0, _⟩ => rfl
    | ⟨1, _⟩ => exact h1.symm
    | ⟨2, _⟩ => rfl
  · intro bl _; rfl
  · intro i hi
    have hj : h.drop i = ix1 p := (Finset.mem_filter.1 hi).2
    have h1 : i 1 = p := by
      have := congrFun hj ⟨0, by decide⟩
      exact this
    refine congrArg x (funext fun a => ?_)
    match a with
    | ⟨0, _⟩ => rfl
    | ⟨1, _⟩ => exact h1
    | ⟨2, _⟩ => rfl

/-- The stored partial sums at (0, p, 0): Σ over the 16 batch elements and the pixels of the unrounded block's row
    64·bb + p. -/
theorem pay1_apply (C : FVec Ideal S1024x1024 .f32) (z z' : Fin 1) (p : Fin 64) :
    k0_pay1 (k0_pay12 C) (ix3 z p z')
      = ∑ bb : Fin 16, ∑ l : Fin 1024, C (ix2 (⟨64 * bb.val + p.val, by omega⟩ : Fin 1024) l) := by
  unfold k0_pay1
  refine (shapeCast_apply _ _ (ix3 z p z') (ix2 p (0 : Fin 1)) ?_).trans ?_
  · rw [Shape.rowMajor_val_two, Shape.rowMajor_val_three]
    show p.val * 1 + 0 = (z.val * 64 + p.val) * 1 + z'.val
    have := z.isLt; have := z'.isLt; omega
  refine (shapeCast_apply _ _ (ix2 p (0 : Fin 1)) (ix1 p) ?_).trans ?_
  · rw [Shape.rowMajor_val_one, Shape.rowMajor_val_two]
    show p.val = p.val * 1 + 0
    omega
  refine (reduce02_apply reduces_S16x64x1024_S64 (k0_pay12 C) p).trans ?_
  refine Finset.sum_congr rfl fun bb _ => Finset.sum_congr rfl fun l _ => ?_
  unfold k0_pay12
  refine shapeCast_apply C _ (ix3 bb p l) _ ?_
  rw [Shape.rowMajor_val_two, Shape.rowMajor_val_three]
  show (64 * bb.val + p.val) * 1024 + l.val = (bb.val * 64 + p.val) * 1024 + l.val
  omega

end Cert.KernelIdeal.Hand

end
-- ==== Proof.KerValueCdc.lean ====
/-
  The first grid, read at an index. Each of its eight points takes 16 batch elements as a [1024,1024] block of planes.
  Here: the body's three stores as functions of the three input blocks (the depthwise block row by row, the Gram matrix
  of its sixteen row groups, its sums), a block's row as the specification's plane — the row of batch element
  16·t + ρ/64 and channel ρ mod 64 uses weight row ρ, which is (b mod 16)·64 + c —, the input blocks as reads of the
  entry arrays, and the three result arrays as functions of their indices (the eight blocks cover each array).
-/
import proofs.«162342_g2000606144476369_pallasbulk_1044_23_alg».proof.Proof.KerRun
import proofs.«162342_g2000606144476369_pallasbulk_1044_23_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost
import Idealize.ShloMosaic.Lib.StableHlo.Run
import proofs.«162342_g2000606144476369_pallasbulk_1044_23_alg».proof.Proof.KerValueCdcPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg)

theorem hz2' : (![0, 0] : Fin 2 → Nat) = fun _ => 0 := funext fun a => by fin_cases a <;> rfl
theorem hz3' : (![0, 0, 0] : Fin 3 → Nat) = fun _ => 0 := funext fun a => by fin_cases a <;> rfl

/-! ## The first grid's block results from its three input blocks -/

/-- A mask row loaded from the [4,1024] mask block. -/
theorem ld_mask (x2 : Vec Ideal S4x1024 .f32) (k : ℕ) (hk : k < 4)
    (inb : ∀ a, (![k, 0] : Fin 2 → ℕ) a + S1x1024.size a ≤ S4x1024.size a) (z : Fin 1) (l : Fin 1024) :
    View.ld x2 (Rect.unit (s := S4x1024) ![k, 0] S1x1024.size inb) (ix2 z l) = x2 (ix2 (⟨k, hk⟩ : Fin 4) l) := by
  refine congrArg x2 (funext fun a => Fin.ext ?_)
  match a with
  | ⟨0, _⟩ => show k + 1 * z.val = k; have := z.isLt; omega
  | ⟨1, _⟩ => show 0 + 1 * l.val = l.val; omega

/-- A weight column loaded from the [1024,9] weight block. -/
theorem ld_wcol (x1 : Vec Ideal S1024x9 .f32) (t : ℕ) (ht : t < 9)
    (inb : ∀ a, (![0, t] : Fin 2 → ℕ) a + S1024x1.size a ≤ S1024x9.size a) (ρ : Fin 1024) (z : Fin 1) :
    View.ld x1 (Rect.unit (s := S1024x9) ![0, t] S1024x1.size inb) (ix2 ρ z) = x1 (ix2 ρ (⟨t, ht⟩ : Fin 9)) := by
  refine congrArg x1 (funext fun a => Fin.ext ?_)
  match a with
  | ⟨0, _⟩ => show 0 + 1 * ρ.val = ρ.val; omega
  | ⟨1, _⟩ => show t + 1 * z.val = t; have := z.isLt; omega

section Blk
variable (x0 : Vec Ideal S16x64x1024 .f32) (x1 : Vec Ideal S1024x9 .f32) (x2 : Vec Ideal S4x1024 .f32)

/-- The block's rectified rows, weight rows and mask rows, curried. -/
def bR : Fin 1024 → Fin 1024 → EReal := fun ρ l =>
  max (x0 (ix3 (⟨ρ.val / 64, by omega⟩ : Fin 16) (⟨ρ.val % 64, Nat.mod_lt _ (by norm_num)⟩ : Fin 64) l)) 0
def bW : Fin 1024 → Fin 9 → EReal := fun ρ t => x1 (ix2 ρ t)
def bM : Fin 4 → Fin 1024 → EReal := fun k l => x2 (ix2 k l)

/-- The working block before rounding, as the body computes it from its loads. -/
def cdcBlk : FVec Ideal S1024x1024 .f32 :=
  k0_pay7 (k0_pay2 (View.ld x0 r0_0)) (k0_pay3 (View.ld x0 r0_0) (View.ld x2 r0_1)) (k0_pay4 (View.ld x0 r0_0) (View.ld x2 r0_2)) (k0_pay5 (View.ld x0 r0_0) (View.ld x2 r0_1) (View.ld x2 r0_2) (View.ld x1 r0_3) (View.ld x1 r0_4) (View.ld x1 r0_5)) (k0_pay6 (View.ld x0 r0_0) (View.ld x2 r0_1) (View.ld x1 r0_6) (View.ld x1 r0_7)) (View.ld x1 r0_8) (View.ld x1 r0_9) (View.ld x1 r0_10) (View.ld x1 r0_11) (View.ld x2 r0_12) (View.ld x2 r0_13)

theorem cdcBlk_apply (ρ l : Fin 1024) : cdcBlk x0 x1 x2 (ix2 ρ l) = rCdc (bR x0) (bW x1) (bM x2) ρ l := by
  unfold cdcBlk
  rw [pay7_apply]
  simp only [pay5_apply, pay6_apply, pay3_apply, pay4_apply, pay2_apply]
  rw [View.ld_unit_zero (S := S16x64x1024) hz3']
  simp only [ld_mask x2 0 (by decide), ld_mask x2 1 (by decide), ld_mask x2 2 (by decide), ld_mask x2 3 (by decide),
    ld_wcol x1 0 (by decide), ld_wcol x1 1 (by decide), ld_wcol x1 2 (by decide), ld_wcol x1 3 (by decide), ld_wcol x1 4 (by decide),
    ld_wcol x1 5 (by decide), ld_wcol x1 6 (by decide), ld_wcol x1 7 (by decide), ld_wcol x1 8 (by decide)]
  rfl
end Blk

section Blk2
variable (x0 : Vec Ideal S16x64x1024 .f32) (x1 : Vec Ideal S1024x9 .f32) (x2 : Vec Ideal S4x1024 .f32)

/-- The stored depthwise block is the working block (rounding is the identity on extended reals). -/
theorem out0_3_apply (ρ l : Fin 1024) : out0_3 x0 x1 x2 (ix2 ρ l) = rCdc (bR x0) (bW x1) (bM x2) ρ l := by
  unfold out0_3
  rw [View.canon_unit_zero hz2']
  exact cdcBlk_apply x0 x1 x2 ρ l

/-- The stored partial Gram matrix: the sixteen batch elements' sums over the pixels of products of two channels. -/
theorem out0_4_apply (z : Fin 1) (p q : Fin 64) :
    out0_4 x0 x1 x2 (ix3 z p q)
      = ∑ j : Fin 16, ∑ l : Fin 1024, rCdc (bR x0) (bW x1) (bM x2) (⟨64 * j.val + p.val, by omega⟩ : Fin 1024) l
          * rCdc (bR x0) (bW x1) (bM x2) (⟨64 * j.val + q.val, by omega⟩ : Fin 1024) l := by
  unfold out0_4
  rw [View.canon_unit_zero hz3']
  refine (pay11_apply (k0_pay2 (View.ld x0 r0_0)) (k0_pay3 (View.ld x0 r0_0) (View.ld x2 r0_1)) (k0_pay4 (View.ld x0 r0_0) (View.ld x2 r0_2)) (k0_pay5 (View.ld x0 r0_0) (View.ld x2 r0_1) (View.ld x2 r0_2) (View.ld x1 r0_3) (View.ld x1 r0_4) (View.ld x1 r0_5)) (k0_pay6 (View.ld x0 r0_0) (View.ld x2 r0_1) (View.ld x1 r0_6) (View.ld x1 r0_7)) (View.ld x1 r0_8) (View.ld x1 r0_9) (View.ld x1 r0_10) (View.ld x1 r0_11) (View.ld x2 r0_12) (View.ld x2 r0_13) z p q).trans ?_
  refine Finset.sum_congr rfl fun j _ => ?_
  unfold gramTerm
  refine Finset.sum_congr rfl fun l _ => congrArg₂ (· * ·) ?_ ?_
  · exact cdcBlk_apply x0 x1 x2 _ l
  · exact cdcBlk_apply x0 x1 x2 _ l

/-- The stored partial channel sums. -/
theorem out0_5_apply (z z' : Fin 1) (p : Fin 64) :
    out0_5 x0 x1 x2 (ix3 z p z')
      = ∑ bb : Fin 16, ∑ l : Fin 1024, rCdc (bR x0) (bW x1) (bM x2) (⟨64 * bb.val + p.val, by omega⟩ : Fin 1024) l := by
  unfold out0_5
  rw [View.canon_unit_zero hz3']
  refine (pay1_apply (cdcBlk x0 x1 x2) z z' p).trans ?_
  exact Finset.sum_congr rfl fun bb _ => Finset.sum_congr rfl fun l _ => cdcBlk_apply x0 x1 x2 _ l
end Blk2

/-! ## The block's rows are the specification's planes -/

/-- When the block's rectified rows are the rectified planes of batch elements 16·tv …, and its weights and masks the
    arrays', row ρ of the block's result is the specification's depthwise result of batch element 16·tv + ρ/64 and
    channel ρ mod 64: the weight row (b mod 16)·64 + c of that plane is ρ. -/
theorem rCdc_eq_spec (X : Fin 128 → Fin 64 → Fin 1024 → EReal) (WR : Fin 1024 → Fin 9 → EReal) (MS : Fin 4 → Fin 1024 → EReal)
    (R : Fin 1024 → Fin 1024 → EReal) (W : Fin 1024 → Fin 9 → EReal) (M : Fin 4 → Fin 1024 → EReal)
    (tv : ℕ) (htv : tv < 8) (ρ : Fin 1024)
    (hR : ∀ l, R ρ l = Spec.relu X (⟨16 * tv + ρ.val / 64, by omega⟩ : Fin 128) (⟨ρ.val % 64, Nat.mod_lt _ (by norm_num)⟩ : Fin 64) l)
    (hW : ∀ t, W ρ t = WR ρ t) (hM : ∀ k l, M k l = MS k l) (l : Fin 1024) :
    rCdc R W M ρ l
      = Spec.kerCdc X WR MS (⟨16 * tv + ρ.val / 64, by omega⟩ : Fin 128) (⟨ρ.val % 64, Nat.mod_lt _ (by norm_num)⟩ : Fin 64) l := by
  have hw : Spec.wrow (⟨16 * tv + ρ.val / 64, by omega⟩ : Fin 128) (⟨ρ.val % 64, Nat.mod_lt _ (by norm_num)⟩ : Fin 64) = ρ :=
    Fin.ext (by show (16 * tv + ρ.val / 64) % 16 * 64 + ρ.val % 64 = ρ.val; have := ρ.isLt; omega)
  unfold rCdc rRow rTm rTp Spec.kerCdc Spec.kerRow Spec.kerTm Spec.kerTp
  simp only [hR, hW, hM, hw]

/-- The same from the blocks' entries: block entry (bb, ch, l) is the array's at batch element 16·tv + bb. -/
theorem blk_row_spec (X : Fin 128 → Fin 64 → Fin 1024 → EReal) (WR : Fin 1024 → Fin 9 → EReal) (MS : Fin 4 → Fin 1024 → EReal)
    (tv : ℕ) (htv : tv < 8) (x0 : Vec Ideal S16x64x1024 .f32) (x1 : Vec Ideal S1024x9 .f32) (x2 : Vec Ideal S4x1024 .f32)
    (h0 : ∀ (bb : Fin 16) (ch : Fin 64) (l : Fin 1024), x0 (ix3 bb ch l) = X (⟨16 * tv + bb.val, by omega⟩ : Fin 128) ch l)
    (h1 : ∀ (ρ : Fin 1024) (t : Fin 9), x1 (ix2 ρ t) = WR ρ t) (h2 : ∀ (k : Fin 4) (l : Fin 1024), x2 (ix2 k l) = MS k l)
    (ρ l : Fin 1024) :
    rCdc (bR x0) (bW x1) (bM x2) ρ l
      = Spec.kerCdc X WR MS (⟨16 * tv + ρ.val / 64, by omega⟩ : Fin 128) (⟨ρ.val % 64, Nat.mod_lt _ (by norm_num)⟩ : Fin 64) l :=
  rCdc_eq_spec X WR MS (bR x0) (bW x1) (bM x2) tv htv ρ (fun l => by unfold bR Spec.relu; rw [h0]) (fun t => h1 ρ t) (fun k l => h2 k l) l

/-! ## From the blocks to the arrays: the first grid's three results as functions of its three entry arrays -/

section Region0
variable (V : (c : Dev nD) → (b : Ref sig .tc) → Buf (Elt Ideal) ((c : Thread nD τ).loc b))

/-- The three arrays the first grid is entered from, curried. -/
def vX (c : Dev nD) (b : Fin 128) (ch : Fin 64) (l : Fin 1024) : EReal := (V c main_v12 : S128x64x1024.Idx → EReal) (ix3 b ch l)
def vWR (c : Dev nD) (r : Fin 1024) (t : Fin 9) : EReal := (V c main_v11 : S1024x9.Idx → EReal) (ix2 r t)
def vMS (c : Dev nD) (k : Fin 4) (l : Fin 1024) : EReal := (V c main_cst_0 : S4x1024.Idx → EReal) (ix2 k l)

/-- The printed index maps of the first grid, decided over its eight points. -/
theorem idx0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The activation window's block at point t is batch elements 16·t … of its array. -/
theorem iblk0_0_apply (c : Dev nD) (t : Fin cfg0.N) (bb : Fin 16) (ch : Fin 64) (l : Fin 1024) (k : S128x64x1024.Idx)
    (hk0 : (k 0).val = 16 * t.val + bb.val) (hk1 : (k 1).val = ch.val) (hk2 : (k 2).val = l.val) :
    (iblk0 V c 0 t : Vec Ideal S16x64x1024 .f32) (ix3 bb ch l) = (V c main_v12 : Vec Ideal S128x64x1024 .f32) k := by
  obtain ⟨e0, e1, e2, -⟩ := idx0 t
  unfold iblk0
  rw [View.read_apply]
  show V c main_v12 _ = V c main_v12 _
  refine congrArg (V c main_v12) (funext fun a => Fin.ext ?_)
  match a with
  | ⟨0, _⟩ => show win0_0.index t (0 : Fin 3) * 16 + 1 * bb.val = (k 0).val; rw [e0, hk0]; omega
  | ⟨1, _⟩ => show win0_0.index t (1 : Fin 3) * 64 + 1 * ch.val = (k 1).val; rw [e1, hk1]; omega
  | ⟨2, _⟩ => show win0_0.index t (2 : Fin 3) * 1024 + 1 * l.val = (k 2).val; rw [e2, hk2]; omega

/-- The weight window's block is its whole array. -/
theorem iblk0_1_apply (c : Dev nD) (t : Fin cfg0.N) (r : Fin 1024) (k : Fin 9) :
    (iblk0 V c 1 t : Vec Ideal S1024x9 .f32) (ix2 r k) = (V c main_v11 : Vec Ideal S1024x9 .f32) (ix2 r k) := by
  obtain ⟨-, -, -, e0, e1, -⟩ := idx0 t
  unfold iblk0
  rw [View.read_apply]
  show V c main_v11 _ = V c main_v11 _
  refine congrArg (V c main_v11) (funext fun a => Fin.ext ?_)
  match a with
  | ⟨0, _⟩ => show win0_1.index t (0 : Fin 2) * 1024 + 1 * r.val = r.val; rw [e0]; omega
  | ⟨1, _⟩ => show win0_1.index t (1 : Fin 2) * 9 + 1 * k.val = k.val; rw [e1]; omega

/-- The mask window's block is its whole array. -/
theorem iblk0_2_apply (c : Dev nD) (t : Fin cfg0.N) (k : Fin 4) (l : Fin 1024) :
    (iblk0 V c 2 t : Vec Ideal S4x1024 .f32) (ix2 k l) = (V c main_cst_0 : Vec Ideal S4x1024 .f32) (ix2 k l) := by
  obtain ⟨-, -, -, -, -, e0, e1, -⟩ := idx0 t
  unfold iblk0
  rw [View.read_apply]
  show V c main_cst_0 _ = V c main_cst_0 _
  refine congrArg (V c main_cst_0) (funext fun a => Fin.ext ?_)
  match a with
  | ⟨0, _⟩ => show win0_2.index t (0 : Fin 2) * 4 + 1 * k.val = k.val; rw [e0]; omega
  | ⟨1, _⟩ => show win0_2.index t (1 : Fin 2) * 1024 + 1 * l.val = l.val; rw [e1]; omega

/-- Row ρ of point t's block result is the specification's plane of batch element 16·t + ρ/64, channel ρ mod 64. -/
theorem row_at (c : Dev nD) (t : Fin cfg0.N) (ht : t.val < 8) (ρ l : Fin 1024) :
    rCdc (bR (iblk0 V c 0 t)) (bW (iblk0 V c 1 t)) (bM (iblk0 V c 2 t)) ρ l
      = Spec.kerCdc (vX V c) (vWR V c) (vMS V c) (⟨16 * t.val + ρ.val / 64, by omega⟩ : Fin 128)
          (⟨ρ.val % 64, Nat.mod_lt _ (by norm_num)⟩ : Fin 64) l :=
  blk_row_spec (vX V c) (vWR V c) (vMS V c) t.val ht (iblk0 V c 0 t) (iblk0 V c 1 t) (iblk0 V c 2 t)
    (fun bb ch l => iblk0_0_apply V c t bb ch l _ rfl rfl rfl) (fun r k => iblk0_1_apply V c t r k) (fun k l => iblk0_2_apply V c t k l) ρ l
end Region0

section Region0b
variable (V : (c : Dev nD) → (b : Ref sig .tc) → Buf (Elt Ideal) ((c : Thread nD τ).loc b))

/-- The specification's depthwise result of the entry arrays, for short. -/
abbrev kC (c : Dev nD) : Fin 128 → Fin 64 → Fin 1024 → EReal := Spec.kerCdc (vX V c) (vWR V c) (vMS V c)

/-- The first grid's three result arrays as functions of their indices: the depthwise array (row = 64·b + channel), the
    eight partial Gram matrices and the eight partial channel sums (partial k covers batch elements 16·k … 16·k + 15). -/
def cdcArr (c : Dev nD) : Vec Ideal S8192x1024 .bf16 := fun i =>
  kC V c (⟨(i 0).val / 64, by have : (i 0).val < 8192 := (i 0).isLt; omega⟩ : Fin 128)
    (⟨(i 0).val % 64, Nat.mod_lt _ (by norm_num)⟩ : Fin 64) (i 1)
def gramArr (c : Dev nD) : Vec Ideal S8x64x64 .f32 := fun i =>
  ∑ j : Fin 16, ∑ l : Fin 1024,
    kC V c (⟨16 * (i 0).val + j.val, by have : (i 0).val < 8 := (i 0).isLt; omega⟩ : Fin 128) (i 1) l
      * kC V c (⟨16 * (i 0).val + j.val, by have : (i 0).val < 8 := (i 0).isLt; omega⟩ : Fin 128) (i 2) l
def sumsArr (c : Dev nD) : Vec Ideal S8x64x1 .f32 := fun i =>
  ∑ j : Fin 16, ∑ l : Fin 1024,
    kC V c (⟨16 * (i 0).val + j.val, by have : (i 0).val < 8 := (i 0).isLt; omega⟩ : Fin 128) (i 1) l

/-- What point t writes back to the depthwise array is block t of `cdcArr`. -/
theorem flushed0_3_eq (c : Dev nD) (t : Fin cfg0.N) :
    (dat0 V c).flushed 3 t = ((cfg0.win 3).blk t).view.read (Elt Ideal) (cdcArr V c) := by
  show (cfg0.win 3).cut (grid0.coords t) ((dat0 V c).after 3 t) = _
  rw [after0_3]
  have hN : cfg0.N = 8 := N_0
  have ht : t.val < 8 := by have := t.isLt; omega
  obtain ⟨-, -, -, -, -, -, -, e0, e1, -⟩ := idx0 t
  funext y
  rw [View.read_apply]
  have hy0 : (y 0).val < 1024 := (y 0).isLt
  have hy1 : (y 1).val < 1024 := (y 1).isLt
  show out0_3 (iblk0 V c 0 t) (iblk0 V c 1 t) (iblk0 V c 2 t) y = _
  refine (congrArg (out0_3 (iblk0 V c 0 t) (iblk0 V c 1 t) (iblk0 V c 2 t)) (eq_ix2 y)).trans ?_
  refine (out0_3_apply (iblk0 V c 0 t) (iblk0 V c 1 t) (iblk0 V c 2 t) (y 0) (y 1)).trans ?_
  refine (row_at V c t ht (y 0) (y 1)).trans ?_
  have a0 : ((((cfg0.win 3).blk t).view.emb y) 0).val = 1024 * t.val + (y 0).val := by
    show win0_3.index t (0 : Fin 2) * 1024 + 1 * (y 0).val = _; rw [e0]; omega
  have a1 : ((((cfg0.win 3).blk t).view.emb y) 1).val = (y 1).val := by
    show win0_3.index t (1 : Fin 2) * 1024 + 1 * (y 1).val = _; rw [e1]; omega
  unfold cdcArr
  exact congr (congr (congrArg (kC V c) (Fin.ext (by show 16 * t.val + (y 0).val / 64 = _ / 64; rw [a0]; omega)))
    (Fin.ext (by show (y 0).val % 64 = _ % 64; rw [a0]; omega))) (Fin.ext a1.symm)

theorem mem_blk0_3 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v13_0).slice (win0_3.rect t)).set ↔ _
  rw [View.set_slice_whole, Rect.mem_set_unit]
  exact Iff.rfl

theorem cover0_3' (i : S8192x1024.Idx) :
    ∃ t : Fin cfg0.N, (cfg0.win 3).flush t = true ∧ i ∈ ((cfg0.win 3).blk t).view.set := by
  have hN : cfg0.N = 8 := N_0
  have hi0 : (i 0).val < 8192 := (i 0).isLt
  have hi1 : (i 1).val < 1024 := (i 1).isLt
  refine ⟨⟨(i 0).val / 1024, by omega⟩, flush0_3 _, ?_⟩
  rw [mem_blk0_3]
  obtain ⟨-, -, -, -, -, -, -, e0, e1, -⟩ := idx0 ⟨(i 0).val / 1024, by omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e1]; omega

/-- The depthwise array after the first grid. -/
theorem final0_3 (c : Dev nD) : (dat0 V c).arrAt 3 cfg0.N = cdcArr V c :=
  (dat0 V c).arrAt_eq_of_cover 3 (cdcArr V c) (fun t _ => flushed0_3_eq V c t) cover0_3'
end Region0b

section Region0c
variable (V : (c : Dev nD) → (b : Ref sig .tc) → Buf (Elt Ideal) ((c : Thread nD τ).loc b))

/-- What point t writes back to the partial Gram matrices is block t of `gramArr`. -/
theorem flushed0_4_eq (c : Dev nD) (t : Fin cfg0.N) :
    (dat0 V c).flushed 4 t = ((cfg0.win 4).blk t).view.read (Elt Ideal) (gramArr V c) := by
  show (cfg0.win 4).cut (grid0.coords t) ((dat0 V c).after 4 t) = _
  rw [after0_4]
  have hN : cfg0.N = 8 := N_0
  have ht : t.val < 8 := by have := t.isLt; omega
  obtain ⟨-, -, -, -, -, -, -, -, -, e0, e1, e2, -⟩ := idx0 t
  funext y
  rw [View.read_apply]
  have hy0 : (y 0).val < 1 := (y 0).isLt
  have hy1 : (y 1).val < 64 := (y 1).isLt
  have hy2 : (y 2).val < 64 := (y 2).isLt
  show out0_4 (iblk0 V c 0 t) (iblk0 V c 1 t) (iblk0 V c 2 t) y = _
  refine (congrArg (out0_4 (iblk0 V c 0 t) (iblk0 V c 1 t) (iblk0 V c 2 t)) (eq_ix3 y)).trans ?_
  refine (out0_4_apply (iblk0 V c 0 t) (iblk0 V c 1 t) (iblk0 V c 2 t) (y 0) (y 1) (y 2)).trans ?_
  have a0 : ((((cfg0.win 4).blk t).view.emb y) 0).val = t.val := by
    show win0_4.index t (0 : Fin 3) * 1 + 1 * (y 0).val = _; rw [e0]; omega
  have a1 : ((((cfg0.win 4).blk t).view.emb y) 1).val = (y 1).val := by
    show win0_4.index t (1 : Fin 3) * 64 + 1 * (y 1).val = _; rw [e1]; omega
  have a2 : ((((cfg0.win 4).blk t).view.emb y) 2).val = (y 2).val := by
    show win0_4.index t (2 : Fin 3) * 64 + 1 * (y 2).val = _; rw [e2]; omega
  unfold gramArr
  refine Finset.sum_congr rfl fun j _ => Finset.sum_congr rfl fun l _ => congrArg₂ (· * ·) ?_ ?_
  · refine (row_at V c t ht _ l).trans ?_
    exact congr (congr (congrArg (kC V c) (Fin.ext (by
      show 16 * t.val + (64 * j.val + (y 1).val) / 64 = 16 * _ + j.val; rw [a0]; omega)))
      (Fin.ext (by show (64 * j.val + (y 1).val) % 64 = _; rw [a1]; omega))) rfl
  · refine (row_at V c t ht _ l).trans ?_
    exact congr (congr (congrArg (kC V c) (Fin.ext (by
      show 16 * t.val + (64 * j.val + (y 2).val) / 64 = 16 * _ + j.val; rw [a0]; omega)))
      (Fin.ext (by show (64 * j.val + (y 2).val) % 64 = _; rw [a2]; omega))) rfl

theorem mem_blk0_4 (t : Fin cfg0.N) (i : S8x64x64.Idx) :
    i ∈ ((cfg0.win 4).blk t).view.set ↔ ∀ a : Fin 3, win0_4.index t a * S1x64x64.size a ≤ (i a).val ∧ (i a).val < win0_4.index t a * S1x64x64.size a + S1x64x64.size a := by
  show i ∈ ((View.whole main_v13_1).slice (win0_4.rect t)).set ↔ _
  rw [View.set_slice_whole, Rect.mem_set_unit]
  exact Iff.rfl

theorem cover0_4' (i : S8x64x64.Idx) :
    ∃ t : Fin cfg0.N, (cfg0.win 4).flush t = true ∧ i ∈ ((cfg0.win 4).blk t).view.set := by
  have hN : cfg0.N = 8 := N_0
  have hi0 : (i 0).val < 8 := (i 0).isLt
  have hi1 : (i 1).val < 64 := (i 1).isLt
  have hi2 : (i 2).val < 64 := (i 2).isLt
  refine ⟨⟨(i 0).val, by omega⟩, flush0_4 _, ?_⟩
  rw [mem_blk0_4]
  obtain ⟨-, -, -, -, -, -, -, -, -, e0, e1, e2, -⟩ := idx0 ⟨(i 0).val, by omega⟩
  intro a
  match a with
  | ⟨0, _⟩ =>
    show win0_4.index _ (0 : Fin 3) * 1 ≤ (i 0).val ∧ (i 0).val < win0_4.index _ (0 : Fin 3) * 1 + 1
    rw [e0]; show (i 0).val * 1 ≤ (i 0).val ∧ (i 0).val < (i 0).val * 1 + 1; omega
  | ⟨1, _⟩ =>
    show win0_4.index _ (1 : Fin 3) * 64 ≤ (i 1).val ∧ (i 1).val < win0_4.index _ (1 : Fin 3) * 64 + 64
    rw [e1]; omega
  | ⟨2, _⟩ =>
    show win0_4.index _ (2 : Fin 3) * 64 ≤ (i 2).val ∧ (i 2).val < win0_4.index _ (2 : Fin 3) * 64 + 64
    rw [e2]; omega

/-- The partial Gram matrices after the first grid. -/
theorem final0_4 (c : Dev nD) : (dat0 V c).arrAt 4 cfg0.N = gramArr V c :=
  (dat0 V c).arrAt_eq_of_cover 4 (gramArr V c) (fun t _ => flushed0_4_eq V c t) cover0_4'

/-- What point t writes back to the partial channel sums is block t of `sumsArr`. -/
theorem flushed0_5_eq (c : Dev nD) (t : Fin cfg0.N) :
    (dat0 V c).flushed 5 t = ((cfg0.win 5).blk t).view.read (Elt Ideal) (sumsArr V c) := by
  show (cfg0.win 5).cut (grid0.coords t) ((dat0 V c).after 5 t) = _
  rw [after0_5]
  have hN : cfg0.N = 8 := N_0
  have ht : t.val < 8 := by have := t.isLt; omega
  obtain ⟨-, -, -, -, -, -, -, -, -, -, -, -, e0, e1, e2⟩ := idx0 t
  funext y
  rw [View.read_apply]
  have hy0 : (y 0).val < 1 := (y 0).isLt
  have hy1 : (y 1).val < 64 := (y 1).isLt
  have hy2 : (y 2).val < 1 := (y 2).isLt
  show out0_5 (iblk0 V c 0 t) (iblk0 V c 1 t) (iblk0 V c 2 t) y = _
  refine (congrArg (out0_5 (iblk0 V c 0 t) (iblk0 V c 1 t) (iblk0 V c 2 t)) (eq_ix3 y)).trans ?_
  refine (out0_5_apply (iblk0 V c 0 t) (iblk0 V c 1 t) (iblk0 V c 2 t) (y 0) (y 2) (y 1)).trans ?_
  have a0 : ((((cfg0.win 5).blk t).view.emb y) 0).val = t.val := by
    show win0_5.index t (0 : Fin 3) * 1 + 1 * (y 0).val = _; rw [e0]; omega
  have a1 : ((((cfg0.win 5).blk t).view.emb y) 1).val = (y 1).val := by
    show win0_5.index t (1 : Fin 3) * 64 + 1 * (y 1).val = _; rw [e1]; omega
  unfold sumsArr
  refine Finset.sum_congr rfl fun j _ => Finset.sum_congr rfl fun l _ => ?_
  refine (row_at V c t ht _ l).trans ?_
  exact congr (congr (congrArg (kC V c) (Fin.ext (by
    show 16 * t.val + (64 * j.val + (y 1).val) / 64 = 16 * _ + j.val; rw [a0]; omega)))
    (Fin.ext (by show (64 * j.val + (y 1).val) % 64 = _; rw [a1]; omega))) rfl

theorem mem_blk0_5 (t : Fin cfg0.N) (i : S8x64x1.Idx) :
    i ∈ ((cfg0.win 5).blk t).view.set ↔ ∀ a : Fin 3, win0_5.index t a * S1x64x1.size a ≤ (i a).val ∧ (i a).val < win0_5.index t a * S1x64x1.size a + S1x64x1.size a := by
  show i ∈ ((View.whole main_v13_2).slice (win0_5.rect t)).set ↔ _
  rw [View.set_slice_whole, Rect.mem_set_unit]
  exact Iff.rfl

theorem cover0_5' (i : S8x64x1.Idx) :
    ∃ t : Fin cfg0.N, (cfg0.win 5).flush t = true ∧ i ∈ ((cfg0.win 5).blk t).view.set := by
  have hN : cfg0.N = 8 := N_0
  have hi0 : (i 0).val < 8 := (i 0).isLt
  have hi1 : (i 1).val < 64 := (i 1).isLt
  have hi2 : (i 2).val < 1 := (i 2).isLt
  refine ⟨⟨(i 0).val, by omega⟩, flush0_5 _, ?_⟩
  rw [mem_blk0_5]
  obtain ⟨-, -, -, -, -, -, -, -, -, -, -, -, e0, e1, e2⟩ := idx0 ⟨(i 0).val, by omega⟩
  intro a
  match a with
  | ⟨0, _⟩ =>
    show win0_5.index _ (0 : Fin 3) * 1 ≤ (i 0).val ∧ (i 0).val < win0_5.index _ (0 : Fin 3) * 1 + 1
    rw [e0]; show (i 0).val * 1 ≤ (i 0).val ∧ (i 0).val < (i 0).val * 1 + 1; omega
  | ⟨1, _⟩ =>
    show win0_5.index _ (1 : Fin 3) * 64 ≤ (i 1).val ∧ (i 1).val < win0_5.index _ (1 : Fin 3) * 64 + 64
    rw [e1]; omega
  | ⟨2, _⟩ =>
    show win0_5.index _ (2 : Fin 3) * 1 ≤ (i 2).val ∧ (i 2).val < win0_5.index _ (2 : Fin 3) * 1 + 1
    rw [e2]; omega

/-- The partial channel sums after the first grid. -/
theorem final0_5 (c : Dev nD) : (dat0 V c).arrAt 5 cfg0.N = sumsArr V c :=
  (dat0 V c).arrAt_eq_of_cover 5 (sumsArr V c) (fun t _ => flushed0_5_eq V c t) cover0_5'
end Region0c

end Cert.KernelIdeal.Hand

end
-- ==== Proof.KerValue.lean ====
/-
  The idealised kernel's value. The program's result buffer, read through the final reshape, the second grid, the
  middle host stretch and the first grid, is the specification's `kerOut` of the three arrays the first grid is entered
  from and the three arguments the host stretch reads. The eight partial Gram matrices and channel sums add up to the
  sums over all 128 batch elements (8 groups of 16); addition of extended reals is associative and commutative and
  0 + x = x, so no finiteness is needed.
-/
import proofs.«162342_g2000606144476369_pallasbulk_1044_23_alg».proof.Proof.KerRun
import proofs.«162342_g2000606144476369_pallasbulk_1044_23_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost
import Idealize.ShloMosaic.Lib.StableHlo.Run
import proofs.«162342_g2000606144476369_pallasbulk_1044_23_alg».proof.Proof.KerValueHost
import proofs.«162342_g2000606144476369_pallasbulk_1044_23_alg».proof.Proof.KerValueCdc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (ρ : Dev nD → PrngReg)

/-! ## The arrays the first grid is entered from, curried -/

def entX (c : Dev nD) (b : Fin 128) (ch : Fin 64) (l : Fin 1024) : EReal :=
  (Gen.V1 (F := Ideal) m ρ c main_v12 : S128x64x1024.Idx → EReal) (ix3 b ch l)
def entWR (c : Dev nD) (r : Fin 1024) (t : Fin 9) : EReal :=
  (Gen.V1 (F := Ideal) m ρ c main_v11 : S1024x9.Idx → EReal) (ix2 r t)
def entMS (c : Dev nD) (k : Fin 4) (l : Fin 1024) : EReal :=
  (Gen.V1 (F := Ideal) m ρ c main_cst_0 : S4x1024.Idx → EReal) (ix2 k l)

/-- Eight groups of sixteen batch elements are the 128 batch elements. -/
theorem sum_blocks (f : Fin 128 → EReal) :
    ∑ k : Fin 8, ∑ j : Fin 16, f (⟨16 * k.val + j.val, by omega⟩ : Fin 128) = ∑ b : Fin 128, f b := by
  rw [← Finset.sum_product']
  refine Finset.sum_nbij' (fun x => (⟨16 * x.1.val + x.2.val, by have := x.1.isLt; have := x.2.isLt; omega⟩ : Fin 128))
    (fun b => ((⟨b.val / 16, by have := b.isLt; omega⟩ : Fin 8), (⟨b.val % 16, Nat.mod_lt _ (by norm_num)⟩ : Fin 16))) ?_ ?_ ?_ ?_ ?_
  · intro x _; exact Finset.mem_univ _
  · intro b _; exact Finset.mem_product.2 ⟨Finset.mem_univ _, Finset.mem_univ _⟩
  · intro x _
    refine Prod.ext (Fin.ext ?_) (Fin.ext ?_)
    · show (16 * x.1.val + x.2.val) / 16 = x.1.val
      have := x.2.isLt; omega
    · show (16 * x.1.val + x.2.val) % 16 = x.2.val
      have := x.2.isLt; omega
  · intro b _
    exact Fin.ext (by show 16 * (b.val / 16) + b.val % 16 = b.val; omega)
  · intro x _; rfl

/-! ## The first grid's result arrays in the run -/

theorem W2_v13_0 (c : Dev nD) : Gen.W2 (F := Ideal) m ρ c (Proc.devRef .tc main_v13_0) = cdcArr (Gen.V1 (F := Ideal) m ρ) c :=
  (Gen.W2_arr (F := Ideal) m ρ c 3).trans (final0_3 (Gen.V1 (F := Ideal) m ρ) c)
theorem W2_v13_1 (c : Dev nD) : Gen.W2 (F := Ideal) m ρ c (Proc.devRef .tc main_v13_1) = gramArr (Gen.V1 (F := Ideal) m ρ) c :=
  (Gen.W2_arr (F := Ideal) m ρ c 4).trans (final0_4 (Gen.V1 (F := Ideal) m ρ) c)
theorem W2_v13_2 (c : Dev nD) : Gen.W2 (F := Ideal) m ρ c (Proc.devRef .tc main_v13_2) = sumsArr (Gen.V1 (F := Ideal) m ρ) c :=
  (Gen.W2_arr (F := Ideal) m ρ c 5).trans (final0_5 (Gen.V1 (F := Ideal) m ρ) c)

/-- The depthwise array is the specification's depthwise result. -/
theorem cdcAt_eq (c : Dev nD) (b : Fin 128) (ch : Fin 64) (l : Fin 1024) :
    cdcAt m ρ c b ch l = Spec.kerCdc (entX m ρ c) (entWR m ρ c) (entMS m ρ c) b ch l := by
  unfold cdcAt
  refine (congrFun (W2_v13_0 m ρ c) _).trans ?_
  unfold cdcArr
  exact congr (congr (congrArg (Spec.kerCdc (entX m ρ c) (entWR m ρ c) (entMS m ρ c))
    (Fin.ext (by show (64 * b.val + ch.val) / 64 = b.val; have := ch.isLt; omega)))
    (Fin.ext (by show (64 * b.val + ch.val) % 64 = ch.val; have := ch.isLt; omega))) rfl

/-- The summed partial Gram matrices are the specification's Gram matrix. -/
theorem gramAt_eq (c : Dev nD) : gramAt m ρ c = Spec.kerG (entX m ρ c) (entWR m ρ c) (entMS m ρ c) := by
  funext p q
  unfold gramAt
  rw [W2_v13_1]
  show zeroW + ∑ k : Fin 8, gramArr (Gen.V1 (F := Ideal) m ρ) c (ix3 k p q) = _
  unfold gramArr Spec.kerG
  rw [show zeroW = 0 from Ideal.ofBits_zero_f32, zero_add]
  exact sum_blocks fun b => ∑ l : Fin 1024, Spec.kerCdc (entX m ρ c) (entWR m ρ c) (entMS m ρ c) b p l
    * Spec.kerCdc (entX m ρ c) (entWR m ρ c) (entMS m ρ c) b q l

/-- The summed partial channel sums are the specification's channel sums. -/
theorem sumsAt_eq (c : Dev nD) : sumsAt m ρ c = Spec.kerV (entX m ρ c) (entWR m ρ c) (entMS m ρ c) := by
  funext p
  unfold sumsAt
  rw [W2_v13_2]
  show zeroW + ∑ k : Fin 8, sumsArr (Gen.V1 (F := Ideal) m ρ) c (ix3 k p (0 : Fin 1)) = _
  unfold sumsArr Spec.kerV
  rw [show zeroW = 0 from Ideal.ofBits_zero_f32, zero_add]
  exact sum_blocks fun b => ∑ l : Fin 1024, Spec.kerCdc (entX m ρ c) (entWR m ρ c) (entMS m ρ c) b p l

/-! ## The kernel's value -/

/-- THE IDEALISED KERNEL'S RESULT at (b, o, h, w) is the specification's at pixel 32·h + w, as a function of the three
    arrays its first grid is entered from and the three arguments its middle host stretch reads. -/
theorem ker_value (c : Dev nD) (b : Fin 128) (o : Fin 64) (h w : Fin 32) :
    (Gen.W5 (F := Ideal) m ρ c (Proc.devRef .tc main_v41) : S128x64x32x32.Idx → EReal) (ix4 b o h w)
      = Spec.kerOut Spec.consts (entX m ρ c) (entWR m ρ c) (entMS m ρ c) (argWP m c) (argGA m c) (argBE m c) b o
          (⟨32 * h.val + w.val, by omega⟩ : Fin 1024) := by
  rw [ker_mid, gramAt_eq, sumsAt_eq]
  simp only [cdcAt_eq]
  unfold Spec.kerOut hShift hScale hE2 hMean Spec.kerShift Spec.kerScale Spec.kerVar Spec.kerE2 Spec.kerMean
  simp only [show zeroW = 0 from Ideal.ofBits_zero_f32, zero_add]

end Cert.KernelIdeal.Hand

end
-- ==== Proof.RefHostArgs.lean ====
/-
  What the reference's host stretch hands its convolution grid, for the arrays that are plain re-layouts or
  scalings of the arguments: the activations with the 32×32 image flattened to 1024 pixels (pixel l is row l / 32,
  column l % 32), the depthwise weights with the 3×3 window flattened to nine taps (tap t is window row t / 3,
  column t % 3), the pointwise weights scaled by 1 − θ, and the normalisation's scale and shift as columns.
-/
import proofs.«162342_g2000606144476369_pallasbulk_1044_23_alg».proof.Proof.RefFrame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.ReferenceIdeal.Hand

open Cert.ReferenceIdeal Cert.ReferenceIdeal.Gen Cert.ReferenceIdeal.Facts₀ Cert.ReferenceIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

set_option maxHeartbeats 4000000 in
/-- The activations, pixel by pixel. -/
theorem entry_x (c : Dev nD) (b : Fin 128) (ch : Fin 64) (l : Fin 1024) :
    (V1 (F := Ideal) m ρ c main_v0 : S128x64x1024.Idx → EReal) (ix3 b ch l)
      = (m ((c : Thread nD τ).loc main_arg0) : S128x64x32x32.Idx → EReal) (ix4 b ch ⟨l.val / 32, by have := l.isLt; omega⟩ ⟨l.val % 32, Nat.mod_lt _ (by norm_num)⟩) := by
  have e : ∃ h, (V1 (F := Ideal) m ρ c main_v0 : S128x64x1024.Idx → EReal)
      = shapeCast S128x64x1024 (m ((c : Thread nD τ).loc main_arg0) : S128x64x32x32.Idx → EReal) h :=
    ⟨_, by show StableHlo.after hostOps0 (W0 m ρ c) (Proc.devRef .tc main_v0) = _; after_results; try rfl⟩
  obtain ⟨h, e⟩ := e
  rw [e]
  refine shapeCast_apply _ _ _ _ ?_
  show ((⟨4, ![128, 64, 32, 32]⟩ : Shape).rowMajor _).val = ((⟨3, ![128, 64, 1024]⟩ : Shape).rowMajor _).val
  rw [Shape.rowMajor_val_four, Shape.rowMajor_val_three]
  show ((b.val * 64 + ch.val) * 32 + l.val / 32) * 32 + l.val % 32 = (b.val * 64 + ch.val) * 1024 + l.val
  have := l.isLt; omega

set_option maxHeartbeats 4000000 in
/-- The depthwise weights, tap by tap. -/
theorem entry_wd (c : Dev nD) (ch : Fin 64) (t : Fin 9) :
    (V1 (F := Ideal) m ρ c main_v1 : S64x9.Idx → EReal) (ix2 ch t)
      = (m ((c : Thread nD τ).loc main_arg1) : S64x3x3.Idx → EReal) (ix3 ch ⟨t.val / 3, by have := t.isLt; omega⟩ ⟨t.val % 3, Nat.mod_lt _ (by norm_num)⟩) := by
  have e : ∃ h, (V1 (F := Ideal) m ρ c main_v1 : S64x9.Idx → EReal)
      = shapeCast S64x9 (m ((c : Thread nD τ).loc main_arg1) : S64x3x3.Idx → EReal) h :=
    ⟨_, by show StableHlo.after hostOps0 (W0 m ρ c) (Proc.devRef .tc main_v1) = _; after_results; try rfl⟩
  obtain ⟨h, e⟩ := e
  rw [e]
  refine shapeCast_apply _ _ _ _ ?_
  show ((⟨3, ![64, 3, 3]⟩ : Shape).rowMajor _).val = ((⟨2, ![64, 9]⟩ : Shape).rowMajor _).val
  rw [Shape.rowMajor_val_three, Shape.rowMajor_val_two]
  show (ch.val * 3 + t.val / 3) * 3 + t.val % 3 = ch.val * 9 + t.val
  have := t.isLt; omega

set_option maxHeartbeats 4000000 in
/-- The pointwise weights, scaled by the constant 1 − θ. -/
theorem entry_wp (c : Dev nD) (o ch : Fin 64) :
    (V1 (F := Ideal) m ρ c main_v220 : S64x64.Idx → EReal) (ix2 o ch)
      = Ideal.ofBits .f32 0x3E99999A#32 * (m ((c : Thread nD τ).loc main_arg2) : S64x64.Idx → EReal) (ix2 o ch) := by
  have e : ∃ h, (V1 (F := Ideal) m ρ c main_v220 : S64x64.Idx → EReal)
      = mulf (broadcastInDim S64x64 ![] h (constant (F := Ideal) S_ .f32 0x3E99999A#32)) (m ((c : Thread nD τ).loc main_arg2) : S64x64.Idx → EReal) :=
    ⟨_, by show StableHlo.after hostOps0 (W0 m ρ c) (Proc.devRef .tc main_v220) = _; after_results; try rfl⟩
  obtain ⟨h, e⟩ := e
  rw [e]
  rfl

set_option maxHeartbeats 4000000 in
/-- The normalisation's scale, as a column. -/
theorem entry_gamma (c : Dev nD) (o : Fin 64) :
    (V1 (F := Ideal) m ρ c main_v221 : S64x1.Idx → EReal) (ix2 o (0 : Fin 1))
      = (m ((c : Thread nD τ).loc main_arg3) : S64.Idx → EReal) (ix1 o) := by
  have e : ∃ h, (V1 (F := Ideal) m ρ c main_v221 : S64x1.Idx → EReal)
      = shapeCast S64x1 (m ((c : Thread nD τ).loc main_arg3) : S64.Idx → EReal) h :=
    ⟨_, by show StableHlo.after hostOps0 (W0 m ρ c) (Proc.devRef .tc main_v221) = _; after_results; try rfl⟩
  obtain ⟨h, e⟩ := e
  rw [e]
  refine shapeCast_apply _ _ _ _ ?_
  show ((⟨1, ![64]⟩ : Shape).rowMajor _).val = ((⟨2, ![64, 1]⟩ : Shape).rowMajor _).val
  rw [Shape.rowMajor_val_one, Shape.rowMajor_val_two]
  show o.val = o.val * 1 + 0
  omega

set_option maxHeartbeats 4000000 in
/-- The normalisation's shift, as a column. -/
theorem entry_beta (c : Dev nD) (o : Fin 64) :
    (V1 (F := Ideal) m ρ c main_v222 : S64x1.Idx → EReal) (ix2 o (0 : Fin 1))
      = (m ((c : Thread nD τ).loc main_arg4) : S64.Idx → EReal) (ix1 o) := by
  have e : ∃ h, (V1 (F := Ideal) m ρ c main_v222 : S64x1.Idx → EReal)
      = shapeCast S64x1 (m ((c : Thread nD τ).loc main_arg4) : S64.Idx → EReal) h :=
    ⟨_, by show StableHlo.after hostOps0 (W0 m ρ c) (Proc.devRef .tc main_v222) = _; after_results; try rfl⟩
  obtain ⟨h, e⟩ := e
  rw [e]
  refine shapeCast_apply _ _ _ _ ?_
  show ((⟨1, ![64]⟩ : Shape).rowMajor _).val = ((⟨2, ![64, 1]⟩ : Shape).rowMajor _).val
  rw [Shape.rowMajor_val_one, Shape.rowMajor_val_two]
  show o.val = o.val * 1 + 0
  omega

end Cert.ReferenceIdeal.Hand

end
-- ==== Proof.RefHostKdiff.lean ====
/-
  The reference's θ-scaled sums of the depthwise weights: per channel, θ times the sum of the nine window weights.
  The host sums a [64, 3, 3] array over its two window axes at once; the indices that reduce to channel c are the
  nine (c, p, q), so that sum is the double sum over the window.
-/
import proofs.«162342_g2000606144476369_pallasbulk_1044_23_alg».proof.Proof.RefFrame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.ReferenceIdeal.Hand

open Cert.ReferenceIdeal Cert.ReferenceIdeal.Gen Cert.ReferenceIdeal.Facts₀ Cert.ReferenceIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-- A host sum of a [64, 3, 3] array over its last two axes, at channel `i`: the initial value plus the double sum
    over the 3×3 window. -/
theorem hostReduceAdd_window (h' : (⟨3, ![64, 3, 3]⟩ : Shape).ReducesTo [1, 2] ⟨1, ![64]⟩)
    (x : (⟨3, ![64, 3, 3]⟩ : Shape).Idx → EReal) (init : EReal) (i : Fin 64) :
    Ideal.hostReduceAdd h' x init (ix1 i) = init + ∑ p : Fin 3, ∑ q : Fin 3, x (ix3 i p q) := by
  unfold Ideal.hostReduceAdd
  congr 1
  rw [← Finset.sum_product']
  have hleft : ∀ idx ∈ Finset.univ.filter (fun idx : (⟨3, ![64, 3, 3]⟩ : Shape).Idx => h'.drop idx = ix1 i),
      ix3 i (idx 1 : Fin 3) (idx 2 : Fin 3) = idx := by
    intro idx hidx
    have hd := (Finset.mem_filter.mp hidx).2
    have h0 : (idx 0 : Fin 64) = i := by
      refine Fin.ext ?_
      have := congrArg (fun j : (⟨1, ![64]⟩ : Shape).Idx => (j 0).val) hd
      dsimp only at this
      rw [h'.drop_apply_val_of_eq idx 0 0] at this
      exact this
    rw [← h0]
    exact (eq_ix3 idx).symm
  refine Finset.sum_nbij' (fun idx => ((idx 1 : Fin 3), (idx 2 : Fin 3))) (fun pq => ix3 i pq.1 pq.2) ?_ ?_ ?_ ?_ ?_
  · intro idx _; exact Finset.mem_product.mpr ⟨Finset.mem_univ _, Finset.mem_univ _⟩
  · intro pq _
    refine Finset.mem_filter.mpr ⟨Finset.mem_univ _, ?_⟩
    funext b
    refine Fin.ext ?_
    have hb : b = 0 := Subsingleton.elim _ _
    subst hb
    rw [h'.drop_apply_val_of_eq (ix3 i pq.1 pq.2) 0 0]
    try rfl
  · intro idx hidx; exact hleft idx hidx
  · intro pq _; rfl
  · intro idx hidx; exact congrArg x (hleft idx hidx).symm

set_option maxHeartbeats 4000000 in
/-- The θ-scaled weight sums, channel by channel. -/
theorem entry_kdiff (c : Dev nD) (ch : Fin 64) :
    (V1 (F := Ideal) m ρ c main_v5 : S64x1.Idx → EReal) (ix2 ch (0 : Fin 1))
      = Ideal.ofBits .f32 0x3F333333#32
          * ∑ p : Fin 3, ∑ q : Fin 3, (show S64x3x3.Idx → EReal from m ((c : Thread nD τ).loc main_arg1)) (ix3 ch p q) := by
  have e : ∃ h1 h2 h3 h4, (V1 (F := Ideal) m ρ c main_v5 : S64x1.Idx → EReal)
      = shapeCast S64x1 (mulf (broadcastInDim S64 ![] h1 (constant (F := Ideal) S_ .f32 0x3F333333#32))
          (Host.reduceAdd (F := Ideal) (show S64x3x3.Idx → EReal from m ((c : Thread nD τ).loc main_arg1)) (constant (F := Ideal) S_ .f32 0x00000000#32) h2 h4)) h3 :=
    ⟨_, _, _, _, by show StableHlo.after hostOps0 (W0 m ρ c) (Proc.devRef .tc main_v5) = _; after_results; try rfl⟩
  obtain ⟨h1, h2, h3, h4, e⟩ := e
  rw [e]
  refine (shapeCast_apply _ h3 (ix2 ch (0 : Fin 1)) (ix1 ch) ?_).trans ?_
  · show ((⟨1, ![64]⟩ : Shape).rowMajor _).val = ((⟨2, ![64, 1]⟩ : Shape).rowMajor _).val
    rw [Shape.rowMajor_val_one, Shape.rowMajor_val_two]
    show ch.val = ch.val * 1 + 0
    omega
  · show Ideal.ofBits .f32 0x3F333333#32 * _ = _
    congr 1
    refine (hostReduceAdd_window h2 _ _ ch).trans ?_
    show Ideal.ofBits .f32 0x00000000#32 + _ = _
    rw [Ideal.ofBits_zero_f32, zero_add]

end Cert.ReferenceIdeal.Hand

end
-- ==== Proof.MaskBits.lean ====
/-
  The reference builds each tap's border mask from integer arithmetic on the row and column numbers: with the
  tap's row shift kh and column shift kw as two's-complement words (−2, 0 or 2), a pixel at row h, column w is
  valid when 0 ≤ h + kh < 32 and 0 ≤ w + kw < 32. Here: that four-way conjunction as a one-bit word, its closed
  form for the nine shift pairs, and how the printed combination of broadcasts and comparisons reads at (h, w).
-/
import Idealize.ShloMosaic.Lib.ValueIdx
import Idealize.ShloMosaic.Lib.Pipeline.Value

noncomputable section

namespace Cert.MaskBits

open Idealize.ShloMosaic Idealize.ShloMosaic.ValueIdx

/-- A column of 32 rows, a row of 32 columns, the 32×32 image, and the rank-zero shape of a scalar. -/
abbrev RowS : Shape := ⟨2, ![32, 1]⟩
abbrev ColS : Shape := ⟨2, ![1, 32]⟩
abbrev ImgS : Shape := ⟨2, ![32, 32]⟩
abbrev ScS : Shape := ⟨0, ![]⟩

/-- "0 ≤ x + k < 32" on 32-bit words, signed, as a one-bit word. -/
def inRange (x k : BitVec 32) : BitVec 1 :=
  IntOp.andi (IntOp.cmpi .sge (IntOp.addi x k) 0#32) (IntOp.cmpi .slt (IntOp.addi x k) 32#32)

/-- The validity bit of the pixel at row h, column w under the shifts kh, kw, associated as the program
    associates it: (rows ∧ columns-from-below) ∧ columns-from-above. -/
def maskBits (kh kw : BitVec 32) (h w : Fin 32) : BitVec 1 :=
  IntOp.andi (IntOp.andi (inRange (BitVec.ofNat 32 h.val) kh) (IntOp.cmpi .sge (IntOp.addi (BitVec.ofNat 32 w.val) kw) 0#32))
    (IntOp.cmpi .slt (IntOp.addi (BitVec.ofNat 32 w.val) kw) 32#32)

/-- The shift word of window row or column i: −2, 0, 2. -/
def shiftWord (i : Fin 3) : BitVec 32 := if i.val = 0 then 4294967294#32 else if i.val = 1 then 0#32 else 2#32

/-- The validity bit in closed form: the source pixel (h + 2 i − 2, w + 2 j − 2) lies in the image. -/
theorem maskBits_eq : ∀ (i j : Fin 3) (h w : Fin 32), maskBits (shiftWord i) (shiftWord j) h w
    = if 2 ≤ h.val + 2 * i.val ∧ h.val + 2 * i.val < 34 ∧ 2 ≤ w.val + 2 * j.val ∧ w.val + 2 * j.val < 34 then 1#1 else 0#1 := by
  decide +kernel

/-- The outer combination at (h, w): a column of row bits and two rows of column bits, each broadcast over the
    image and combined by bitwise and. -/
theorem and3_bcast_apply (A : RowS.Idx → BitVec 1) (B C : ColS.Idx → BitVec 1)
    (b1 : RowS.BroadcastsInDim ImgS ![0, 1]) (b2 : ColS.BroadcastsInDim ImgS ![0, 1]) (h w : Fin 32) :
    andi (andi (broadcastInDim ImgS ![0, 1] b1 A) (broadcastInDim ImgS ![0, 1] b2 B)) (broadcastInDim ImgS ![0, 1] b2 C) (ix2 h w)
      = IntOp.andi (IntOp.andi (A (ix2 h (0 : Fin 1))) (B (ix2 (0 : Fin 1) w))) (C (ix2 (0 : Fin 1) w)) := by
  show IntOp.andi (IntOp.andi (broadcastInDim ImgS ![0, 1] b1 A (ix2 h w)) (broadcastInDim ImgS ![0, 1] b2 B (ix2 h w)))
      (broadcastInDim ImgS ![0, 1] b2 C (ix2 h w)) = _
  rw [broadcastInDim_apply ![0, 1] b1 A (ix2 h w) (ix2 h (0 : Fin 1)) (fun a => by match a with | ⟨0, _⟩ => rfl | ⟨1, _⟩ => rfl),
    broadcastInDim_apply ![0, 1] b2 B (ix2 h w) (ix2 (0 : Fin 1) w) (fun a => by match a with | ⟨0, _⟩ => rfl | ⟨1, _⟩ => rfl),
    broadcastInDim_apply ![0, 1] b2 C (ix2 h w) (ix2 (0 : Fin 1) w) (fun a => by match a with | ⟨0, _⟩ => rfl | ⟨1, _⟩ => rfl)]

/-- The row condition at row h, the row numbers being `x` there. -/
theorem rowCond_apply (I : RowS.Idx → BitVec 32) (b0 : ScS.BroadcastsInDim RowS ![]) (k : BitVec 32) (h : Fin 32) (x : BitVec 32)
    (hI : I (ix2 h (0 : Fin 1)) = x) :
    andi (cmpi .sge (addi I (broadcastInDim RowS ![] b0 (constantI ScS 32 k))) (broadcastInDim RowS ![] b0 (constantI ScS 32 0#32)))
        (cmpi .slt (addi I (broadcastInDim RowS ![] b0 (constantI ScS 32 k))) (broadcastInDim RowS ![] b0 (constantI ScS 32 32#32)))
        (ix2 h (0 : Fin 1))
      = inRange x k := by
  subst hI; rfl

/-- A column condition at column w, the column numbers being `x` there. -/
theorem colCond_apply (p : CmpIPredicate) (bound : BitVec 32) (I : ColS.Idx → BitVec 32) (b0 : ScS.BroadcastsInDim ColS ![]) (k : BitVec 32)
    (w : Fin 32) (x : BitVec 32) (hI : I (ix2 (0 : Fin 1) w) = x) :
    cmpi p (addi I (broadcastInDim ColS ![] b0 (constantI ScS 32 k))) (broadcastInDim ColS ![] b0 (constantI ScS 32 bound)) (ix2 (0 : Fin 1) w)
      = IntOp.cmpi p (IntOp.addi x k) bound := by
  subst hI; rfl

/-- A row of 1024 pixels, and nine of them stacked. -/
abbrev PixS : Shape := ⟨2, ![1, 1024]⟩
abbrev NineS : Shape := ⟨2, ![9, 1024]⟩

/-- Which of nine rows. -/
def pick9 {α : Type} (P0 P1 P2 P3 P4 P5 P6 P7 P8 : α) (t : Fin 9) : α :=
  match t with
  | 0 => P0 | 1 => P1 | 2 => P2 | 3 => P3 | 4 => P4 | 5 => P5 | 6 => P6 | 7 => P7 | 8 => P8

set_option maxHeartbeats 4000000 in
/-- Nine one-row arrays stacked along the first axis, read at row t, pixel l: row t's array at pixel l. -/
theorem concat9_apply {α : Type} (P0 P1 P2 P3 P4 P5 P6 P7 P8 : PixS.Idx → α)
    (hc : Shape.Concatenates (([⟨PixS, P0⟩, ⟨PixS, P1⟩, ⟨PixS, P2⟩, ⟨PixS, P3⟩, ⟨PixS, P4⟩, ⟨PixS, P5⟩, ⟨PixS, P6⟩, ⟨PixS, P7⟩, ⟨PixS, P8⟩] : List ((s : Shape) × (s.Idx → α))).map (·.1)) NineS (0 : Fin 2))
    (t : Fin 9) (l : Fin 1024) :
    concatenate NineS (0 : Fin 2) [⟨PixS, P0⟩, ⟨PixS, P1⟩, ⟨PixS, P2⟩, ⟨PixS, P3⟩, ⟨PixS, P4⟩, ⟨PixS, P5⟩, ⟨PixS, P6⟩, ⟨PixS, P7⟩, ⟨PixS, P8⟩] hc (ix2 t l)
      = pick9 P0 P1 P2 P3 P4 P5 P6 P7 P8 t (ix2 (0 : Fin 1) l) := by
  fin_cases t
  · exact concatenate_apply_piece (0 : Fin 2) _ hc (ix2 (0 : Fin 9) l) 0 (by simp) PixS P0 rfl rfl 0 rfl (ix2 (0 : Fin 1) l)
      (fun b hb => by match b with | ⟨0, _⟩ => exact absurd rfl hb | ⟨1, _⟩ => rfl) rfl
  · exact concatenate_apply_piece (0 : Fin 2) _ hc (ix2 (1 : Fin 9) l) 1 (by simp) PixS P1 rfl rfl 1 rfl (ix2 (0 : Fin 1) l)
      (fun b hb => by match b with | ⟨0, _⟩ => exact absurd rfl hb | ⟨1, _⟩ => rfl) rfl
  · exact concatenate_apply_piece (0 : Fin 2) _ hc (ix2 (2 : Fin 9) l) 2 (by simp) PixS P2 rfl rfl 2 rfl (ix2 (0 : Fin 1) l)
      (fun b hb => by match b with | ⟨0, _⟩ => exact absurd rfl hb | ⟨1, _⟩ => rfl) rfl
  · exact concatenate_apply_piece (0 : Fin 2) _ hc (ix2 (3 : Fin 9) l) 3 (by simp) PixS P3 rfl rfl 3 rfl (ix2 (0 : Fin 1) l)
      (fun b hb => by match b with | ⟨0, _⟩ => exact absurd rfl hb | ⟨1, _⟩ => rfl) rfl
  · exact concatenate_apply_piece (0 : Fin 2) _ hc (ix2 (4 : Fin 9) l) 4 (by simp) PixS P4 rfl rfl 4 rfl (ix2 (0 : Fin 1) l)
      (fun b hb => by match b with | ⟨0, _⟩ => exact absurd rfl hb | ⟨1, _⟩ => rfl) rfl
  · exact concatenate_apply_piece (0 : Fin 2) _ hc (ix2 (5 : Fin 9) l) 5 (by simp) PixS P5 rfl rfl 5 rfl (ix2 (0 : Fin 1) l)
      (fun b hb => by match b with | ⟨0, _⟩ => exact absurd rfl hb | ⟨1, _⟩ => rfl) rfl
  · exact concatenate_apply_piece (0 : Fin 2) _ hc (ix2 (6 : Fin 9) l) 6 (by simp) PixS P6 rfl rfl 6 rfl (ix2 (0 : Fin 1) l)
      (fun b hb => by match b with | ⟨0, _⟩ => exact absurd rfl hb | ⟨1, _⟩ => rfl) rfl
  · exact concatenate_apply_piece (0 : Fin 2) _ hc (ix2 (7 : Fin 9) l) 7 (by simp) PixS P7 rfl rfl 7 rfl (ix2 (0 : Fin 1) l)
      (fun b hb => by match b with | ⟨0, _⟩ => exact absurd rfl hb | ⟨1, _⟩ => rfl) rfl
  · exact concatenate_apply_piece (0 : Fin 2) _ hc (ix2 (8 : Fin 9) l) 8 (by simp) PixS P8 rfl rfl 8 rfl (ix2 (0 : Fin 1) l)
      (fun b hb => by match b with | ⟨0, _⟩ => exact absurd rfl hb | ⟨1, _⟩ => rfl) rfl

/-- A tap's mask as the program builds it — the row condition, the two column conditions, broadcast over the image,
    combined, and the image flattened to a row of 1024 pixels — read at pixel l: the validity bit of row l / 32,
    column l % 32. `I1`, `I2` are the arrays of row and column numbers. -/
theorem maskPiece_apply (kh kw : BitVec 32) (I1 : RowS.Idx → BitVec 32) (I2 : ColS.Idx → BitVec 32)
    (hI1 : ∀ h : Fin 32, I1 (ix2 h (0 : Fin 1)) = BitVec.ofNat 32 h.val) (hI2 : ∀ w : Fin 32, I2 (ix2 (0 : Fin 1) w) = BitVec.ofNat 32 w.val)
    (b0 : ScS.BroadcastsInDim RowS ![]) (b0' : ScS.BroadcastsInDim ColS ![])
    (b1 : RowS.BroadcastsInDim ImgS ![0, 1]) (b2 : ColS.BroadcastsInDim ImgS ![0, 1]) (hs : ImgS.ShapeCasts PixS) (l : Fin 1024) :
    shapeCast PixS
        (andi
          (andi
            (broadcastInDim ImgS ![0, 1] b1
              (andi (cmpi .sge (addi I1 (broadcastInDim RowS ![] b0 (constantI ScS 32 kh))) (broadcastInDim RowS ![] b0 (constantI ScS 32 0#32)))
                (cmpi .slt (addi I1 (broadcastInDim RowS ![] b0 (constantI ScS 32 kh))) (broadcastInDim RowS ![] b0 (constantI ScS 32 32#32)))))
            (broadcastInDim ImgS ![0, 1] b2
              (cmpi .sge (addi I2 (broadcastInDim ColS ![] b0' (constantI ScS 32 kw))) (broadcastInDim ColS ![] b0' (constantI ScS 32 0#32)))))
          (broadcastInDim ImgS ![0, 1] b2
            (cmpi .slt (addi I2 (broadcastInDim ColS ![] b0' (constantI ScS 32 kw))) (broadcastInDim ColS ![] b0' (constantI ScS 32 32#32)))))
        hs (ix2 (0 : Fin 1) l)
      = maskBits kh kw ⟨l.val / 32, by have := l.isLt; omega⟩ ⟨l.val % 32, Nat.mod_lt _ (by norm_num)⟩ := by
  refine (shapeCast_apply _ hs (ix2 (0 : Fin 1) l)
    (ix2 (⟨l.val / 32, by have := l.isLt; omega⟩ : Fin 32) (⟨l.val % 32, Nat.mod_lt _ (by norm_num)⟩ : Fin 32)) (by
      rw [Shape.rowMajor_val_two, Shape.rowMajor_val_two]
      show l.val / 32 * 32 + l.val % 32 = 0 * 1024 + l.val
      omega)).trans ?_
  refine (and3_bcast_apply _ _ _ b1 b2 _ _).trans ?_
  unfold maskBits
  exact congrArg₂ IntOp.andi
    (congrArg₂ IntOp.andi (rowCond_apply I1 b0 kh _ _ (hI1 _)) (colCond_apply .sge 0#32 I2 b0' kw _ _ (hI2 _)))
    (colCond_apply .slt 32#32 I2 b0' kw _ _ (hI2 _))

/-- A one-bit word as an extended real: 1 or 0. -/
theorem uitofp_ite (P : Prop) [Decidable P] :
    (FloatOps.uitofp (F := Ideal) .f32 (if P then 1#1 else 0#1 : BitVec 1) : EReal) = if P then 1 else 0 := by
  by_cases h : P
  · rw [if_pos h, if_pos h]; show (((1#1 : BitVec 1).toNat : ℝ) : EReal) = 1; norm_num
  · rw [if_neg h, if_neg h]; show (((0#1 : BitVec 1).toNat : ℝ) : EReal) = 0; norm_num

end Cert.MaskBits

end
-- ==== Proof.RefHostMask.lean ====
/-
  What the reference's host stretch hands its convolution grid, the nine tap masks. The host computes, for each tap,
  from the row numbers and the column numbers of the 32×32 image, whether the tap's source pixel lies inside the
  image (a bitwise and of four signed comparisons), flattens the image to 1024 pixels, stacks the nine rows and
  converts the bits to floats. Entry (t, l) is therefore 1 when pixel l shifted by tap t stays inside the image and
  0 otherwise.
-/
import proofs.«162342_g2000606144476369_pallasbulk_1044_23_alg».proof.Proof.RefFrame
import proofs.«162342_g2000606144476369_pallasbulk_1044_23_alg».proof.Proof.Spec
import proofs.«162342_g2000606144476369_pallasbulk_1044_23_alg».proof.Proof.MaskBits
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.ReferenceIdeal.Hand

open Cert.ReferenceIdeal Cert.ReferenceIdeal.Gen Cert.ReferenceIdeal.Facts₀ Cert.ReferenceIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

open Cert.MaskBits

/-- The row numbers as the host lays them out: entry (h, 0) of the column is h. -/
theorem rowNumbers_apply : ∀ h : Fin 32, (fun i => shapeCast main_v7.ty.shape (iotaInDim S32 32 0) Gen.shapeCasts_S32_S32x1 i) (ix2 h (0 : Fin 1))
    = BitVec.ofNat 32 h.val := fun h =>
  shapeCast_apply _ Gen.shapeCasts_S32_S32x1 (ix2 h (0 : Fin 1)) (ix1 h) (by
    show ((⟨1, ![32]⟩ : Shape).rowMajor _).val = ((⟨2, ![32, 1]⟩ : Shape).rowMajor _).val
    rw [Shape.rowMajor_val_one, Shape.rowMajor_val_two]
    show h.val = h.val * 1 + 0
    omega)

/-- The column numbers: entry (0, w) of the row is w. -/
theorem colNumbers_apply : ∀ w : Fin 32, (fun i => shapeCast main_v9.ty.shape (iotaInDim S32 32 0) Gen.shapeCasts_S32_S1x32 i) (ix2 (0 : Fin 1) w)
    = BitVec.ofNat 32 w.val := fun w =>
  shapeCast_apply _ Gen.shapeCasts_S32_S1x32 (ix2 (0 : Fin 1) w) (ix1 w) (by
    show ((⟨1, ![32]⟩ : Shape).rowMajor _).val = ((⟨2, ![1, 32]⟩ : Shape).rowMajor _).val
    rw [Shape.rowMajor_val_one, Shape.rowMajor_val_two]
    show w.val = 0 * 32 + w.val
    omega)

set_option maxHeartbeats 16000000 in
/-- Tap 0 (window row 0, column 0). -/
theorem entry_mask_0 (c : Dev nD) (l : Fin 1024) :
    (V1 (F := Ideal) m ρ c main_v218 : S9x1024.Idx → EReal) (ix2 (0 : Fin 9) l) = Spec.refMask 0 l := by
  suffices hs : ∀ g : (S9x1024.Idx → EReal) → (S9x1024.Idx → EReal), (∀ x, g x = x) →
      (V1 (F := Ideal) m ρ c main_v218 : S9x1024.Idx → EReal) (ix2 (0 : Fin 9) l) = Spec.refMask 0 l from hs id (fun _ => rfl)
  intro g hg
  refine Eq.trans (congrFun (Eq.trans (?e : (V1 (F := Ideal) m ρ c main_v218 : S9x1024.Idx → EReal) = g ?T) (hg ?T)) (ix2 (0 : Fin 9) l)) ?fin
  case e =>
    show StableHlo.after hostOps0 (W0 m ρ c) (Proc.devRef .tc main_v218) = _
    after_results
    exact (hg _).symm
  case fin =>
    beta_reduce
    generalize hFp : (StableHlo.reshape main_v215 main_v216 _ _ _ _).result _ = Fp
    show FloatOps.uitofp (F := Ideal) .f32 (concatenate S9x1024 (0 : Fin 2) _ _ (ix2 (0 : Fin 9) l)) = _
    refine (congrArg (FloatOps.uitofp (F := Ideal) .f32) (concat9_apply _ _ _ _ _ _ _ _ _ _ (0 : Fin 9) l)).trans ?_
    show FloatOps.uitofp (F := Ideal) .f32 ((Fp (Proc.devRef .tc main_v32) : S1x1024.Idx → BitVec 1) (ix2 (0 : Fin 1) l)) = _
    have hp : (Fp (Proc.devRef .tc main_v32) : S1x1024.Idx → BitVec 1) (ix2 (0 : Fin 1) l)
        = maskBits 4294967294#32 4294967294#32 (⟨l.val / 32, by have := l.isLt; omega⟩ : Fin 32) (⟨l.val % 32, Nat.mod_lt _ (by norm_num)⟩ : Fin 32) := by
      suffices hs2 : ∀ g2 : (S1x1024.Idx → BitVec 1) → (S1x1024.Idx → BitVec 1), (∀ x, g2 x = x) →
          (Fp (Proc.devRef .tc main_v32) : S1x1024.Idx → BitVec 1) (ix2 (0 : Fin 1) l)
            = maskBits 4294967294#32 4294967294#32 (⟨l.val / 32, by have := l.isLt; omega⟩ : Fin 32) (⟨l.val % 32, Nat.mod_lt _ (by norm_num)⟩ : Fin 32) from hs2 id (fun _ => rfl)
      intro g2 hg2
      refine Eq.trans (congrFun (Eq.trans (?e2 : (Fp (Proc.devRef .tc main_v32) : S1x1024.Idx → BitVec 1) = g2 ?T2) (hg2 ?T2)) (ix2 (0 : Fin 1) l)) ?fin2
      case e2 =>
        rw [← hFp]
        after_results_simp
        exact (hg2 _).symm
      case fin2 =>
        exact maskPiece_apply _ _ _ _ (rowNumbers_apply) (colNumbers_apply) _ _ _ _ _ l
    rw [hp]
    have hb := maskBits_eq (0 : Fin 3) (0 : Fin 3) (⟨l.val / 32, by have := l.isLt; omega⟩ : Fin 32) (⟨l.val % 32, Nat.mod_lt _ (by norm_num)⟩ : Fin 32)
    rw [show maskBits 4294967294#32 4294967294#32 (⟨l.val / 32, by have := l.isLt; omega⟩ : Fin 32) (⟨l.val % 32, Nat.mod_lt _ (by norm_num)⟩ : Fin 32) = _ from hb]
    exact uitofp_ite _

set_option maxHeartbeats 16000000 in
/-- Tap 1 (window row 0, column 1). -/
theorem entry_mask_1 (c : Dev nD) (l : Fin 1024) :
    (V1 (F := Ideal) m ρ c main_v218 : S9x1024.Idx → EReal) (ix2 (1 : Fin 9) l) = Spec.refMask 1 l := by
  suffices hs : ∀ g : (S9x1024.Idx → EReal) → (S9x1024.Idx → EReal), (∀ x, g x = x) →
      (V1 (F := Ideal) m ρ c main_v218 : S9x1024.Idx → EReal) (ix2 (1 : Fin 9) l) = Spec.refMask 1 l from hs id (fun _ => rfl)
  intro g hg
  refine Eq.trans (congrFun (Eq.trans (?e : (V1 (F := Ideal) m ρ c main_v218 : S9x1024.Idx → EReal) = g ?T) (hg ?T)) (ix2 (1 : Fin 9) l)) ?fin
  case e =>
    show StableHlo.after hostOps0 (W0 m ρ c) (Proc.devRef .tc main_v218) = _
    after_results
    exact (hg _).symm
  case fin =>
    beta_reduce
    generalize hFp : (StableHlo.reshape main_v215 main_v216 _ _ _ _).result _ = Fp
    show FloatOps.uitofp (F := Ideal) .f32 (concatenate S9x1024 (0 : Fin 2) _ _ (ix2 (1 : Fin 9) l)) = _
    refine (congrArg (FloatOps.uitofp (F := Ideal) .f32) (concat9_apply _ _ _ _ _ _ _ _ _ _ (1 : Fin 9) l)).trans ?_
    show FloatOps.uitofp (F := Ideal) .f32 ((Fp (Proc.devRef .tc main_v55) : S1x1024.Idx → BitVec 1) (ix2 (0 : Fin 1) l)) = _
    have hp : (Fp (Proc.devRef .tc main_v55) : S1x1024.Idx → BitVec 1) (ix2 (0 : Fin 1) l)
        = maskBits 4294967294#32 0#32 (⟨l.val / 32, by have := l.isLt; omega⟩ : Fin 32) (⟨l.val % 32, Nat.mod_lt _ (by norm_num)⟩ : Fin 32) := by
      suffices hs2 : ∀ g2 : (S1x1024.Idx → BitVec 1) → (S1x1024.Idx → BitVec 1), (∀ x, g2 x = x) →
          (Fp (Proc.devRef .tc main_v55) : S1x1024.Idx → BitVec 1) (ix2 (0 : Fin 1) l)
            = maskBits 4294967294#32 0#32 (⟨l.val / 32, by have := l.isLt; omega⟩ : Fin 32) (⟨l.val % 32, Nat.mod_lt _ (by norm_num)⟩ : Fin 32) from hs2 id (fun _ => rfl)
      intro g2 hg2
      refine Eq.trans (congrFun (Eq.trans (?e2 : (Fp (Proc.devRef .tc main_v55) : S1x1024.Idx → BitVec 1) = g2 ?T2) (hg2 ?T2)) (ix2 (0 : Fin 1) l)) ?fin2
      case e2 =>
        rw [← hFp]
        after_results_simp
        exact (hg2 _).symm
      case fin2 =>
        exact maskPiece_apply _ _ _ _ (rowNumbers_apply) (colNumbers_apply) _ _ _ _ _ l
    rw [hp]
    have hb := maskBits_eq (0 : Fin 3) (1 : Fin 3) (⟨l.val / 32, by have := l.isLt; omega⟩ : Fin 32) (⟨l.val % 32, Nat.mod_lt _ (by norm_num)⟩ : Fin 32)
    rw [show maskBits 4294967294#32 0#32 (⟨l.val / 32, by have := l.isLt; omega⟩ : Fin 32) (⟨l.val % 32, Nat.mod_lt _ (by norm_num)⟩ : Fin 32) = _ from hb]
    exact uitofp_ite _

set_option maxHeartbeats 16000000 in
/-- Tap 2 (window row 0, column 2). -/
theorem entry_mask_2 (c : Dev nD) (l : Fin 1024) :
    (V1 (F := Ideal) m ρ c main_v218 : S9x1024.Idx → EReal) (ix2 (2 : Fin 9) l) = Spec.refMask 2 l := by
  suffices hs : ∀ g : (S9x1024.Idx → EReal) → (S9x1024.Idx → EReal), (∀ x, g x = x) →
      (V1 (F := Ideal) m ρ c main_v218 : S9x1024.Idx → EReal) (ix2 (2 : Fin 9) l) = Spec.refMask 2 l from hs id (fun _ => rfl)
  intro g hg
  refine Eq.trans (congrFun (Eq.trans (?e : (V1 (F := Ideal) m ρ c main_v218 : S9x1024.Idx → EReal) = g ?T) (hg ?T)) (ix2 (2 : Fin 9) l)) ?fin
  case e =>
    show StableHlo.after hostOps0 (W0 m ρ c) (Proc.devRef .tc main_v218) = _
    after_results
    exact (hg _).symm
  case fin =>
    beta_reduce
    generalize hFp : (StableHlo.reshape main_v215 main_v216 _ _ _ _).result _ = Fp
    show FloatOps.uitofp (F := Ideal) .f32 (concatenate S9x1024 (0 : Fin 2) _ _ (ix2 (2 : Fin 9) l)) = _
    refine (congrArg (FloatOps.uitofp (F := Ideal) .f32) (concat9_apply _ _ _ _ _ _ _ _ _ _ (2 : Fin 9) l)).trans ?_
    show FloatOps.uitofp (F := Ideal) .f32 ((Fp (Proc.devRef .tc main_v78) : S1x1024.Idx → BitVec 1) (ix2 (0 : Fin 1) l)) = _
    have hp : (Fp (Proc.devRef .tc main_v78) : S1x1024.Idx → BitVec 1) (ix2 (0 : Fin 1) l)
        = maskBits 4294967294#32 2#32 (⟨l.val / 32, by have := l.isLt; omega⟩ : Fin 32) (⟨l.val % 32, Nat.mod_lt _ (by norm_num)⟩ : Fin 32) := by
      suffices hs2 : ∀ g2 : (S1x1024.Idx → BitVec 1) → (S1x1024.Idx → BitVec 1), (∀ x, g2 x = x) →
          (Fp (Proc.devRef .tc main_v78) : S1x1024.Idx → BitVec 1) (ix2 (0 : Fin 1) l)
            = maskBits 4294967294#32 2#32 (⟨l.val / 32, by have := l.isLt; omega⟩ : Fin 32) (⟨l.val % 32, Nat.mod_lt _ (by norm_num)⟩ : Fin 32) from hs2 id (fun _ => rfl)
      intro g2 hg2
      refine Eq.trans (congrFun (Eq.trans (?e2 : (Fp (Proc.devRef .tc main_v78) : S1x1024.Idx → BitVec 1) = g2 ?T2) (hg2 ?T2)) (ix2 (0 : Fin 1) l)) ?fin2
      case e2 =>
        rw [← hFp]
        after_results_simp
        exact (hg2 _).symm
      case fin2 =>
        exact maskPiece_apply _ _ _ _ (rowNumbers_apply) (colNumbers_apply) _ _ _ _ _ l
    rw [hp]
    have hb := maskBits_eq (0 : Fin 3) (2 : Fin 3) (⟨l.val / 32, by have := l.isLt; omega⟩ : Fin 32) (⟨l.val % 32, Nat.mod_lt _ (by norm_num)⟩ : Fin 32)
    rw [show maskBits 4294967294#32 2#32 (⟨l.val / 32, by have := l.isLt; omega⟩ : Fin 32) (⟨l.val % 32, Nat.mod_lt _ (by norm_num)⟩ : Fin 32) = _ from hb]
    exact uitofp_ite _

set_option maxHeartbeats 16000000 in
/-- Tap 3 (window row 1, column 0). -/
theorem entry_mask_3 (c : Dev nD) (l : Fin 1024) :
    (V1 (F := Ideal) m ρ c main_v218 : S9x1024.Idx → EReal) (ix2 (3 : Fin 9) l) = Spec.refMask 3 l := by
  suffices hs : ∀ g : (S9x1024.Idx → EReal) → (S9x1024.Idx → EReal), (∀ x, g x = x) →
      (V1 (F := Ideal) m ρ c main_v218 : S9x1024.Idx → EReal) (ix2 (3 : Fin 9) l) = Spec.refMask 3 l from hs id (fun _ => rfl)
  intro g hg
  refine Eq.trans (congrFun (Eq.trans (?e : (V1 (F := Ideal) m ρ c main_v218 : S9x1024.Idx → EReal) = g ?T) (hg ?T)) (ix2 (3 : Fin 9) l)) ?fin
  case e =>
    show StableHlo.after hostOps0 (W0 m ρ c) (Proc.devRef .tc main_v218) = _
    after_results
    exact (hg _).symm
  case fin =>
    beta_reduce
    generalize hFp : (StableHlo.reshape main_v215 main_v216 _ _ _ _).result _ = Fp
    show FloatOps.uitofp (F := Ideal) .f32 (concatenate S9x1024 (0 : Fin 2) _ _ (ix2 (3 : Fin 9) l)) = _
    refine (congrArg (FloatOps.uitofp (F := Ideal) .f32) (concat9_apply _ _ _ _ _ _ _ _ _ _ (3 : Fin 9) l)).trans ?_
    show FloatOps.uitofp (F := Ideal) .f32 ((Fp (Proc.devRef .tc main_v101) : S1x1024.Idx → BitVec 1) (ix2 (0 : Fin 1) l)) = _
    have hp : (Fp (Proc.devRef .tc main_v101) : S1x1024.Idx → BitVec 1) (ix2 (0 : Fin 1) l)
        = maskBits 0#32 4294967294#32 (⟨l.val / 32, by have := l.isLt; omega⟩ : Fin 32) (⟨l.val % 32, Nat.mod_lt _ (by norm_num)⟩ : Fin 32) := by
      suffices hs2 : ∀ g2 : (S1x1024.Idx → BitVec 1) → (S1x1024.Idx → BitVec 1), (∀ x, g2 x = x) →
          (Fp (Proc.devRef .tc main_v101) : S1x1024.Idx → BitVec 1) (ix2 (0 : Fin 1) l)
            = maskBits 0#32 4294967294#32 (⟨l.val / 32, by have := l.isLt; omega⟩ : Fin 32) (⟨l.val % 32, Nat.mod_lt _ (by norm_num)⟩ : Fin 32) from hs2 id (fun _ => rfl)
      intro g2 hg2
      refine Eq.trans (congrFun (Eq.trans (?e2 : (Fp (Proc.devRef .tc main_v101) : S1x1024.Idx → BitVec 1) = g2 ?T2) (hg2 ?T2)) (ix2 (0 : Fin 1) l)) ?fin2
      case e2 =>
        rw [← hFp]
        after_results_simp
        exact (hg2 _).symm
      case fin2 =>
        exact maskPiece_apply _ _ _ _ (rowNumbers_apply) (colNumbers_apply) _ _ _ _ _ l
    rw [hp]
    have hb := maskBits_eq (1 : Fin 3) (0 : Fin 3) (⟨l.val / 32, by have := l.isLt; omega⟩ : Fin 32) (⟨l.val % 32, Nat.mod_lt _ (by norm_num)⟩ : Fin 32)
    rw [show maskBits 0#32 4294967294#32 (⟨l.val / 32, by have := l.isLt; omega⟩ : Fin 32) (⟨l.val % 32, Nat.mod_lt _ (by norm_num)⟩ : Fin 32) = _ from hb]
    exact uitofp_ite _

set_option maxHeartbeats 16000000 in
/-- Tap 4 (window row 1, column 1). -/
theorem entry_mask_4 (c : Dev nD) (l : Fin 1024) :
    (V1 (F := Ideal) m ρ c main_v218 : S9x1024.Idx → EReal) (ix2 (4 : Fin 9) l) = Spec.refMask 4 l := by
  suffices hs : ∀ g : (S9x1024.Idx → EReal) → (S9x1024.Idx → EReal), (∀ x, g x = x) →
      (V1 (F := Ideal) m ρ c main_v218 : S9x1024.Idx → EReal) (ix2 (4 : Fin 9) l) = Spec.refMask 4 l from hs id (fun _ => rfl)
  intro g hg
  refine Eq.trans (congrFun (Eq.trans (?e : (V1 (F := Ideal) m ρ c main_v218 : S9x1024.Idx → EReal) = g ?T) (hg ?T)) (ix2 (4 : Fin 9) l)) ?fin
  case e =>
    show StableHlo.after hostOps0 (W0 m ρ c) (Proc.devRef .tc main_v218) = _
    after_results
    exact (hg _).symm
  case fin =>
    beta_reduce
    generalize hFp : (StableHlo.reshape main_v215 main_v216 _ _ _ _).result _ = Fp
    show FloatOps.uitofp (F := Ideal) .f32 (concatenate S9x1024 (0 : Fin 2) _ _ (ix2 (4 : Fin 9) l)) = _
    refine (congrArg (FloatOps.uitofp (F := Ideal) .f32) (concat9_apply _ _ _ _ _ _ _ _ _ _ (4 : Fin 9) l)).trans ?_
    show FloatOps.uitofp (F := Ideal) .f32 ((Fp (Proc.devRef .tc main_v124) : S1x1024.Idx → BitVec 1) (ix2 (0 : Fin 1) l)) = _
    have hp : (Fp (Proc.devRef .tc main_v124) : S1x1024.Idx → BitVec 1) (ix2 (0 : Fin 1) l)
        = maskBits 0#32 0#32 (⟨l.val / 32, by have := l.isLt; omega⟩ : Fin 32) (⟨l.val % 32, Nat.mod_lt _ (by norm_num)⟩ : Fin 32) := by
      suffices hs2 : ∀ g2 : (S1x1024.Idx → BitVec 1) → (S1x1024.Idx → BitVec 1), (∀ x, g2 x = x) →
          (Fp (Proc.devRef .tc main_v124) : S1x1024.Idx → BitVec 1) (ix2 (0 : Fin 1) l)
            = maskBits 0#32 0#32 (⟨l.val / 32, by have := l.isLt; omega⟩ : Fin 32) (⟨l.val % 32, Nat.mod_lt _ (by norm_num)⟩ : Fin 32) from hs2 id (fun _ => rfl)
      intro g2 hg2
      refine Eq.trans (congrFun (Eq.trans (?e2 : (Fp (Proc.devRef .tc main_v124) : S1x1024.Idx → BitVec 1) = g2 ?T2) (hg2 ?T2)) (ix2 (0 : Fin 1) l)) ?fin2
      case e2 =>
        rw [← hFp]
        after_results_simp
        exact (hg2 _).symm
      case fin2 =>
        exact maskPiece_apply _ _ _ _ (rowNumbers_apply) (colNumbers_apply) _ _ _ _ _ l
    rw [hp]
    have hb := maskBits_eq (1 : Fin 3) (1 : Fin 3) (⟨l.val / 32, by have := l.isLt; omega⟩ : Fin 32) (⟨l.val % 32, Nat.mod_lt _ (by norm_num)⟩ : Fin 32)
    rw [show maskBits 0#32 0#32 (⟨l.val / 32, by have := l.isLt; omega⟩ : Fin 32) (⟨l.val % 32, Nat.mod_lt _ (by norm_num)⟩ : Fin 32) = _ from hb]
    exact uitofp_ite _

set_option maxHeartbeats 16000000 in
/-- Tap 5 (window row 1, column 2). -/
theorem entry_mask_5 (c : Dev nD) (l : Fin 1024) :
    (V1 (F := Ideal) m ρ c main_v218 : S9x1024.Idx → EReal) (ix2 (5 : Fin 9) l) = Spec.refMask 5 l := by
  suffices hs : ∀ g : (S9x1024.Idx → EReal) → (S9x1024.Idx → EReal), (∀ x, g x = x) →
      (V1 (F := Ideal) m ρ c main_v218 : S9x1024.Idx → EReal) (ix2 (5 : Fin 9) l) = Spec.refMask 5 l from hs id (fun _ => rfl)
  intro g hg
  refine Eq.trans (congrFun (Eq.trans (?e : (V1 (F := Ideal) m ρ c main_v218 : S9x1024.Idx → EReal) = g ?T) (hg ?T)) (ix2 (5 : Fin 9) l)) ?fin
  case e =>
    show StableHlo.after hostOps0 (W0 m ρ c) (Proc.devRef .tc main_v218) = _
    after_results
    exact (hg _).symm
  case fin =>
    beta_reduce
    generalize hFp : (StableHlo.reshape main_v215 main_v216 _ _ _ _).result _ = Fp
    show FloatOps.uitofp (F := Ideal) .f32 (concatenate S9x1024 (0 : Fin 2) _ _ (ix2 (5 : Fin 9) l)) = _
    refine (congrArg (FloatOps.uitofp (F := Ideal) .f32) (concat9_apply _ _ _ _ _ _ _ _ _ _ (5 : Fin 9) l)).trans ?_
    show FloatOps.uitofp (F := Ideal) .f32 ((Fp (Proc.devRef .tc main_v147) : S1x1024.Idx → BitVec 1) (ix2 (0 : Fin 1) l)) = _
    have hp : (Fp (Proc.devRef .tc main_v147) : S1x1024.Idx → BitVec 1) (ix2 (0 : Fin 1) l)
        = maskBits 0#32 2#32 (⟨l.val / 32, by have := l.isLt; omega⟩ : Fin 32) (⟨l.val % 32, Nat.mod_lt _ (by norm_num)⟩ : Fin 32) := by
      suffices hs2 : ∀ g2 : (S1x1024.Idx → BitVec 1) → (S1x1024.Idx → BitVec 1), (∀ x, g2 x = x) →
          (Fp (Proc.devRef .tc main_v147) : S1x1024.Idx → BitVec 1) (ix2 (0 : Fin 1) l)
            = maskBits 0#32 2#32 (⟨l.val / 32, by have := l.isLt; omega⟩ : Fin 32) (⟨l.val % 32, Nat.mod_lt _ (by norm_num)⟩ : Fin 32) from hs2 id (fun _ => rfl)
      intro g2 hg2
      refine Eq.trans (congrFun (Eq.trans (?e2 : (Fp (Proc.devRef .tc main_v147) : S1x1024.Idx → BitVec 1) = g2 ?T2) (hg2 ?T2)) (ix2 (0 : Fin 1) l)) ?fin2
      case e2 =>
        rw [← hFp]
        after_results_simp
        exact (hg2 _).symm
      case fin2 =>
        exact maskPiece_apply _ _ _ _ (rowNumbers_apply) (colNumbers_apply) _ _ _ _ _ l
    rw [hp]
    have hb := maskBits_eq (1 : Fin 3) (2 : Fin 3) (⟨l.val / 32, by have := l.isLt; omega⟩ : Fin 32) (⟨l.val % 32, Nat.mod_lt _ (by norm_num)⟩ : Fin 32)
    rw [show maskBits 0#32 2#32 (⟨l.val / 32, by have := l.isLt; omega⟩ : Fin 32) (⟨l.val % 32, Nat.mod_lt _ (by norm_num)⟩ : Fin 32) = _ from hb]
    exact uitofp_ite _

set_option maxHeartbeats 16000000 in
/-- Tap 6 (window row 2, column 0). -/
theorem entry_mask_6 (c : Dev nD) (l : Fin 1024) :
    (V1 (F := Ideal) m ρ c main_v218 : S9x1024.Idx → EReal) (ix2 (6 : Fin 9) l) = Spec.refMask 6 l := by
  suffices hs : ∀ g : (S9x1024.Idx → EReal) → (S9x1024.Idx → EReal), (∀ x, g x = x) →
      (V1 (F := Ideal) m ρ c main_v218 : S9x1024.Idx → EReal) (ix2 (6 : Fin 9) l) = Spec.refMask 6 l from hs id (fun _ => rfl)
  intro g hg
  refine Eq.trans (congrFun (Eq.trans (?e : (V1 (F := Ideal) m ρ c main_v218 : S9x1024.Idx → EReal) = g ?T) (hg ?T)) (ix2 (6 : Fin 9) l)) ?fin
  case e =>
    show StableHlo.after hostOps0 (W0 m ρ c) (Proc.devRef .tc main_v218) = _
    after_results
    exact (hg _).symm
  case fin =>
    beta_reduce
    generalize hFp : (StableHlo.reshape main_v215 main_v216 _ _ _ _).result _ = Fp
    show FloatOps.uitofp (F := Ideal) .f32 (concatenate S9x1024 (0 : Fin 2) _ _ (ix2 (6 : Fin 9) l)) = _
    refine (congrArg (FloatOps.uitofp (F := Ideal) .f32) (concat9_apply _ _ _ _ _ _ _ _ _ _ (6 : Fin 9) l)).trans ?_
    show FloatOps.uitofp (F := Ideal) .f32 ((Fp (Proc.devRef .tc main_v170) : S1x1024.Idx → BitVec 1) (ix2 (0 : Fin 1) l)) = _
    have hp : (Fp (Proc.devRef .tc main_v170) : S1x1024.Idx → BitVec 1) (ix2 (0 : Fin 1) l)
        = maskBits 2#32 4294967294#32 (⟨l.val / 32, by have := l.isLt; omega⟩ : Fin 32) (⟨l.val % 32, Nat.mod_lt _ (by norm_num)⟩ : Fin 32) := by
      suffices hs2 : ∀ g2 : (S1x1024.Idx → BitVec 1) → (S1x1024.Idx → BitVec 1), (∀ x, g2 x = x) →
          (Fp (Proc.devRef .tc main_v170) : S1x1024.Idx → BitVec 1) (ix2 (0 : Fin 1) l)
            = maskBits 2#32 4294967294#32 (⟨l.val / 32, by have := l.isLt; omega⟩ : Fin 32) (⟨l.val % 32, Nat.mod_lt _ (by norm_num)⟩ : Fin 32) from hs2 id (fun _ => rfl)
      intro g2 hg2
      refine Eq.trans (congrFun (Eq.trans (?e2 : (Fp (Proc.devRef .tc main_v170) : S1x1024.Idx → BitVec 1) = g2 ?T2) (hg2 ?T2)) (ix2 (0 : Fin 1) l)) ?fin2
      case e2 =>
        rw [← hFp]
        after_results_simp
        exact (hg2 _).symm
      case fin2 =>
        exact maskPiece_apply _ _ _ _ (rowNumbers_apply) (colNumbers_apply) _ _ _ _ _ l
    rw [hp]
    have hb := maskBits_eq (2 : Fin 3) (0 : Fin 3) (⟨l.val / 32, by have := l.isLt; omega⟩ : Fin 32) (⟨l.val % 32, Nat.mod_lt _ (by norm_num)⟩ : Fin 32)
    rw [show maskBits 2#32 4294967294#32 (⟨l.val / 32, by have := l.isLt; omega⟩ : Fin 32) (⟨l.val % 32, Nat.mod_lt _ (by norm_num)⟩ : Fin 32) = _ from hb]
    exact uitofp_ite _

set_option maxHeartbeats 16000000 in
/-- Tap 7 (window row 2, column 1). -/
theorem entry_mask_7 (c : Dev nD) (l : Fin 1024) :
    (V1 (F := Ideal) m ρ c main_v218 : S9x1024.Idx → EReal) (ix2 (7 : Fin 9) l) = Spec.refMask 7 l := by
  suffices hs : ∀ g : (S9x1024.Idx → EReal) → (S9x1024.Idx → EReal), (∀ x, g x = x) →
      (V1 (F := Ideal) m ρ c main_v218 : S9x1024.Idx → EReal) (ix2 (7 : Fin 9) l) = Spec.refMask 7 l from hs id (fun _ => rfl)
  intro g hg
  refine Eq.trans (congrFun (Eq.trans (?e : (V1 (F := Ideal) m ρ c main_v218 : S9x1024.Idx → EReal) = g ?T) (hg ?T)) (ix2 (7 : Fin 9) l)) ?fin
  case e =>
    show StableHlo.after hostOps0 (W0 m ρ c) (Proc.devRef .tc main_v218) = _
    after_results
    exact (hg _).symm
  case fin =>
    beta_reduce
    generalize hFp : (StableHlo.reshape main_v215 main_v216 _ _ _ _).result _ = Fp
    show FloatOps.uitofp (F := Ideal) .f32 (concatenate S9x1024 (0 : Fin 2) _ _ (ix2 (7 : Fin 9) l)) = _
    refine (congrArg (FloatOps.uitofp (F := Ideal) .f32) (concat9_apply _ _ _ _ _ _ _ _ _ _ (7 : Fin 9) l)).trans ?_
    show FloatOps.uitofp (F := Ideal) .f32 ((Fp (Proc.devRef .tc main_v193) : S1x1024.Idx → BitVec 1) (ix2 (0 : Fin 1) l)) = _
    have hp : (Fp (Proc.devRef .tc main_v193) : S1x1024.Idx → BitVec 1) (ix2 (0 : Fin 1) l)
        = maskBits 2#32 0#32 (⟨l.val / 32, by have := l.isLt; omega⟩ : Fin 32) (⟨l.val % 32, Nat.mod_lt _ (by norm_num)⟩ : Fin 32) := by
      suffices hs2 : ∀ g2 : (S1x1024.Idx → BitVec 1) → (S1x1024.Idx → BitVec 1), (∀ x, g2 x = x) →
          (Fp (Proc.devRef .tc main_v193) : S1x1024.Idx → BitVec 1) (ix2 (0 : Fin 1) l)
            = maskBits 2#32 0#32 (⟨l.val / 32, by have := l.isLt; omega⟩ : Fin 32) (⟨l.val % 32, Nat.mod_lt _ (by norm_num)⟩ : Fin 32) from hs2 id (fun _ => rfl)
      intro g2 hg2
      refine Eq.trans (congrFun (Eq.trans (?e2 : (Fp (Proc.devRef .tc main_v193) : S1x1024.Idx → BitVec 1) = g2 ?T2) (hg2 ?T2)) (ix2 (0 : Fin 1) l)) ?fin2
      case e2 =>
        rw [← hFp]
        after_results_simp
        exact (hg2 _).symm
      case fin2 =>
        exact maskPiece_apply _ _ _ _ (rowNumbers_apply) (colNumbers_apply) _ _ _ _ _ l
    rw [hp]
    have hb := maskBits_eq (2 : Fin 3) (1 : Fin 3) (⟨l.val / 32, by have := l.isLt; omega⟩ : Fin 32) (⟨l.val % 32, Nat.mod_lt _ (by norm_num)⟩ : Fin 32)
    rw [show maskBits 2#32 0#32 (⟨l.val / 32, by have := l.isLt; omega⟩ : Fin 32) (⟨l.val % 32, Nat.mod_lt _ (by norm_num)⟩ : Fin 32) = _ from hb]
    exact uitofp_ite _

set_option maxHeartbeats 16000000 in
/-- Tap 8 (window row 2, column 2). -/
theorem entry_mask_8 (c : Dev nD) (l : Fin 1024) :
    (V1 (F := Ideal) m ρ c main_v218 : S9x1024.Idx → EReal) (ix2 (8 : Fin 9) l) = Spec.refMask 8 l := by
  suffices hs : ∀ g : (S9x1024.Idx → EReal) → (S9x1024.Idx → EReal), (∀ x, g x = x) →
      (V1 (F := Ideal) m ρ c main_v218 : S9x1024.Idx → EReal) (ix2 (8 : Fin 9) l) = Spec.refMask 8 l from hs id (fun _ => rfl)
  intro g hg
  refine Eq.trans (congrFun (Eq.trans (?e : (V1 (F := Ideal) m ρ c main_v218 : S9x1024.Idx → EReal) = g ?T) (hg ?T)) (ix2 (8 : Fin 9) l)) ?fin
  case e =>
    show StableHlo.after hostOps0 (W0 m ρ c) (Proc.devRef .tc main_v218) = _
    after_results
    exact (hg _).symm
  case fin =>
    beta_reduce
    generalize hFp : (StableHlo.reshape main_v215 main_v216 _ _ _ _).result _ = Fp
    show FloatOps.uitofp (F := Ideal) .f32 (concatenate S9x1024 (0 : Fin 2) _ _ (ix2 (8 : Fin 9) l)) = _
    refine (congrArg (FloatOps.uitofp (F := Ideal) .f32) (concat9_apply _ _ _ _ _ _ _ _ _ _ (8 : Fin 9) l)).trans ?_
    show FloatOps.uitofp (F := Ideal) .f32 ((Fp (Proc.devRef .tc main_v216) : S1x1024.Idx → BitVec 1) (ix2 (0 : Fin 1) l)) = _
    have hp : (Fp (Proc.devRef .tc main_v216) : S1x1024.Idx → BitVec 1) (ix2 (0 : Fin 1) l)
        = maskBits 2#32 2#32 (⟨l.val / 32, by have := l.isLt; omega⟩ : Fin 32) (⟨l.val % 32, Nat.mod_lt _ (by norm_num)⟩ : Fin 32) := by
      suffices hs2 : ∀ g2 : (S1x1024.Idx → BitVec 1) → (S1x1024.Idx → BitVec 1), (∀ x, g2 x = x) →
          (Fp (Proc.devRef .tc main_v216) : S1x1024.Idx → BitVec 1) (ix2 (0 : Fin 1) l)
            = maskBits 2#32 2#32 (⟨l.val / 32, by have := l.isLt; omega⟩ : Fin 32) (⟨l.val % 32, Nat.mod_lt _ (by norm_num)⟩ : Fin 32) from hs2 id (fun _ => rfl)
      intro g2 hg2
      refine Eq.trans (congrFun (Eq.trans (?e2 : (Fp (Proc.devRef .tc main_v216) : S1x1024.Idx → BitVec 1) = g2 ?T2) (hg2 ?T2)) (ix2 (0 : Fin 1) l)) ?fin2
      case e2 =>
        rw [← hFp]
        after_results_simp
        exact (hg2 _).symm
      case fin2 =>
        exact maskPiece_apply _ _ _ _ (rowNumbers_apply) (colNumbers_apply) _ _ _ _ _ l
    rw [hp]
    have hb := maskBits_eq (2 : Fin 3) (2 : Fin 3) (⟨l.val / 32, by have := l.isLt; omega⟩ : Fin 32) (⟨l.val % 32, Nat.mod_lt _ (by norm_num)⟩ : Fin 32)
    rw [show maskBits 2#32 2#32 (⟨l.val / 32, by have := l.isLt; omega⟩ : Fin 32) (⟨l.val % 32, Nat.mod_lt _ (by norm_num)⟩ : Fin 32) = _ from hb]
    exact uitofp_ite _

/-- The tap masks, entry by entry. -/
theorem entry_mask (c : Dev nD) (t : Fin 9) (l : Fin 1024) :
    (V1 (F := Ideal) m ρ c main_v218 : S9x1024.Idx → EReal) (ix2 t l) = Spec.refMask t l := by
  fin_cases t
  · exact entry_mask_0 m ρ c l
  · exact entry_mask_1 m ρ c l
  · exact entry_mask_2 m ρ c l
  · exact entry_mask_3 m ρ c l
  · exact entry_mask_4 m ρ c l
  · exact entry_mask_5 m ρ c l
  · exact entry_mask_6 m ρ c l
  · exact entry_mask_7 m ρ c l
  · exact entry_mask_8 m ρ c l

end Cert.ReferenceIdeal.Hand

end
-- ==== Proof.Consts.lean ====
/-
  The float constants the two programs spell, as the extended reals their words denote: θ = 0.7 and 1 − θ = 0.3 as
  f32 round them, the variance's ε, the element count 131072 = 2¹⁷ and its reciprocal 2⁻¹⁷, and 1.
-/
import Idealize.ShloMosaic.PureOps.Ideal

noncomputable section

namespace Cert.Consts

open Idealize.ShloMosaic

theorem ofBits_one : Ideal.ofBits .f32 0x3F800000#32 = 1 := by
  simp [Ideal.ofBits, Ideal.ieee, -EReal.coe_mul]; norm_num

/-- θ: the f32 nearest 0.7. -/
theorem ofBits_theta : Ideal.ofBits .f32 0x3F333333#32 = ((11744051 / 16777216 : ℝ) : EReal) := by
  simp [Ideal.ofBits, Ideal.ieee, -EReal.coe_mul]; norm_num

/-- 1 − θ: the f32 nearest 0.3. -/
theorem ofBits_kappa : Ideal.ofBits .f32 0x3E99999A#32 = ((5033165 / 16777216 : ℝ) : EReal) := by
  simp [Ideal.ofBits, Ideal.ieee, -EReal.coe_mul]; norm_num

/-- ε: the f32 nearest 10⁻⁵, a positive real. -/
theorem ofBits_eps : Ideal.ofBits .f32 0x3727C5AC#32 = ((2748779 / 274877906944 : ℝ) : EReal) := by
  simp [Ideal.ofBits, Ideal.ieee, -EReal.coe_mul]; norm_num

theorem eps_pos : (0 : ℝ) < 2748779 / 274877906944 := by norm_num

/-- The element count. -/
theorem ofBits_n : Ideal.ofBits .f32 0x48000000#32 = ((131072 : ℝ) : EReal) := by
  simp [Ideal.ofBits, Ideal.ieee, -EReal.coe_mul]; norm_num

/-- Its reciprocal, exactly. -/
theorem ofBits_ninv : Ideal.ofBits .f32 0x37000000#32 = (((1 : ℝ) / 131072 : ℝ) : EReal) := by
  simp [Ideal.ofBits, Ideal.ieee, -EReal.coe_mul]; norm_num

end Cert.Consts

end
-- ==== Proof.KerHostA.lean ====
/-
  What the kernel's first host stretch hands its first grid, part one: the activations with the image flattened to
  1024 pixels, and the four border masks, which the program carries as a table of 4096 literal words in row-major
  order: entry 1024 k + l is the word of 1.0 when pixel l passes border test k (column ≥ 2, column < 30, row ≥ 2,
  row < 30) and the zero word otherwise.
-/
import proofs.«162342_g2000606144476369_pallasbulk_1044_23_alg».proof.Proof.KerRun
import proofs.«162342_g2000606144476369_pallasbulk_1044_23_alg».proof.Proof.Spec
import proofs.«162342_g2000606144476369_pallasbulk_1044_23_alg».proof.Proof.Consts
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

set_option maxHeartbeats 4000000 in
/-- The activations, pixel by pixel. -/
theorem kentry_x (c : Dev nD) (b : Fin 128) (ch : Fin 64) (l : Fin 1024) :
    (V1 (F := Ideal) m ρ c main_v12 : S128x64x1024.Idx → EReal) (ix3 b ch l)
      = (show S128x64x32x32.Idx → EReal from m ((c : Thread nD τ).loc main_arg0)) (ix4 b ch ⟨l.val / 32, by have := l.isLt; omega⟩ ⟨l.val % 32, Nat.mod_lt _ (by norm_num)⟩) := by
  have e : ∃ h, (V1 (F := Ideal) m ρ c main_v12 : S128x64x1024.Idx → EReal)
      = shapeCast S128x64x1024 (show S128x64x32x32.Idx → EReal from m ((c : Thread nD τ).loc main_arg0)) h :=
    ⟨_, by show StableHlo.after hostOps0 (W0 m ρ c) (Proc.devRef .tc main_v12) = _; after_results; try rfl⟩
  obtain ⟨h, e⟩ := e
  rw [e]
  refine shapeCast_apply _ _ _ _ ?_
  show ((⟨4, ![128, 64, 32, 32]⟩ : Shape).rowMajor _).val = ((⟨3, ![128, 64, 1024]⟩ : Shape).rowMajor _).val
  rw [Shape.rowMajor_val_four, Shape.rowMajor_val_three]
  show ((b.val * 64 + ch.val) * 32 + l.val / 32) * 32 + l.val % 32 = (b.val * 64 + ch.val) * 1024 + l.val
  have := l.isLt; omega

/-- The mask table, entry by entry, as words. -/
theorem maskTable_eq : ∀ n : Fin 4096, lit1 n
    = if (n.val / 1024 = 0 ∧ 2 ≤ n.val % 1024 % 32) ∨ (n.val / 1024 = 1 ∧ n.val % 1024 % 32 < 30)
        ∨ (n.val / 1024 = 2 ∧ 2 ≤ n.val % 1024 / 32) ∨ (n.val / 1024 = 3 ∧ n.val % 1024 / 32 < 30) then 0x3F800000#32 else 0x00000000#32 := by
  decide +kernel

set_option maxHeartbeats 4000000 in
/-- The four border masks, pixel by pixel. -/
theorem kentry_mask (c : Dev nD) (k : Fin 4) (l : Fin 1024) :
    (V1 (F := Ideal) m ρ c main_cst_0 : S4x1024.Idx → EReal) (ix2 k l) = Spec.kerMask k l := by
  have e : (V1 (F := Ideal) m ρ c main_cst_0 : S4x1024.Idx → EReal)
      = fun i => FloatOps.ofBits (F := Ideal) .f32 (lit1 (S4x1024.rowMajor i)) := by
    show StableHlo.after hostOps0 (W0 m ρ c) (Proc.devRef .tc main_cst_0) = _; after_results; try rfl
  rw [e]
  show Ideal.ofBits .f32 (lit1 (S4x1024.rowMajor (ix2 k l))) = _
  have hn : (S4x1024.rowMajor (ix2 k l)).val = k.val * 1024 + l.val := by
    show ((⟨2, ![4, 1024]⟩ : Shape).rowMajor _).val = _
    rw [Shape.rowMajor_val_two]; rfl
  have hk := k.isLt; have hl := l.isLt
  have h1 : (S4x1024.rowMajor (ix2 k l)).val / 1024 = k.val := by rw [hn]; omega
  have h2 : (S4x1024.rowMajor (ix2 k l)).val % 1024 = l.val := by rw [hn]; omega
  have ht := maskTable_eq (S4x1024.rowMajor (ix2 k l))
  rw [h1, h2] at ht
  refine (congrArg (Ideal.ofBits .f32) ht).trans ?_
  unfold Spec.kerMask
  by_cases hc : (k.val = 0 ∧ 2 ≤ l.val % 32) ∨ (k.val = 1 ∧ l.val % 32 < 30) ∨ (k.val = 2 ∧ 2 ≤ l.val / 32) ∨ (k.val = 3 ∧ l.val / 32 < 30)
  · rw [if_pos hc, if_pos hc, Cert.Consts.ofBits_one]
  · rw [if_neg hc, if_neg hc, Ideal.ofBits_zero_f32]

end Cert.KernelIdeal.Hand

end
-- ==== Proof.KerHostW.lean ====
/-
  What the kernel's first host stretch hands its first grid, part two: the depthwise weights with the central
  difference folded in. Row r of the 1024-row table is channel r % 64 (the 64 channels repeated for the 16 batch
  elements of a grid point); its tap t is the channel's weight less θ·(the channel's nine weights summed) at the
  centre tap only — the program multiplies by a one-hot row of nine literal words.
-/
import proofs.«162342_g2000606144476369_pallasbulk_1044_23_alg».proof.Proof.KerRun
import proofs.«162342_g2000606144476369_pallasbulk_1044_23_alg».proof.Proof.Spec
import proofs.«162342_g2000606144476369_pallasbulk_1044_23_alg».proof.Proof.Consts
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-- The one-hot row, word by word. -/
theorem onehot_eq : ∀ t : Fin 9, lit0 t = if t.val = 4 then 0x3F800000#32 else 0x00000000#32 := by decide

/-- The depthwise weights, tap by tap, as the 3×3 window flattens. -/
def wdArr (c : Dev nD) (ch : Fin 64) (t : Fin 9) : EReal :=
  (show S64x3x3.Idx → EReal from m ((c : Thread nD τ).loc main_arg1)) (ix3 ch ⟨t.val / 3, by have := t.isLt; omega⟩ ⟨t.val % 3, Nat.mod_lt _ (by norm_num)⟩)

set_option maxHeartbeats 8000000 in
/-- The folded weight table, entry by entry. -/
theorem kentry_w (c : Dev nD) (r : Fin 1024) (t : Fin 9) :
    (V1 (F := Ideal) m ρ c main_v11 : S1024x9.Idx → EReal) (ix2 r t) = Spec.kerWeights Spec.consts (wdArr m c) r t := by
  have e : (V1 (F := Ideal) m ρ c main_v11 : S1024x9.Idx → EReal)
      = shapeCast S1024x9 (broadcastInDim S16x64x1x9 (![0, 1, 2, 3] : Fin 4 → Fin 4) Gen.bcast_S1x64x1x9_S16x64x1x9_0_1_2_3 (shapeCast S1x64x1x9
          (subf (shapeCast S64x9 (show S64x3x3.Idx → EReal from m ((c : Thread nD τ).loc main_arg1)) Gen.shapeCasts_S64x3x3_S64x9)
            (mulf (broadcastInDim S64x9 (![0, 1] : Fin 2 → Fin 2) Gen.bcast_S64x1_S64x9_0_1 (mulf (broadcastInDim S64x1 (![] : Fin 0 → Fin 2) Gen.bcast_S_S64x1 (constant (F := Ideal) S_ .f32 0x3F333333#32))
                (broadcastInDim S64x1 (![0] : Fin 1 → Fin 2) Gen.bcast_S64_S64x1_0 (Host.reduceAdd (F := Ideal) (shapeCast S64x9 (show S64x3x3.Idx → EReal from m ((c : Thread nD τ).loc main_arg1)) Gen.shapeCasts_S64x3x3_S64x9) (constant (F := Ideal) S_ .f32 0x00000000#32) Gen.reducesTo_S64x9_S64_d1 Gen.h_S_))))
              (broadcastInDim S64x9 (![0, 1] : Fin 2 → Fin 2) Gen.bcast_S1x9_S64x9_0_1 (fun i : S1x9.Idx => FloatOps.ofBits (F := Ideal) .f32 (lit0 (S1x9.rowMajor i)))))) Gen.shapeCasts_S64x9_S1x64x1x9)) Gen.shapeCasts_S16x64x1x9_S1024x9 :=
    by show StableHlo.after hostOps0 (W0 m ρ c) (Proc.devRef .tc main_v11) = _; after_results; try rfl
  rw [e]
  -- the weights as a [64, 9] array, read at (c', k)
  have hv0 : ∀ (c' : Fin 64) (k : Fin 9), shapeCast S64x9 (show S64x3x3.Idx → EReal from m ((c : Thread nD τ).loc main_arg1)) Gen.shapeCasts_S64x3x3_S64x9 (ix2 c' k) = wdArr m c c' k := fun c' k =>
    shapeCast_apply _ Gen.shapeCasts_S64x3x3_S64x9 (ix2 c' k) (ix3 c' ⟨k.val / 3, by have := k.isLt; omega⟩ ⟨k.val % 3, Nat.mod_lt _ (by norm_num)⟩) (by
      show ((⟨3, ![64, 3, 3]⟩ : Shape).rowMajor _).val = ((⟨2, ![64, 9]⟩ : Shape).rowMajor _).val
      rw [Shape.rowMajor_val_three, Shape.rowMajor_val_two]
      show (c'.val * 3 + k.val / 3) * 3 + k.val % 3 = c'.val * 9 + k.val
      have := k.isLt; omega)
  -- through the outer re-layouts: row r, tap t is channel r % 64, tap t
  refine (shapeCast_apply _ Gen.shapeCasts_S16x64x1x9_S1024x9 (ix2 r t) (ix4 (⟨r.val / 64, by have := r.isLt; omega⟩ : Fin 16) (⟨r.val % 64, Nat.mod_lt _ (by norm_num)⟩ : Fin 64) (0 : Fin 1) t) (by
    show ((⟨4, ![16, 64, 1, 9]⟩ : Shape).rowMajor _).val = ((⟨2, ![1024, 9]⟩ : Shape).rowMajor _).val
    rw [Shape.rowMajor_val_four, Shape.rowMajor_val_two]
    show ((r.val / 64 * 64 + r.val % 64) * 1 + 0) * 9 + t.val = r.val * 9 + t.val
    omega)).trans ?_
  refine (broadcastInDim_apply (![0, 1, 2, 3] : Fin 4 → Fin 4) Gen.bcast_S1x64x1x9_S16x64x1x9_0_1_2_3 _ (ix4 (⟨r.val / 64, by have := r.isLt; omega⟩ : Fin 16) (⟨r.val % 64, Nat.mod_lt _ (by norm_num)⟩ : Fin 64) (0 : Fin 1) t) (ix4 (0 : Fin 1) (⟨r.val % 64, Nat.mod_lt _ (by norm_num)⟩ : Fin 64) (0 : Fin 1) t)
    (fun a => by match a with | ⟨0, _⟩ => rfl | ⟨1, _⟩ => rfl | ⟨2, _⟩ => rfl | ⟨3, _⟩ => rfl)).trans ?_
  refine (shapeCast_apply _ Gen.shapeCasts_S64x9_S1x64x1x9 _ (ix2 (⟨r.val % 64, Nat.mod_lt _ (by norm_num)⟩ : Fin 64) t) (by
    show ((⟨2, ![64, 9]⟩ : Shape).rowMajor _).val = ((⟨4, ![1, 64, 1, 9]⟩ : Shape).rowMajor _).val
    rw [Shape.rowMajor_val_two, Shape.rowMajor_val_four]
    show r.val % 64 * 9 + t.val = ((0 * 64 + r.val % 64) * 1 + 0) * 9 + t.val
    omega)).trans ?_
  -- the difference at (c', t)
  generalize hc' : (⟨r.val % 64, Nat.mod_lt _ (by norm_num)⟩ : Fin 64) = c'
  show shapeCast S64x9 (show S64x3x3.Idx → EReal from m ((c : Thread nD τ).loc main_arg1)) Gen.shapeCasts_S64x3x3_S64x9 (ix2 c' t)
      - (broadcastInDim (s := S64x1) S64x9 ![0, 1] Gen.bcast_S64x1_S64x9_0_1 _ (ix2 c' t)) * (broadcastInDim (s := S1x9) S64x9 ![0, 1] Gen.bcast_S1x9_S64x9_0_1 _ (ix2 c' t)) = _
  rw [hv0,
    broadcastInDim_apply (![0, 1] : Fin 2 → Fin 2) Gen.bcast_S64x1_S64x9_0_1 _ (ix2 c' t) (ix2 c' (0 : Fin 1)) (fun a => by match a with | ⟨0, _⟩ => rfl | ⟨1, _⟩ => rfl),
    broadcastInDim_apply (![0, 1] : Fin 2 → Fin 2) Gen.bcast_S1x9_S64x9_0_1 _ (ix2 c' t) (ix2 (0 : Fin 1) t) (fun a => by match a with | ⟨0, _⟩ => rfl | ⟨1, _⟩ => rfl)]
  -- θ times the row sum
  have hsum : (mulf (broadcastInDim S64x1 (![] : Fin 0 → Fin 2) Gen.bcast_S_S64x1 (constant (F := Ideal) S_ .f32 0x3F333333#32))
        (broadcastInDim S64x1 (![0] : Fin 1 → Fin 2) Gen.bcast_S64_S64x1_0 (Host.reduceAdd (F := Ideal) (shapeCast S64x9 (show S64x3x3.Idx → EReal from m ((c : Thread nD τ).loc main_arg1)) Gen.shapeCasts_S64x3x3_S64x9) (constant (F := Ideal) S_ .f32 0x00000000#32) Gen.reducesTo_S64x9_S64_d1 Gen.h_S_)))
        (ix2 c' (0 : Fin 1))
      = Ideal.ofBits .f32 0x3F333333#32 * ∑ k : Fin 9, wdArr m c c' k := by
    show Ideal.ofBits .f32 0x3F333333#32 * broadcastInDim (s := S64) S64x1 ![0] Gen.bcast_S64_S64x1_0 _ (ix2 c' (0 : Fin 1)) = _
    congr 1
    refine (broadcastInDim_apply (![0] : Fin 1 → Fin 2) Gen.bcast_S64_S64x1_0 _ (ix2 c' (0 : Fin 1)) (ix1 c') (fun a => by match a with | ⟨0, _⟩ => rfl)).trans ?_
    refine (Ideal.hostReduceAdd_single Gen.reducesTo_S64x9_S64_d1 (by decide) _ _ (ix1 c')).trans ?_
    show Ideal.ofBits .f32 0x00000000#32 + _ = _
    rw [Ideal.ofBits_zero_f32, zero_add]
    exact Finset.sum_congr rfl fun k _ => hv0 c' k
  -- the one-hot row at tap t
  have hone : FloatOps.ofBits (F := Ideal) .f32 (lit0 (S1x9.rowMajor (ix2 (0 : Fin 1) t)))
      = if t.val = 4 then (1 : EReal) else 0 := by
    show Ideal.ofBits .f32 (lit0 (S1x9.rowMajor (ix2 (0 : Fin 1) t))) = _
    have hn : S1x9.rowMajor (ix2 (0 : Fin 1) t) = t := Fin.ext (by
      show ((⟨2, ![1, 9]⟩ : Shape).rowMajor _).val = _
      rw [Shape.rowMajor_val_two]; show 0 * 9 + t.val = t.val; omega)
    rw [hn, onehot_eq]
    by_cases h4 : t.val = 4
    · rw [if_pos h4, if_pos h4, Cert.Consts.ofBits_one]
    · rw [if_neg h4, if_neg h4, Ideal.ofBits_zero_f32]
  rw [hsum]
  refine (congrArg (fun z : EReal => wdArr m c c' t - (Ideal.ofBits .f32 0x3F333333#32 * ∑ k : Fin 9, wdArr m c c' k) * z) hone).trans ?_
  subst hc'
  rfl

end Cert.KernelIdeal.Hand

end
-- ==== Proof.Finite.lean ====
/-
  Finiteness: under the certificate's precondition every entry of the five argument arrays is a real number. The
  precondition says, array by array, that the conjunction over all entries of "|x| < +∞" is true; an extended real
  whose absolute value max x (−x) is below +∞ is neither +∞ nor −∞.
-/
import proofs.«162342_g2000606144476369_pallasbulk_1044_23_alg».proof.Defs
import proofs.«162342_g2000606144476369_pallasbulk_1044_23_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.SL.Sem

instance : Subsingleton (⟨0, ![]⟩ : Shape).Idx := ⟨fun a b => funext fun d => d.elim0⟩

/-- The word of +∞ is the top extended real. -/
theorem ofBits_inf : Ideal.ofBits .f32 0x7F800000#32 = ⊤ := by
  simp [Ideal.ofBits, Ideal.ieee]

/-- An extended real whose absolute value compares below +∞ is a real number. -/
theorem real_of_abs_lt_top (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    have : Ideal.cmp .olt (max x (-x)) ⊤ = 0#1 := by
      unfold Ideal.cmp
      show BitVec.ofBool (decide (max x (-x) < ⊤)) = 0#1
      rw [decide_eq_false hn]; rfl
    rw [this] at h
    exact absurd h (by decide)
  induction x using EReal.rec with
  | bot => exact absurd hlt (by simp)
  | coe r => exact ⟨r, rfl⟩
  | top => exact absurd hlt (by simp)

/-- Under the precondition every entry of every argument is a real number. -/
theorem finite_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (show Cert.KernelIdeal.S128x64x32x32.Idx → EReal from m ((c.tc : Thread Cert.KernelIdeal.nD Cert.KernelIdeal.τ).loc Cert.KernelIdeal.main_arg0)) i = (r : EReal))
    ∧ (∀ i, ∃ r : ℝ, (show Cert.KernelIdeal.S64x3x3.Idx → EReal from m ((c.tc : Thread Cert.KernelIdeal.nD Cert.KernelIdeal.τ).loc Cert.KernelIdeal.main_arg1)) i = (r : EReal))
    ∧ (∀ i, ∃ r : ℝ, (show Cert.KernelIdeal.S64x64.Idx → EReal from m ((c.tc : Thread Cert.KernelIdeal.nD Cert.KernelIdeal.τ).loc Cert.KernelIdeal.main_arg2)) i = (r : EReal))
    ∧ (∀ i, ∃ r : ℝ, (show Cert.KernelIdeal.S64.Idx → EReal from m ((c.tc : Thread Cert.KernelIdeal.nD Cert.KernelIdeal.τ).loc Cert.KernelIdeal.main_arg3)) i = (r : EReal))
    ∧ (∀ i, ∃ r : ℝ, (show Cert.KernelIdeal.S64.Idx → EReal from m ((c.tc : Thread Cert.KernelIdeal.nD Cert.KernelIdeal.τ).loc Cert.KernelIdeal.main_arg4)) i = (r : EReal)) := by
  have h := congrFun (hpre c) ValueIdx.ix0
  dsimp only [Cert.Pre_finite_inputs.fn, Cert.Pre_finite_inputs.fn_part1] at h
  change IntOp.andi (IntOp.andi (IntOp.andi (IntOp.andi _ _) _) _) _ = 1#1 at h
  obtain ⟨h0123, h4⟩ := IntOp.andi_eq_one.mp h
  obtain ⟨h012, h3⟩ := IntOp.andi_eq_one.mp h0123
  obtain ⟨h01, h2⟩ := IntOp.andi_eq_one.mp h012
  obtain ⟨h0, h1⟩ := IntOp.andi_eq_one.mp h01
  exact ⟨fun i => real_of_abs_lt_top _ (Host.reduce_andi_all _ _ _ _ _ h0 i),
    fun i => real_of_abs_lt_top _ (Host.reduce_andi_all _ _ _ _ _ h1 i),
    fun i => real_of_abs_lt_top _ (Host.reduce_andi_all _ _ _ _ _ h2 i),
    fun i => real_of_abs_lt_top _ (Host.reduce_andi_all _ _ _ _ _ h3 i),
    fun i => real_of_abs_lt_top _ (Host.reduce_andi_all _ _ _ _ _ h4 i)⟩

end Cert.Finite

end
-- ==== Proof.LibFiniteSums.lean ====
/-
  General facts about finite sums of real numbers and their images in the extended reals. The inclusion of ℝ in
  EReal commutes with finite sums and with max; the sum and the sum of squares of a family of linear combinations
  are expressed by the column sums and the Gram matrix of the combined family; the variance of a finite family of
  reals (mean of squares less the square of the mean) is non-negative; an affine map applied to a linear combination
  may be folded into the coefficients.
-/
import Mathlib

namespace Cert.FiniteSums

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals in the extended reals is monotone, hence commutes with max. -/
theorem coe_max (a b : ℝ) : ((max a b : ℝ) : EReal) = max (a : EReal) (b : EReal) :=
  EReal.coe_strictMono.monotone.map_max

/-- The sum over i of the linear combinations Σ_c w_c · a_{i,c} is the combination of the column sums. -/
theorem sum_lincomb {ι κ : Type*} [Fintype ι] [Fintype κ] (w : κ → ℝ) (a : ι → κ → ℝ) :
    ∑ i, ∑ c, w c * a i c = ∑ c, w c * ∑ i, a i c := by
  rw [Finset.sum_comm]
  exact Finset.sum_congr rfl fun c _ => (Finset.mul_sum _ _ _).symm

/-- The sum over i of the squares of the linear combinations Σ_c w_c · a_{i,c} is the quadratic form of the Gram
    matrix G_{c,c'} = Σ_i a_{i,c} · a_{i,c'} at w. -/
theorem sum_sq_lincomb {ι κ : Type*} [Fintype ι] [Fintype κ] (w : κ → ℝ) (a : ι → κ → ℝ) :
    ∑ i, (∑ c, w c * a i c) * (∑ c, w c * a i c)
      = ∑ c', (∑ c, w c * ∑ i, a i c * a i c') * w c' := by
  calc ∑ i, (∑ c, w c * a i c) * (∑ c, w c * a i c)
      = ∑ i, ∑ c', ∑ c, (w c * a i c) * (w c' * a i c') := by
        refine Finset.sum_congr rfl fun i _ => ?_
        rw [Finset.mul_sum]
        exact Finset.sum_congr rfl fun c' _ => Finset.sum_mul _ _ _
    _ = ∑ c', ∑ i, ∑ c, (w c * a i c) * (w c' * a i c') := Finset.sum_comm
    _ = ∑ c', ∑ c, ∑ i, (w c * a i c) * (w c' * a i c') :=
        Finset.sum_congr rfl fun c' _ => Finset.sum_comm
    _ = ∑ c', (∑ c, w c * ∑ i, a i c * a i c') * w c' := by
        refine Finset.sum_congr rfl fun c' _ => ?_
        rw [Finset.sum_mul]
        refine Finset.sum_congr rfl fun c _ => ?_
        rw [Finset.mul_sum, Finset.sum_mul]
        exact Finset.sum_congr rfl fun i _ => by ring

/-- The variance of a finite family is non-negative: with n the number of its members, the mean of the squares is
    at least the square of the mean (Cauchy–Schwarz against the constant family 1). -/
theorem variance_nonneg {ι : Type*} [Fintype ι] (f : ι → ℝ) (n : ℝ) (hn : n = (Fintype.card ι : ℝ)) (hpos : 0 < n) :
    0 ≤ (∑ i, f i * f i) * (1 / n) - ((∑ i, f i) * (1 / n)) * ((∑ i, f i) * (1 / n)) := by
  have h := sq_sum_le_card_mul_sum_sq (s := Finset.univ) (f := f)
  rw [Finset.card_univ, ← hn] at h
  have h2 : ∑ i, f i ^ 2 = ∑ i, f i * f i := Finset.sum_congr rfl fun i _ => sq (f i)
  rw [h2] at h
  have hne : n ≠ 0 := ne_of_gt hpos
  have e : (∑ i, f i * f i) * (1 / n) - ((∑ i, f i) * (1 / n)) * ((∑ i, f i) * (1 / n))
      = (n * ∑ i, f i * f i - (∑ i, f i) ^ 2) * (1 / n) ^ 2 := by
    field_simp
  rw [e]
  exact mul_nonneg (sub_nonneg.mpr h) (sq_nonneg _)

/-- Scaling a linear combination by σ and adding a constant: the scale folds into the coefficients. -/
theorem lincomb_mul {κ : Type*} [Fintype κ] (w a : κ → ℝ) (σ : ℝ) :
    (∑ c, w c * a c) * σ = ∑ c, (σ * w c) * a c := by
  rw [Finset.sum_mul]
  exact Finset.sum_congr rfl fun c _ => by ring

/-- A sum over nine indices, written out. -/
theorem sum_univ_nine {M : Type*} [AddCommMonoid M] (f : Fin 9 → M) :
    ∑ t, f t = f 0 + f 1 + f 2 + f 3 + f 4 + f 5 + f 6 + f 7 + f 8 := by
  rw [Fin.sum_univ_castSucc, Fin.sum_univ_eight]
  rfl

end Cert.FiniteSums
-- ==== Proof.SpecAlgebraCdc.lean ====
/-
  The depthwise central-difference result. On arrays that are images of real arrays, the reference's nine-tap sum and
  the kernel's separable three-rows-of-three-taps sum are the image of one real array. A cyclic shift by 960 or 64
  pixels (two image rows) keeps the column l mod 32, so the column masks at the shifted pixel are those at l, and two
  shifts compose to the shift by the sum mod 1024; the reference's mask of tap 3 kh + kw is the product of the row
  mask of kh and the column mask of kw; the centre tap carries the weight less θ · (Σ weights) in the kernel, while
  the reference subtracts θ · (Σ weights) · activation afterwards. With these the two real expressions differ by a
  rearrangement of a polynomial.
-/
import proofs.«162342_g2000606144476369_pallasbulk_1044_23_alg».proof.Proof.Spec
import proofs.«162342_g2000606144476369_pallasbulk_1044_23_alg».proof.Proof.LibFiniteSums
import Mathlib

noncomputable section

namespace Cert.Spec

open Idealize.ShloMosaic Cert.FiniteSums

/-! ## Cyclic shifts -/

theorem shl_shl (l : Fin 1024) (a b : ℕ) : shl (shl l a) b = shl l ((a + b) % 1024) := by
  apply Fin.ext
  simp only [shl]
  omega
theorem shl_960_1022 (l : Fin 1024) : shl (shl l 960) 1022 = shl l 958 := by rw [shl_shl]
theorem shl_960_2 (l : Fin 1024) : shl (shl l 960) 2 = shl l 962 := by rw [shl_shl]
theorem shl_64_1022 (l : Fin 1024) : shl (shl l 64) 1022 = shl l 62 := by rw [shl_shl]
theorem shl_64_2 (l : Fin 1024) : shl (shl l 64) 2 = shl l 66 := by rw [shl_shl]

/-! ## The border masks as reals: column ≥ 2, column < 30, row ≥ 2, row < 30 -/

def mColLo (l : Fin 1024) : ℝ := if 2 ≤ l.val % 32 then 1 else 0
def mColHi (l : Fin 1024) : ℝ := if l.val % 32 < 30 then 1 else 0
def mRowLo (l : Fin 1024) : ℝ := if 2 ≤ l.val / 32 then 1 else 0
def mRowHi (l : Fin 1024) : ℝ := if l.val / 32 < 30 then 1 else 0

theorem kerMask_zero (l : Fin 1024) : kerMask 0 l = (mColLo l : EReal) := by
  unfold kerMask mColLo
  by_cases h : 2 ≤ l.val % 32 <;> simp [h]
theorem kerMask_one (l : Fin 1024) : kerMask 1 l = (mColHi l : EReal) := by
  unfold kerMask mColHi
  by_cases h : l.val % 32 < 30 <;> simp [h]
theorem kerMask_two (l : Fin 1024) : kerMask 2 l = (mRowLo l : EReal) := by
  unfold kerMask mRowLo
  by_cases h : 2 ≤ l.val / 32 <;> simp [h]
theorem kerMask_three (l : Fin 1024) : kerMask 3 l = (mRowHi l : EReal) := by
  unfold kerMask mRowHi
  by_cases h : l.val / 32 < 30 <;> simp [h]

/-- A shift by two image rows keeps the column, hence the column masks. -/
theorem mColLo_shl_960 (l : Fin 1024) : mColLo (shl l 960) = mColLo l := by
  unfold mColLo shl
  have : (l.val + 960) % 1024 % 32 = l.val % 32 := by omega
  simp only [this]
theorem mColLo_shl_64 (l : Fin 1024) : mColLo (shl l 64) = mColLo l := by
  unfold mColLo shl
  have : (l.val + 64) % 1024 % 32 = l.val % 32 := by omega
  simp only [this]
theorem mColHi_shl_960 (l : Fin 1024) : mColHi (shl l 960) = mColHi l := by
  unfold mColHi shl
  have : (l.val + 960) % 1024 % 32 = l.val % 32 := by omega
  simp only [this]
theorem mColHi_shl_64 (l : Fin 1024) : mColHi (shl l 64) = mColHi l := by
  unfold mColHi shl
  have : (l.val + 64) % 1024 % 32 = l.val % 32 := by omega
  simp only [this]

/-- The reference's mask of tap 3 kh + kw is the row mask of kh times the column mask of kw (no mask for the middle
    row or column: 2 ≤ r + 2 < 34 holds for every row or column r < 32). -/
theorem refMask_0 (l : Fin 1024) : refMask 0 l = ((mRowLo l * mColLo l : ℝ) : EReal) := by
  unfold refMask mRowLo mColLo
  have hl := l.isLt
  rw [show ((0 : Fin 9).val / 3) = 0 from rfl, show ((0 : Fin 9).val % 3) = 0 from rfl]
  split_ifs <;> first | (exfalso; omega) | simp
theorem refMask_1 (l : Fin 1024) : refMask 1 l = ((mRowLo l : ℝ) : EReal) := by
  unfold refMask mRowLo
  have hl := l.isLt
  rw [show ((1 : Fin 9).val / 3) = 0 from rfl, show ((1 : Fin 9).val % 3) = 1 from rfl]
  split_ifs <;> first | (exfalso; omega) | simp
theorem refMask_2 (l : Fin 1024) : refMask 2 l = ((mRowLo l * mColHi l : ℝ) : EReal) := by
  unfold refMask mRowLo mColHi
  have hl := l.isLt
  rw [show ((2 : Fin 9).val / 3) = 0 from rfl, show ((2 : Fin 9).val % 3) = 2 from rfl]
  split_ifs <;> first | (exfalso; omega) | simp
theorem refMask_3 (l : Fin 1024) : refMask 3 l = ((mColLo l : ℝ) : EReal) := by
  unfold refMask mColLo
  have hl := l.isLt
  rw [show ((3 : Fin 9).val / 3) = 1 from rfl, show ((3 : Fin 9).val % 3) = 0 from rfl]
  split_ifs <;> first | (exfalso; omega) | simp
theorem refMask_5 (l : Fin 1024) : refMask 5 l = ((mColHi l : ℝ) : EReal) := by
  unfold refMask mColHi
  have hl := l.isLt
  rw [show ((5 : Fin 9).val / 3) = 1 from rfl, show ((5 : Fin 9).val % 3) = 2 from rfl]
  split_ifs <;> first | (exfalso; omega) | simp
theorem refMask_6 (l : Fin 1024) : refMask 6 l = ((mRowHi l * mColLo l : ℝ) : EReal) := by
  unfold refMask mRowHi mColLo
  have hl := l.isLt
  rw [show ((6 : Fin 9).val / 3) = 2 from rfl, show ((6 : Fin 9).val % 3) = 0 from rfl]
  split_ifs <;> first | (exfalso; omega) | simp
theorem refMask_7 (l : Fin 1024) : refMask 7 l = ((mRowHi l : ℝ) : EReal) := by
  unfold refMask mRowHi
  have hl := l.isLt
  rw [show ((7 : Fin 9).val / 3) = 2 from rfl, show ((7 : Fin 9).val % 3) = 1 from rfl]
  split_ifs <;> first | (exfalso; omega) | simp
theorem refMask_8 (l : Fin 1024) : refMask 8 l = ((mRowHi l * mColHi l : ℝ) : EReal) := by
  unfold refMask mRowHi mColHi
  have hl := l.isLt
  rw [show ((8 : Fin 9).val / 3) = 2 from rfl, show ((8 : Fin 9).val % 3) = 2 from rfl]
  split_ifs <;> first | (exfalso; omega) | simp

/-! ## The real array -/

section RealCdc
variable (x : Fin 128 → Fin 64 → Fin 1024 → ℝ) (wd : Fin 64 → Fin 9 → ℝ) (θ : ℝ)

def reluR (b : Fin 128) (c : Fin 64) (l : Fin 1024) : ℝ := max (x b c l) 0

theorem relu_coe (b : Fin 128) (c : Fin 64) (l : Fin 1024) :
    relu (fun b c l => (x b c l : EReal)) b c l = (reluR x b c l : EReal) := by
  simp only [relu, reluR, coe_max, EReal.coe_zero]

/-- The reference's depthwise result: nine taps, each with its mask, less θ · (Σ weights) · activation. -/
def refCdcR (b : Fin 128) (c : Fin 64) (l : Fin 1024) : ℝ :=
  (reluR x b c (shl l 958) * (mRowLo l * mColLo l) * wd c 0
      + reluR x b c (shl l 960) * mRowLo l * wd c 1
      + reluR x b c (shl l 962) * (mRowLo l * mColHi l) * wd c 2
      + reluR x b c (shl l 1022) * mColLo l * wd c 3
      + reluR x b c l * wd c 4
      + reluR x b c (shl l 2) * mColHi l * wd c 5
      + reluR x b c (shl l 62) * (mRowHi l * mColLo l) * wd c 6
      + reluR x b c (shl l 64) * mRowHi l * wd c 7
      + reluR x b c (shl l 66) * (mRowHi l * mColHi l) * wd c 8)
    - (θ * ∑ t : Fin 9, wd c t) * reluR x b c l

/-- A weighted row of three taps with weights u0, u1, u2. -/
def kerRowR (u0 u1 u2 : ℝ) (b : Fin 128) (c : Fin 64) (l : Fin 1024) : ℝ :=
  reluR x b c (shl l 1022) * mColLo l * u0 + reluR x b c l * u1 + reluR x b c (shl l 2) * mColHi l * u2

/-- The kernel's depthwise result: the middle row, whose centre weight carries −θ · Σ weights, and the rows two
    above and two below. -/
def kerCdcR (b : Fin 128) (c : Fin 64) (l : Fin 1024) : ℝ :=
  kerRowR x (wd c 3) (wd c 4 - θ * ∑ t : Fin 9, wd c t) (wd c 5) b c l
    + kerRowR x (wd c 0) (wd c 1) (wd c 2) b c (shl l 960) * mRowLo l
    + kerRowR x (wd c 6) (wd c 7) (wd c 8) b c (shl l 64) * mRowHi l

/-- The two real expressions of the depthwise result agree. -/
theorem refCdcR_eq_kerCdcR (b : Fin 128) (c : Fin 64) (l : Fin 1024) : refCdcR x wd θ b c l = kerCdcR x wd θ b c l := by
  unfold refCdcR kerCdcR kerRowR
  rw [shl_960_1022, shl_960_2, shl_64_1022, shl_64_2, mColLo_shl_960, mColHi_shl_960, mColLo_shl_64, mColHi_shl_64]
  ring

/-! ## The reference's depthwise result is the image of the real array -/

theorem refCdc_coe (K : Consts) (hθ : K.θ = (θ : EReal)) (b : Fin 128) (c : Fin 64) (l : Fin 1024) :
    refCdc (fun b c l => (x b c l : EReal)) (fun c t => (wd c t : EReal)) (refKdiff K fun c t => (wd c t : EReal)) refMask b c l
      = (refCdcR x wd θ b c l : EReal) := by
  have t0 : refTap (fun b c l => (x b c l : EReal)) refMask b c 0 l = ((reluR x b c (shl l 958) * (mRowLo l * mColLo l) : ℝ) : EReal) := by
    rw [refTap, if_neg (by decide), show tapShift 0 = 958 from rfl, relu_coe, refMask_0, ← EReal.coe_mul]
  have t1 : refTap (fun b c l => (x b c l : EReal)) refMask b c 1 l = ((reluR x b c (shl l 960) * mRowLo l : ℝ) : EReal) := by
    rw [refTap, if_neg (by decide), show tapShift 1 = 960 from rfl, relu_coe, refMask_1, ← EReal.coe_mul]
  have t2 : refTap (fun b c l => (x b c l : EReal)) refMask b c 2 l = ((reluR x b c (shl l 962) * (mRowLo l * mColHi l) : ℝ) : EReal) := by
    rw [refTap, if_neg (by decide), show tapShift 2 = 962 from rfl, relu_coe, refMask_2, ← EReal.coe_mul]
  have t3 : refTap (fun b c l => (x b c l : EReal)) refMask b c 3 l = ((reluR x b c (shl l 1022) * mColLo l : ℝ) : EReal) := by
    rw [refTap, if_neg (by decide), show tapShift 3 = 1022 from rfl, relu_coe, refMask_3, ← EReal.coe_mul]
  have t4 : refTap (fun b c l => (x b c l : EReal)) refMask b c 4 l = (reluR x b c l : EReal) := by
    rw [refTap, if_pos (by decide), relu_coe]
  have t5 : refTap (fun b c l => (x b c l : EReal)) refMask b c 5 l = ((reluR x b c (shl l 2) * mColHi l : ℝ) : EReal) := by
    rw [refTap, if_neg (by decide), show tapShift 5 = 2 from rfl, relu_coe, refMask_5, ← EReal.coe_mul]
  have t6 : refTap (fun b c l => (x b c l : EReal)) refMask b c 6 l = ((reluR x b c (shl l 62) * (mRowHi l * mColLo l) : ℝ) : EReal) := by
    rw [refTap, if_neg (by decide), show tapShift 6 = 62 from rfl, relu_coe, refMask_6, ← EReal.coe_mul]
  have t7 : refTap (fun b c l => (x b c l : EReal)) refMask b c 7 l = ((reluR x b c (shl l 64) * mRowHi l : ℝ) : EReal) := by
    rw [refTap, if_neg (by decide), show tapShift 7 = 64 from rfl, relu_coe, refMask_7, ← EReal.coe_mul]
  have t8 : refTap (fun b c l => (x b c l : EReal)) refMask b c 8 l = ((reluR x b c (shl l 66) * (mRowHi l * mColHi l) : ℝ) : EReal) := by
    rw [refTap, if_neg (by decide), show tapShift 8 = 66 from rfl, relu_coe, refMask_8, ← EReal.coe_mul]
  rw [refCdc, sum_univ_nine, t0, t1, t2, t3, t4, t5, t6, t7, t8, refKdiff, hθ, relu_coe, refCdcR]
  simp only [coe_sum, EReal.coe_mul, EReal.coe_add, EReal.coe_sub]

/-! ## The kernel's depthwise result is the image of the real array -/

/-- The weight row of batch element b and channel c holds channel c's weights. -/
theorem wrow_mod (b : Fin 128) (c : Fin 64) (h : (wrow b c).val % 64 < 64) : (⟨(wrow b c).val % 64, h⟩ : Fin 64) = c := by
  apply Fin.ext
  have := c.isLt
  simp only [wrow]
  omega

theorem kerWeights_off (K : Consts) (b : Fin 128) (c : Fin 64) (t : Fin 9) (ht : t.val ≠ 4) :
    kerWeights K (fun c t => (wd c t : EReal)) (wrow b c) t = (wd c t : EReal) := by
  rw [kerWeights, if_neg ht, mul_zero, sub_zero, wrow_mod]

theorem kerWeights_centre (K : Consts) (hθ : K.θ = (θ : EReal)) (b : Fin 128) (c : Fin 64) :
    kerWeights K (fun c t => (wd c t : EReal)) (wrow b c) 4 = ((wd c 4 - θ * ∑ t : Fin 9, wd c t : ℝ) : EReal) := by
  rw [kerWeights, if_pos (by decide), mul_one, hθ]
  simp only [wrow_mod, coe_sum, EReal.coe_sub, EReal.coe_mul]

theorem kerRow_coe (K : Consts) (kh : Fin 3) (b : Fin 128) (c : Fin 64) (l : Fin 1024) (u0 u1 u2 : ℝ)
    (h0' : 3 * kh.val < 9) (h1' : 3 * kh.val + 1 < 9) (h2' : 3 * kh.val + 2 < 9)
    (h0 : kerWeights K (fun c t => (wd c t : EReal)) (wrow b c) ⟨3 * kh.val, h0'⟩ = (u0 : EReal))
    (h1 : kerWeights K (fun c t => (wd c t : EReal)) (wrow b c) ⟨3 * kh.val + 1, h1'⟩ = (u1 : EReal))
    (h2 : kerWeights K (fun c t => (wd c t : EReal)) (wrow b c) ⟨3 * kh.val + 2, h2'⟩ = (u2 : EReal)) :
    kerRow (fun b c l => (x b c l : EReal)) (kerWeights K fun c t => (wd c t : EReal)) kerMask kh b c l
      = (kerRowR x u0 u1 u2 b c l : EReal) := by
  rw [kerRow, h0, h1, h2, kerTm, kerTp, relu_coe, relu_coe, relu_coe, kerMask_zero, kerMask_one, kerRowR]
  simp only [EReal.coe_add, EReal.coe_mul]

theorem kerCdc_coe (K : Consts) (hθ : K.θ = (θ : EReal)) (b : Fin 128) (c : Fin 64) (l : Fin 1024) :
    kerCdc (fun b c l => (x b c l : EReal)) (kerWeights K fun c t => (wd c t : EReal)) kerMask b c l
      = (kerCdcR x wd θ b c l : EReal) := by
  have r1 := fun l => kerRow_coe x wd K 1 b c l (wd c 3) (wd c 4 - θ * ∑ t : Fin 9, wd c t) (wd c 5)
    (by decide) (by decide) (by decide)
    (kerWeights_off wd K b c 3 (by decide)) (kerWeights_centre wd θ K hθ b c) (kerWeights_off wd K b c 5 (by decide))
  have r0 := fun l => kerRow_coe x wd K 0 b c l (wd c 0) (wd c 1) (wd c 2) (by decide) (by decide) (by decide)
    (kerWeights_off wd K b c 0 (by decide)) (kerWeights_off wd K b c 1 (by decide)) (kerWeights_off wd K b c 2 (by decide))
  have r2 := fun l => kerRow_coe x wd K 2 b c l (wd c 6) (wd c 7) (wd c 8) (by decide) (by decide) (by decide)
    (kerWeights_off wd K b c 6 (by decide)) (kerWeights_off wd K b c 7 (by decide)) (kerWeights_off wd K b c 8 (by decide))
  rw [kerCdc, r1, r0, r2, kerMask_two, kerMask_three, kerCdcR]
  simp only [EReal.coe_add, EReal.coe_mul]

/-- The two programs' depthwise results agree, both being the image of the kernel's real array. -/
theorem refCdc_coe_ker (K : Consts) (hθ : K.θ = (θ : EReal)) (b : Fin 128) (c : Fin 64) (l : Fin 1024) :
    refCdc (fun b c l => (x b c l : EReal)) (fun c t => (wd c t : EReal)) (refKdiff K fun c t => (wd c t : EReal)) refMask b c l
      = (kerCdcR x wd θ b c l : EReal) := by
  rw [refCdc_coe x wd θ K hθ, refCdcR_eq_kerCdcR]

end RealCdc

end Cert.Spec

end
-- ==== Proof.SpecAlgebraStats.lean ====
/-
  From the depthwise result on. Given that the depthwise result of a program is the image of a real array a, and
  its pointwise weights at output channel o the images of reals w, the program's result is the image of a real
  expression; the two real expressions agree. The reference sums the pointwise result y = Σ_c w_c a_c and its square
  over the 131072 = 128 · 1024 batch elements and pixels; the kernel sums a and the products a_c a_c' first (channel
  sums V and Gram matrix G) and combines afterwards: Σ y = Σ_c w_c V_c and Σ y² = Σ_c' (Σ_c w_c G_cc') w_c'. The
  variance is that of a family of 131072 reals, hence non-negative, so the reciprocal square root of variance + ε is
  taken at a positive real.
-/
import proofs.«162342_g2000606144476369_pallasbulk_1044_23_alg».proof.Proof.Spec
import proofs.«162342_g2000606144476369_pallasbulk_1044_23_alg».proof.Proof.LibFiniteSums
import Mathlib

noncomputable section

namespace Cert.Spec

open Idealize.ShloMosaic Cert.FiniteSums

/-! ## The real expressions -/

section RealSide
variable (w : Fin 64 → ℝ) (a : Fin 128 → Fin 64 → Fin 1024 → ℝ)

/-- The pointwise result. -/
def yR (b : Fin 128) (l : Fin 1024) : ℝ := ∑ c : Fin 64, w c * a b c l
def s1R : ℝ := ∑ b : Fin 128, ∑ l : Fin 1024, yR w a b l
def s2R : ℝ := ∑ b : Fin 128, ∑ l : Fin 1024, yR w a b l * yR w a b l
def meanR : ℝ := s1R w a * (1 / 131072)
def varR : ℝ := s2R w a * (1 / 131072) - meanR w a * meanR w a
/-- The channel sums and the Gram matrix of the depthwise result. -/
def vR (c : Fin 64) : ℝ := ∑ b : Fin 128, ∑ l : Fin 1024, a b c l
def gR (c c' : Fin 64) : ℝ := ∑ b : Fin 128, ∑ l : Fin 1024, a b c l * a b c' l
def kMeanR : ℝ := (∑ c : Fin 64, w c * vR a c) * (1 / 131072)
def kE2R : ℝ := (∑ c' : Fin 64, (∑ c : Fin 64, w c * gR a c c') * w c') * (1 / 131072)
def kVarR : ℝ := kE2R w a - kMeanR w a * kMeanR w a
/-- The reference's and the kernel's results. -/
def refOutR (g β ε : ℝ) (b : Fin 128) (l : Fin 1024) : ℝ :=
  yR w a b l * ((Real.sqrt (varR w a + ε))⁻¹ * g) + (β - meanR w a * ((Real.sqrt (varR w a + ε))⁻¹ * g))
def kerOutR (g β ε : ℝ) (b : Fin 128) (l : Fin 1024) : ℝ :=
  (∑ c : Fin 64, ((g * (Real.sqrt (kVarR w a + ε))⁻¹) * w c) * a b c l)
    + (β - kMeanR w a * (g * (Real.sqrt (kVarR w a + ε))⁻¹))

/-- Σ_{b,l} y = Σ_c w_c V_c. -/
theorem s1R_eq : s1R w a = ∑ c : Fin 64, w c * vR a c := by
  have h := sum_lincomb w (fun (p : Fin 128 × Fin 1024) c => a p.1 c p.2)
  have e1 : s1R w a = ∑ p : Fin 128 × Fin 1024, ∑ c : Fin 64, w c * a p.1 c p.2 :=
    (Fintype.sum_prod_type' (fun b l => ∑ c : Fin 64, w c * a b c l)).symm
  have e2 : ∀ c, vR a c = ∑ p : Fin 128 × Fin 1024, a p.1 c p.2 := fun c =>
    (Fintype.sum_prod_type' (fun b l => a b c l)).symm
  rw [e1, h]
  exact Finset.sum_congr rfl fun c _ => by rw [e2]

/-- Σ_{b,l} y² = Σ_c' (Σ_c w_c G_cc') w_c'. -/
theorem s2R_eq : s2R w a = ∑ c' : Fin 64, (∑ c : Fin 64, w c * gR a c c') * w c' := by
  have h := sum_sq_lincomb w (fun (p : Fin 128 × Fin 1024) c => a p.1 c p.2)
  have e1 : s2R w a
      = ∑ p : Fin 128 × Fin 1024, (∑ c : Fin 64, w c * a p.1 c p.2) * (∑ c : Fin 64, w c * a p.1 c p.2) :=
    (Fintype.sum_prod_type' (fun b l => (∑ c : Fin 64, w c * a b c l) * (∑ c : Fin 64, w c * a b c l))).symm
  have e2 : ∀ c c', gR a c c' = ∑ p : Fin 128 × Fin 1024, a p.1 c p.2 * a p.1 c' p.2 := fun c c' =>
    (Fintype.sum_prod_type' (fun b l => a b c l * a b c' l)).symm
  rw [e1, h]
  exact Finset.sum_congr rfl fun c' _ => by simp only [e2]

theorem kMeanR_eq : kMeanR w a = meanR w a := by
  unfold kMeanR meanR
  rw [s1R_eq]

theorem kVarR_eq : kVarR w a = varR w a := by
  unfold kVarR varR kE2R
  rw [s2R_eq, kMeanR_eq]

/-- The variance of the 131072 values of y is non-negative. -/
theorem varR_nonneg : 0 ≤ varR w a := by
  have e1 : s1R w a = ∑ p : Fin 128 × Fin 1024, yR w a p.1 p.2 :=
    (Fintype.sum_prod_type' (fun b l => yR w a b l)).symm
  have e2 : s2R w a = ∑ p : Fin 128 × Fin 1024, yR w a p.1 p.2 * yR w a p.1 p.2 :=
    (Fintype.sum_prod_type' (fun b l => yR w a b l * yR w a b l)).symm
  unfold varR meanR
  rw [e1, e2]
  refine variance_nonneg (fun p : Fin 128 × Fin 1024 => yR w a p.1 p.2) 131072 ?_ (by norm_num)
  rw [Fintype.card_prod, Fintype.card_fin, Fintype.card_fin]
  norm_num

/-- The two results agree: the scale folds into the pointwise weights. -/
theorem kerOutR_eq (g β ε : ℝ) (b : Fin 128) (l : Fin 1024) : refOutR w a g β ε b l = kerOutR w a g β ε b l := by
  unfold refOutR kerOutR
  rw [kVarR_eq, kMeanR_eq, mul_comm g, yR, lincomb_mul]

end RealSide

/-! ## The reference's result is the image of the real expression -/

section RefSide
variable (K : Consts)
variable (X : Fin 128 → Fin 64 → Fin 1024 → EReal) (WD : Fin 64 → Fin 9 → EReal) (KD : Fin 64 → EReal)
  (MK : Fin 9 → Fin 1024 → EReal) (WP : Fin 64 → Fin 64 → EReal) (GA BE : Fin 64 → EReal)
variable {w : Fin 64 → ℝ} {a : Fin 128 → Fin 64 → Fin 1024 → ℝ} {o : Fin 64} {g β ε : ℝ}

theorem refOut_coe (hA : ∀ b c l, refCdc X WD KD MK b c l = (a b c l : EReal))
    (hW : ∀ c, WP o c = (w c : EReal)) (hG : GA o = (g : EReal)) (hB : BE o = (β : EReal))
    (hε : K.ε = (ε : EReal)) (hεpos : 0 < ε) (hninv : K.ninv = (((1 : ℝ) / 131072 : ℝ) : EReal))
    (b : Fin 128) (l : Fin 1024) :
    refOut K X WD KD MK WP GA BE b o l = (refOutR w a g β ε b l : EReal) := by
  have hY : ∀ b l, refY X WD KD MK WP b o l = (yR w a b l : EReal) := by
    intro b l
    simp only [refY, yR, hA, hW, coe_sum, EReal.coe_mul]
  have hS1 : refS1 X WD KD MK WP o = (s1R w a : EReal) := by
    simp only [refS1, s1R, hY, coe_sum]
  have hS2 : refS2 X WD KD MK WP o = (s2R w a : EReal) := by
    simp only [refS2, s2R, hY, coe_sum, EReal.coe_mul]
  have hM : refMean K X WD KD MK WP o = (meanR w a : EReal) := by
    rw [refMean, meanR, hS1, hninv, EReal.coe_mul]
  have hV : refVar K X WD KD MK WP o = (varR w a : EReal) := by
    rw [refVar, varR, hS2, hM, hninv, EReal.coe_sub, EReal.coe_mul, EReal.coe_mul]
  have hpos : 0 < varR w a + ε := add_pos_of_nonneg_of_pos (varR_nonneg w a) hεpos
  have hSc : refScale K X WD KD MK WP GA o = (((Real.sqrt (varR w a + ε))⁻¹ * g : ℝ) : EReal) := by
    rw [refScale, hV, hε, hG, ← EReal.coe_add, Ideal.rsqrt_coe, if_neg (not_lt.mpr hpos.le), if_neg hpos.ne',
      EReal.coe_mul]
  have hSh : refShift K X WD KD MK WP GA BE o
      = ((β - meanR w a * ((Real.sqrt (varR w a + ε))⁻¹ * g) : ℝ) : EReal) := by
    rw [refShift, hB, hM, hSc]
    simp only [EReal.coe_sub, EReal.coe_mul]
  rw [refOut, hY, hSc, hSh, refOutR]
  simp only [EReal.coe_add, EReal.coe_sub, EReal.coe_mul]

end RefSide

/-! ## The kernel's result is the image of the real expression -/

section KerSide
variable (K : Consts)
variable (X : Fin 128 → Fin 64 → Fin 1024 → EReal) (WR : Fin 1024 → Fin 9 → EReal) (MS : Fin 4 → Fin 1024 → EReal)
  (WPA : Fin 64 → Fin 64 → EReal) (GAA BEA : Fin 64 → EReal)
variable {w : Fin 64 → ℝ} {a : Fin 128 → Fin 64 → Fin 1024 → ℝ} {o : Fin 64} {g β ε : ℝ}

theorem kerOut_coe (hA : ∀ b c l, kerCdc X WR MS b c l = (a b c l : EReal))
    (hW : ∀ c, wpf K WPA o c = (w c : EReal)) (hG : GAA o = (g : EReal)) (hB : BEA o = (β : EReal))
    (hε : K.ε = (ε : EReal)) (hεpos : 0 < ε) (hn : K.n = ((131072 : ℝ) : EReal))
    (b : Fin 128) (l : Fin 1024) :
    kerOut K X WR MS WPA GAA BEA b o l = (kerOutR w a g β ε b l : EReal) := by
  have hV : ∀ c, kerV X WR MS c = (vR a c : EReal) := by
    intro c
    simp only [kerV, vR, hA, coe_sum]
  have hGr : ∀ c c', kerG X WR MS c c' = (gR a c c' : EReal) := by
    intro c c'
    simp only [kerG, gR, hA, coe_sum, EReal.coe_mul]
  have hM : kerMean K X WR MS WPA o = (kMeanR w a : EReal) := by
    rw [kerMean, hn, Ideal.div_coe (by norm_num)]
    simp only [kMeanR, hW, hV, coe_sum, EReal.coe_mul]
  have hE2 : kerE2 K X WR MS WPA o = (kE2R w a : EReal) := by
    rw [kerE2, hn, Ideal.div_coe (by norm_num)]
    simp only [kE2R, hW, hGr, coe_sum, EReal.coe_mul]
  have hVar : kerVar K X WR MS WPA o = (kVarR w a : EReal) := by
    rw [kerVar, kVarR, hE2, hM, EReal.coe_sub, EReal.coe_mul]
  have hpos : 0 < kVarR w a + ε := by
    rw [kVarR_eq]
    exact add_pos_of_nonneg_of_pos (varR_nonneg w a) hεpos
  have hSc : kerScale K X WR MS WPA GAA o = ((g * (Real.sqrt (kVarR w a + ε))⁻¹ : ℝ) : EReal) := by
    rw [kerScale, hVar, hε, hG, ← EReal.coe_add, Ideal.rsqrt_coe, if_neg (not_lt.mpr hpos.le), if_neg hpos.ne',
      EReal.coe_mul]
  have hSh : kerShift K X WR MS WPA GAA BEA o
      = ((β - kMeanR w a * (g * (Real.sqrt (kVarR w a + ε))⁻¹) : ℝ) : EReal) := by
    rw [kerShift, hB, hM, hSc]
    simp only [EReal.coe_sub, EReal.coe_mul]
  simp only [kerOut, kerOutR, hSc, hSh, hW, hA, coe_sum, EReal.coe_add, EReal.coe_sub, EReal.coe_mul]

end KerSide

end Cert.Spec

end
-- ==== Proof.SpecAlgebra.lean ====
/-
  The two formulas agree on finite inputs. Both programs' depthwise results are the image of one real array a
  (the depthwise central-difference result computed separably); both use the pointwise weights w_c = κ · wp o c; from
  there on each program's result is the image of a real expression in a and w, and the two real expressions agree.
-/
import proofs.«162342_g2000606144476369_pallasbulk_1044_23_alg».proof.Proof.Spec
import proofs.«162342_g2000606144476369_pallasbulk_1044_23_alg».proof.Proof.SpecAlgebraCdc
import proofs.«162342_g2000606144476369_pallasbulk_1044_23_alg».proof.Proof.SpecAlgebraStats
import Mathlib

noncomputable section

namespace Cert.Spec

open Idealize.ShloMosaic

theorem spec_eq (K : Consts) (θ κ ε : ℝ) (hθ : K.θ = (θ : EReal)) (hκ : K.κ = (κ : EReal)) (hε : K.ε = (ε : EReal))
    (hεpos : 0 < ε) (hn : K.n = ((131072 : ℝ) : EReal)) (hninv : K.ninv = (((1 : ℝ) / 131072 : ℝ) : EReal))
    (x : Fin 128 → Fin 64 → Fin 1024 → ℝ) (wd : Fin 64 → Fin 9 → ℝ) (wp : Fin 64 → Fin 64 → ℝ) (ga be : Fin 64 → ℝ)
    (b : Fin 128) (o : Fin 64) (l : Fin 1024) :
    refOut K (fun b c l => (x b c l : EReal)) (fun c t => (wd c t : EReal)) (refKdiff K fun c t => (wd c t : EReal)) refMask
        (fun o c => K.κ * (wp o c : EReal)) (fun o => (ga o : EReal)) (fun o => (be o : EReal)) b o l
      = kerOut K (fun b c l => (x b c l : EReal)) (kerWeights K fun c t => (wd c t : EReal)) kerMask
        (fun o c => (wp o c : EReal)) (fun o => (ga o : EReal)) (fun o => (be o : EReal)) b o l := by
  have hR := refOut_coe K (fun b c l => (x b c l : EReal)) (fun c t => (wd c t : EReal))
    (refKdiff K fun c t => (wd c t : EReal)) refMask (fun o c => K.κ * (wp o c : EReal)) (fun o => (ga o : EReal))
    (fun o => (be o : EReal)) (w := fun c => κ * wp o c) (a := kerCdcR x wd θ) (o := o) (g := ga o) (β := be o) (ε := ε)
    (fun b c l => refCdc_coe_ker x wd θ K hθ b c l) (fun c => by rw [hκ, EReal.coe_mul]) rfl rfl hε hεpos hninv b l
  have hK := kerOut_coe K (fun b c l => (x b c l : EReal)) (kerWeights K fun c t => (wd c t : EReal)) kerMask
    (fun o c => (wp o c : EReal)) (fun o => (ga o : EReal)) (fun o => (be o : EReal))
    (w := fun c => κ * wp o c) (a := kerCdcR x wd θ) (o := o) (g := ga o) (β := be o) (ε := ε)
    (fun b c l => kerCdc_coe x wd θ K hθ b c l) (fun c => by rw [wpf, hκ, EReal.coe_mul]) rfl rfl hε hεpos hn b l
  rw [hR, hK, kerOutR_eq]

end Cert.Spec

end
-- ==== Proof.ValueEq.lean ====
/-
  THE VALUE EQUATION. From memories that agree on the five arguments, all of them finite, the reference's result
  buffer and the kernel's hold the same extended reals. Each side's value is its index-level formula over the arrays
  its first grid is entered from; those arrays are the arguments re-laid out, scaled, summed and masked as the host
  stretches compute them; the arguments' entries are real numbers; and on real arguments the two formulas agree.
-/
import proofs.«162342_g2000606144476369_pallasbulk_1044_23_alg».proof.Proof.RefValue
import proofs.«162342_g2000606144476369_pallasbulk_1044_23_alg».proof.Proof.KerValue
import proofs.«162342_g2000606144476369_pallasbulk_1044_23_alg».proof.Proof.RefHostArgs
import proofs.«162342_g2000606144476369_pallasbulk_1044_23_alg».proof.Proof.RefHostKdiff
import proofs.«162342_g2000606144476369_pallasbulk_1044_23_alg».proof.Proof.RefHostMask
import proofs.«162342_g2000606144476369_pallasbulk_1044_23_alg».proof.Proof.KerHostA
import proofs.«162342_g2000606144476369_pallasbulk_1044_23_alg».proof.Proof.KerHostW
import proofs.«162342_g2000606144476369_pallasbulk_1044_23_alg».proof.Proof.Finite
import proofs.«162342_g2000606144476369_pallasbulk_1044_23_alg».proof.Proof.Consts
import proofs.«162342_g2000606144476369_pallasbulk_1044_23_alg».proof.Proof.SpecAlgebra

set_option maxRecDepth 16384

noncomputable section

namespace Cert.Proof

open Idealize.ShloMosaic Idealize.ShloMosaic.ValueIdx Idealize.SL.Sem

/-- The double sum over a 3×3 window is the sum over its nine taps, tap t at row t / 3, column t % 3. -/
theorem sum_window {M : Type} [AddCommMonoid M] (f : Fin 3 → Fin 3 → M) :
    ∑ p : Fin 3, ∑ q : Fin 3, f p q
      = ∑ t : Fin 9, f ⟨t.val / 3, by have := t.isLt; omega⟩ ⟨t.val % 3, Nat.mod_lt _ (by norm_num)⟩ := by
  rw [Cert.FiniteSums.sum_univ_nine, Fin.sum_univ_three, Fin.sum_univ_three, Fin.sum_univ_three, Fin.sum_univ_three]
  show (f 0 0 + f 0 1 + f 0 2) + (f 1 0 + f 1 1 + f 1 2) + (f 2 0 + f 2 1 + f 2 2)
    = f 0 0 + f 0 1 + f 0 2 + f 1 0 + f 1 1 + f 1 2 + f 2 0 + f 2 1 + f 2 2
  simp only [add_assoc]

set_option maxHeartbeats 4000000 in
theorem value_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.ReferenceIdeal.nD) :
    Cert.ReferenceIdeal.Hand.W4 (F := Ideal) m' g' c (Proc.devRef .tc Cert.ReferenceIdeal.main_v225)
      = Cert.KernelIdeal.Gen.W5 (F := Ideal) m g c (Proc.devRef .tc Cert.KernelIdeal.main_v41) := by
  -- the arguments' entries are real numbers
  obtain ⟨hx, hwd, hwp, hga, hbe⟩ := Cert.Finite.finite_args m hpre c
  choose xr hxr using hx
  choose wdr hwdr using hwd
  choose wpr hwpr using hwp
  choose gar hgar using hga
  choose ber hber using hbe
  obtain ⟨a0, a1, a2, a3, a4⟩ := hagree c
  have A0 : (show Cert.ReferenceIdeal.S128x64x32x32.Idx → EReal from m' ((c.tc : Thread Cert.ReferenceIdeal.nD Cert.ReferenceIdeal.τ).loc Cert.ReferenceIdeal.main_arg0)) = (show Cert.KernelIdeal.S128x64x32x32.Idx → EReal from m ((c.tc : Thread Cert.KernelIdeal.nD Cert.KernelIdeal.τ).loc Cert.KernelIdeal.main_arg0)) := a0
  have A1 : (show Cert.ReferenceIdeal.S64x3x3.Idx → EReal from m' ((c.tc : Thread Cert.ReferenceIdeal.nD Cert.ReferenceIdeal.τ).loc Cert.ReferenceIdeal.main_arg1)) = (show Cert.KernelIdeal.S64x3x3.Idx → EReal from m ((c.tc : Thread Cert.KernelIdeal.nD Cert.KernelIdeal.τ).loc Cert.KernelIdeal.main_arg1)) := a1
  have A2 : (show Cert.ReferenceIdeal.S64x64.Idx → EReal from m' ((c.tc : Thread Cert.ReferenceIdeal.nD Cert.ReferenceIdeal.τ).loc Cert.ReferenceIdeal.main_arg2)) = (show Cert.KernelIdeal.S64x64.Idx → EReal from m ((c.tc : Thread Cert.KernelIdeal.nD Cert.KernelIdeal.τ).loc Cert.KernelIdeal.main_arg2)) := a2
  have A3 : (show Cert.ReferenceIdeal.S64.Idx → EReal from m' ((c.tc : Thread Cert.ReferenceIdeal.nD Cert.ReferenceIdeal.τ).loc Cert.ReferenceIdeal.main_arg3)) = (show Cert.KernelIdeal.S64.Idx → EReal from m ((c.tc : Thread Cert.KernelIdeal.nD Cert.KernelIdeal.τ).loc Cert.KernelIdeal.main_arg3)) := a3
  have A4 : (show Cert.ReferenceIdeal.S64.Idx → EReal from m' ((c.tc : Thread Cert.ReferenceIdeal.nD Cert.ReferenceIdeal.τ).loc Cert.ReferenceIdeal.main_arg4)) = (show Cert.KernelIdeal.S64.Idx → EReal from m ((c.tc : Thread Cert.KernelIdeal.nD Cert.KernelIdeal.τ).loc Cert.KernelIdeal.main_arg4)) := a4
  -- the arguments as real arrays, indexed as the two formulas index them
  let X : Fin 128 → Fin 64 → Fin 1024 → ℝ := fun b ch l =>
    xr (ix4 b ch ⟨l.val / 32, by have := l.isLt; omega⟩ ⟨l.val % 32, Nat.mod_lt _ (by norm_num)⟩)
  let WD : Fin 64 → Fin 9 → ℝ := fun ch t => wdr (ix3 ch ⟨t.val / 3, by have := t.isLt; omega⟩ ⟨t.val % 3, Nat.mod_lt _ (by norm_num)⟩)
  let WP : Fin 64 → Fin 64 → ℝ := fun o ch => wpr (ix2 o ch)
  let GA : Fin 64 → ℝ := fun o => gar (ix1 o)
  let BE : Fin 64 → ℝ := fun o => ber (ix1 o)
  -- what the reference's first grid is entered from
  have eX : Cert.ReferenceIdeal.Hand.entX m' g' c = fun b ch l => ((X b ch l : ℝ) : EReal) := by
    funext b ch l
    exact ((Cert.ReferenceIdeal.Hand.entry_x m' g' c b ch l).trans (congrFun A0 _)).trans (hxr _)
  have eWD : Cert.ReferenceIdeal.Hand.entWD m' g' c = fun ch t => ((WD ch t : ℝ) : EReal) := by
    funext ch t
    exact ((Cert.ReferenceIdeal.Hand.entry_wd m' g' c ch t).trans (congrFun A1 _)).trans (hwdr _)
  have eKD : Cert.ReferenceIdeal.Hand.entKD m' g' c = Cert.Spec.refKdiff Cert.Spec.consts fun ch t => ((WD ch t : ℝ) : EReal) := by
    funext ch
    refine (Cert.ReferenceIdeal.Hand.entry_kdiff m' g' c ch).trans ?_
    show Ideal.ofBits .f32 0x3F333333#32 * _ = Ideal.ofBits .f32 0x3F333333#32 * _
    congr 1
    refine (sum_window fun p q => (show Cert.ReferenceIdeal.S64x3x3.Idx → EReal from m' ((c.tc : Thread Cert.ReferenceIdeal.nD Cert.ReferenceIdeal.τ).loc Cert.ReferenceIdeal.main_arg1)) (ix3 ch p q)).trans ?_
    exact Finset.sum_congr rfl fun t _ => (congrFun A1 _).trans (hwdr _)
  have eMK : Cert.ReferenceIdeal.Hand.entMK m' g' c = Cert.Spec.refMask := by
    funext t l
    exact Cert.ReferenceIdeal.Hand.entry_mask m' g' c t l
  have eWP : Cert.ReferenceIdeal.Hand.entWP m' g' c = fun o ch => Cert.Spec.consts.κ * ((WP o ch : ℝ) : EReal) := by
    funext o ch
    refine (Cert.ReferenceIdeal.Hand.entry_wp m' g' c o ch).trans ?_
    show Ideal.ofBits .f32 0x3E99999A#32 * _ = Ideal.ofBits .f32 0x3E99999A#32 * _
    congr 1
    exact (congrFun A2 _).trans (hwpr _)
  have eGA : Cert.ReferenceIdeal.Hand.entGA m' g' c = fun o => ((GA o : ℝ) : EReal) := by
    funext o
    exact ((Cert.ReferenceIdeal.Hand.entry_gamma m' g' c o).trans (congrFun A3 _)).trans (hgar _)
  have eBE : Cert.ReferenceIdeal.Hand.entBE m' g' c = fun o => ((BE o : ℝ) : EReal) := by
    funext o
    exact ((Cert.ReferenceIdeal.Hand.entry_beta m' g' c o).trans (congrFun A4 _)).trans (hber _)
  -- what the kernel's first grid is entered from, and the arguments its middle host stretch reads
  have kX : Cert.KernelIdeal.Hand.entX m g c = fun b ch l => ((X b ch l : ℝ) : EReal) := by
    funext b ch l
    exact (Cert.KernelIdeal.Hand.kentry_x m g c b ch l).trans (hxr _)
  have kW : Cert.KernelIdeal.Hand.wdArr m c = fun ch t => ((WD ch t : ℝ) : EReal) := by
    funext ch t
    exact hwdr _
  have kWR : Cert.KernelIdeal.Hand.entWR m g c = Cert.Spec.kerWeights Cert.Spec.consts fun ch t => ((WD ch t : ℝ) : EReal) := by
    funext r t
    refine (Cert.KernelIdeal.Hand.kentry_w m g c r t).trans ?_
    rw [kW]
  have kMS : Cert.KernelIdeal.Hand.entMS m g c = Cert.Spec.kerMask := by
    funext k l
    exact Cert.KernelIdeal.Hand.kentry_mask m g c k l
  have kWP : Cert.KernelIdeal.Hand.argWP m c = fun o ch => ((WP o ch : ℝ) : EReal) := by
    funext o ch
    exact hwpr _
  have kGA : Cert.KernelIdeal.Hand.argGA m c = fun o => ((GA o : ℝ) : EReal) := by
    funext o
    exact hgar _
  have kBE : Cert.KernelIdeal.Hand.argBE m c = fun o => ((BE o : ℝ) : EReal) := by
    funext o
    exact hber _
  -- index by index
  show (Cert.ReferenceIdeal.Hand.W4 (F := Ideal) m' g' c (Proc.devRef .tc Cert.ReferenceIdeal.main_v225) : Cert.ReferenceIdeal.S128x64x32x32.Idx → EReal)
    = (Cert.KernelIdeal.Gen.W5 (F := Ideal) m g c (Proc.devRef .tc Cert.KernelIdeal.main_v41) : Cert.KernelIdeal.S128x64x32x32.Idx → EReal)
  funext i
  obtain ⟨b, o, h, w, rfl⟩ : ∃ (b : Fin 128) (o : Fin 64) (h : Fin 32) (w : Fin 32), i = ix4 b o h w :=
    ⟨i 0, i 1, i 2, i 3, eq_ix4 i⟩
  refine (Cert.ReferenceIdeal.Hand.ref_value m' g' c b o h w).trans ?_
  refine Eq.trans ?_ (Cert.KernelIdeal.Hand.ker_value m g c b o h w).symm
  rw [eX, eWD, eKD, eMK, eWP, eGA, eBE, kX, kWR, kMS, kWP, kGA, kBE]
  exact Cert.Spec.spec_eq Cert.Spec.consts _ _ _ Cert.Consts.ofBits_theta Cert.Consts.ofBits_kappa Cert.Consts.ofBits_eps
    Cert.Consts.eps_pos Cert.Consts.ofBits_n Cert.Consts.ofBits_ninv X WD WP GA BE b o _

end Cert.Proof

end
-- ==== Proof.lean ====
/-
  The certificate of a ReLU, a depthwise dilated 3×3 central-difference convolution, a 1×1
  central-difference convolution and a training-mode batch normalisation over f32[128, 64, 32, 32].

  Both programs are two grids of kernel launches around host arithmetic.

  The kernel's first grid (8 points, 16 batch elements each) computes, per batch element b, channel c and
  flattened pixel l,
      cdc b c l = Σ over the nine taps (kh, kw) of  mask_{kh,kw} l · relu x b c (l + 64 (kh − 1) + 2 (kw − 1)) · w' c (3 kh + kw)
  with w' the depthwise weights whose centre tap carries −θ · Σ_t wd c t, the nine tap masks the products of a
  column mask and a row mask, and beside it the Gram matrix  g c c' = Σ_{b,l} cdc b c l · cdc b c' l  and the
  channel sums  v c = Σ_{b,l} cdc b c l,  each as 8 partial sums. From g and v the host derives the batch mean and
  variance of  y b o l = Σ_c (1 − θ) wp o c · cdc b c l  without ever forming y:
      mean o = (Σ_c wpf o c · v c) / n,     E[y²] o = (Σ_{c'} (Σ_c wpf o c · g c c') · wpf o c') / n,     n = 131072,
  and the second grid writes  Σ_c (scale o · wpf o c) · cdc b c l + shift o.

  The reference's first grid (128 points, one batch element each) forms the nine masked taps one by one, subtracts
  θ · (Σ_t wd c t) · relu x, forms y by 64 rank-one updates, and ACCUMULATES Σ_l y and Σ_l y² over the grid in two
  outputs that are reset at the first point and written back at the last; its second grid normalises,
      y · (rsqrt (s2 · 2⁻¹⁷ − (s1 · 2⁻¹⁷)² + ε) · γ) + (β − mean · scale).

  Over the extended reals with every input finite the two results agree: the nine-tap sum is the separable form
  (a rotation by two rows keeps the column, so the product of a rotated column mask and a row mask is the tap's
  mask); the centre-tap shift is distributivity; 2⁻¹⁷ is exactly 1/131072; Σ_{b,l} (Σ_c w_c a_c)² is the quadratic
  form of the Gram matrix; the variance of real numbers is non-negative, so var + ε is positive, rsqrt of it is a
  real number, and the scale moves across the 64-term sum by distributivity over finite reals.

  The kernel's frames are its generated several-region frame certificates, and its idealisation is its own text
  read over the extended reals: the ideal pass rewrote no operation.
-/
import proofs.«162342_g2000606144476369_pallasbulk_1044_23_alg».proof.Defs
import proofs.«162342_g2000606144476369_pallasbulk_1044_23_alg».proof.Proof.Gen.Kernel
import proofs.«162342_g2000606144476369_pallasbulk_1044_23_alg».proof.Proof.Gen.Kernel.Frame
import proofs.«162342_g2000606144476369_pallasbulk_1044_23_alg».proof.Proof.Gen.KernelIdeal
import proofs.«162342_g2000606144476369_pallasbulk_1044_23_alg».proof.Proof.Gen.KernelIdeal.Frame
import proofs.«162342_g2000606144476369_pallasbulk_1044_23_alg».proof.Proof.Gen.ReferenceIdeal
import proofs.«162342_g2000606144476369_pallasbulk_1044_23_alg».proof.Proof.Gen.ReferenceIdeal.Skeleton
import proofs.«162342_g2000606144476369_pallasbulk_1044_23_alg».proof.Proof.Gen.ReferenceIdeal.Launch
import proofs.«162342_g2000606144476369_pallasbulk_1044_23_alg».proof.Proof.Gen.ReferenceIdeal.Regions
import proofs.«162342_g2000606144476369_pallasbulk_1044_23_alg».proof.Proof.Gen.ReferenceIdeal.Points
import proofs.«162342_g2000606144476369_pallasbulk_1044_23_alg».proof.Proof.Gen.Pre_finite_inputs
import proofs.«162342_g2000606144476369_pallasbulk_1044_23_alg».proof.Proof.RefFrame
import proofs.«162342_g2000606144476369_pallasbulk_1044_23_alg».proof.Proof.KerRun
import proofs.«162342_g2000606144476369_pallasbulk_1044_23_alg».proof.Proof.ValueEq
import Idealize.ShloMosaic.Adequacy
import Idealize.ShloMosaic.Init

noncomputable section

namespace Cert.Proof

open Idealize.ShloMosaic Idealize.SL.Sem

/-- The word-level kernel terminates without a fault and leaves its five arguments as launched. -/
theorem frame_kernel : Cert.frame_Kernel := fun m ρ _ => Cert.Kernel.Gen.frame m ρ

/-- The same of the kernel read over the extended reals. -/
theorem frame_kernelIdeal : Cert.frame_KernelIdeal := fun m ρ _ => Cert.KernelIdeal.Gen.frame m ρ

/-- The ideal pass rewrote no operation of the kernel: nothing to restate. -/
theorem preserves : Cert.preserves_Kernel_KernelIdeal := trivial

/-- The reference's two grids terminate without a fault and leave the arguments as launched. -/
theorem frame_referenceIdeal : Cert.frame_ReferenceIdeal := fun m ρ _ => Cert.ReferenceIdeal.Hand.frame m ρ

/-- Both idealised programs end with the same array of extended reals: each program's run names its result, and the
    two names are equal by the value equation (`value_eq`: each side's index-level formula, the host stretches' arrays, finiteness,
    and the real-number identity between the two formulas). -/
theorem algebraic : Cert.algebraic_KernelIdeal_ReferenceIdeal := by
  intro m g m' g' hpre hagree
  refine ⟨fun c => Cert.KernelIdeal.Gen.W5 (F := Ideal) m g c (Proc.devRef .tc Cert.KernelIdeal.main_v41), Cert.KernelIdeal.Hand.run (F := Ideal) m g, ?_⟩
  refine (θ_run Cert.ReferenceIdeal.defs _ _).mono (fun _ h c => ⟨(h c).1.trans ?_, (h c).2⟩) (Cert.ReferenceIdeal.Hand.run (F := Ideal) m' g')
  exact value_eq m g m' g' hpre hagree c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
